-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v248) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S100000 : Shape := ⟨1, ![100000]⟩
abbrev S100x128 : Shape := ⟨2, ![100, 128]⟩
abbrev S128 : Shape := ⟨1, ![128]⟩
abbrev S3x128x128 : Shape := ⟨3, ![3, 128, 128]⟩
abbrev S384x128 : Shape := ⟨2, ![384, 128]⟩
abbrev S384 : Shape := ⟨1, ![384]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part8 {F : FTy → Type} [FloatOps F] (main_arg30 : FVec F S64x2 .f32) (main_arg31 : FVec F S2 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64x2 .f32 := Host.absf main_arg30
  let main_cst_54 : FVec F S_ .f32 := constant S_ .f32 0x7F800000#32
  let main_v140 : FVec F S64x2 .f32 := broadcastInDim S64x2 ![] bcast_S_S64x2 main_cst_54
  let main_v141 : IVec S64x2 1 := cmpf .olt main_v139 main_v140
  let main_c_55 : IVec S_ 1 := constantI S_ 1 1#1
  let main_v142 : IVec S_ 1 := (fun x v => Host.reduce IntOp.andi x v reducesTo_S64x2_S_d0_1 h_S_) main_v141 main_c_55
  let main_v143 : IVec S_ 1 := andi main_v138 main_v142
  let main_v144 : FVec F S2 .f32 := Host.absf main_arg31
  let main_cst_56 : FVec F S_ .f32 := constant S_ .f32 0x7F800000#32
  let main_v145 : FVec F S2 .f32 := broadcastInDim S2 ![] bcast_S_S2 main_cst_56
  let main_v146 : IVec S2 1 := cmpf .olt main_v144 main_v145
  let main_c_57 : IVec S_ 1 := constantI S_ 1 1#1
  let main_v147 : IVec S_ 1 := (fun x v => Host.reduce IntOp.andi x v reducesTo_S2_S_d0 h_S_) main_v146 main_c_57
  let main_v148 : IVec S_ 1 := andi main_v143 main_v147
  main_v148

def fn_part7 {F : FTy → Type} [FloatOps F] (main_arg27 : FVec F S64 .f32) (main_arg28 : FVec F S64 .f32) (main_arg29 : FVec F S64 .f32) (main_arg30 : FVec F S64x2 .f32) (main_arg31 : FVec F S2 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64 .f32 := Host.absf main_arg27
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64 .f32 := Host.absf main_arg28
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_v134 : FVec F S64 .f32 := Host.absf main_arg29
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg30 main_arg31 main_v133 main_v136

def fn_part6 {F : FTy → Type} [FloatOps F] (main_arg23 : FVec F S128 .f32) (main_arg24 : FVec F S128x64 .f32) (main_arg25 : FVec F S64 .f32) (main_arg26 : FVec F S64 .f32) (main_arg27 : FVec F S64 .f32) (main_arg28 : FVec F S64 .f32) (main_arg29 : FVec F S64 .f32) (main_arg30 : FVec F S64x2 .f32) (main_arg31 : FVec F S2 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x64 .f32 := Host.absf main_arg24
  let main_cst_42 : FVec F S_ .f32 := constant S_ .f32 0x7F800000#32
  let main_v110 : FVec F S128x64 .f32 := broadcastInDim S128x64 ![] bcast_S_S128x64 main_cst_42
  let main_v111 : IVec S128x64 1 := cmpf .olt main_v109 main_v110
  let main_c_43 : IVec S_ 1 := constantI S_ 1 1#1
  let main_v112 : IVec S_ 1 := (fun x v => Host.reduce IntOp.andi x v reducesTo_S128x64_S_d0_1 h_S_) main_v111 main_c_43
  let main_v113 : IVec S_ 1 := andi main_v108 main_v112
  let main_v114 : FVec F S64 .f32 := Host.absf main_arg25
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64 .f32 := Host.absf main_arg26
  fn_part7 (F := F) main_arg27 main_arg28 main_arg29 main_arg30 main_arg31 main_v118 main_v119

def fn_part5 {F : FTy → Type} [FloatOps F] (main_arg20 : FVec F S128 .f32) (main_arg21 : FVec F S128 .f32) (main_arg22 : FVec F S128 .f32) (main_arg23 : FVec F S128 .f32) (main_arg24 : FVec F S128x64 .f32) (main_arg25 : FVec F S64 .f32) (main_arg26 : FVec F S64 .f32) (main_arg27 : FVec F S64 .f32) (main_arg28 : FVec F S64 .f32) (main_arg29 : FVec F S64 .f32) (main_arg30 : FVec F S64x2 .f32) (main_arg31 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_arg27 main_arg28 main_arg29 main_arg30 main_arg31 main_v98 main_v101 main_c_39

def fn_part4 {F : FTy → Type} [FloatOps F] (main_arg16 : FVec F S128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_arg24 : FVec F S128x64 .f32) (main_arg25 : FVec F S64 .f32) (main_arg26 : FVec F S64 .f32) (main_arg27 : FVec F S64 .f32) (main_arg28 : FVec F S64 .f32) (main_arg29 : FVec F S64 .f32) (main_arg30 : FVec F S64x2 .f32) (main_arg31 : FVec F S2 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_arg29 main_arg30 main_arg31 main_v83 main_v84 main_cst_32

def fn_part3 {F : FTy → Type} [FloatOps F] (main_arg13 : FVec F S384 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_arg24 : FVec F S128x64 .f32) (main_arg25 : FVec F S64 .f32) (main_arg26 : FVec F S64 .f32) (main_arg27 : FVec F S64 .f32) (main_arg28 : FVec F S64 .f32) (main_arg29 : FVec F S64 .f32) (main_arg30 : FVec F S64x2 .f32) (main_arg31 : FVec F S2 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S384 .f32 := Host.absf main_arg13
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_arg27 main_arg28 main_arg29 main_arg30 main_arg31 main_v63 main_v67

def fn_part2 {F : FTy → Type} [FloatOps F] (main_arg9 : FVec F S3x128x128 .f32) (main_arg10 : FVec F S384x128 .f32) (main_arg11 : FVec F S384x128 .f32) (main_arg12 : FVec F S384 .f32) (main_arg13 : FVec F S384 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_arg24 : FVec F S128x64 .f32) (main_arg25 : FVec F S64 .f32) (main_arg26 : FVec F S64 .f32) (main_arg27 : FVec F S64 .f32) (main_arg28 : FVec F S64 .f32) (main_arg29 : FVec F S64 .f32) (main_arg30 : FVec F S64x2 .f32) (main_arg31 : FVec F S2 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S384x128 .f32 := Host.absf main_arg10
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384x128 .f32 := Host.absf main_arg11
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S384 .f32 := Host.absf main_arg12
  let main_cst_18 : FVec F S_ .f32 := constant S_ .f32 0x7F800000#32
  let main_v50 : FVec F S384 .f32 := broadcastInDim S384 ![] bcast_S_S384 main_cst_18
  fn_part3 (F := F) main_arg13 main_arg14 main_arg15 main_arg16 main_arg17 main_arg18 main_arg19 main_arg20 main_arg21 main_arg22 main_arg23 main_arg24 main_arg25 main_arg26 main_arg27 main_arg28 main_arg29 main_arg30 main_arg31 main_v48 main_v49 main_v50

def fn_part1 {F : FTy → Type} [FloatOps F] (main_arg6 : FVec F S128 .f32) (main_arg7 : FVec F S128 .f32) (main_arg8 : FVec F S128 .f32) (main_arg9 : FVec F S3x128x128 .f32) (main_arg10 : FVec F S384x128 .f32) (main_arg11 : FVec F S384x128 .f32) (main_arg12 : FVec F S384 .f32) (main_arg13 : FVec F S384 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_arg24 : FVec F S128x64 .f32) (main_arg25 : FVec F S64 .f32) (main_arg26 : FVec F S64 .f32) (main_arg27 : FVec F S64 .f32) (main_arg28 : FVec F S64 .f32) (main_arg29 : FVec F S64 .f32) (main_arg30 : FVec F S64x2 .f32) (main_arg31 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : FVec F S100000x100 .f32) (main_arg1 : IVec S2x1600000 32) (main_arg2 : IVec S100000 32) (main_arg3 : FVec F S100x128 .f32) (main_arg4 : FVec F S128 .f32) (main_arg5 : FVec F S128 .f32) (main_arg6 : FVec F S128 .f32) (main_arg7 : FVec F S128 .f32) (main_arg8 : FVec F S128 .f32) (main_arg9 : FVec F S3x128x128 .f32) (main_arg10 : FVec F S384x128 .f32) (main_arg11 : FVec F S384x128 .f32) (main_arg12 : FVec F S384 .f32) (main_arg13 : FVec F S384 .f32) (main_arg14 : FVec F S128 .f32) (main_arg15 : FVec F S128 .f32) (main_arg16 : FVec F S128 .f32) (main_arg17 : FVec F S128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_arg24 : FVec F S128x64 .f32) (main_arg25 : FVec F S64 .f32) (main_arg26 : FVec F S64 .f32) (main_arg27 : FVec F S64 .f32) (main_arg28 : FVec F S64 .f32) (main_arg29 : FVec F S64 .f32) (main_arg30 : FVec F S64x2 .f32) (main_arg31 : FVec F S2 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x128 .f32 := Host.absf main_arg3
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S100000x100 : Shape := ⟨2, ![100000, 100]⟩
abbrev S2x1600000 : Shape := ⟨2, ![2, 1600000]⟩
abbrev S100000 : Shape := ⟨1, ![100000]⟩
abbrev S100x128 : Shape := ⟨2, ![100, 128]⟩
abbrev S128 : Shape := ⟨1, ![128]⟩
abbrev S3x128x128 : Shape := ⟨3, ![3, 128, 128]⟩
abbrev S384x128 : Shape := ⟨2, ![384, 128]⟩
abbrev S384 : Shape := ⟨1, ![384]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x128 : Shape := ⟨2, ![1, 128]⟩
abbrev S100000x128 : Shape := ⟨2, ![100000, 128]⟩
abbrev S5000x100 : Shape := ⟨2, ![5000, 100]⟩
abbrev S5000x128 : Shape := ⟨2, ![5000, 128]⟩
abbrev S1x1600000 : Shape := ⟨2, ![1, 1600000]⟩
abbrev S1600000 : Shape := ⟨1, ![1600000]⟩
abbrev S128x384 : Shape := ⟨2, ![128, 384]⟩
abbrev S1x384 : Shape := ⟨2, ![1, 384]⟩
abbrev S1x128x128 : Shape := ⟨3, ![1, 128, 128]⟩
abbrev S_ : Shape := ⟨0, ![]⟩
abbrev S1600000x1 : Shape := ⟨2, ![1600000, 1]⟩
abbrev S1600000x128 : Shape := ⟨2, ![1600000, 128]⟩
abbrev S4000x128 : Shape := ⟨2, ![4000, 128]⟩
abbrev S4000x384 : Shape := ⟨2, ![4000, 384]⟩
abbrev S1024 : Shape := ⟨1, ![1024]⟩
abbrev S100000x1 : Shape := ⟨2, ![100000, 1]⟩
abbrev S1024x128 : Shape := ⟨2, ![1024, 128]⟩
abbrev S1024x1 : Shape := ⟨2, ![1024, 1]⟩
abbrev S1x64 : Shape := ⟨2, ![1, 64]⟩
abbrev S1x2 : Shape := ⟨2, ![1, 2]⟩
abbrev S1024x2 : Shape := ⟨2, ![1024, 2]⟩
abbrev S1024x64 : Shape := ⟨2, ![1024, 64]⟩

abbrev nBuf : Space → Nat
  | .hbm => 130
  | .vmem => 79
  | .smem => 0
  | _ => 0

abbrev hbmTy0_0 (i : Nat) : BufTy := match i % 128 with
  | 0 => ⟨S100000x100, .f32⟩
  | 1 => ⟨S2x1600000, .i32⟩
  | 2 => ⟨S100000, .i32⟩
  | 3 => ⟨S100x128, .f32⟩
  | 4 => ⟨S128, .f32⟩
  | 5 => ⟨S128, .f32⟩
  | 6 => ⟨S128, .f32⟩
  | 7 => ⟨S128, .f32⟩
  | 8 => ⟨S128, .f32⟩
  | 9 => ⟨S3x128x128, .f32⟩
  | 10 => ⟨S384x128, .f32⟩
  | 11 => ⟨S384x128, .f32⟩
  | 12 => ⟨S384, .f32⟩
  | 13 => ⟨S384, .f32⟩
  | 14 => ⟨S128, .f32⟩
  | 15 => ⟨S128, .f32⟩
  | 16 => ⟨S128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128, .f32⟩
  | 24 => ⟨S128x64, .f32⟩
  | 25 => ⟨S64, .f32⟩
  | 26 => ⟨S64, .f32⟩
  | 27 => ⟨S64, .f32⟩
  | 28 => ⟨S64, .f32⟩
  | 29 => ⟨S64, .f32⟩
  | 30 => ⟨S64x2, .f32⟩
  | 31 => ⟨S2, .f32⟩
  | 32 => ⟨S1x128, .f32⟩
  | 33 => ⟨S1x128, .f32⟩
  | 34 => ⟨S1x128, .f32⟩
  | 35 => ⟨S1x128, .f32⟩
  | 36 => ⟨S1x128, .f32⟩
  | 37 => ⟨S100000x128, .f32⟩
  | 38 => ⟨S1x1600000, .i32⟩
  | 39 => ⟨S1600000, .i32⟩
  | 40 => ⟨S1x1600000, .i32⟩
  | 41 => ⟨S1600000, .i32⟩
  | 42 => ⟨S128x384, .f32⟩
  | 43 => ⟨S128x384, .f32⟩
  | 44 => ⟨S1x384, .f32⟩
  | 45 => ⟨S1x384, .f32⟩
  | 46 => ⟨S1x128x128, .f32⟩
  | 47 => ⟨S128x128, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000x128, .f32⟩
  | 63 => ⟨S1x128x128, .f32⟩
  | 64 => ⟨S128x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S100000x128, .f32⟩
  | 80 => ⟨S1x128x128, .f32⟩
  | 81 => ⟨S128x128, .f32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S100000x128, .f32⟩
  | 97 => ⟨S1x128, .f32⟩
  | 98 => ⟨S1x128, .f32⟩
  | 99 => ⟨S1x128, .f32⟩
  | 100 => ⟨S1x128, .f32⟩
  | 101 => ⟨S100000x128, .f32⟩
  | 102 => ⟨S_, .f32⟩
  | 103 => ⟨S100000, .f32⟩
  | 104 => ⟨S_, .f32⟩
  | 105 => ⟨S1024, .f32⟩
  | 106 => ⟨S100000x1, .i32⟩
  | 107 => ⟨S1024, .f32⟩
  | 108 => ⟨S_, .f32⟩
  | 109 => ⟨S1024x128, .f32⟩
  | 110 => ⟨S100000x1, .i32⟩
  | 111 => ⟨S1024x128, .f32⟩
  | 112 => ⟨S_, .f32⟩
  | 113 => ⟨S1024, .f32⟩
  | 114 => ⟨S1024, .f32⟩
  | 115 => ⟨S1024x1, .f32⟩
  | 116 => ⟨S1024x128, .f32⟩
  | 117 => ⟨S1024x128, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S1x64, .f32⟩
  | 124 => ⟨S1x64, .f32⟩
  | 125 => ⟨S1x64, .f32⟩
  | 126 => ⟨S1x64, .f32⟩
  | 127 => ⟨S1x64, .f32⟩
  | _ => ⟨S100000x100, .f32⟩

abbrev hbmTy0_1 (i : Nat) : BufTy := match i % 128 with
  | 0 => ⟨S1x2, .f32⟩
  | 1 => ⟨S1024x2, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | .local _ .vmem, ⟨0, _⟩ => ⟨S5000x100, .f32⟩
  | .local _ .vmem, ⟨1, _⟩ => ⟨S5000x100, .f32⟩
  | .local _ .vmem, ⟨2, _⟩ => ⟨S100x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S128x384, .f32⟩
  | .local _ .vmem, ⟨20, _⟩ => ⟨S128x384, .f32⟩
  | .local _ .vmem, ⟨21, _⟩ => ⟨S1x384, .f32⟩
  | .local _ .vmem, ⟨22, _⟩ => ⟨S1x384, .f32⟩
  | .local _ .vmem, ⟨23, _⟩ => ⟨S4000x128, .f32⟩
  | .local _ .vmem, ⟨24, _⟩ => ⟨S4000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | .local _ .vmem, ⟨30, _⟩ => ⟨S4000x128, .f32⟩
  | .local _ .vmem, ⟨31, _⟩ => ⟨S4000x128, .f32⟩
  | .local _ .vmem, ⟨32, _⟩ => ⟨S4000x128, .f32⟩
  | .local _ .vmem, ⟨33, _⟩ => ⟨S4000x128, .f32⟩
  | .local _ .vmem, ⟨34, _⟩ => ⟨S128x384, .f32⟩
  | .local _ .vmem, ⟨35, _⟩ => ⟨S128x384, .f32⟩
  | .local _ .vmem, ⟨36, _⟩ => ⟨S1x384, .f32⟩
  | .local _ .vmem, ⟨37, _⟩ => ⟨S1x384, .f32⟩
  | .local _ .vmem, ⟨38, _⟩ => ⟨S4000x128, .f32⟩
  | .local _ .vmem, ⟨39, _⟩ => ⟨S4000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S5000x128, .f32⟩
  | .local _ .vmem, ⟨44, _⟩ => ⟨S5000x128, .f32⟩
  | .local _ .vmem, ⟨45, _⟩ => ⟨S4000x128, .f32⟩
  | .local _ .vmem, ⟨46, _⟩ => ⟨S4000x128, .f32⟩
  | .local _ .vmem, ⟨47, _⟩ => ⟨S4000x128, .f32⟩
  | .local _ .vmem, ⟨48, _⟩ => ⟨S4000x128, .f32⟩
  | .local _ .vmem, ⟨49, _⟩ => ⟨S128x384, .f32⟩
  | .local _ .vmem, ⟨50, _⟩ => ⟨S128x384, .f32⟩
  | .local _ .vmem, ⟨51, _⟩ => ⟨S1x384, .f32⟩
  | .local _ .vmem, ⟨52, _⟩ => ⟨S1x384, .f32⟩
  | .local _ .vmem, ⟨53, _⟩ => ⟨S4000x128, .f32⟩
  | .local _ .vmem, ⟨54, _⟩ => ⟨S4000x128, .f32⟩
  | .local _ .vmem, ⟨55, _⟩ => ⟨S5000x128, .f32⟩
  | .local _ .vmem, ⟨56, _⟩ => ⟨S5000x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S1024x128, .f32⟩
  | .local _ .vmem, ⟨64, _⟩ => ⟨S128x128, .f32⟩
  | .local _ .vmem, ⟨65, _⟩ => ⟨S1x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S128x64, .f32⟩
  | .local _ .vmem, ⟨71, _⟩ => ⟨S1x64, .f32⟩
  | .local _ .vmem, ⟨72, _⟩ => ⟨S1x64, .f32⟩
  | .local _ .vmem, ⟨73, _⟩ => ⟨S1x64, .f32⟩
  | .local _ .vmem, ⟨74, _⟩ => ⟨S1x64, .f32⟩
  | .local _ .vmem, ⟨75, _⟩ => ⟨S1x64, .f32⟩
  | .local _ .vmem, ⟨76, _⟩ => ⟨S64x2, .f32⟩
  | .local _ .vmem, ⟨77, _⟩ => ⟨S1x2, .f32⟩
  | .local _ .vmem, ⟨78, _⟩ => ⟨S1024x2, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c : Ref sig .tc := ⟨.hbm, 49, rfl⟩
abbrev main_v17 : Ref sig .tc := ⟨.hbm, 50, rfl⟩
abbrev main_v18 : Ref sig .tc := ⟨.hbm, 51, rfl⟩
abbrev main_c_0 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_c_1 : Ref sig .tc := ⟨.hbm, 66, rfl⟩
abbrev main_v31 : Ref sig .tc := ⟨.hbm, 67, rfl⟩
abbrev main_v32 : Ref sig .tc := ⟨.hbm, 68, rfl⟩
abbrev main_c_2 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_3 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_4 : Ref sig .tc := ⟨.hbm, 83, rfl⟩
abbrev main_v45 : Ref sig .tc := ⟨.hbm, 84, rfl⟩
abbrev main_v46 : Ref sig .tc := ⟨.hbm, 85, rfl⟩
abbrev main_c_5 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_6 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_7 : Ref sig .tc := ⟨.hbm, 102, rfl⟩
abbrev main_v61 : Ref sig .tc := ⟨.hbm, 103, rfl⟩
abbrev main_cst_8 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_9 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_10 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg2_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg6_0 : Ref sig .tc := ⟨.vmem, 53, rfl⟩
abbrev cc6_stg6_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg5_0 : Ref sig .tc := ⟨.vmem, 61, rfl⟩
abbrev cc7_stg5_1 : Ref sig .tc := ⟨.vmem, 62, rfl⟩
abbrev cc8_stg0_0 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg3_0 : Ref sig .tc := ⟨.vmem, 66, rfl⟩
abbrev cc8_stg4_0 : Ref sig .tc := ⟨.vmem, 67, rfl⟩
abbrev cc8_stg5_0 : Ref sig .tc := ⟨.vmem, 68, rfl⟩
abbrev cc8_stg6_0 : Ref sig .tc := ⟨.vmem, 69, rfl⟩
abbrev cc8_stg7_0 : Ref sig .tc := ⟨.vmem, 70, rfl⟩
abbrev cc8_stg8_0 : Ref sig .tc := ⟨.vmem, 71, rfl⟩
abbrev cc8_stg9_0 : Ref sig .tc := ⟨.vmem, 72, rfl⟩
abbrev cc8_stg10_0 : Ref sig .tc := ⟨.vmem, 73, rfl⟩
abbrev cc8_stg11_0 : Ref sig .tc := ⟨.vmem, 74, rfl⟩
abbrev cc8_stg12_0 : Ref sig .tc := ⟨.vmem, 75, rfl⟩
abbrev cc8_stg13_0 : Ref sig .tc := ⟨.vmem, 76, rfl⟩
abbrev cc8_stg14_0 : Ref sig .tc := ⟨.vmem, 77, rfl⟩
abbrev cc8_stg15_0 : Ref sig .tc := ⟨.vmem, 78, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem2_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50
abbrev cc6_sem4_0 : DmaSem sig := 51
abbrev cc6_sem5_0 : DmaSem sig := 52
abbrev cc6_sem6_0 : DmaSem sig := 53
abbrev cc6_sem6_1 : DmaSem sig := 54
abbrev cc7_sem0_0 : DmaSem sig := 55
abbrev cc7_sem0_1 : DmaSem sig := 56
abbrev cc7_sem1_0 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem5_1 : DmaSem sig := 62
abbrev cc8_sem0_0 : DmaSem sig := 63
abbrev cc8_sem1_0 : DmaSem sig := 64
abbrev cc8_sem2_0 : DmaSem sig := 65
abbrev cc8_sem3_0 : DmaSem sig := 66
abbrev cc8_sem4_0 : DmaSem sig := 67
abbrev cc8_sem5_0 : DmaSem sig := 68
abbrev cc8_sem6_0 : DmaSem sig := 69
abbrev cc8_sem7_0 : DmaSem sig := 70
abbrev cc8_sem8_0 : DmaSem sig := 71
abbrev cc8_sem9_0 : DmaSem sig := 72
abbrev cc8_sem10_0 : DmaSem sig := 73
abbrev cc8_sem11_0 : DmaSem sig := 74
abbrev cc8_sem12_0 : DmaSem sig := 75
abbrev cc8_sem13_0 : DmaSem sig := 76
abbrev cc8_sem14_0 : DmaSem sig := 77
abbrev cc8_sem15_0 : DmaSem sig := 78

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x384 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x384 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x384 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x384 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x384 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x384 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x384 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x384 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x384 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S4000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_11 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_12 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_13 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_14 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_15 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S1024x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x64 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x64 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x64 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 1 → Memref sig .tc .vmem S1x64 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))
abbrev reads8_10 : Fin grid8.rank → Bool := ![false]

abbrev stage8_11 : Fin 1 → Memref sig .tc .vmem S1x64 .f32 := fun | 0 => Memref.whole cc8_stg11_0 | ⟨_ + 1, h⟩ => absurd h (Nat.not_lt.2 (Nat.le_add_left _ _))
abbrev sem8_11 : Fin 1 → DmaSem sig := fun | 0 => cc8_sem11_0 | ⟨_ + 1, h⟩ => absurd h (Nat.not_lt.2 (Nat.le_add_left _ _))
abbrev reads8_11 : Fin grid8.rank → Bool := ![false]

abbrev stage8_12 : Fin 1 → Memref sig .tc .vmem S1x64 .f32 := fun | 0 => Memref.whole cc8_stg12_0 | ⟨_ + 1, h⟩ => absurd h (Nat.not_lt.2 (Nat.le_add_left _ _))
abbrev sem8_12 : Fin 1 → DmaSem sig := fun | 0 => cc8_sem12_0 | ⟨_ + 1, h⟩ => absurd h (Nat.not_lt.2 (Nat.le_add_left _ _))
abbrev reads8_12 : Fin grid8.rank → Bool := ![false]

abbrev stage8_13 : Fin 1 → Memref sig .tc .vmem S64x2 .f32 := fun | 0 => Memref.whole cc8_stg13_0 | ⟨_ + 1, h⟩ => absurd h (Nat.not_lt.2 (Nat.le_add_left _ _))
abbrev sem8_13 : Fin 1 → DmaSem sig := fun | 0 => cc8_sem13_0 | ⟨_ + 1, h⟩ => absurd h (Nat.not_lt.2 (Nat.le_add_left _ _))
abbrev reads8_13 : Fin grid8.rank → Bool := ![false]

abbrev stage8_14 : Fin 1 → Memref sig .tc .vmem S1x2 .f32 := fun | 0 => Memref.whole cc8_stg14_0 | ⟨_ + 1, h⟩ => absurd h (Nat.not_lt.2 (Nat.le_add_left _ _))
abbrev sem8_14 : Fin 1 → DmaSem sig := fun | 0 => cc8_sem14_0 | ⟨_ + 1, h⟩ => absurd h (Nat.not_lt.2 (Nat.le_add_left _ _))
abbrev reads8_14 : Fin grid8.rank → Bool := ![false]

abbrev stage8_15 : Fin 1 → Memref sig .tc .vmem S1024x2 .f32 := fun | 0 => Memref.whole cc8_stg15_0 | ⟨_ + 1, h⟩ => absurd h (Nat.not_lt.2 (Nat.le_add_left _ _))
abbrev sem8_15 : Fin 1 → DmaSem sig := fun | 0 => cc8_sem15_0 | ⟨_ + 1, h⟩ => absurd h (Nat.not_lt.2 (Nat.le_add_left _ _))
abbrev reads8_15 : Fin grid8.rank → Bool := ![false]

class Facts₀ : Prop where
  shapeCasts_S128_S1x128 : S128.ShapeCasts S1x128
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x128_S100x128_0_0 : ∀ a, (![0, 0] : Fin 2 → Nat) a + S100x128.size a ≤ S100x128.size a
  h_S100x128 : 0 < S100x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S384x128_S128x384_1_0 : S384x128.Transposes [1, 0] S128x384
  shapeCasts_S384_S1x384 : S384.ShapeCasts S1x384
  slices_S3x128x128_S1x128x128_0_0_0 : S3x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S4000x384 : S1x384.Broadcasts S4000x384
  slices_S4000x384_o0_0_S4000x128 : S4000x384.Slices ![0, 0] S4000x128
  slices_S4000x384_o0_128_S4000x128 : S4000x384.Slices ![0, 128] S4000x128
  slices_S4000x384_o0_256_S4000x128 : S4000x384.Slices ![0, 256] S4000x128
  slices_S3x128x128_S1x128x128_1_0_0 : S3x128x128.Slices ![1, 0, 0] S1x128x128
  slices_S3x128x128_S1x128x128_2_0_0 : S3x128x128.Slices ![2, 0, 0] S1x128x128
  bcast_S_S100000 : S_.BroadcastsInDim S100000 (![] : Fin 0 → Fin S100000.rank)
  bcast_S_S1024 : S_.BroadcastsInDim S1024 (![] : Fin 0 → Fin S1024.rank)
  bcast_S100000_S100000x1_0 : S100000.BroadcastsInDim S100000x1 (![0] : Fin 1 → Fin S100000x1.rank)
  bcast_S_S1024x128 : S_.BroadcastsInDim S1024x128 (![] : Fin 0 → Fin S1024x128.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  shapeCasts_S64_S1x64 : S64.ShapeCasts S1x64
  shapeCasts_S2_S1x2 : S2.ShapeCasts S1x2
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  dot_S5000x100_S100x128_S5000x128_1_0_0_1_n_n_wf : DotDims.WF S5000x100 S100x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x384_S4000x384_1_0_0_1_n_n_wf : DotDims.WF S4000x128 S128x384 S4000x384 [1] [0] [0] [1] [] []
  scatter_S1024_S100000x1_S100000_n_0_0_1_wf : ScatterDims.WF S1024 S100000x1 S100000 [] [0] [0] 1
  scatter_S1024x128_S100000x1_S100000x128_1_0_0_1_wf : ScatterDims.WF S1024x128 S100000x1 S100000x128 [1] [0] [0] 1
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  dot_S1024x64_S64x2_S1024x2_1_0_0_1_n_n_wf : DotDims.WF S1024x64 S64x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .f32 = 32 ∨ (Rect.block (s := S100x128) S100x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x384.size a ≤ S128x384.size a
  hwx2_2 : ∀ i : grid2.Coords, EltTy.bits .f32 = 32 ∨ (Rect.block (s := S128x384) S128x384.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x384.size a ≤ S128x384.size a
  hwx2_3 : ∀ i : grid2.Coords, EltTy.bits .f32 = 32 ∨ (Rect.block (s := S128x384) S128x384.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x384.size a ≤ S1x384.size a
  hwx2_4 : ∀ i : grid2.Coords, EltTy.bits .f32 = 32 ∨ (Rect.block (s := S1x384) S1x384.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x384.size a ≤ S1x384.size a
  hwx2_5 : ∀ i : grid2.Coords, EltTy.bits .f32 = 32 ∨ (Rect.block (s := S1x384) S1x384.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x384.size a ≤ S128x384.size a
  hwx4_2 : ∀ i : grid4.Coords, EltTy.bits .f32 = 32 ∨ (Rect.block (s := S128x384) S128x384.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x384.size a ≤ S128x384.size a
  hwx4_3 : ∀ i : grid4.Coords, EltTy.bits .f32 = 32 ∨ (Rect.block (s := S128x384) S128x384.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x384.size a ≤ S1x384.size a
  hwx4_4 : ∀ i : grid4.Coords, EltTy.bits .f32 = 32 ∨ (Rect.block (s := S1x384) S1x384.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x384.size a ≤ S1x384.size a
  hwx4_5 : ∀ i : grid4.Coords, EltTy.bits .f32 = 32 ∨ (Rect.block (s := S1x384) S1x384.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x128.size a ≤ S100000x128.size a
  hwx4_6 : ∀ i : grid4.Coords, EltTy.bits .f32 = 32 ∨ (Rect.block (s := S100000x128) S4000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S100000x128.size a
  hwx6_0 : ∀ i : grid6.Coords, EltTy.bits .f32 = 32 ∨ (Rect.block (s := S100000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S100000x128.size a
  hwx6_1 : ∀ i : grid6.Coords, EltTy.bits .f32 = 32 ∨ (Rect.block (s := S100000x128) S4000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x384.size a ≤ S128x384.size a
  hwx6_2 : ∀ i : grid6.Coords, EltTy.bits .f32 = 32 ∨ (Rect.block (s := S128x384) S128x384.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x384.size a ≤ S128x384.size a
  hwx6_3 : ∀ i : grid6.Coords, EltTy.bits .f32 = 32 ∨ (Rect.block (s := S128x384) S128x384.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x384.size a ≤ S1x384.size a
  hwx6_4 : ∀ i : grid6.Coords, EltTy.bits .f32 = 32 ∨ (Rect.block (s := S1x384) S1x384.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x384.size a ≤ S1x384.size a
  hwx6_5 : ∀ i : grid6.Coords, EltTy.bits .f32 = 32 ∨ (Rect.block (s := S1x384) S1x384.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4000x128.size a ≤ S100000x128.size a
  hwx6_6 : ∀ i : grid6.Coords, EltTy.bits .f32 = 32 ∨ (Rect.block (s := S100000x128) S4000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x128.size a ≤ S100000x128.size a
  hwx7_5 : ∀ i : grid7.Coords, EltTy.bits .f32 = 32 ∨ (Rect.block (s := S100000x128) S5000x128.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S1024x128.size a ≤ S1024x128.size a
  hwx8_0 : ∀ i : grid8.Coords, EltTy.bits .f32 = 32 ∨ (Rect.block (s := S1024x128) S1024x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S128x64.size a ≤ S128x64.size a
  hwx8_7 : ∀ i : grid8.Coords, EltTy.bits .f32 = 32 ∨ (Rect.block (s := S128x64) S128x64.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x64.size a ≤ S1x64.size a
  hwx8_8 : ∀ i : grid8.Coords, EltTy.bits .f32 = 32 ∨ (Rect.block (s := S1x64) S1x64.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x64.size a ≤ S1x64.size a
  hwx8_9 : ∀ i : grid8.Coords, EltTy.bits .f32 = 32 ∨ (Rect.block (s := S1x64) S1x64.size (cc8_transform_9 i) (hinb8_9 i)).WholeWords (EltTy.packing .f32)
  hstage8_10 : ∀ j, (stage8_10 j).IsWhole
  nbuf8_10 : grid8.bufCount reads8_10 true = 1
  hreads8_10 : ∀ i i' : grid8.Coords, (∀ a, reads8_10 a = true → i a = i' a) → cc8_transform_10 i = cc8_transform_10 i'
  hinb8_10 : ∀ (i : grid8.Coords) a, (cc8_transform_10 i a + 1) * S1x64.size a ≤ S1x64.size a
  hwx8_10 : ∀ i : grid8.Coords, EltTy.bits .f32 = 32 ∨ (Rect.block (s := S1x64) S1x64.size (cc8_transform_10 i) (hinb8_10 i)).WholeWords (EltTy.packing .f32)
  hstage8_11 : ∀ j, (stage8_11 j).IsWhole
  nbuf8_11 : grid8.bufCount reads8_11 true = 1
  hreads8_11 : ∀ i i' : grid8.Coords, (∀ a, reads8_11 a = true → i a = i' a) → cc8_transform_11 i = cc8_transform_11 i'
  hinb8_11 : ∀ (i : grid8.Coords) a, (cc8_transform_11 i a + 1) * S1x64.size a ≤ S1x64.size a
  hwx8_11 : ∀ i : grid8.Coords, EltTy.bits .f32 = 32 ∨ (Rect.block (s := S1x64) S1x64.size (cc8_transform_11 i) (hinb8_11 i)).WholeWords (EltTy.packing .f32)
  hstage8_12 : ∀ j, (stage8_12 j).IsWhole
  nbuf8_12 : grid8.bufCount reads8_12 true = 1
  hreads8_12 : ∀ i i' : grid8.Coords, (∀ a, reads8_12 a = true → i a = i' a) → cc8_transform_12 i = cc8_transform_12 i'
  hinb8_12 : ∀ (i : grid8.Coords) a, (cc8_transform_12 i a + 1) * S1x64.size a ≤ S1x64.size a
  hwx8_12 : ∀ i : grid8.Coords, EltTy.bits .f32 = 32 ∨ (Rect.block (s := S1x64) S1x64.size (cc8_transform_12 i) (hinb8_12 i)).WholeWords (EltTy.packing .f32)
  hstage8_13 : ∀ j, (stage8_13 j).IsWhole
  nbuf8_13 : grid8.bufCount reads8_13 true = 1
  hreads8_13 : ∀ i i' : grid8.Coords, (∀ a, reads8_13 a = true → i a = i' a) → cc8_transform_13 i = cc8_transform_13 i'
  hinb8_13 : ∀ (i : grid8.Coords) a, (cc8_transform_13 i a + 1) * S64x2.size a ≤ S64x2.size a
  hwx8_13 : ∀ i : grid8.Coords, EltTy.bits .f32 = 32 ∨ (Rect.block (s := S64x2) S64x2.size (cc8_transform_13 i) (hinb8_13 i)).WholeWords (EltTy.packing .f32)
  hstage8_14 : ∀ j, (stage8_14 j).IsWhole
  nbuf8_14 : grid8.bufCount reads8_14 true = 1
  hreads8_14 : ∀ i i' : grid8.Coords, (∀ a, reads8_14 a = true → i a = i' a) → cc8_transform_14 i = cc8_transform_14 i'
  hinb8_14 : ∀ (i : grid8.Coords) a, (cc8_transform_14 i a + 1) * S1x2.size a ≤ S1x2.size a
  hwx8_14 : ∀ i : grid8.Coords, EltTy.bits .f32 = 32 ∨ (Rect.block (s := S1x2) S1x2.size (cc8_transform_14 i) (hinb8_14 i)).WholeWords (EltTy.packing .f32)
  hstage8_15 : ∀ j, (stage8_15 j).IsWhole
  nbuf8_15 : grid8.bufCount reads8_15 true = 1
  hreads8_15 : ∀ i i' : grid8.Coords, (∀ a, reads8_15 a = true → i a = i' a) → cc8_transform_15 i = cc8_transform_15 i'
  hinb8_15 : ∀ (i : grid8.Coords) a, (cc8_transform_15 i a + 1) * S1024x2.size a ≤ S1024x2.size a
  hwx8_15 : ∀ i : grid8.Coords, EltTy.bits .f32 = 32 ∨ (Rect.block (s := S1024x2) S1024x2.size (cc8_transform_15 i) (hinb8_15 i)).WholeWords (EltTy.packing .f32)

variable [Facts₀]

def dot_S5000x100_S100x128_S5000x128_1_0_0_1_n_n : DotDims S5000x100 S100x128 S5000x128 where
  lhsContracting := [1]
  rhsContracting := [0]
  lhsNonContracting := [0]
  rhsNonContracting := [1]
  lhsBatch := []
  rhsBatch := []
  wf := dot_S5000x100_S100x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x384_S4000x384_1_0_0_1_n_n : DotDims S4000x128 S128x384 S4000x384 where
  lhsContracting := [1]
  rhsContracting := [0]
  lhsNonContracting := [0]
  rhsNonContracting := [1]
  lhsBatch := []
  rhsBatch := []
  wf := dot_S4000x128_S128x384_S4000x384_1_0_0_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x2_S1024x2_1_0_0_1_n_n : DotDims S1024x64 S64x2 S1024x2 where
  lhsContracting := [1]
  rhsContracting := [0]
  lhsNonContracting := [0]
  rhsNonContracting := [1]
  lhsBatch := []
  rhsBatch := []
  wf := dot_S1024x64_S64x2_S1024x2_1_0_0_1_n_n_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v5) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v26) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S128x384.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S128x384.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x384.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S4000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v27) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v40) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v27) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v10) S128x384.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v11) S128x384.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v12) S1x384.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v13) S1x384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v41) S4000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v41) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v44) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v54) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v41) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v10) S128x384.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v11) S128x384.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v12) S1x384.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v13) S1x384.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v55) S4000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v55) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v56) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v57) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v58) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v59) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v60) S5000x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v72) S1024x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg18) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v73) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v74) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v75) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v76) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v77) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_arg24) S128x64.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v78) S1x64.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v79) S1x64.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v80) S1x64.size cc8_transform_10 reads8_10 false true 1 stage8_10 sem8_10
    hrank8 hreads8_10 hinb8_10 nbuf8_10 (Memref.isWhole_whole _) hwx8_10 hstage8_10

abbrev win8_11 : Pipeline.Window sig grid8 :=
  Pipeline.Window.ofSpec (Memref.whole main_v81) S1x64.size cc8_transform_11 reads8_11 false true 1 stage8_11 sem8_11
    hrank8 hreads8_11 hinb8_11 nbuf8_11 (Memref.isWhole_whole _) hwx8_11 hstage8_11

abbrev win8_12 : Pipeline.Window sig grid8 :=
  Pipeline.Window.ofSpec (Memref.whole main_v82) S1x64.size cc8_transform_12 reads8_12 false true 1 stage8_12 sem8_12
    hrank8 hreads8_12 hinb8_12 nbuf8_12 (Memref.isWhole_whole _) hwx8_12 hstage8_12

abbrev win8_13 : Pipeline.Window sig grid8 :=
  Pipeline.Window.ofSpec (Memref.whole main_arg30) S64x2.size cc8_transform_13 reads8_13 false true 1 stage8_13 sem8_13
    hrank8 hreads8_13 hinb8_13 nbuf8_13 (Memref.isWhole_whole _) hwx8_13 hstage8_13

abbrev win8_14 : Pipeline.Window sig grid8 :=
  Pipeline.Window.ofSpec (Memref.whole main_v83) S1x2.size cc8_transform_14 reads8_14 false true 1 stage8_14 sem8_14
    hrank8 hreads8_14 hinb8_14 nbuf8_14 (Memref.isWhole_whole _) hwx8_14 hstage8_14

abbrev win8_15 : Pipeline.Window sig grid8 :=
  Pipeline.Window.ofSpec (Memref.whole main_v84) S1024x2.size cc8_transform_15 reads8_15 true true 1 stage8_15 sem8_15
    hrank8 hreads8_15 hinb8_15 nbuf8_15 (Memref.isWhole_whole _) hwx8_15 hstage8_15

abbrev win8 : Fin 16 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | 11 => win8_11 | 12 => win8_12 | 13 => win8_13 | 14 => win8_14 | 15 => win8_15 | ⟨_ + 16, h⟩ => absurd h (Nat.not_lt.2 (Nat.le_add_left _ _))
abbrev spec8 : Fin 16 → Pipeline.WinSpec sig grid8.rank := fun w => (win8 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S100000 : Shape := ⟨1, ![100000]⟩
abbrev S100x128 : Shape := ⟨2, ![100, 128]⟩
abbrev S128 : Shape := ⟨1, ![128]⟩
abbrev S3x128x128 : Shape := ⟨3, ![3, 128, 128]⟩
abbrev S384x128 : Shape := ⟨2, ![384, 128]⟩
abbrev S384 : Shape := ⟨1, ![384]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S100000x128 : Shape := ⟨2, ![100000, 128]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1x128x128 : Shape := ⟨3, ![1, 128, 128]⟩
abbrev S1600000x1 : Shape := ⟨2, ![1600000, 1]⟩
abbrev S1600000x128 : Shape := ⟨2, ![1600000, 128]⟩
abbrev S128x384 : Shape := ⟨2, ![128, 384]⟩
abbrev S100000x384 : Shape := ⟨2, ![100000, 384]⟩
abbrev S1x384 : Shape := ⟨2, ![1, 384]⟩
abbrev S1024 : Shape := ⟨1, ![1024]⟩
abbrev S100000x1 : Shape := ⟨2, ![100000, 1]⟩
abbrev S1024x128 : Shape := ⟨2, ![1024, 128]⟩
abbrev S1024x1 : Shape := ⟨2, ![1024, 1]⟩
abbrev S1024x64 : Shape := ⟨2, ![1024, 64]⟩
abbrev S1x64 : Shape := ⟨2, ![1, 64]⟩
abbrev S1024x2 : Shape := ⟨2, ![1024, 2]⟩
abbrev S1x2 : Shape := ⟨2, ![1, 2]⟩

abbrev nBuf : Space → Nat
  | .hbm => 321
  | .vmem => 0
  | .smem => 0
  | _ => 0

abbrev hbmTy0_0 (i : Nat) : BufTy := match i % 128 with
  | 0 => ⟨S100000x100, .f32⟩
  | 1 => ⟨S2x1600000, .i32⟩
  | 2 => ⟨S100000, .i32⟩
  | 3 => ⟨S100x128, .f32⟩
  | 4 => ⟨S128, .f32⟩
  | 5 => ⟨S128, .f32⟩
  | 6 => ⟨S128, .f32⟩
  | 7 => ⟨S128, .f32⟩
  | 8 => ⟨S128, .f32⟩
  | 9 => ⟨S3x128x128, .f32⟩
  | 10 => ⟨S384x128, .f32⟩
  | 11 => ⟨S384x128, .f32⟩
  | 12 => ⟨S384, .f32⟩
  | 13 => ⟨S384, .f32⟩
  | 14 => ⟨S128, .f32⟩
  | 15 => ⟨S128, .f32⟩
  | 16 => ⟨S128, .f32⟩
  | 17 => ⟨S128, .f32⟩
  | 18 => ⟨S128x128, .f32⟩
  | 19 => ⟨S128, .f32⟩
  | 20 => ⟨S128, .f32⟩
  | 21 => ⟨S128, .f32⟩
  | 22 => ⟨S128, .f32⟩
  | 23 => ⟨S128, .f32⟩
  | 24 => ⟨S128x64, .f32⟩
  | 25 => ⟨S64, .f32⟩
  | 26 => ⟨S64, .f32⟩
  | 27 => ⟨S64, .f32⟩
  | 28 => ⟨S64, .f32⟩
  | 29 => ⟨S64, .f32⟩
  | 30 => ⟨S64x2, .f32⟩
  | 31 => ⟨S2, .f32⟩
  | 32 => ⟨S100000x128, .f32⟩
  | 33 => ⟨S1x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S128, .f32⟩
  | 41 => ⟨S128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S1x1600000, .i32⟩
  | 56 => ⟨S1600000, .i32⟩
  | 57 => ⟨S1x1600000, .i32⟩
  | 58 => ⟨S1600000, .i32⟩
  | 59 => ⟨S1x128x128, .f32⟩
  | 60 => ⟨S128x128, .f32⟩
  | 61 => ⟨S100000x128, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x128, .f32⟩
  | 71 => ⟨S_, .f32⟩
  | 72 => ⟨S100000x128, .f32⟩
  | 73 => ⟨S1600000x1, .i32⟩
  | 74 => ⟨S100000x128, .f32⟩
  | 75 => ⟨S128x384, .f32⟩
  | 76 => ⟨S100000x384, .f32⟩
  | 77 => ⟨S1x384, .f32⟩
  | 78 => ⟨S100000x384, .f32⟩
  | 79 => ⟨S100000x384, .f32⟩
  | 80 => ⟨S128x384, .f32⟩
  | 81 => ⟨S100000x384, .f32⟩
  | 82 => ⟨S1x384, .f32⟩
  | 83 => ⟨S100000x384, .f32⟩
  | 84 => ⟨S100000x384, .f32⟩
  | 85 => ⟨S100000x128, .f32⟩
  | 86 => ⟨S100000x128, .f32⟩
  | 87 => ⟨S100000x128, .f32⟩
  | 88 => ⟨S100000x128, .f32⟩
  | 89 => ⟨S100000x128, .f32⟩
  | 90 => ⟨S100000x128, .f32⟩
  | 91 => ⟨S100000x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S100000x128, .f32⟩
  | 116 => ⟨S100000x128, .f32⟩
  | 117 => ⟨S100000x128, .f32⟩
  | 118 => ⟨S1x128x128, .f32⟩
  | 119 => ⟨S128x128, .f32⟩
  | 120 => ⟨S100000x128, .f32⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x100, .f32⟩

abbrev hbmTy0_1 (i : Nat) : BufTy := match i % 128 with
  | 0 => ⟨S1600000x1, .i32⟩
  | 1 => ⟨S1600000x128, .f32⟩
  | 2 => ⟨S_, .f32⟩
  | 3 => ⟨S100000x128, .f32⟩
  | 4 => ⟨S1600000x1, .i32⟩
  | 5 => ⟨S100000x128, .f32⟩
  | 6 => ⟨S128x384, .f32⟩
  | 7 => ⟨S100000x384, .f32⟩
  | 8 => ⟨S1x384, .f32⟩
  | 9 => ⟨S100000x384, .f32⟩
  | 10 => ⟨S100000x384, .f32⟩
  | 11 => ⟨S128x384, .f32⟩
  | 12 => ⟨S100000x384, .f32⟩
  | 13 => ⟨S1x384, .f32⟩
  | 14 => ⟨S100000x384, .f32⟩
  | 15 => ⟨S100000x384, .f32⟩
  | 16 => ⟨S100000x128, .f32⟩
  | 17 => ⟨S100000x128, .f32⟩
  | 18 => ⟨S100000x128, .f32⟩
  | 19 => ⟨S100000x128, .f32⟩
  | 20 => ⟨S100000x128, .f32⟩
  | 21 => ⟨S100000x128, .f32⟩
  | 22 => ⟨S100000x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S100000x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S100000x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S100000x128, .f32⟩
  | 47 => ⟨S100000x128, .f32⟩
  | 48 => ⟨S100000x128, .f32⟩
  | 49 => ⟨S1x128x128, .f32⟩
  | 50 => ⟨S128x128, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S128x384, .f32⟩
  | 66 => ⟨S100000x384, .f32⟩
  | 67 => ⟨S1x384, .f32⟩
  | 68 => ⟨S100000x384, .f32⟩
  | 69 => ⟨S100000x384, .f32⟩
  | 70 => ⟨S128x384, .f32⟩
  | 71 => ⟨S100000x384, .f32⟩
  | 72 => ⟨S1x384, .f32⟩
  | 73 => ⟨S100000x384, .f32⟩
  | 74 => ⟨S100000x384, .f32⟩
  | 75 => ⟨S100000x128, .f32⟩
  | 76 => ⟨S100000x128, .f32⟩
  | 77 => ⟨S100000x128, .f32⟩
  | 78 => ⟨S100000x128, .f32⟩
  | 79 => ⟨S100000x128, .f32⟩
  | 80 => ⟨S100000x128, .f32⟩
  | 81 => ⟨S100000x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S128, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S_, .f32⟩
  | _ => ⟨S100000x100, .f32⟩

abbrev hbmTy0_2 (i : Nat) : BufTy := match i % 128 with
  | 0 => ⟨S100000, .f32⟩
  | 1 => ⟨S_, .f32⟩
  | 2 => ⟨S1024, .f32⟩
  | 3 => ⟨S100000x1, .i32⟩
  | 4 => ⟨S1024, .f32⟩
  | 5 => ⟨S_, .f32⟩
  | 6 => ⟨S1024x128, .f32⟩
  | 7 => ⟨S100000x1, .i32⟩
  | 8 => ⟨S1024x128, .f32⟩
  | 9 => ⟨S_, .f32⟩
  | 10 => ⟨S1024, .f32⟩
  | 11 => ⟨S1024, .f32⟩
  | 12 => ⟨S1024x1, .f32⟩
  | 13 => ⟨S1024x128, .f32⟩
  | 14 => ⟨S1024x128, .f32⟩
  | 15 => ⟨S1024x128, .f32⟩
  | 16 => ⟨S1x128, .f32⟩
  | 17 => ⟨S1024x128, .f32⟩
  | 18 => ⟨S1024x128, .f32⟩
  | 19 => ⟨S1x128, .f32⟩
  | 20 => ⟨S1024x128, .f32⟩
  | 21 => ⟨S1024x128, .f32⟩
  | 22 => ⟨S_, .f32⟩
  | 23 => ⟨S128, .f32⟩
  | 24 => ⟨S128, .f32⟩
  | 25 => ⟨S128, .f32⟩
  | 26 => ⟨S1x128, .f32⟩
  | 27 => ⟨S1024x128, .f32⟩
  | 28 => ⟨S1024x128, .f32⟩
  | 29 => ⟨S1x128, .f32⟩
  | 30 => ⟨S1024x128, .f32⟩
  | 31 => ⟨S1024x128, .f32⟩
  | 32 => ⟨S1x128, .f32⟩
  | 33 => ⟨S1024x128, .f32⟩
  | 34 => ⟨S1024x128, .f32⟩
  | 35 => ⟨S_, .f32⟩
  | 36 => ⟨S1024x128, .f32⟩
  | 37 => ⟨S1024x128, .f32⟩
  | 38 => ⟨S1024x64, .f32⟩
  | 39 => ⟨S1x64, .f32⟩
  | 40 => ⟨S1024x64, .f32⟩
  | 41 => ⟨S1024x64, .f32⟩
  | 42 => ⟨S1x64, .f32⟩
  | 43 => ⟨S1024x64, .f32⟩
  | 44 => ⟨S1024x64, .f32⟩
  | 45 => ⟨S_, .f32⟩
  | 46 => ⟨S64, .f32⟩
  | 47 => ⟨S64, .f32⟩
  | 48 => ⟨S64, .f32⟩
  | 49 => ⟨S1x64, .f32⟩
  | 50 => ⟨S1024x64, .f32⟩
  | 51 => ⟨S1024x64, .f32⟩
  | 52 => ⟨S1x64, .f32⟩
  | 53 => ⟨S1024x64, .f32⟩
  | 54 => ⟨S1024x64, .f32⟩
  | 55 => ⟨S1x64, .f32⟩
  | 56 => ⟨S1024x64, .f32⟩
  | 57 => ⟨S1024x64, .f32⟩
  | 58 => ⟨S_, .f32⟩
  | 59 => ⟨S1024x64, .f32⟩
  | 60 => ⟨S1024x64, .f32⟩
  | 61 => ⟨S1024x2, .f32⟩
  | 62 => ⟨S1x2, .f32⟩
  | 63 => ⟨S1024x2, .f32⟩
  | 64 => ⟨S1024x2, .f32⟩
  | _ => ⟨S100000x100, .f32⟩

abbrev hbmTy (i : Nat) : BufTy := match i / 128 with
  | 0 => hbmTy0_0 i
  | 1 => hbmTy0_1 i
  | 2 => hbmTy0_2 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_call0_cst : Ref sig .tc := ⟨.hbm, 52, rfl⟩
abbrev main_call0_v0 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_c : Ref sig .tc := ⟨.hbm, 62, rfl⟩
abbrev main_v27 : Ref sig .tc := ⟨.hbm, 63, rfl⟩
abbrev main_v28 : Ref sig .tc := ⟨.hbm, 64, rfl⟩
abbrev main_c_0 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_1 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_2 : Ref sig .tc := ⟨.hbm, 94, rfl⟩
abbrev main_v56 : Ref sig .tc := ⟨.hbm, 95, rfl⟩
abbrev main_v57 : Ref sig .tc := ⟨.hbm, 96, rfl⟩
abbrev main_cst_3 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_4 : Ref sig .tc := ⟨.hbm, 103, rfl⟩
abbrev main_v63 : Ref sig .tc := ⟨.hbm, 104, rfl⟩
abbrev main_v64 : Ref sig .tc := ⟨.hbm, 105, rfl⟩
abbrev main_cst_5 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_6 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_c_7 : Ref sig .tc := ⟨.hbm, 121, rfl⟩
abbrev main_v78 : Ref sig .tc := ⟨.hbm, 122, rfl⟩
abbrev main_v79 : Ref sig .tc := ⟨.hbm, 123, rfl⟩
abbrev main_c_8 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_9 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_10 : Ref sig .tc := ⟨.hbm, 153, rfl⟩
abbrev main_v107 : Ref sig .tc := ⟨.hbm, 154, rfl⟩
abbrev main_v108 : Ref sig .tc := ⟨.hbm, 155, rfl⟩
abbrev main_cst_11 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_cst_12 : Ref sig .tc := ⟨.hbm, 162, rfl⟩
abbrev main_v114 : Ref sig .tc := ⟨.hbm, 163, rfl⟩
abbrev main_v115 : Ref sig .tc := ⟨.hbm, 164, rfl⟩
abbrev main_cst_13 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_cst_14 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_c_15 : Ref sig .tc := ⟨.hbm, 180, rfl⟩
abbrev main_v129 : Ref sig .tc := ⟨.hbm, 181, rfl⟩
abbrev main_v130 : Ref sig .tc := ⟨.hbm, 182, rfl⟩
abbrev main_c_16 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_17 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_cst_18 : Ref sig .tc := ⟨.hbm, 212, rfl⟩
abbrev main_v158 : Ref sig .tc := ⟨.hbm, 213, rfl⟩
abbrev main_v159 : Ref sig .tc := ⟨.hbm, 214, rfl⟩
abbrev main_cst_19 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_cst_20 : Ref sig .tc := ⟨.hbm, 221, rfl⟩
abbrev main_v165 : Ref sig .tc := ⟨.hbm, 222, rfl⟩
abbrev main_v166 : Ref sig .tc := ⟨.hbm, 223, rfl⟩
abbrev main_cst_21 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_cst_22 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_cst_23 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_call1_cst : Ref sig .tc := ⟨.hbm, 252, rfl⟩
abbrev main_call1_v0 : Ref sig .tc := ⟨.hbm, 253, rfl⟩
abbrev main_v192 : Ref sig .tc := ⟨.hbm, 254, rfl⟩
abbrev main_cst_24 : Ref sig .tc := ⟨.hbm, 255, rfl⟩
abbrev main_v193 : Ref sig .tc := ⟨.hbm, 256, rfl⟩
abbrev main_cst_25 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_cst_26 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_cst_27 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_cst_28 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_call2_cst : Ref sig .tc := ⟨.hbm, 291, rfl⟩
abbrev main_call2_v0 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_v231 : Ref sig .tc := ⟨.hbm, 300, rfl⟩
abbrev main_cst_29 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_v240 : Ref sig .tc := ⟨.hbm, 310, rfl⟩
abbrev main_v241 : Ref sig .tc := ⟨.hbm, 311, rfl⟩
abbrev main_v242 : Ref sig .tc := ⟨.hbm, 312, rfl⟩
abbrev main_v243 : Ref sig .tc := ⟨.hbm, 313, rfl⟩
abbrev main_call3_cst : Ref sig .tc := ⟨.hbm, 314, rfl⟩
abbrev main_call3_v0 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S384x128_S128x384_1_0 : S384x128.Transposes [1, 0] S128x384
  bcast_S384_S1x384_1 : S384.BroadcastsInDim S1x384 (![1] : Fin 1 → Fin S1x384.rank)
  bcast_S1x384_S100000x384_0_1 : S1x384.BroadcastsInDim S100000x384 (![0, 1] : Fin 2 → Fin S100000x384.rank)
  slices_S100000x384_S100000x128_0_0 : S100000x384.Slices ![0, 0] S100000x128
  slices_S100000x384_S100000x128_0_128 : S100000x384.Slices ![0, 128] S100000x128
  slices_S100000x384_S100000x128_0_256 : S100000x384.Slices ![0, 256] S100000x128
  slices_S3x128x128_S1x128x128_1_0_0 : S3x128x128.Slices ![1, 0, 0] S1x128x128
  slices_S3x128x128_S1x128x128_2_0_0 : S3x128x128.Slices ![2, 0, 0] S1x128x128
  bcast_S_S100000 : S_.BroadcastsInDim S100000 (![] : Fin 0 → Fin S100000.rank)
  bcast_S_S1024 : S_.BroadcastsInDim S1024 (![] : Fin 0 → Fin S1024.rank)
  bcast_S100000_S100000x1_0 : S100000.BroadcastsInDim S100000x1 (![0] : Fin 1 → Fin S100000x1.rank)
  bcast_S_S1024x128 : S_.BroadcastsInDim S1024x128 (![] : Fin 0 → Fin S1024x128.rank)
  bcast_S1024_S1024x1_0 : S1024.BroadcastsInDim S1024x1 (![0] : Fin 1 → Fin S1024x1.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S64 : S_.BroadcastsInDim S64 (![] : Fin 0 → Fin S64.rank)
  bcast_S_S1024x64 : S_.BroadcastsInDim S1024x64 (![] : Fin 0 → Fin S1024x64.rank)
  bcast_S2_S1x2_1 : S2.BroadcastsInDim S1x2 (![1] : Fin 1 → Fin S1x2.rank)
  bcast_S1x2_S1024x2_0_1 : S1x2.BroadcastsInDim S1024x2 (![0, 1] : Fin 2 → Fin S1024x2.rank)
  dot_S100000x100_S100x128_S100000x128_1_0_0_1_n_n_wf : DotDims.WF S100000x100 S100x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x384_S100000x384_1_0_0_1_n_n_wf : DotDims.WF S100000x128 S128x384 S100000x384 [1] [0] [0] [1] [] []
  scatter_S1024_S100000x1_S100000_n_0_0_1_wf : ScatterDims.WF S1024 S100000x1 S100000 [] [0] [0] 1
  scatter_S1024x128_S100000x1_S100000x128_1_0_0_1_wf : ScatterDims.WF S1024x128 S100000x1 S100000x128 [1] [0] [0] 1
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  dot_S1024x64_S64x2_S1024x2_1_0_0_1_n_n_wf : DotDims.WF S1024x64 S64x2 S1024x2 [1] [0] [0] [1] [] []

variable [Facts₀]

def dot_S100000x100_S100x128_S100000x128_1_0_0_1_n_n : DotDims S100000x100 S100x128 S100000x128 where
  lhsContracting := [1]
  rhsContracting := [0]
  lhsNonContracting := [0]
  rhsNonContracting := [1]
  lhsBatch := []
  rhsBatch := []
  wf := dot_S100000x100_S100x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x384_S100000x384_1_0_0_1_n_n : DotDims S100000x128 S128x384 S100000x384 where
  lhsContracting := [1]
  rhsContracting := [0]
  lhsNonContracting := [0]
  rhsNonContracting := [1]
  lhsBatch := []
  rhsBatch := []
  wf := dot_S100000x128_S128x384_S100000x384_1_0_0_1_n_n_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x2_S1024x2_1_0_0_1_n_n : DotDims S1024x64 S64x2 S1024x2 where
  lhsContracting := [1]
  rhsContracting := [0]
  lhsNonContracting := [0]
  rhsNonContracting := [1]
  lhsBatch := []
  rhsBatch := []
  wf := dot_S1024x64_S64x2_S1024x2_1_0_0_1_n_n_wf

class Facts : Prop extends Facts₀ where

variable [Facts]
-- ==== Proof.KRun.lean ====
/-
  THE DEVICE PROGRAM'S RUN WITH ITS RESULT NAMED. Every weakly fair execution of the nine regions among their host
  stretches ends, nothing faulting, with the result array at what the last boundary's fold of buffer contents holds
  there, and the thirty-two argument arrays as launched. The contents at each boundary are the fold of the generated
  frame module: a host stretch rewrites the buffers its operations write, a region leaves its input arrays as entered
  and each output array at what its write-backs leave.
-/
import proofs.«137501_j83021717832548_2_alg».proof.Proof.Gen.KernelIdeal.Frame

set_option maxRecDepth 16384

noncomputable section

namespace Cert.KernelIdeal.Flow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result at the last boundary's contents, the arguments unchanged. -/
theorem run_value : θ_run defs (onTc (τ := τ) (main (F := F))) ⟨m, fun _ => 0, ρ⟩ (fun r => ∀ c : Dev nD,
      r.2.mem ((c.tc : Thread nD τ).loc main_v84) = W18 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v84 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c),
       (h c _ (mem_uc main_arg21 (by decide))).trans (W18_main_arg21 m ρ c),
       (h c _ (mem_uc main_arg22 (by decide))).trans (W18_main_arg22 m ρ c),
       (h c _ (mem_uc main_arg23 (by decide))).trans (W18_main_arg23 m ρ c),
       (h c _ (mem_uc main_arg24 (by decide))).trans (W18_main_arg24 m ρ c),
       (h c _ (mem_uc main_arg25 (by decide))).trans (W18_main_arg25 m ρ c),
       (h c _ (mem_uc main_arg26 (by decide))).trans (W18_main_arg26 m ρ c),
       (h c _ (mem_uc main_arg27 (by decide))).trans (W18_main_arg27 m ρ c),
       (h c _ (mem_uc main_arg28 (by decide))).trans (W18_main_arg28 m ρ c),
       (h c _ (mem_uc main_arg29 (by decide))).trans (W18_main_arg29 m ρ c),
       (h c _ (mem_uc main_arg30 (by decide))).trans (W18_main_arg30 m ρ c),
       (h c _ (mem_uc main_arg31 (by decide))).trans (W18_main_arg31 m ρ c)⟩)

end Cert.KernelIdeal.Flow

end
-- ==== Proof.KFlowArgsA.lean ====
/-
  THE ARGUMENT ARRAYS THROUGH THE RUN. No host operation and no region writes an argument array (a region reads it
  through an input window, which leaves its array as entered), so at every boundary between a host stretch and a
  region the fold of buffer contents still holds the launch contents there. One equation per boundary and argument,
  each from the boundary before.
-/
import proofs.«137501_j83021717832548_2_alg».proof.Proof.Gen.KernelIdeal.Frame
import Idealize.ShloMosaic.Lib.StableHlo.Run
import Idealize.ShloMosaic.PureOps.Ideal

set_option maxRecDepth 16384

noncomputable section

namespace Cert.KernelIdeal.Flow

open Cert.KernelIdeal Cert.KernelIdeal.Gen
open Idealize.ShloMosaic Idealize.ShloMosaic.TcCoe Idealize.ShloMosaic.StableHlo Idealize.SL.Sem
open Idealize.ShloMosaic.Pipeline (Dat)
open Cert.KernelIdeal.Facts₀ Cert.KernelIdeal.Facts

variable (m : (ℓ : Loc nD τ sig) → Buf (Elt Ideal) ℓ) (ρ : Dev nD → PrngReg)

theorem W0_main_arg0 (c : Dev nD) : W0 m ρ c (Proc.devRef .tc main_arg0) = (m ((c : Thread nD τ).loc main_arg0)) := rfl

theorem W1_main_arg0 (c : Dev nD) : W1 m ρ c (Proc.devRef .tc main_arg0) = (m ((c : Thread nD τ).loc main_arg0)) :=
  (show StableHlo.after hostOps0 (W0 m ρ c) (Proc.devRef .tc main_arg0) = W0 m ρ c (Proc.devRef .tc main_arg0) by after_results).trans (W0_main_arg0 m ρ c)

theorem W0_main_arg3 (c : Dev nD) : W0 m ρ c (Proc.devRef .tc main_arg3) = (m ((c : Thread nD τ).loc main_arg3)) := rfl

theorem W1_main_arg3 (c : Dev nD) : W1 m ρ c (Proc.devRef .tc main_arg3) = (m ((c : Thread nD τ).loc main_arg3)) :=
  (show StableHlo.after hostOps0 (W0 m ρ c) (Proc.devRef .tc main_arg3) = W0 m ρ c (Proc.devRef .tc main_arg3) by after_results).trans (W0_main_arg3 m ρ c)

theorem W0_main_arg4 (c : Dev nD) : W0 m ρ c (Proc.devRef .tc main_arg4) = (m ((c : Thread nD τ).loc main_arg4)) := rfl

theorem W0_main_arg5 (c : Dev nD) : W0 m ρ c (Proc.devRef .tc main_arg5) = (m ((c : Thread nD τ).loc main_arg5)) := rfl

theorem W0_main_arg6 (c : Dev nD) : W0 m ρ c (Proc.devRef .tc main_arg6) = (m ((c : Thread nD τ).loc main_arg6)) := rfl

theorem W0_main_arg7 (c : Dev nD) : W0 m ρ c (Proc.devRef .tc main_arg7) = (m ((c : Thread nD τ).loc main_arg7)) := rfl

theorem W0_main_arg1 (c : Dev nD) : W0 m ρ c (Proc.devRef .tc main_arg1) = (m ((c : Thread nD τ).loc main_arg1)) := rfl

theorem W1_main_arg1 (c : Dev nD) : W1 m ρ c (Proc.devRef .tc main_arg1) = (m ((c : Thread nD τ).loc main_arg1)) :=
  (show StableHlo.after hostOps0 (W0 m ρ c) (Proc.devRef .tc main_arg1) = W0 m ρ c (Proc.devRef .tc main_arg1) by after_results).trans (W0_main_arg1 m ρ c)

theorem W2_main_arg1 (c : Dev nD) : W2 m ρ c (Proc.devRef .tc main_arg1) = (m ((c : Thread nD τ).loc main_arg1)) :=
  (W2_of_ne m ρ c main_arg1 (by decide)).trans (W1_main_arg1 m ρ c)

theorem W0_main_arg2 (c : Dev nD) : W0 m ρ c (Proc.devRef .tc main_arg2) = (m ((c : Thread nD τ).loc main_arg2)) := rfl

theorem W1_main_arg2 (c : Dev nD) : W1 m ρ c (Proc.devRef .tc main_arg2) = (m ((c : Thread nD τ).loc main_arg2)) :=
  (show StableHlo.after hostOps0 (W0 m ρ c) (Proc.devRef .tc main_arg2) = W0 m ρ c (Proc.devRef .tc main_arg2) by after_results).trans (W0_main_arg2 m ρ c)

theorem W2_main_arg2 (c : Dev nD) : W2 m ρ c (Proc.devRef .tc main_arg2) = (m ((c : Thread nD τ).loc main_arg2)) :=
  (W2_of_ne m ρ c main_arg2 (by decide)).trans (W1_main_arg2 m ρ c)

theorem W3_main_arg2 (c : Dev nD) : W3 m ρ c (Proc.devRef .tc main_arg2) = (m ((c : Thread nD τ).loc main_arg2)) :=
  (show StableHlo.after hostOps1 (W2 m ρ c) (Proc.devRef .tc main_arg2) = W2 m ρ c (Proc.devRef .tc main_arg2) by after_results).trans (W2_main_arg2 m ρ c)

theorem W4_main_arg2 (c : Dev nD) : W4 m ρ c (Proc.devRef .tc main_arg2) = (m ((c : Thread nD τ).loc main_arg2)) :=
  (W4_of_ne m ρ c main_arg2 (by decide)).trans (W3_main_arg2 m ρ c)

theorem W5_main_arg2 (c : Dev nD) : W5 m ρ c (Proc.devRef .tc main_arg2) = (m ((c : Thread nD τ).loc main_arg2)) :=
  (show StableHlo.after hostOps2 (W4 m ρ c) (Proc.devRef .tc main_arg2) = W4 m ρ c (Proc.devRef .tc main_arg2) by after_results).trans (W4_main_arg2 m ρ c)

theorem W6_main_arg2 (c : Dev nD) : W6 m ρ c (Proc.devRef .tc main_arg2) = (m ((c : Thread nD τ).loc main_arg2)) :=
  (W6_of_ne m ρ c main_arg2 (by decide)).trans (W5_main_arg2 m ρ c)

theorem W7_main_arg2 (c : Dev nD) : W7 m ρ c (Proc.devRef .tc main_arg2) = (m ((c : Thread nD τ).loc main_arg2)) :=
  (show StableHlo.after hostOps3 (W6 m ρ c) (Proc.devRef .tc main_arg2) = W6 m ρ c (Proc.devRef .tc main_arg2) by after_results).trans (W6_main_arg2 m ρ c)

theorem W8_main_arg2 (c : Dev nD) : W8 m ρ c (Proc.devRef .tc main_arg2) = (m ((c : Thread nD τ).loc main_arg2)) :=
  (W8_of_ne m ρ c main_arg2 (by decide)).trans (W7_main_arg2 m ρ c)

theorem W9_main_arg2 (c : Dev nD) : W9 m ρ c (Proc.devRef .tc main_arg2) = (m ((c : Thread nD τ).loc main_arg2)) :=
  (show StableHlo.after hostOps4 (W8 m ρ c) (Proc.devRef .tc main_arg2) = W8 m ρ c (Proc.devRef .tc main_arg2) by after_results).trans (W8_main_arg2 m ρ c)

theorem W10_main_arg2 (c : Dev nD) : W10 m ρ c (Proc.devRef .tc main_arg2) = (m ((c : Thread nD τ).loc main_arg2)) :=
  (W10_of_ne m ρ c main_arg2 (by decide)).trans (W9_main_arg2 m ρ c)

theorem W11_main_arg2 (c : Dev nD) : W11 m ρ c (Proc.devRef .tc main_arg2) = (m ((c : Thread nD τ).loc main_arg2)) :=
  (show StableHlo.after hostOps5 (W10 m ρ c) (Proc.devRef .tc main_arg2) = W10 m ρ c (Proc.devRef .tc main_arg2) by after_results).trans (W10_main_arg2 m ρ c)

theorem W12_main_arg2 (c : Dev nD) : W12 m ρ c (Proc.devRef .tc main_arg2) = (m ((c : Thread nD τ).loc main_arg2)) :=
  (W12_of_ne m ρ c main_arg2 (by decide)).trans (W11_main_arg2 m ρ c)

theorem W13_main_arg2 (c : Dev nD) : W13 m ρ c (Proc.devRef .tc main_arg2) = (m ((c : Thread nD τ).loc main_arg2)) :=
  (show StableHlo.after hostOps6 (W12 m ρ c) (Proc.devRef .tc main_arg2) = W12 m ρ c (Proc.devRef .tc main_arg2) by after_results).trans (W12_main_arg2 m ρ c)

theorem W14_main_arg2 (c : Dev nD) : W14 m ρ c (Proc.devRef .tc main_arg2) = (m ((c : Thread nD τ).loc main_arg2)) :=
  (W14_of_ne m ρ c main_arg2 (by decide)).trans (W13_main_arg2 m ρ c)

theorem W15_main_arg2 (c : Dev nD) : W15 m ρ c (Proc.devRef .tc main_arg2) = (m ((c : Thread nD τ).loc main_arg2)) :=
  (show StableHlo.after hostOps7 (W14 m ρ c) (Proc.devRef .tc main_arg2) = W14 m ρ c (Proc.devRef .tc main_arg2) by after_results).trans (W14_main_arg2 m ρ c)

theorem W16_main_arg2 (c : Dev nD) : W16 m ρ c (Proc.devRef .tc main_arg2) = (m ((c : Thread nD τ).loc main_arg2)) :=
  (W16_of_ne m ρ c main_arg2 (by decide)).trans (W15_main_arg2 m ρ c)

end Cert.KernelIdeal.Flow

end
-- ==== Proof.KFlowArgsB.lean ====
/-
  THE ARGUMENT ARRAYS THROUGH THE RUN. No host operation and no region writes an argument array (a region reads it
  through an input window, which leaves its array as entered), so at every boundary between a host stretch and a
  region the fold of buffer contents still holds the launch contents there. One equation per boundary and argument,
  each from the boundary before.
-/
import proofs.«137501_j83021717832548_2_alg».proof.Proof.Gen.KernelIdeal.Frame
import Idealize.ShloMosaic.Lib.StableHlo.Run
import Idealize.ShloMosaic.PureOps.Ideal

set_option maxRecDepth 16384

noncomputable section

namespace Cert.KernelIdeal.Flow

open Cert.KernelIdeal Cert.KernelIdeal.Gen
open Idealize.ShloMosaic Idealize.ShloMosaic.TcCoe Idealize.ShloMosaic.StableHlo Idealize.SL.Sem
open Idealize.ShloMosaic.Pipeline (Dat)
open Cert.KernelIdeal.Facts₀ Cert.KernelIdeal.Facts

variable (m : (ℓ : Loc nD τ sig) → Buf (Elt Ideal) ℓ) (ρ : Dev nD → PrngReg)

theorem W0_main_arg8 (c : Dev nD) : W0 m ρ c (Proc.devRef .tc main_arg8) = (m ((c : Thread nD τ).loc main_arg8)) := rfl

theorem W0_main_arg9 (c : Dev nD) : W0 m ρ c (Proc.devRef .tc main_arg9) = (m ((c : Thread nD τ).loc main_arg9)) := rfl

theorem W1_main_arg9 (c : Dev nD) : W1 m ρ c (Proc.devRef .tc main_arg9) = (m ((c : Thread nD τ).loc main_arg9)) :=
  (show StableHlo.after hostOps0 (W0 m ρ c) (Proc.devRef .tc main_arg9) = W0 m ρ c (Proc.devRef .tc main_arg9) by after_results).trans (W0_main_arg9 m ρ c)

theorem W2_main_arg9 (c : Dev nD) : W2 m ρ c (Proc.devRef .tc main_arg9) = (m ((c : Thread nD τ).loc main_arg9)) :=
  (W2_of_ne m ρ c main_arg9 (by decide)).trans (W1_main_arg9 m ρ c)

theorem W0_main_arg10 (c : Dev nD) : W0 m ρ c (Proc.devRef .tc main_arg10) = (m ((c : Thread nD τ).loc main_arg10)) := rfl

theorem W1_main_arg10 (c : Dev nD) : W1 m ρ c (Proc.devRef .tc main_arg10) = (m ((c : Thread nD τ).loc main_arg10)) :=
  (show StableHlo.after hostOps0 (W0 m ρ c) (Proc.devRef .tc main_arg10) = W0 m ρ c (Proc.devRef .tc main_arg10) by after_results).trans (W0_main_arg10 m ρ c)

theorem W2_main_arg10 (c : Dev nD) : W2 m ρ c (Proc.devRef .tc main_arg10) = (m ((c : Thread nD τ).loc main_arg10)) :=
  (W2_of_ne m ρ c main_arg10 (by decide)).trans (W1_main_arg10 m ρ c)

theorem W0_main_arg11 (c : Dev nD) : W0 m ρ c (Proc.devRef .tc main_arg11) = (m ((c : Thread nD τ).loc main_arg11)) := rfl

theorem W1_main_arg11 (c : Dev nD) : W1 m ρ c (Proc.devRef .tc main_arg11) = (m ((c : Thread nD τ).loc main_arg11)) :=
  (show StableHlo.after hostOps0 (W0 m ρ c) (Proc.devRef .tc main_arg11) = W0 m ρ c (Proc.devRef .tc main_arg11) by after_results).trans (W0_main_arg11 m ρ c)

theorem W2_main_arg11 (c : Dev nD) : W2 m ρ c (Proc.devRef .tc main_arg11) = (m ((c : Thread nD τ).loc main_arg11)) :=
  (W2_of_ne m ρ c main_arg11 (by decide)).trans (W1_main_arg11 m ρ c)

theorem W0_main_arg12 (c : Dev nD) : W0 m ρ c (Proc.devRef .tc main_arg12) = (m ((c : Thread nD τ).loc main_arg12)) := rfl

theorem W1_main_arg12 (c : Dev nD) : W1 m ρ c (Proc.devRef .tc main_arg12) = (m ((c : Thread nD τ).loc main_arg12)) :=
  (show StableHlo.after hostOps0 (W0 m ρ c) (Proc.devRef .tc main_arg12) = W0 m ρ c (Proc.devRef .tc main_arg12) by after_results).trans (W0_main_arg12 m ρ c)

theorem W2_main_arg12 (c : Dev nD) : W2 m ρ c (Proc.devRef .tc main_arg12) = (m ((c : Thread nD τ).loc main_arg12)) :=
  (W2_of_ne m ρ c main_arg12 (by decide)).trans (W1_main_arg12 m ρ c)

theorem W0_main_arg13 (c : Dev nD) : W0 m ρ c (Proc.devRef .tc main_arg13) = (m ((c : Thread nD τ).loc main_arg13)) := rfl

theorem W1_main_arg13 (c : Dev nD) : W1 m ρ c (Proc.devRef .tc main_arg13) = (m ((c : Thread nD τ).loc main_arg13)) :=
  (show StableHlo.after hostOps0 (W0 m ρ c) (Proc.devRef .tc main_arg13) = W0 m ρ c (Proc.devRef .tc main_arg13) by after_results).trans (W0_main_arg13 m ρ c)

theorem W2_main_arg13 (c : Dev nD) : W2 m ρ c (Proc.devRef .tc main_arg13) = (m ((c : Thread nD τ).loc main_arg13)) :=
  (W2_of_ne m ρ c main_arg13 (by decide)).trans (W1_main_arg13 m ρ c)

theorem W3_main_arg9 (c : Dev nD) : W3 m ρ c (Proc.devRef .tc main_arg9) = (m ((c : Thread nD τ).loc main_arg9)) :=
  (show StableHlo.after hostOps1 (W2 m ρ c) (Proc.devRef .tc main_arg9) = W2 m ρ c (Proc.devRef .tc main_arg9) by after_results).trans (W2_main_arg9 m ρ c)

theorem W4_main_arg9 (c : Dev nD) : W4 m ρ c (Proc.devRef .tc main_arg9) = (m ((c : Thread nD τ).loc main_arg9)) :=
  (W4_of_ne m ρ c main_arg9 (by decide)).trans (W3_main_arg9 m ρ c)

theorem W5_main_arg9 (c : Dev nD) : W5 m ρ c (Proc.devRef .tc main_arg9) = (m ((c : Thread nD τ).loc main_arg9)) :=
  (show StableHlo.after hostOps2 (W4 m ρ c) (Proc.devRef .tc main_arg9) = W4 m ρ c (Proc.devRef .tc main_arg9) by after_results).trans (W4_main_arg9 m ρ c)

theorem W6_main_arg9 (c : Dev nD) : W6 m ρ c (Proc.devRef .tc main_arg9) = (m ((c : Thread nD τ).loc main_arg9)) :=
  (W6_of_ne m ρ c main_arg9 (by decide)).trans (W5_main_arg9 m ρ c)

theorem W7_main_arg9 (c : Dev nD) : W7 m ρ c (Proc.devRef .tc main_arg9) = (m ((c : Thread nD τ).loc main_arg9)) :=
  (show StableHlo.after hostOps3 (W6 m ρ c) (Proc.devRef .tc main_arg9) = W6 m ρ c (Proc.devRef .tc main_arg9) by after_results).trans (W6_main_arg9 m ρ c)

theorem W8_main_arg9 (c : Dev nD) : W8 m ρ c (Proc.devRef .tc main_arg9) = (m ((c : Thread nD τ).loc main_arg9)) :=
  (W8_of_ne m ρ c main_arg9 (by decide)).trans (W7_main_arg9 m ρ c)

theorem W9_main_arg9 (c : Dev nD) : W9 m ρ c (Proc.devRef .tc main_arg9) = (m ((c : Thread nD τ).loc main_arg9)) :=
  (show StableHlo.after hostOps4 (W8 m ρ c) (Proc.devRef .tc main_arg9) = W8 m ρ c (Proc.devRef .tc main_arg9) by after_results).trans (W8_main_arg9 m ρ c)

theorem W10_main_arg9 (c : Dev nD) : W10 m ρ c (Proc.devRef .tc main_arg9) = (m ((c : Thread nD τ).loc main_arg9)) :=
  (W10_of_ne m ρ c main_arg9 (by decide)).trans (W9_main_arg9 m ρ c)

theorem W0_main_arg14 (c : Dev nD) : W0 m ρ c (Proc.devRef .tc main_arg14) = (m ((c : Thread nD τ).loc main_arg14)) := rfl

theorem W1_main_arg14 (c : Dev nD) : W1 m ρ c (Proc.devRef .tc main_arg14) = (m ((c : Thread nD τ).loc main_arg14)) :=
  (show StableHlo.after hostOps0 (W0 m ρ c) (Proc.devRef .tc main_arg14) = W0 m ρ c (Proc.devRef .tc main_arg14) by after_results).trans (W0_main_arg14 m ρ c)

theorem W2_main_arg14 (c : Dev nD) : W2 m ρ c (Proc.devRef .tc main_arg14) = (m ((c : Thread nD τ).loc main_arg14)) :=
  (W2_of_ne m ρ c main_arg14 (by decide)).trans (W1_main_arg14 m ρ c)

theorem W3_main_arg14 (c : Dev nD) : W3 m ρ c (Proc.devRef .tc main_arg14) = (m ((c : Thread nD τ).loc main_arg14)) :=
  (show StableHlo.after hostOps1 (W2 m ρ c) (Proc.devRef .tc main_arg14) = W2 m ρ c (Proc.devRef .tc main_arg14) by after_results).trans (W2_main_arg14 m ρ c)

theorem W4_main_arg14 (c : Dev nD) : W4 m ρ c (Proc.devRef .tc main_arg14) = (m ((c : Thread nD τ).loc main_arg14)) :=
  (W4_of_ne m ρ c main_arg14 (by decide)).trans (W3_main_arg14 m ρ c)

theorem W5_main_arg14 (c : Dev nD) : W5 m ρ c (Proc.devRef .tc main_arg14) = (m ((c : Thread nD τ).loc main_arg14)) :=
  (show StableHlo.after hostOps2 (W4 m ρ c) (Proc.devRef .tc main_arg14) = W4 m ρ c (Proc.devRef .tc main_arg14) by after_results).trans (W4_main_arg14 m ρ c)

theorem W6_main_arg14 (c : Dev nD) : W6 m ρ c (Proc.devRef .tc main_arg14) = (m ((c : Thread nD τ).loc main_arg14)) :=
  (W6_of_ne m ρ c main_arg14 (by decide)).trans (W5_main_arg14 m ρ c)

theorem W7_main_arg14 (c : Dev nD) : W7 m ρ c (Proc.devRef .tc main_arg14) = (m ((c : Thread nD τ).loc main_arg14)) :=
  (show StableHlo.after hostOps3 (W6 m ρ c) (Proc.devRef .tc main_arg14) = W6 m ρ c (Proc.devRef .tc main_arg14) by after_results).trans (W6_main_arg14 m ρ c)

theorem W8_main_arg14 (c : Dev nD) : W8 m ρ c (Proc.devRef .tc main_arg14) = (m ((c : Thread nD τ).loc main_arg14)) :=
  (W8_of_ne m ρ c main_arg14 (by decide)).trans (W7_main_arg14 m ρ c)

theorem W9_main_arg14 (c : Dev nD) : W9 m ρ c (Proc.devRef .tc main_arg14) = (m ((c : Thread nD τ).loc main_arg14)) :=
  (show StableHlo.after hostOps4 (W8 m ρ c) (Proc.devRef .tc main_arg14) = W8 m ρ c (Proc.devRef .tc main_arg14) by after_results).trans (W8_main_arg14 m ρ c)

theorem W10_main_arg14 (c : Dev nD) : W10 m ρ c (Proc.devRef .tc main_arg14) = (m ((c : Thread nD τ).loc main_arg14)) :=
  (W10_of_ne m ρ c main_arg14 (by decide)).trans (W9_main_arg14 m ρ c)

theorem W11_main_arg14 (c : Dev nD) : W11 m ρ c (Proc.devRef .tc main_arg14) = (m ((c : Thread nD τ).loc main_arg14)) :=
  (show StableHlo.after hostOps5 (W10 m ρ c) (Proc.devRef .tc main_arg14) = W10 m ρ c (Proc.devRef .tc main_arg14) by after_results).trans (W10_main_arg14 m ρ c)

theorem W12_main_arg14 (c : Dev nD) : W12 m ρ c (Proc.devRef .tc main_arg14) = (m ((c : Thread nD τ).loc main_arg14)) :=
  (W12_of_ne m ρ c main_arg14 (by decide)).trans (W11_main_arg14 m ρ c)

theorem W13_main_arg14 (c : Dev nD) : W13 m ρ c (Proc.devRef .tc main_arg14) = (m ((c : Thread nD τ).loc main_arg14)) :=
  (show StableHlo.after hostOps6 (W12 m ρ c) (Proc.devRef .tc main_arg14) = W12 m ρ c (Proc.devRef .tc main_arg14) by after_results).trans (W12_main_arg14 m ρ c)

theorem W14_main_arg14 (c : Dev nD) : W14 m ρ c (Proc.devRef .tc main_arg14) = (m ((c : Thread nD τ).loc main_arg14)) :=
  (W14_of_ne m ρ c main_arg14 (by decide)).trans (W13_main_arg14 m ρ c)

theorem W0_main_arg15 (c : Dev nD) : W0 m ρ c (Proc.devRef .tc main_arg15) = (m ((c : Thread nD τ).loc main_arg15)) := rfl

theorem W1_main_arg15 (c : Dev nD) : W1 m ρ c (Proc.devRef .tc main_arg15) = (m ((c : Thread nD τ).loc main_arg15)) :=
  (show StableHlo.after hostOps0 (W0 m ρ c) (Proc.devRef .tc main_arg15) = W0 m ρ c (Proc.devRef .tc main_arg15) by after_results).trans (W0_main_arg15 m ρ c)

theorem W2_main_arg15 (c : Dev nD) : W2 m ρ c (Proc.devRef .tc main_arg15) = (m ((c : Thread nD τ).loc main_arg15)) :=
  (W2_of_ne m ρ c main_arg15 (by decide)).trans (W1_main_arg15 m ρ c)

theorem W3_main_arg15 (c : Dev nD) : W3 m ρ c (Proc.devRef .tc main_arg15) = (m ((c : Thread nD τ).loc main_arg15)) :=
  (show StableHlo.after hostOps1 (W2 m ρ c) (Proc.devRef .tc main_arg15) = W2 m ρ c (Proc.devRef .tc main_arg15) by after_results).trans (W2_main_arg15 m ρ c)

theorem W4_main_arg15 (c : Dev nD) : W4 m ρ c (Proc.devRef .tc main_arg15) = (m ((c : Thread nD τ).loc main_arg15)) :=
  (W4_of_ne m ρ c main_arg15 (by decide)).trans (W3_main_arg15 m ρ c)

theorem W5_main_arg15 (c : Dev nD) : W5 m ρ c (Proc.devRef .tc main_arg15) = (m ((c : Thread nD τ).loc main_arg15)) :=
  (show StableHlo.after hostOps2 (W4 m ρ c) (Proc.devRef .tc main_arg15) = W4 m ρ c (Proc.devRef .tc main_arg15) by after_results).trans (W4_main_arg15 m ρ c)

theorem W6_main_arg15 (c : Dev nD) : W6 m ρ c (Proc.devRef .tc main_arg15) = (m ((c : Thread nD τ).loc main_arg15)) :=
  (W6_of_ne m ρ c main_arg15 (by decide)).trans (W5_main_arg15 m ρ c)

theorem W7_main_arg15 (c : Dev nD) : W7 m ρ c (Proc.devRef .tc main_arg15) = (m ((c : Thread nD τ).loc main_arg15)) :=
  (show StableHlo.after hostOps3 (W6 m ρ c) (Proc.devRef .tc main_arg15) = W6 m ρ c (Proc.devRef .tc main_arg15) by after_results).trans (W6_main_arg15 m ρ c)

theorem W8_main_arg15 (c : Dev nD) : W8 m ρ c (Proc.devRef .tc main_arg15) = (m ((c : Thread nD τ).loc main_arg15)) :=
  (W8_of_ne m ρ c main_arg15 (by decide)).trans (W7_main_arg15 m ρ c)

theorem W9_main_arg15 (c : Dev nD) : W9 m ρ c (Proc.devRef .tc main_arg15) = (m ((c : Thread nD τ).loc main_arg15)) :=
  (show StableHlo.after hostOps4 (W8 m ρ c) (Proc.devRef .tc main_arg15) = W8 m ρ c (Proc.devRef .tc main_arg15) by after_results).trans (W8_main_arg15 m ρ c)

theorem W10_main_arg15 (c : Dev nD) : W10 m ρ c (Proc.devRef .tc main_arg15) = (m ((c : Thread nD τ).loc main_arg15)) :=
  (W10_of_ne m ρ c main_arg15 (by decide)).trans (W9_main_arg15 m ρ c)

theorem W11_main_arg15 (c : Dev nD) : W11 m ρ c (Proc.devRef .tc main_arg15) = (m ((c : Thread nD τ).loc main_arg15)) :=
  (show StableHlo.after hostOps5 (W10 m ρ c) (Proc.devRef .tc main_arg15) = W10 m ρ c (Proc.devRef .tc main_arg15) by after_results).trans (W10_main_arg15 m ρ c)

theorem W12_main_arg15 (c : Dev nD) : W12 m ρ c (Proc.devRef .tc main_arg15) = (m ((c : Thread nD τ).loc main_arg15)) :=
  (W12_of_ne m ρ c main_arg15 (by decide)).trans (W11_main_arg15 m ρ c)

theorem W13_main_arg15 (c : Dev nD) : W13 m ρ c (Proc.devRef .tc main_arg15) = (m ((c : Thread nD τ).loc main_arg15)) :=
  (show StableHlo.after hostOps6 (W12 m ρ c) (Proc.devRef .tc main_arg15) = W12 m ρ c (Proc.devRef .tc main_arg15) by after_results).trans (W12_main_arg15 m ρ c)

theorem W14_main_arg15 (c : Dev nD) : W14 m ρ c (Proc.devRef .tc main_arg15) = (m ((c : Thread nD τ).loc main_arg15)) :=
  (W14_of_ne m ρ c main_arg15 (by decide)).trans (W13_main_arg15 m ρ c)

end Cert.KernelIdeal.Flow

end
-- ==== Proof.KFlowArgsC.lean ====
/-
  THE ARGUMENT ARRAYS THROUGH THE RUN. No host operation and no region writes an argument array (a region reads it
  through an input window, which leaves its array as entered), so at every boundary between a host stretch and a
  region the fold of buffer contents still holds the launch contents there. One equation per boundary and argument,
  each from the boundary before.
-/
import proofs.«137501_j83021717832548_2_alg».proof.Proof.Gen.KernelIdeal.Frame
import Idealize.ShloMosaic.Lib.StableHlo.Run
import Idealize.ShloMosaic.PureOps.Ideal

set_option maxRecDepth 16384

noncomputable section

namespace Cert.KernelIdeal.Flow

open Cert.KernelIdeal Cert.KernelIdeal.Gen
open Idealize.ShloMosaic Idealize.ShloMosaic.TcCoe Idealize.ShloMosaic.StableHlo Idealize.SL.Sem
open Idealize.ShloMosaic.Pipeline (Dat)
open Cert.KernelIdeal.Facts₀ Cert.KernelIdeal.Facts

variable (m : (ℓ : Loc nD τ sig) → Buf (Elt Ideal) ℓ) (ρ : Dev nD → PrngReg)

theorem W0_main_arg16 (c : Dev nD) : W0 m ρ c (Proc.devRef .tc main_arg16) = (m ((c : Thread nD τ).loc main_arg16)) := rfl

theorem W1_main_arg16 (c : Dev nD) : W1 m ρ c (Proc.devRef .tc main_arg16) = (m ((c : Thread nD τ).loc main_arg16)) :=
  (show StableHlo.after hostOps0 (W0 m ρ c) (Proc.devRef .tc main_arg16) = W0 m ρ c (Proc.devRef .tc main_arg16) by after_results).trans (W0_main_arg16 m ρ c)

theorem W2_main_arg16 (c : Dev nD) : W2 m ρ c (Proc.devRef .tc main_arg16) = (m ((c : Thread nD τ).loc main_arg16)) :=
  (W2_of_ne m ρ c main_arg16 (by decide)).trans (W1_main_arg16 m ρ c)

theorem W3_main_arg16 (c : Dev nD) : W3 m ρ c (Proc.devRef .tc main_arg16) = (m ((c : Thread nD τ).loc main_arg16)) :=
  (show StableHlo.after hostOps1 (W2 m ρ c) (Proc.devRef .tc main_arg16) = W2 m ρ c (Proc.devRef .tc main_arg16) by after_results).trans (W2_main_arg16 m ρ c)

theorem W4_main_arg16 (c : Dev nD) : W4 m ρ c (Proc.devRef .tc main_arg16) = (m ((c : Thread nD τ).loc main_arg16)) :=
  (W4_of_ne m ρ c main_arg16 (by decide)).trans (W3_main_arg16 m ρ c)

theorem W5_main_arg16 (c : Dev nD) : W5 m ρ c (Proc.devRef .tc main_arg16) = (m ((c : Thread nD τ).loc main_arg16)) :=
  (show StableHlo.after hostOps2 (W4 m ρ c) (Proc.devRef .tc main_arg16) = W4 m ρ c (Proc.devRef .tc main_arg16) by after_results).trans (W4_main_arg16 m ρ c)

theorem W6_main_arg16 (c : Dev nD) : W6 m ρ c (Proc.devRef .tc main_arg16) = (m ((c : Thread nD τ).loc main_arg16)) :=
  (W6_of_ne m ρ c main_arg16 (by decide)).trans (W5_main_arg16 m ρ c)

theorem W7_main_arg16 (c : Dev nD) : W7 m ρ c (Proc.devRef .tc main_arg16) = (m ((c : Thread nD τ).loc main_arg16)) :=
  (show StableHlo.after hostOps3 (W6 m ρ c) (Proc.devRef .tc main_arg16) = W6 m ρ c (Proc.devRef .tc main_arg16) by after_results).trans (W6_main_arg16 m ρ c)

theorem W8_main_arg16 (c : Dev nD) : W8 m ρ c (Proc.devRef .tc main_arg16) = (m ((c : Thread nD τ).loc main_arg16)) :=
  (W8_of_ne m ρ c main_arg16 (by decide)).trans (W7_main_arg16 m ρ c)

theorem W9_main_arg16 (c : Dev nD) : W9 m ρ c (Proc.devRef .tc main_arg16) = (m ((c : Thread nD τ).loc main_arg16)) :=
  (show StableHlo.after hostOps4 (W8 m ρ c) (Proc.devRef .tc main_arg16) = W8 m ρ c (Proc.devRef .tc main_arg16) by after_results).trans (W8_main_arg16 m ρ c)

theorem W10_main_arg16 (c : Dev nD) : W10 m ρ c (Proc.devRef .tc main_arg16) = (m ((c : Thread nD τ).loc main_arg16)) :=
  (W10_of_ne m ρ c main_arg16 (by decide)).trans (W9_main_arg16 m ρ c)

theorem W11_main_arg16 (c : Dev nD) : W11 m ρ c (Proc.devRef .tc main_arg16) = (m ((c : Thread nD τ).loc main_arg16)) :=
  (show StableHlo.after hostOps5 (W10 m ρ c) (Proc.devRef .tc main_arg16) = W10 m ρ c (Proc.devRef .tc main_arg16) by after_results).trans (W10_main_arg16 m ρ c)

theorem W12_main_arg16 (c : Dev nD) : W12 m ρ c (Proc.devRef .tc main_arg16) = (m ((c : Thread nD τ).loc main_arg16)) :=
  (W12_of_ne m ρ c main_arg16 (by decide)).trans (W11_main_arg16 m ρ c)

theorem W13_main_arg16 (c : Dev nD) : W13 m ρ c (Proc.devRef .tc main_arg16) = (m ((c : Thread nD τ).loc main_arg16)) :=
  (show StableHlo.after hostOps6 (W12 m ρ c) (Proc.devRef .tc main_arg16) = W12 m ρ c (Proc.devRef .tc main_arg16) by after_results).trans (W12_main_arg16 m ρ c)

theorem W14_main_arg16 (c : Dev nD) : W14 m ρ c (Proc.devRef .tc main_arg16) = (m ((c : Thread nD τ).loc main_arg16)) :=
  (W14_of_ne m ρ c main_arg16 (by decide)).trans (W13_main_arg16 m ρ c)

theorem W0_main_arg17 (c : Dev nD) : W0 m ρ c (Proc.devRef .tc main_arg17) = (m ((c : Thread nD τ).loc main_arg17)) := rfl

theorem W1_main_arg17 (c : Dev nD) : W1 m ρ c (Proc.devRef .tc main_arg17) = (m ((c : Thread nD τ).loc main_arg17)) :=
  (show StableHlo.after hostOps0 (W0 m ρ c) (Proc.devRef .tc main_arg17) = W0 m ρ c (Proc.devRef .tc main_arg17) by after_results).trans (W0_main_arg17 m ρ c)

theorem W2_main_arg17 (c : Dev nD) : W2 m ρ c (Proc.devRef .tc main_arg17) = (m ((c : Thread nD τ).loc main_arg17)) :=
  (W2_of_ne m ρ c main_arg17 (by decide)).trans (W1_main_arg17 m ρ c)

theorem W3_main_arg17 (c : Dev nD) : W3 m ρ c (Proc.devRef .tc main_arg17) = (m ((c : Thread nD τ).loc main_arg17)) :=
  (show StableHlo.after hostOps1 (W2 m ρ c) (Proc.devRef .tc main_arg17) = W2 m ρ c (Proc.devRef .tc main_arg17) by after_results).trans (W2_main_arg17 m ρ c)

theorem W4_main_arg17 (c : Dev nD) : W4 m ρ c (Proc.devRef .tc main_arg17) = (m ((c : Thread nD τ).loc main_arg17)) :=
  (W4_of_ne m ρ c main_arg17 (by decide)).trans (W3_main_arg17 m ρ c)

theorem W5_main_arg17 (c : Dev nD) : W5 m ρ c (Proc.devRef .tc main_arg17) = (m ((c : Thread nD τ).loc main_arg17)) :=
  (show StableHlo.after hostOps2 (W4 m ρ c) (Proc.devRef .tc main_arg17) = W4 m ρ c (Proc.devRef .tc main_arg17) by after_results).trans (W4_main_arg17 m ρ c)

theorem W6_main_arg17 (c : Dev nD) : W6 m ρ c (Proc.devRef .tc main_arg17) = (m ((c : Thread nD τ).loc main_arg17)) :=
  (W6_of_ne m ρ c main_arg17 (by decide)).trans (W5_main_arg17 m ρ c)

theorem W7_main_arg17 (c : Dev nD) : W7 m ρ c (Proc.devRef .tc main_arg17) = (m ((c : Thread nD τ).loc main_arg17)) :=
  (show StableHlo.after hostOps3 (W6 m ρ c) (Proc.devRef .tc main_arg17) = W6 m ρ c (Proc.devRef .tc main_arg17) by after_results).trans (W6_main_arg17 m ρ c)

theorem W8_main_arg17 (c : Dev nD) : W8 m ρ c (Proc.devRef .tc main_arg17) = (m ((c : Thread nD τ).loc main_arg17)) :=
  (W8_of_ne m ρ c main_arg17 (by decide)).trans (W7_main_arg17 m ρ c)

theorem W9_main_arg17 (c : Dev nD) : W9 m ρ c (Proc.devRef .tc main_arg17) = (m ((c : Thread nD τ).loc main_arg17)) :=
  (show StableHlo.after hostOps4 (W8 m ρ c) (Proc.devRef .tc main_arg17) = W8 m ρ c (Proc.devRef .tc main_arg17) by after_results).trans (W8_main_arg17 m ρ c)

theorem W10_main_arg17 (c : Dev nD) : W10 m ρ c (Proc.devRef .tc main_arg17) = (m ((c : Thread nD τ).loc main_arg17)) :=
  (W10_of_ne m ρ c main_arg17 (by decide)).trans (W9_main_arg17 m ρ c)

theorem W11_main_arg17 (c : Dev nD) : W11 m ρ c (Proc.devRef .tc main_arg17) = (m ((c : Thread nD τ).loc main_arg17)) :=
  (show StableHlo.after hostOps5 (W10 m ρ c) (Proc.devRef .tc main_arg17) = W10 m ρ c (Proc.devRef .tc main_arg17) by after_results).trans (W10_main_arg17 m ρ c)

theorem W12_main_arg17 (c : Dev nD) : W12 m ρ c (Proc.devRef .tc main_arg17) = (m ((c : Thread nD τ).loc main_arg17)) :=
  (W12_of_ne m ρ c main_arg17 (by decide)).trans (W11_main_arg17 m ρ c)

theorem W13_main_arg17 (c : Dev nD) : W13 m ρ c (Proc.devRef .tc main_arg17) = (m ((c : Thread nD τ).loc main_arg17)) :=
  (show StableHlo.after hostOps6 (W12 m ρ c) (Proc.devRef .tc main_arg17) = W12 m ρ c (Proc.devRef .tc main_arg17) by after_results).trans (W12_main_arg17 m ρ c)

theorem W14_main_arg17 (c : Dev nD) : W14 m ρ c (Proc.devRef .tc main_arg17) = (m ((c : Thread nD τ).loc main_arg17)) :=
  (W14_of_ne m ρ c main_arg17 (by decide)).trans (W13_main_arg17 m ρ c)

theorem W0_main_arg18 (c : Dev nD) : W0 m ρ c (Proc.devRef .tc main_arg18) = (m ((c : Thread nD τ).loc main_arg18)) := rfl

theorem W1_main_arg18 (c : Dev nD) : W1 m ρ c (Proc.devRef .tc main_arg18) = (m ((c : Thread nD τ).loc main_arg18)) :=
  (show StableHlo.after hostOps0 (W0 m ρ c) (Proc.devRef .tc main_arg18) = W0 m ρ c (Proc.devRef .tc main_arg18) by after_results).trans (W0_main_arg18 m ρ c)

theorem W2_main_arg18 (c : Dev nD) : W2 m ρ c (Proc.devRef .tc main_arg18) = (m ((c : Thread nD τ).loc main_arg18)) :=
  (W2_of_ne m ρ c main_arg18 (by decide)).trans (W1_main_arg18 m ρ c)

theorem W3_main_arg18 (c : Dev nD) : W3 m ρ c (Proc.devRef .tc main_arg18) = (m ((c : Thread nD τ).loc main_arg18)) :=
  (show StableHlo.after hostOps1 (W2 m ρ c) (Proc.devRef .tc main_arg18) = W2 m ρ c (Proc.devRef .tc main_arg18) by after_results).trans (W2_main_arg18 m ρ c)

theorem W4_main_arg18 (c : Dev nD) : W4 m ρ c (Proc.devRef .tc main_arg18) = (m ((c : Thread nD τ).loc main_arg18)) :=
  (W4_of_ne m ρ c main_arg18 (by decide)).trans (W3_main_arg18 m ρ c)

theorem W5_main_arg18 (c : Dev nD) : W5 m ρ c (Proc.devRef .tc main_arg18) = (m ((c : Thread nD τ).loc main_arg18)) :=
  (show StableHlo.after hostOps2 (W4 m ρ c) (Proc.devRef .tc main_arg18) = W4 m ρ c (Proc.devRef .tc main_arg18) by after_results).trans (W4_main_arg18 m ρ c)

theorem W6_main_arg18 (c : Dev nD) : W6 m ρ c (Proc.devRef .tc main_arg18) = (m ((c : Thread nD τ).loc main_arg18)) :=
  (W6_of_ne m ρ c main_arg18 (by decide)).trans (W5_main_arg18 m ρ c)

theorem W7_main_arg18 (c : Dev nD) : W7 m ρ c (Proc.devRef .tc main_arg18) = (m ((c : Thread nD τ).loc main_arg18)) :=
  (show StableHlo.after hostOps3 (W6 m ρ c) (Proc.devRef .tc main_arg18) = W6 m ρ c (Proc.devRef .tc main_arg18) by after_results).trans (W6_main_arg18 m ρ c)

theorem W8_main_arg18 (c : Dev nD) : W8 m ρ c (Proc.devRef .tc main_arg18) = (m ((c : Thread nD τ).loc main_arg18)) :=
  (W8_of_ne m ρ c main_arg18 (by decide)).trans (W7_main_arg18 m ρ c)

theorem W9_main_arg18 (c : Dev nD) : W9 m ρ c (Proc.devRef .tc main_arg18) = (m ((c : Thread nD τ).loc main_arg18)) :=
  (show StableHlo.after hostOps4 (W8 m ρ c) (Proc.devRef .tc main_arg18) = W8 m ρ c (Proc.devRef .tc main_arg18) by after_results).trans (W8_main_arg18 m ρ c)

theorem W10_main_arg18 (c : Dev nD) : W10 m ρ c (Proc.devRef .tc main_arg18) = (m ((c : Thread nD τ).loc main_arg18)) :=
  (W10_of_ne m ρ c main_arg18 (by decide)).trans (W9_main_arg18 m ρ c)

theorem W11_main_arg18 (c : Dev nD) : W11 m ρ c (Proc.devRef .tc main_arg18) = (m ((c : Thread nD τ).loc main_arg18)) :=
  (show StableHlo.after hostOps5 (W10 m ρ c) (Proc.devRef .tc main_arg18) = W10 m ρ c (Proc.devRef .tc main_arg18) by after_results).trans (W10_main_arg18 m ρ c)

theorem W12_main_arg18 (c : Dev nD) : W12 m ρ c (Proc.devRef .tc main_arg18) = (m ((c : Thread nD τ).loc main_arg18)) :=
  (W12_of_ne m ρ c main_arg18 (by decide)).trans (W11_main_arg18 m ρ c)

theorem W13_main_arg18 (c : Dev nD) : W13 m ρ c (Proc.devRef .tc main_arg18) = (m ((c : Thread nD τ).loc main_arg18)) :=
  (show StableHlo.after hostOps6 (W12 m ρ c) (Proc.devRef .tc main_arg18) = W12 m ρ c (Proc.devRef .tc main_arg18) by after_results).trans (W12_main_arg18 m ρ c)

theorem W14_main_arg18 (c : Dev nD) : W14 m ρ c (Proc.devRef .tc main_arg18) = (m ((c : Thread nD τ).loc main_arg18)) :=
  (W14_of_ne m ρ c main_arg18 (by decide)).trans (W13_main_arg18 m ρ c)

theorem W15_main_arg18 (c : Dev nD) : W15 m ρ c (Proc.devRef .tc main_arg18) = (m ((c : Thread nD τ).loc main_arg18)) :=
  (show StableHlo.after hostOps7 (W14 m ρ c) (Proc.devRef .tc main_arg18) = W14 m ρ c (Proc.devRef .tc main_arg18) by after_results).trans (W14_main_arg18 m ρ c)

theorem W16_main_arg18 (c : Dev nD) : W16 m ρ c (Proc.devRef .tc main_arg18) = (m ((c : Thread nD τ).loc main_arg18)) :=
  (W16_of_ne m ρ c main_arg18 (by decide)).trans (W15_main_arg18 m ρ c)

theorem W17_main_arg18 (c : Dev nD) : W17 m ρ c (Proc.devRef .tc main_arg18) = (m ((c : Thread nD τ).loc main_arg18)) :=
  (show StableHlo.after hostOps8 (W16 m ρ c) (Proc.devRef .tc main_arg18) = W16 m ρ c (Proc.devRef .tc main_arg18) by after_results).trans (W16_main_arg18 m ρ c)

theorem W0_main_arg19 (c : Dev nD) : W0 m ρ c (Proc.devRef .tc main_arg19) = (m ((c : Thread nD τ).loc main_arg19)) := rfl

theorem W1_main_arg19 (c : Dev nD) : W1 m ρ c (Proc.devRef .tc main_arg19) = (m ((c : Thread nD τ).loc main_arg19)) :=
  (show StableHlo.after hostOps0 (W0 m ρ c) (Proc.devRef .tc main_arg19) = W0 m ρ c (Proc.devRef .tc main_arg19) by after_results).trans (W0_main_arg19 m ρ c)

theorem W2_main_arg19 (c : Dev nD) : W2 m ρ c (Proc.devRef .tc main_arg19) = (m ((c : Thread nD τ).loc main_arg19)) :=
  (W2_of_ne m ρ c main_arg19 (by decide)).trans (W1_main_arg19 m ρ c)

theorem W3_main_arg19 (c : Dev nD) : W3 m ρ c (Proc.devRef .tc main_arg19) = (m ((c : Thread nD τ).loc main_arg19)) :=
  (show StableHlo.after hostOps1 (W2 m ρ c) (Proc.devRef .tc main_arg19) = W2 m ρ c (Proc.devRef .tc main_arg19) by after_results).trans (W2_main_arg19 m ρ c)

theorem W4_main_arg19 (c : Dev nD) : W4 m ρ c (Proc.devRef .tc main_arg19) = (m ((c : Thread nD τ).loc main_arg19)) :=
  (W4_of_ne m ρ c main_arg19 (by decide)).trans (W3_main_arg19 m ρ c)

theorem W5_main_arg19 (c : Dev nD) : W5 m ρ c (Proc.devRef .tc main_arg19) = (m ((c : Thread nD τ).loc main_arg19)) :=
  (show StableHlo.after hostOps2 (W4 m ρ c) (Proc.devRef .tc main_arg19) = W4 m ρ c (Proc.devRef .tc main_arg19) by after_results).trans (W4_main_arg19 m ρ c)

theorem W6_main_arg19 (c : Dev nD) : W6 m ρ c (Proc.devRef .tc main_arg19) = (m ((c : Thread nD τ).loc main_arg19)) :=
  (W6_of_ne m ρ c main_arg19 (by decide)).trans (W5_main_arg19 m ρ c)

theorem W7_main_arg19 (c : Dev nD) : W7 m ρ c (Proc.devRef .tc main_arg19) = (m ((c : Thread nD τ).loc main_arg19)) :=
  (show StableHlo.after hostOps3 (W6 m ρ c) (Proc.devRef .tc main_arg19) = W6 m ρ c (Proc.devRef .tc main_arg19) by after_results).trans (W6_main_arg19 m ρ c)

theorem W8_main_arg19 (c : Dev nD) : W8 m ρ c (Proc.devRef .tc main_arg19) = (m ((c : Thread nD τ).loc main_arg19)) :=
  (W8_of_ne m ρ c main_arg19 (by decide)).trans (W7_main_arg19 m ρ c)

theorem W9_main_arg19 (c : Dev nD) : W9 m ρ c (Proc.devRef .tc main_arg19) = (m ((c : Thread nD τ).loc main_arg19)) :=
  (show StableHlo.after hostOps4 (W8 m ρ c) (Proc.devRef .tc main_arg19) = W8 m ρ c (Proc.devRef .tc main_arg19) by after_results).trans (W8_main_arg19 m ρ c)

theorem W10_main_arg19 (c : Dev nD) : W10 m ρ c (Proc.devRef .tc main_arg19) = (m ((c : Thread nD τ).loc main_arg19)) :=
  (W10_of_ne m ρ c main_arg19 (by decide)).trans (W9_main_arg19 m ρ c)

theorem W11_main_arg19 (c : Dev nD) : W11 m ρ c (Proc.devRef .tc main_arg19) = (m ((c : Thread nD τ).loc main_arg19)) :=
  (show StableHlo.after hostOps5 (W10 m ρ c) (Proc.devRef .tc main_arg19) = W10 m ρ c (Proc.devRef .tc main_arg19) by after_results).trans (W10_main_arg19 m ρ c)

theorem W12_main_arg19 (c : Dev nD) : W12 m ρ c (Proc.devRef .tc main_arg19) = (m ((c : Thread nD τ).loc main_arg19)) :=
  (W12_of_ne m ρ c main_arg19 (by decide)).trans (W11_main_arg19 m ρ c)

theorem W13_main_arg19 (c : Dev nD) : W13 m ρ c (Proc.devRef .tc main_arg19) = (m ((c : Thread nD τ).loc main_arg19)) :=
  (show StableHlo.after hostOps6 (W12 m ρ c) (Proc.devRef .tc main_arg19) = W12 m ρ c (Proc.devRef .tc main_arg19) by after_results).trans (W12_main_arg19 m ρ c)

theorem W14_main_arg19 (c : Dev nD) : W14 m ρ c (Proc.devRef .tc main_arg19) = (m ((c : Thread nD τ).loc main_arg19)) :=
  (W14_of_ne m ρ c main_arg19 (by decide)).trans (W13_main_arg19 m ρ c)

theorem W15_main_arg19 (c : Dev nD) : W15 m ρ c (Proc.devRef .tc main_arg19) = (m ((c : Thread nD τ).loc main_arg19)) :=
  (show StableHlo.after hostOps7 (W14 m ρ c) (Proc.devRef .tc main_arg19) = W14 m ρ c (Proc.devRef .tc main_arg19) by after_results).trans (W14_main_arg19 m ρ c)

theorem W16_main_arg19 (c : Dev nD) : W16 m ρ c (Proc.devRef .tc main_arg19) = (m ((c : Thread nD τ).loc main_arg19)) :=
  (W16_of_ne m ρ c main_arg19 (by decide)).trans (W15_main_arg19 m ρ c)

theorem W0_main_arg20 (c : Dev nD) : W0 m ρ c (Proc.devRef .tc main_arg20) = (m ((c : Thread nD τ).loc main_arg20)) := rfl

theorem W1_main_arg20 (c : Dev nD) : W1 m ρ c (Proc.devRef .tc main_arg20) = (m ((c : Thread nD τ).loc main_arg20)) :=
  (show StableHlo.after hostOps0 (W0 m ρ c) (Proc.devRef .tc main_arg20) = W0 m ρ c (Proc.devRef .tc main_arg20) by after_results).trans (W0_main_arg20 m ρ c)

theorem W2_main_arg20 (c : Dev nD) : W2 m ρ c (Proc.devRef .tc main_arg20) = (m ((c : Thread nD τ).loc main_arg20)) :=
  (W2_of_ne m ρ c main_arg20 (by decide)).trans (W1_main_arg20 m ρ c)

theorem W3_main_arg20 (c : Dev nD) : W3 m ρ c (Proc.devRef .tc main_arg20) = (m ((c : Thread nD τ).loc main_arg20)) :=
  (show StableHlo.after hostOps1 (W2 m ρ c) (Proc.devRef .tc main_arg20) = W2 m ρ c (Proc.devRef .tc main_arg20) by after_results).trans (W2_main_arg20 m ρ c)

theorem W4_main_arg20 (c : Dev nD) : W4 m ρ c (Proc.devRef .tc main_arg20) = (m ((c : Thread nD τ).loc main_arg20)) :=
  (W4_of_ne m ρ c main_arg20 (by decide)).trans (W3_main_arg20 m ρ c)

theorem W5_main_arg20 (c : Dev nD) : W5 m ρ c (Proc.devRef .tc main_arg20) = (m ((c : Thread nD τ).loc main_arg20)) :=
  (show StableHlo.after hostOps2 (W4 m ρ c) (Proc.devRef .tc main_arg20) = W4 m ρ c (Proc.devRef .tc main_arg20) by after_results).trans (W4_main_arg20 m ρ c)

theorem W6_main_arg20 (c : Dev nD) : W6 m ρ c (Proc.devRef .tc main_arg20) = (m ((c : Thread nD τ).loc main_arg20)) :=
  (W6_of_ne m ρ c main_arg20 (by decide)).trans (W5_main_arg20 m ρ c)

theorem W7_main_arg20 (c : Dev nD) : W7 m ρ c (Proc.devRef .tc main_arg20) = (m ((c : Thread nD τ).loc main_arg20)) :=
  (show StableHlo.after hostOps3 (W6 m ρ c) (Proc.devRef .tc main_arg20) = W6 m ρ c (Proc.devRef .tc main_arg20) by after_results).trans (W6_main_arg20 m ρ c)

theorem W8_main_arg20 (c : Dev nD) : W8 m ρ c (Proc.devRef .tc main_arg20) = (m ((c : Thread nD τ).loc main_arg20)) :=
  (W8_of_ne m ρ c main_arg20 (by decide)).trans (W7_main_arg20 m ρ c)

theorem W9_main_arg20 (c : Dev nD) : W9 m ρ c (Proc.devRef .tc main_arg20) = (m ((c : Thread nD τ).loc main_arg20)) :=
  (show StableHlo.after hostOps4 (W8 m ρ c) (Proc.devRef .tc main_arg20) = W8 m ρ c (Proc.devRef .tc main_arg20) by after_results).trans (W8_main_arg20 m ρ c)

theorem W10_main_arg20 (c : Dev nD) : W10 m ρ c (Proc.devRef .tc main_arg20) = (m ((c : Thread nD τ).loc main_arg20)) :=
  (W10_of_ne m ρ c main_arg20 (by decide)).trans (W9_main_arg20 m ρ c)

theorem W11_main_arg20 (c : Dev nD) : W11 m ρ c (Proc.devRef .tc main_arg20) = (m ((c : Thread nD τ).loc main_arg20)) :=
  (show StableHlo.after hostOps5 (W10 m ρ c) (Proc.devRef .tc main_arg20) = W10 m ρ c (Proc.devRef .tc main_arg20) by after_results).trans (W10_main_arg20 m ρ c)

theorem W12_main_arg20 (c : Dev nD) : W12 m ρ c (Proc.devRef .tc main_arg20) = (m ((c : Thread nD τ).loc main_arg20)) :=
  (W12_of_ne m ρ c main_arg20 (by decide)).trans (W11_main_arg20 m ρ c)

theorem W13_main_arg20 (c : Dev nD) : W13 m ρ c (Proc.devRef .tc main_arg20) = (m ((c : Thread nD τ).loc main_arg20)) :=
  (show StableHlo.after hostOps6 (W12 m ρ c) (Proc.devRef .tc main_arg20) = W12 m ρ c (Proc.devRef .tc main_arg20) by after_results).trans (W12_main_arg20 m ρ c)

theorem W14_main_arg20 (c : Dev nD) : W14 m ρ c (Proc.devRef .tc main_arg20) = (m ((c : Thread nD τ).loc main_arg20)) :=
  (W14_of_ne m ρ c main_arg20 (by decide)).trans (W13_main_arg20 m ρ c)

theorem W15_main_arg20 (c : Dev nD) : W15 m ρ c (Proc.devRef .tc main_arg20) = (m ((c : Thread nD τ).loc main_arg20)) :=
  (show StableHlo.after hostOps7 (W14 m ρ c) (Proc.devRef .tc main_arg20) = W14 m ρ c (Proc.devRef .tc main_arg20) by after_results).trans (W14_main_arg20 m ρ c)

theorem W16_main_arg20 (c : Dev nD) : W16 m ρ c (Proc.devRef .tc main_arg20) = (m ((c : Thread nD τ).loc main_arg20)) :=
  (W16_of_ne m ρ c main_arg20 (by decide)).trans (W15_main_arg20 m ρ c)

theorem W0_main_arg21 (c : Dev nD) : W0 m ρ c (Proc.devRef .tc main_arg21) = (m ((c : Thread nD τ).loc main_arg21)) := rfl

theorem W1_main_arg21 (c : Dev nD) : W1 m ρ c (Proc.devRef .tc main_arg21) = (m ((c : Thread nD τ).loc main_arg21)) :=
  (show StableHlo.after hostOps0 (W0 m ρ c) (Proc.devRef .tc main_arg21) = W0 m ρ c (Proc.devRef .tc main_arg21) by after_results).trans (W0_main_arg21 m ρ c)

theorem W2_main_arg21 (c : Dev nD) : W2 m ρ c (Proc.devRef .tc main_arg21) = (m ((c : Thread nD τ).loc main_arg21)) :=
  (W2_of_ne m ρ c main_arg21 (by decide)).trans (W1_main_arg21 m ρ c)

theorem W3_main_arg21 (c : Dev nD) : W3 m ρ c (Proc.devRef .tc main_arg21) = (m ((c : Thread nD τ).loc main_arg21)) :=
  (show StableHlo.after hostOps1 (W2 m ρ c) (Proc.devRef .tc main_arg21) = W2 m ρ c (Proc.devRef .tc main_arg21) by after_results).trans (W2_main_arg21 m ρ c)

theorem W4_main_arg21 (c : Dev nD) : W4 m ρ c (Proc.devRef .tc main_arg21) = (m ((c : Thread nD τ).loc main_arg21)) :=
  (W4_of_ne m ρ c main_arg21 (by decide)).trans (W3_main_arg21 m ρ c)

theorem W5_main_arg21 (c : Dev nD) : W5 m ρ c (Proc.devRef .tc main_arg21) = (m ((c : Thread nD τ).loc main_arg21)) :=
  (show StableHlo.after hostOps2 (W4 m ρ c) (Proc.devRef .tc main_arg21) = W4 m ρ c (Proc.devRef .tc main_arg21) by after_results).trans (W4_main_arg21 m ρ c)

theorem W6_main_arg21 (c : Dev nD) : W6 m ρ c (Proc.devRef .tc main_arg21) = (m ((c : Thread nD τ).loc main_arg21)) :=
  (W6_of_ne m ρ c main_arg21 (by decide)).trans (W5_main_arg21 m ρ c)

theorem W7_main_arg21 (c : Dev nD) : W7 m ρ c (Proc.devRef .tc main_arg21) = (m ((c : Thread nD τ).loc main_arg21)) :=
  (show StableHlo.after hostOps3 (W6 m ρ c) (Proc.devRef .tc main_arg21) = W6 m ρ c (Proc.devRef .tc main_arg21) by after_results).trans (W6_main_arg21 m ρ c)

theorem W8_main_arg21 (c : Dev nD) : W8 m ρ c (Proc.devRef .tc main_arg21) = (m ((c : Thread nD τ).loc main_arg21)) :=
  (W8_of_ne m ρ c main_arg21 (by decide)).trans (W7_main_arg21 m ρ c)

theorem W9_main_arg21 (c : Dev nD) : W9 m ρ c (Proc.devRef .tc main_arg21) = (m ((c : Thread nD τ).loc main_arg21)) :=
  (show StableHlo.after hostOps4 (W8 m ρ c) (Proc.devRef .tc main_arg21) = W8 m ρ c (Proc.devRef .tc main_arg21) by after_results).trans (W8_main_arg21 m ρ c)

theorem W10_main_arg21 (c : Dev nD) : W10 m ρ c (Proc.devRef .tc main_arg21) = (m ((c : Thread nD τ).loc main_arg21)) :=
  (W10_of_ne m ρ c main_arg21 (by decide)).trans (W9_main_arg21 m ρ c)

theorem W11_main_arg21 (c : Dev nD) : W11 m ρ c (Proc.devRef .tc main_arg21) = (m ((c : Thread nD τ).loc main_arg21)) :=
  (show StableHlo.after hostOps5 (W10 m ρ c) (Proc.devRef .tc main_arg21) = W10 m ρ c (Proc.devRef .tc main_arg21) by after_results).trans (W10_main_arg21 m ρ c)

theorem W12_main_arg21 (c : Dev nD) : W12 m ρ c (Proc.devRef .tc main_arg21) = (m ((c : Thread nD τ).loc main_arg21)) :=
  (W12_of_ne m ρ c main_arg21 (by decide)).trans (W11_main_arg21 m ρ c)

theorem W13_main_arg21 (c : Dev nD) : W13 m ρ c (Proc.devRef .tc main_arg21) = (m ((c : Thread nD τ).loc main_arg21)) :=
  (show StableHlo.after hostOps6 (W12 m ρ c) (Proc.devRef .tc main_arg21) = W12 m ρ c (Proc.devRef .tc main_arg21) by after_results).trans (W12_main_arg21 m ρ c)

theorem W14_main_arg21 (c : Dev nD) : W14 m ρ c (Proc.devRef .tc main_arg21) = (m ((c : Thread nD τ).loc main_arg21)) :=
  (W14_of_ne m ρ c main_arg21 (by decide)).trans (W13_main_arg21 m ρ c)

theorem W15_main_arg21 (c : Dev nD) : W15 m ρ c (Proc.devRef .tc main_arg21) = (m ((c : Thread nD τ).loc main_arg21)) :=
  (show StableHlo.after hostOps7 (W14 m ρ c) (Proc.devRef .tc main_arg21) = W14 m ρ c (Proc.devRef .tc main_arg21) by after_results).trans (W14_main_arg21 m ρ c)

theorem W16_main_arg21 (c : Dev nD) : W16 m ρ c (Proc.devRef .tc main_arg21) = (m ((c : Thread nD τ).loc main_arg21)) :=
  (W16_of_ne m ρ c main_arg21 (by decide)).trans (W15_main_arg21 m ρ c)

theorem W0_main_arg22 (c : Dev nD) : W0 m ρ c (Proc.devRef .tc main_arg22) = (m ((c : Thread nD τ).loc main_arg22)) := rfl

theorem W1_main_arg22 (c : Dev nD) : W1 m ρ c (Proc.devRef .tc main_arg22) = (m ((c : Thread nD τ).loc main_arg22)) :=
  (show StableHlo.after hostOps0 (W0 m ρ c) (Proc.devRef .tc main_arg22) = W0 m ρ c (Proc.devRef .tc main_arg22) by after_results).trans (W0_main_arg22 m ρ c)

theorem W2_main_arg22 (c : Dev nD) : W2 m ρ c (Proc.devRef .tc main_arg22) = (m ((c : Thread nD τ).loc main_arg22)) :=
  (W2_of_ne m ρ c main_arg22 (by decide)).trans (W1_main_arg22 m ρ c)

theorem W3_main_arg22 (c : Dev nD) : W3 m ρ c (Proc.devRef .tc main_arg22) = (m ((c : Thread nD τ).loc main_arg22)) :=
  (show StableHlo.after hostOps1 (W2 m ρ c) (Proc.devRef .tc main_arg22) = W2 m ρ c (Proc.devRef .tc main_arg22) by after_results).trans (W2_main_arg22 m ρ c)

theorem W4_main_arg22 (c : Dev nD) : W4 m ρ c (Proc.devRef .tc main_arg22) = (m ((c : Thread nD τ).loc main_arg22)) :=
  (W4_of_ne m ρ c main_arg22 (by decide)).trans (W3_main_arg22 m ρ c)

theorem W5_main_arg22 (c : Dev nD) : W5 m ρ c (Proc.devRef .tc main_arg22) = (m ((c : Thread nD τ).loc main_arg22)) :=
  (show StableHlo.after hostOps2 (W4 m ρ c) (Proc.devRef .tc main_arg22) = W4 m ρ c (Proc.devRef .tc main_arg22) by after_results).trans (W4_main_arg22 m ρ c)

theorem W6_main_arg22 (c : Dev nD) : W6 m ρ c (Proc.devRef .tc main_arg22) = (m ((c : Thread nD τ).loc main_arg22)) :=
  (W6_of_ne m ρ c main_arg22 (by decide)).trans (W5_main_arg22 m ρ c)

theorem W7_main_arg22 (c : Dev nD) : W7 m ρ c (Proc.devRef .tc main_arg22) = (m ((c : Thread nD τ).loc main_arg22)) :=
  (show StableHlo.after hostOps3 (W6 m ρ c) (Proc.devRef .tc main_arg22) = W6 m ρ c (Proc.devRef .tc main_arg22) by after_results).trans (W6_main_arg22 m ρ c)

theorem W8_main_arg22 (c : Dev nD) : W8 m ρ c (Proc.devRef .tc main_arg22) = (m ((c : Thread nD τ).loc main_arg22)) :=
  (W8_of_ne m ρ c main_arg22 (by decide)).trans (W7_main_arg22 m ρ c)

theorem W9_main_arg22 (c : Dev nD) : W9 m ρ c (Proc.devRef .tc main_arg22) = (m ((c : Thread nD τ).loc main_arg22)) :=
  (show StableHlo.after hostOps4 (W8 m ρ c) (Proc.devRef .tc main_arg22) = W8 m ρ c (Proc.devRef .tc main_arg22) by after_results).trans (W8_main_arg22 m ρ c)

theorem W10_main_arg22 (c : Dev nD) : W10 m ρ c (Proc.devRef .tc main_arg22) = (m ((c : Thread nD τ).loc main_arg22)) :=
  (W10_of_ne m ρ c main_arg22 (by decide)).trans (W9_main_arg22 m ρ c)

theorem W11_main_arg22 (c : Dev nD) : W11 m ρ c (Proc.devRef .tc main_arg22) = (m ((c : Thread nD τ).loc main_arg22)) :=
  (show StableHlo.after hostOps5 (W10 m ρ c) (Proc.devRef .tc main_arg22) = W10 m ρ c (Proc.devRef .tc main_arg22) by after_results).trans (W10_main_arg22 m ρ c)

theorem W12_main_arg22 (c : Dev nD) : W12 m ρ c (Proc.devRef .tc main_arg22) = (m ((c : Thread nD τ).loc main_arg22)) :=
  (W12_of_ne m ρ c main_arg22 (by decide)).trans (W11_main_arg22 m ρ c)

theorem W13_main_arg22 (c : Dev nD) : W13 m ρ c (Proc.devRef .tc main_arg22) = (m ((c : Thread nD τ).loc main_arg22)) :=
  (show StableHlo.after hostOps6 (W12 m ρ c) (Proc.devRef .tc main_arg22) = W12 m ρ c (Proc.devRef .tc main_arg22) by after_results).trans (W12_main_arg22 m ρ c)

theorem W14_main_arg22 (c : Dev nD) : W14 m ρ c (Proc.devRef .tc main_arg22) = (m ((c : Thread nD τ).loc main_arg22)) :=
  (W14_of_ne m ρ c main_arg22 (by decide)).trans (W13_main_arg22 m ρ c)

theorem W15_main_arg22 (c : Dev nD) : W15 m ρ c (Proc.devRef .tc main_arg22) = (m ((c : Thread nD τ).loc main_arg22)) :=
  (show StableHlo.after hostOps7 (W14 m ρ c) (Proc.devRef .tc main_arg22) = W14 m ρ c (Proc.devRef .tc main_arg22) by after_results).trans (W14_main_arg22 m ρ c)

theorem W16_main_arg22 (c : Dev nD) : W16 m ρ c (Proc.devRef .tc main_arg22) = (m ((c : Thread nD τ).loc main_arg22)) :=
  (W16_of_ne m ρ c main_arg22 (by decide)).trans (W15_main_arg22 m ρ c)

theorem W0_main_arg23 (c : Dev nD) : W0 m ρ c (Proc.devRef .tc main_arg23) = (m ((c : Thread nD τ).loc main_arg23)) := rfl

theorem W1_main_arg23 (c : Dev nD) : W1 m ρ c (Proc.devRef .tc main_arg23) = (m ((c : Thread nD τ).loc main_arg23)) :=
  (show StableHlo.after hostOps0 (W0 m ρ c) (Proc.devRef .tc main_arg23) = W0 m ρ c (Proc.devRef .tc main_arg23) by after_results).trans (W0_main_arg23 m ρ c)

theorem W2_main_arg23 (c : Dev nD) : W2 m ρ c (Proc.devRef .tc main_arg23) = (m ((c : Thread nD τ).loc main_arg23)) :=
  (W2_of_ne m ρ c main_arg23 (by decide)).trans (W1_main_arg23 m ρ c)

theorem W3_main_arg23 (c : Dev nD) : W3 m ρ c (Proc.devRef .tc main_arg23) = (m ((c : Thread nD τ).loc main_arg23)) :=
  (show StableHlo.after hostOps1 (W2 m ρ c) (Proc.devRef .tc main_arg23) = W2 m ρ c (Proc.devRef .tc main_arg23) by after_results).trans (W2_main_arg23 m ρ c)

theorem W4_main_arg23 (c : Dev nD) : W4 m ρ c (Proc.devRef .tc main_arg23) = (m ((c : Thread nD τ).loc main_arg23)) :=
  (W4_of_ne m ρ c main_arg23 (by decide)).trans (W3_main_arg23 m ρ c)

theorem W5_main_arg23 (c : Dev nD) : W5 m ρ c (Proc.devRef .tc main_arg23) = (m ((c : Thread nD τ).loc main_arg23)) :=
  (show StableHlo.after hostOps2 (W4 m ρ c) (Proc.devRef .tc main_arg23) = W4 m ρ c (Proc.devRef .tc main_arg23) by after_results).trans (W4_main_arg23 m ρ c)

theorem W6_main_arg23 (c : Dev nD) : W6 m ρ c (Proc.devRef .tc main_arg23) = (m ((c : Thread nD τ).loc main_arg23)) :=
  (W6_of_ne m ρ c main_arg23 (by decide)).trans (W5_main_arg23 m ρ c)

theorem W7_main_arg23 (c : Dev nD) : W7 m ρ c (Proc.devRef .tc main_arg23) = (m ((c : Thread nD τ).loc main_arg23)) :=
  (show StableHlo.after hostOps3 (W6 m ρ c) (Proc.devRef .tc main_arg23) = W6 m ρ c (Proc.devRef .tc main_arg23) by after_results).trans (W6_main_arg23 m ρ c)

theorem W8_main_arg23 (c : Dev nD) : W8 m ρ c (Proc.devRef .tc main_arg23) = (m ((c : Thread nD τ).loc main_arg23)) :=
  (W8_of_ne m ρ c main_arg23 (by decide)).trans (W7_main_arg23 m ρ c)

theorem W9_main_arg23 (c : Dev nD) : W9 m ρ c (Proc.devRef .tc main_arg23) = (m ((c : Thread nD τ).loc main_arg23)) :=
  (show StableHlo.after hostOps4 (W8 m ρ c) (Proc.devRef .tc main_arg23) = W8 m ρ c (Proc.devRef .tc main_arg23) by after_results).trans (W8_main_arg23 m ρ c)

theorem W10_main_arg23 (c : Dev nD) : W10 m ρ c (Proc.devRef .tc main_arg23) = (m ((c : Thread nD τ).loc main_arg23)) :=
  (W10_of_ne m ρ c main_arg23 (by decide)).trans (W9_main_arg23 m ρ c)

theorem W11_main_arg23 (c : Dev nD) : W11 m ρ c (Proc.devRef .tc main_arg23) = (m ((c : Thread nD τ).loc main_arg23)) :=
  (show StableHlo.after hostOps5 (W10 m ρ c) (Proc.devRef .tc main_arg23) = W10 m ρ c (Proc.devRef .tc main_arg23) by after_results).trans (W10_main_arg23 m ρ c)

theorem W12_main_arg23 (c : Dev nD) : W12 m ρ c (Proc.devRef .tc main_arg23) = (m ((c : Thread nD τ).loc main_arg23)) :=
  (W12_of_ne m ρ c main_arg23 (by decide)).trans (W11_main_arg23 m ρ c)

theorem W13_main_arg23 (c : Dev nD) : W13 m ρ c (Proc.devRef .tc main_arg23) = (m ((c : Thread nD τ).loc main_arg23)) :=
  (show StableHlo.after hostOps6 (W12 m ρ c) (Proc.devRef .tc main_arg23) = W12 m ρ c (Proc.devRef .tc main_arg23) by after_results).trans (W12_main_arg23 m ρ c)

theorem W14_main_arg23 (c : Dev nD) : W14 m ρ c (Proc.devRef .tc main_arg23) = (m ((c : Thread nD τ).loc main_arg23)) :=
  (W14_of_ne m ρ c main_arg23 (by decide)).trans (W13_main_arg23 m ρ c)

theorem W15_main_arg23 (c : Dev nD) : W15 m ρ c (Proc.devRef .tc main_arg23) = (m ((c : Thread nD τ).loc main_arg23)) :=
  (show StableHlo.after hostOps7 (W14 m ρ c) (Proc.devRef .tc main_arg23) = W14 m ρ c (Proc.devRef .tc main_arg23) by after_results).trans (W14_main_arg23 m ρ c)

theorem W16_main_arg23 (c : Dev nD) : W16 m ρ c (Proc.devRef .tc main_arg23) = (m ((c : Thread nD τ).loc main_arg23)) :=
  (W16_of_ne m ρ c main_arg23 (by decide)).trans (W15_main_arg23 m ρ c)

end Cert.KernelIdeal.Flow

end
-- ==== Proof.KFlowArgsD.lean ====
/-
  THE ARGUMENT ARRAYS THROUGH THE RUN. No host operation and no region writes an argument array (a region reads it
  through an input window, which leaves its array as entered), so at every boundary between a host stretch and a
  region the fold of buffer contents still holds the launch contents there. One equation per boundary and argument,
  each from the boundary before.
-/
import proofs.«137501_j83021717832548_2_alg».proof.Proof.Gen.KernelIdeal.Frame
import Idealize.ShloMosaic.Lib.StableHlo.Run
import Idealize.ShloMosaic.PureOps.Ideal

set_option maxRecDepth 16384

noncomputable section

namespace Cert.KernelIdeal.Flow

open Cert.KernelIdeal Cert.KernelIdeal.Gen
open Idealize.ShloMosaic Idealize.ShloMosaic.TcCoe Idealize.ShloMosaic.StableHlo Idealize.SL.Sem
open Idealize.ShloMosaic.Pipeline (Dat)
open Cert.KernelIdeal.Facts₀ Cert.KernelIdeal.Facts

variable (m : (ℓ : Loc nD τ sig) → Buf (Elt Ideal) ℓ) (ρ : Dev nD → PrngReg)

theorem W0_main_arg24 (c : Dev nD) : W0 m ρ c (Proc.devRef .tc main_arg24) = (m ((c : Thread nD τ).loc main_arg24)) := rfl

theorem W1_main_arg24 (c : Dev nD) : W1 m ρ c (Proc.devRef .tc main_arg24) = (m ((c : Thread nD τ).loc main_arg24)) :=
  (show StableHlo.after hostOps0 (W0 m ρ c) (Proc.devRef .tc main_arg24) = W0 m ρ c (Proc.devRef .tc main_arg24) by after_results).trans (W0_main_arg24 m ρ c)

theorem W2_main_arg24 (c : Dev nD) : W2 m ρ c (Proc.devRef .tc main_arg24) = (m ((c : Thread nD τ).loc main_arg24)) :=
  (W2_of_ne m ρ c main_arg24 (by decide)).trans (W1_main_arg24 m ρ c)

theorem W3_main_arg24 (c : Dev nD) : W3 m ρ c (Proc.devRef .tc main_arg24) = (m ((c : Thread nD τ).loc main_arg24)) :=
  (show StableHlo.after hostOps1 (W2 m ρ c) (Proc.devRef .tc main_arg24) = W2 m ρ c (Proc.devRef .tc main_arg24) by after_results).trans (W2_main_arg24 m ρ c)

theorem W4_main_arg24 (c : Dev nD) : W4 m ρ c (Proc.devRef .tc main_arg24) = (m ((c : Thread nD τ).loc main_arg24)) :=
  (W4_of_ne m ρ c main_arg24 (by decide)).trans (W3_main_arg24 m ρ c)

theorem W5_main_arg24 (c : Dev nD) : W5 m ρ c (Proc.devRef .tc main_arg24) = (m ((c : Thread nD τ).loc main_arg24)) :=
  (show StableHlo.after hostOps2 (W4 m ρ c) (Proc.devRef .tc main_arg24) = W4 m ρ c (Proc.devRef .tc main_arg24) by after_results).trans (W4_main_arg24 m ρ c)

theorem W6_main_arg24 (c : Dev nD) : W6 m ρ c (Proc.devRef .tc main_arg24) = (m ((c : Thread nD τ).loc main_arg24)) :=
  (W6_of_ne m ρ c main_arg24 (by decide)).trans (W5_main_arg24 m ρ c)

theorem W7_main_arg24 (c : Dev nD) : W7 m ρ c (Proc.devRef .tc main_arg24) = (m ((c : Thread nD τ).loc main_arg24)) :=
  (show StableHlo.after hostOps3 (W6 m ρ c) (Proc.devRef .tc main_arg24) = W6 m ρ c (Proc.devRef .tc main_arg24) by after_results).trans (W6_main_arg24 m ρ c)

theorem W8_main_arg24 (c : Dev nD) : W8 m ρ c (Proc.devRef .tc main_arg24) = (m ((c : Thread nD τ).loc main_arg24)) :=
  (W8_of_ne m ρ c main_arg24 (by decide)).trans (W7_main_arg24 m ρ c)

theorem W9_main_arg24 (c : Dev nD) : W9 m ρ c (Proc.devRef .tc main_arg24) = (m ((c : Thread nD τ).loc main_arg24)) :=
  (show StableHlo.after hostOps4 (W8 m ρ c) (Proc.devRef .tc main_arg24) = W8 m ρ c (Proc.devRef .tc main_arg24) by after_results).trans (W8_main_arg24 m ρ c)

theorem W10_main_arg24 (c : Dev nD) : W10 m ρ c (Proc.devRef .tc main_arg24) = (m ((c : Thread nD τ).loc main_arg24)) :=
  (W10_of_ne m ρ c main_arg24 (by decide)).trans (W9_main_arg24 m ρ c)

theorem W11_main_arg24 (c : Dev nD) : W11 m ρ c (Proc.devRef .tc main_arg24) = (m ((c : Thread nD τ).loc main_arg24)) :=
  (show StableHlo.after hostOps5 (W10 m ρ c) (Proc.devRef .tc main_arg24) = W10 m ρ c (Proc.devRef .tc main_arg24) by after_results).trans (W10_main_arg24 m ρ c)

theorem W12_main_arg24 (c : Dev nD) : W12 m ρ c (Proc.devRef .tc main_arg24) = (m ((c : Thread nD τ).loc main_arg24)) :=
  (W12_of_ne m ρ c main_arg24 (by decide)).trans (W11_main_arg24 m ρ c)

theorem W13_main_arg24 (c : Dev nD) : W13 m ρ c (Proc.devRef .tc main_arg24) = (m ((c : Thread nD τ).loc main_arg24)) :=
  (show StableHlo.after hostOps6 (W12 m ρ c) (Proc.devRef .tc main_arg24) = W12 m ρ c (Proc.devRef .tc main_arg24) by after_results).trans (W12_main_arg24 m ρ c)

theorem W14_main_arg24 (c : Dev nD) : W14 m ρ c (Proc.devRef .tc main_arg24) = (m ((c : Thread nD τ).loc main_arg24)) :=
  (W14_of_ne m ρ c main_arg24 (by decide)).trans (W13_main_arg24 m ρ c)

theorem W15_main_arg24 (c : Dev nD) : W15 m ρ c (Proc.devRef .tc main_arg24) = (m ((c : Thread nD τ).loc main_arg24)) :=
  (show StableHlo.after hostOps7 (W14 m ρ c) (Proc.devRef .tc main_arg24) = W14 m ρ c (Proc.devRef .tc main_arg24) by after_results).trans (W14_main_arg24 m ρ c)

theorem W16_main_arg24 (c : Dev nD) : W16 m ρ c (Proc.devRef .tc main_arg24) = (m ((c : Thread nD τ).loc main_arg24)) :=
  (W16_of_ne m ρ c main_arg24 (by decide)).trans (W15_main_arg24 m ρ c)

theorem W17_main_arg24 (c : Dev nD) : W17 m ρ c (Proc.devRef .tc main_arg24) = (m ((c : Thread nD τ).loc main_arg24)) :=
  (show StableHlo.after hostOps8 (W16 m ρ c) (Proc.devRef .tc main_arg24) = W16 m ρ c (Proc.devRef .tc main_arg24) by after_results).trans (W16_main_arg24 m ρ c)

theorem W0_main_arg25 (c : Dev nD) : W0 m ρ c (Proc.devRef .tc main_arg25) = (m ((c : Thread nD τ).loc main_arg25)) := rfl

theorem W1_main_arg25 (c : Dev nD) : W1 m ρ c (Proc.devRef .tc main_arg25) = (m ((c : Thread nD τ).loc main_arg25)) :=
  (show StableHlo.after hostOps0 (W0 m ρ c) (Proc.devRef .tc main_arg25) = W0 m ρ c (Proc.devRef .tc main_arg25) by after_results).trans (W0_main_arg25 m ρ c)

theorem W2_main_arg25 (c : Dev nD) : W2 m ρ c (Proc.devRef .tc main_arg25) = (m ((c : Thread nD τ).loc main_arg25)) :=
  (W2_of_ne m ρ c main_arg25 (by decide)).trans (W1_main_arg25 m ρ c)

theorem W3_main_arg25 (c : Dev nD) : W3 m ρ c (Proc.devRef .tc main_arg25) = (m ((c : Thread nD τ).loc main_arg25)) :=
  (show StableHlo.after hostOps1 (W2 m ρ c) (Proc.devRef .tc main_arg25) = W2 m ρ c (Proc.devRef .tc main_arg25) by after_results).trans (W2_main_arg25 m ρ c)

theorem W4_main_arg25 (c : Dev nD) : W4 m ρ c (Proc.devRef .tc main_arg25) = (m ((c : Thread nD τ).loc main_arg25)) :=
  (W4_of_ne m ρ c main_arg25 (by decide)).trans (W3_main_arg25 m ρ c)

theorem W5_main_arg25 (c : Dev nD) : W5 m ρ c (Proc.devRef .tc main_arg25) = (m ((c : Thread nD τ).loc main_arg25)) :=
  (show StableHlo.after hostOps2 (W4 m ρ c) (Proc.devRef .tc main_arg25) = W4 m ρ c (Proc.devRef .tc main_arg25) by after_results).trans (W4_main_arg25 m ρ c)

theorem W6_main_arg25 (c : Dev nD) : W6 m ρ c (Proc.devRef .tc main_arg25) = (m ((c : Thread nD τ).loc main_arg25)) :=
  (W6_of_ne m ρ c main_arg25 (by decide)).trans (W5_main_arg25 m ρ c)

theorem W7_main_arg25 (c : Dev nD) : W7 m ρ c (Proc.devRef .tc main_arg25) = (m ((c : Thread nD τ).loc main_arg25)) :=
  (show StableHlo.after hostOps3 (W6 m ρ c) (Proc.devRef .tc main_arg25) = W6 m ρ c (Proc.devRef .tc main_arg25) by after_results).trans (W6_main_arg25 m ρ c)

theorem W8_main_arg25 (c : Dev nD) : W8 m ρ c (Proc.devRef .tc main_arg25) = (m ((c : Thread nD τ).loc main_arg25)) :=
  (W8_of_ne m ρ c main_arg25 (by decide)).trans (W7_main_arg25 m ρ c)

theorem W9_main_arg25 (c : Dev nD) : W9 m ρ c (Proc.devRef .tc main_arg25) = (m ((c : Thread nD τ).loc main_arg25)) :=
  (show StableHlo.after hostOps4 (W8 m ρ c) (Proc.devRef .tc main_arg25) = W8 m ρ c (Proc.devRef .tc main_arg25) by after_results).trans (W8_main_arg25 m ρ c)

theorem W10_main_arg25 (c : Dev nD) : W10 m ρ c (Proc.devRef .tc main_arg25) = (m ((c : Thread nD τ).loc main_arg25)) :=
  (W10_of_ne m ρ c main_arg25 (by decide)).trans (W9_main_arg25 m ρ c)

theorem W11_main_arg25 (c : Dev nD) : W11 m ρ c (Proc.devRef .tc main_arg25) = (m ((c : Thread nD τ).loc main_arg25)) :=
  (show StableHlo.after hostOps5 (W10 m ρ c) (Proc.devRef .tc main_arg25) = W10 m ρ c (Proc.devRef .tc main_arg25) by after_results).trans (W10_main_arg25 m ρ c)

theorem W12_main_arg25 (c : Dev nD) : W12 m ρ c (Proc.devRef .tc main_arg25) = (m ((c : Thread nD τ).loc main_arg25)) :=
  (W12_of_ne m ρ c main_arg25 (by decide)).trans (W11_main_arg25 m ρ c)

theorem W13_main_arg25 (c : Dev nD) : W13 m ρ c (Proc.devRef .tc main_arg25) = (m ((c : Thread nD τ).loc main_arg25)) :=
  (show StableHlo.after hostOps6 (W12 m ρ c) (Proc.devRef .tc main_arg25) = W12 m ρ c (Proc.devRef .tc main_arg25) by after_results).trans (W12_main_arg25 m ρ c)

theorem W14_main_arg25 (c : Dev nD) : W14 m ρ c (Proc.devRef .tc main_arg25) = (m ((c : Thread nD τ).loc main_arg25)) :=
  (W14_of_ne m ρ c main_arg25 (by decide)).trans (W13_main_arg25 m ρ c)

theorem W15_main_arg25 (c : Dev nD) : W15 m ρ c (Proc.devRef .tc main_arg25) = (m ((c : Thread nD τ).loc main_arg25)) :=
  (show StableHlo.after hostOps7 (W14 m ρ c) (Proc.devRef .tc main_arg25) = W14 m ρ c (Proc.devRef .tc main_arg25) by after_results).trans (W14_main_arg25 m ρ c)

theorem W16_main_arg25 (c : Dev nD) : W16 m ρ c (Proc.devRef .tc main_arg25) = (m ((c : Thread nD τ).loc main_arg25)) :=
  (W16_of_ne m ρ c main_arg25 (by decide)).trans (W15_main_arg25 m ρ c)

theorem W0_main_arg26 (c : Dev nD) : W0 m ρ c (Proc.devRef .tc main_arg26) = (m ((c : Thread nD τ).loc main_arg26)) := rfl

theorem W1_main_arg26 (c : Dev nD) : W1 m ρ c (Proc.devRef .tc main_arg26) = (m ((c : Thread nD τ).loc main_arg26)) :=
  (show StableHlo.after hostOps0 (W0 m ρ c) (Proc.devRef .tc main_arg26) = W0 m ρ c (Proc.devRef .tc main_arg26) by after_results).trans (W0_main_arg26 m ρ c)

theorem W2_main_arg26 (c : Dev nD) : W2 m ρ c (Proc.devRef .tc main_arg26) = (m ((c : Thread nD τ).loc main_arg26)) :=
  (W2_of_ne m ρ c main_arg26 (by decide)).trans (W1_main_arg26 m ρ c)

theorem W3_main_arg26 (c : Dev nD) : W3 m ρ c (Proc.devRef .tc main_arg26) = (m ((c : Thread nD τ).loc main_arg26)) :=
  (show StableHlo.after hostOps1 (W2 m ρ c) (Proc.devRef .tc main_arg26) = W2 m ρ c (Proc.devRef .tc main_arg26) by after_results).trans (W2_main_arg26 m ρ c)

theorem W4_main_arg26 (c : Dev nD) : W4 m ρ c (Proc.devRef .tc main_arg26) = (m ((c : Thread nD τ).loc main_arg26)) :=
  (W4_of_ne m ρ c main_arg26 (by decide)).trans (W3_main_arg26 m ρ c)

theorem W5_main_arg26 (c : Dev nD) : W5 m ρ c (Proc.devRef .tc main_arg26) = (m ((c : Thread nD τ).loc main_arg26)) :=
  (show StableHlo.after hostOps2 (W4 m ρ c) (Proc.devRef .tc main_arg26) = W4 m ρ c (Proc.devRef .tc main_arg26) by after_results).trans (W4_main_arg26 m ρ c)

theorem W6_main_arg26 (c : Dev nD) : W6 m ρ c (Proc.devRef .tc main_arg26) = (m ((c : Thread nD τ).loc main_arg26)) :=
  (W6_of_ne m ρ c main_arg26 (by decide)).trans (W5_main_arg26 m ρ c)

theorem W7_main_arg26 (c : Dev nD) : W7 m ρ c (Proc.devRef .tc main_arg26) = (m ((c : Thread nD τ).loc main_arg26)) :=
  (show StableHlo.after hostOps3 (W6 m ρ c) (Proc.devRef .tc main_arg26) = W6 m ρ c (Proc.devRef .tc main_arg26) by after_results).trans (W6_main_arg26 m ρ c)

theorem W8_main_arg26 (c : Dev nD) : W8 m ρ c (Proc.devRef .tc main_arg26) = (m ((c : Thread nD τ).loc main_arg26)) :=
  (W8_of_ne m ρ c main_arg26 (by decide)).trans (W7_main_arg26 m ρ c)

theorem W9_main_arg26 (c : Dev nD) : W9 m ρ c (Proc.devRef .tc main_arg26) = (m ((c : Thread nD τ).loc main_arg26)) :=
  (show StableHlo.after hostOps4 (W8 m ρ c) (Proc.devRef .tc main_arg26) = W8 m ρ c (Proc.devRef .tc main_arg26) by after_results).trans (W8_main_arg26 m ρ c)

theorem W10_main_arg26 (c : Dev nD) : W10 m ρ c (Proc.devRef .tc main_arg26) = (m ((c : Thread nD τ).loc main_arg26)) :=
  (W10_of_ne m ρ c main_arg26 (by decide)).trans (W9_main_arg26 m ρ c)

theorem W11_main_arg26 (c : Dev nD) : W11 m ρ c (Proc.devRef .tc main_arg26) = (m ((c : Thread nD τ).loc main_arg26)) :=
  (show StableHlo.after hostOps5 (W10 m ρ c) (Proc.devRef .tc main_arg26) = W10 m ρ c (Proc.devRef .tc main_arg26) by after_results).trans (W10_main_arg26 m ρ c)

theorem W12_main_arg26 (c : Dev nD) : W12 m ρ c (Proc.devRef .tc main_arg26) = (m ((c : Thread nD τ).loc main_arg26)) :=
  (W12_of_ne m ρ c main_arg26 (by decide)).trans (W11_main_arg26 m ρ c)

theorem W13_main_arg26 (c : Dev nD) : W13 m ρ c (Proc.devRef .tc main_arg26) = (m ((c : Thread nD τ).loc main_arg26)) :=
  (show StableHlo.after hostOps6 (W12 m ρ c) (Proc.devRef .tc main_arg26) = W12 m ρ c (Proc.devRef .tc main_arg26) by after_results).trans (W12_main_arg26 m ρ c)

theorem W14_main_arg26 (c : Dev nD) : W14 m ρ c (Proc.devRef .tc main_arg26) = (m ((c : Thread nD τ).loc main_arg26)) :=
  (W14_of_ne m ρ c main_arg26 (by decide)).trans (W13_main_arg26 m ρ c)

theorem W15_main_arg26 (c : Dev nD) : W15 m ρ c (Proc.devRef .tc main_arg26) = (m ((c : Thread nD τ).loc main_arg26)) :=
  (show StableHlo.after hostOps7 (W14 m ρ c) (Proc.devRef .tc main_arg26) = W14 m ρ c (Proc.devRef .tc main_arg26) by after_results).trans (W14_main_arg26 m ρ c)

theorem W16_main_arg26 (c : Dev nD) : W16 m ρ c (Proc.devRef .tc main_arg26) = (m ((c : Thread nD τ).loc main_arg26)) :=
  (W16_of_ne m ρ c main_arg26 (by decide)).trans (W15_main_arg26 m ρ c)

theorem W0_main_arg27 (c : Dev nD) : W0 m ρ c (Proc.devRef .tc main_arg27) = (m ((c : Thread nD τ).loc main_arg27)) := rfl

theorem W1_main_arg27 (c : Dev nD) : W1 m ρ c (Proc.devRef .tc main_arg27) = (m ((c : Thread nD τ).loc main_arg27)) :=
  (show StableHlo.after hostOps0 (W0 m ρ c) (Proc.devRef .tc main_arg27) = W0 m ρ c (Proc.devRef .tc main_arg27) by after_results).trans (W0_main_arg27 m ρ c)

theorem W2_main_arg27 (c : Dev nD) : W2 m ρ c (Proc.devRef .tc main_arg27) = (m ((c : Thread nD τ).loc main_arg27)) :=
  (W2_of_ne m ρ c main_arg27 (by decide)).trans (W1_main_arg27 m ρ c)

theorem W3_main_arg27 (c : Dev nD) : W3 m ρ c (Proc.devRef .tc main_arg27) = (m ((c : Thread nD τ).loc main_arg27)) :=
  (show StableHlo.after hostOps1 (W2 m ρ c) (Proc.devRef .tc main_arg27) = W2 m ρ c (Proc.devRef .tc main_arg27) by after_results).trans (W2_main_arg27 m ρ c)

theorem W4_main_arg27 (c : Dev nD) : W4 m ρ c (Proc.devRef .tc main_arg27) = (m ((c : Thread nD τ).loc main_arg27)) :=
  (W4_of_ne m ρ c main_arg27 (by decide)).trans (W3_main_arg27 m ρ c)

theorem W5_main_arg27 (c : Dev nD) : W5 m ρ c (Proc.devRef .tc main_arg27) = (m ((c : Thread nD τ).loc main_arg27)) :=
  (show StableHlo.after hostOps2 (W4 m ρ c) (Proc.devRef .tc main_arg27) = W4 m ρ c (Proc.devRef .tc main_arg27) by after_results).trans (W4_main_arg27 m ρ c)

theorem W6_main_arg27 (c : Dev nD) : W6 m ρ c (Proc.devRef .tc main_arg27) = (m ((c : Thread nD τ).loc main_arg27)) :=
  (W6_of_ne m ρ c main_arg27 (by decide)).trans (W5_main_arg27 m ρ c)

theorem W7_main_arg27 (c : Dev nD) : W7 m ρ c (Proc.devRef .tc main_arg27) = (m ((c : Thread nD τ).loc main_arg27)) :=
  (show StableHlo.after hostOps3 (W6 m ρ c) (Proc.devRef .tc main_arg27) = W6 m ρ c (Proc.devRef .tc main_arg27) by after_results).trans (W6_main_arg27 m ρ c)

theorem W8_main_arg27 (c : Dev nD) : W8 m ρ c (Proc.devRef .tc main_arg27) = (m ((c : Thread nD τ).loc main_arg27)) :=
  (W8_of_ne m ρ c main_arg27 (by decide)).trans (W7_main_arg27 m ρ c)

theorem W9_main_arg27 (c : Dev nD) : W9 m ρ c (Proc.devRef .tc main_arg27) = (m ((c : Thread nD τ).loc main_arg27)) :=
  (show StableHlo.after hostOps4 (W8 m ρ c) (Proc.devRef .tc main_arg27) = W8 m ρ c (Proc.devRef .tc main_arg27) by after_results).trans (W8_main_arg27 m ρ c)

theorem W10_main_arg27 (c : Dev nD) : W10 m ρ c (Proc.devRef .tc main_arg27) = (m ((c : Thread nD τ).loc main_arg27)) :=
  (W10_of_ne m ρ c main_arg27 (by decide)).trans (W9_main_arg27 m ρ c)

theorem W11_main_arg27 (c : Dev nD) : W11 m ρ c (Proc.devRef .tc main_arg27) = (m ((c : Thread nD τ).loc main_arg27)) :=
  (show StableHlo.after hostOps5 (W10 m ρ c) (Proc.devRef .tc main_arg27) = W10 m ρ c (Proc.devRef .tc main_arg27) by after_results).trans (W10_main_arg27 m ρ c)

theorem W12_main_arg27 (c : Dev nD) : W12 m ρ c (Proc.devRef .tc main_arg27) = (m ((c : Thread nD τ).loc main_arg27)) :=
  (W12_of_ne m ρ c main_arg27 (by decide)).trans (W11_main_arg27 m ρ c)

theorem W13_main_arg27 (c : Dev nD) : W13 m ρ c (Proc.devRef .tc main_arg27) = (m ((c : Thread nD τ).loc main_arg27)) :=
  (show StableHlo.after hostOps6 (W12 m ρ c) (Proc.devRef .tc main_arg27) = W12 m ρ c (Proc.devRef .tc main_arg27) by after_results).trans (W12_main_arg27 m ρ c)

theorem W14_main_arg27 (c : Dev nD) : W14 m ρ c (Proc.devRef .tc main_arg27) = (m ((c : Thread nD τ).loc main_arg27)) :=
  (W14_of_ne m ρ c main_arg27 (by decide)).trans (W13_main_arg27 m ρ c)

theorem W15_main_arg27 (c : Dev nD) : W15 m ρ c (Proc.devRef .tc main_arg27) = (m ((c : Thread nD τ).loc main_arg27)) :=
  (show StableHlo.after hostOps7 (W14 m ρ c) (Proc.devRef .tc main_arg27) = W14 m ρ c (Proc.devRef .tc main_arg27) by after_results).trans (W14_main_arg27 m ρ c)

theorem W16_main_arg27 (c : Dev nD) : W16 m ρ c (Proc.devRef .tc main_arg27) = (m ((c : Thread nD τ).loc main_arg27)) :=
  (W16_of_ne m ρ c main_arg27 (by decide)).trans (W15_main_arg27 m ρ c)

theorem W0_main_arg28 (c : Dev nD) : W0 m ρ c (Proc.devRef .tc main_arg28) = (m ((c : Thread nD τ).loc main_arg28)) := rfl

theorem W1_main_arg28 (c : Dev nD) : W1 m ρ c (Proc.devRef .tc main_arg28) = (m ((c : Thread nD τ).loc main_arg28)) :=
  (show StableHlo.after hostOps0 (W0 m ρ c) (Proc.devRef .tc main_arg28) = W0 m ρ c (Proc.devRef .tc main_arg28) by after_results).trans (W0_main_arg28 m ρ c)

theorem W2_main_arg28 (c : Dev nD) : W2 m ρ c (Proc.devRef .tc main_arg28) = (m ((c : Thread nD τ).loc main_arg28)) :=
  (W2_of_ne m ρ c main_arg28 (by decide)).trans (W1_main_arg28 m ρ c)

theorem W3_main_arg28 (c : Dev nD) : W3 m ρ c (Proc.devRef .tc main_arg28) = (m ((c : Thread nD τ).loc main_arg28)) :=
  (show StableHlo.after hostOps1 (W2 m ρ c) (Proc.devRef .tc main_arg28) = W2 m ρ c (Proc.devRef .tc main_arg28) by after_results).trans (W2_main_arg28 m ρ c)

theorem W4_main_arg28 (c : Dev nD) : W4 m ρ c (Proc.devRef .tc main_arg28) = (m ((c : Thread nD τ).loc main_arg28)) :=
  (W4_of_ne m ρ c main_arg28 (by decide)).trans (W3_main_arg28 m ρ c)

theorem W5_main_arg28 (c : Dev nD) : W5 m ρ c (Proc.devRef .tc main_arg28) = (m ((c : Thread nD τ).loc main_arg28)) :=
  (show StableHlo.after hostOps2 (W4 m ρ c) (Proc.devRef .tc main_arg28) = W4 m ρ c (Proc.devRef .tc main_arg28) by after_results).trans (W4_main_arg28 m ρ c)

theorem W6_main_arg28 (c : Dev nD) : W6 m ρ c (Proc.devRef .tc main_arg28) = (m ((c : Thread nD τ).loc main_arg28)) :=
  (W6_of_ne m ρ c main_arg28 (by decide)).trans (W5_main_arg28 m ρ c)

theorem W7_main_arg28 (c : Dev nD) : W7 m ρ c (Proc.devRef .tc main_arg28) = (m ((c : Thread nD τ).loc main_arg28)) :=
  (show StableHlo.after hostOps3 (W6 m ρ c) (Proc.devRef .tc main_arg28) = W6 m ρ c (Proc.devRef .tc main_arg28) by after_results).trans (W6_main_arg28 m ρ c)

theorem W8_main_arg28 (c : Dev nD) : W8 m ρ c (Proc.devRef .tc main_arg28) = (m ((c : Thread nD τ).loc main_arg28)) :=
  (W8_of_ne m ρ c main_arg28 (by decide)).trans (W7_main_arg28 m ρ c)

theorem W9_main_arg28 (c : Dev nD) : W9 m ρ c (Proc.devRef .tc main_arg28) = (m ((c : Thread nD τ).loc main_arg28)) :=
  (show StableHlo.after hostOps4 (W8 m ρ c) (Proc.devRef .tc main_arg28) = W8 m ρ c (Proc.devRef .tc main_arg28) by after_results).trans (W8_main_arg28 m ρ c)

theorem W10_main_arg28 (c : Dev nD) : W10 m ρ c (Proc.devRef .tc main_arg28) = (m ((c : Thread nD τ).loc main_arg28)) :=
  (W10_of_ne m ρ c main_arg28 (by decide)).trans (W9_main_arg28 m ρ c)

theorem W11_main_arg28 (c : Dev nD) : W11 m ρ c (Proc.devRef .tc main_arg28) = (m ((c : Thread nD τ).loc main_arg28)) :=
  (show StableHlo.after hostOps5 (W10 m ρ c) (Proc.devRef .tc main_arg28) = W10 m ρ c (Proc.devRef .tc main_arg28) by after_results).trans (W10_main_arg28 m ρ c)

theorem W12_main_arg28 (c : Dev nD) : W12 m ρ c (Proc.devRef .tc main_arg28) = (m ((c : Thread nD τ).loc main_arg28)) :=
  (W12_of_ne m ρ c main_arg28 (by decide)).trans (W11_main_arg28 m ρ c)

theorem W13_main_arg28 (c : Dev nD) : W13 m ρ c (Proc.devRef .tc main_arg28) = (m ((c : Thread nD τ).loc main_arg28)) :=
  (show StableHlo.after hostOps6 (W12 m ρ c) (Proc.devRef .tc main_arg28) = W12 m ρ c (Proc.devRef .tc main_arg28) by after_results).trans (W12_main_arg28 m ρ c)

theorem W14_main_arg28 (c : Dev nD) : W14 m ρ c (Proc.devRef .tc main_arg28) = (m ((c : Thread nD τ).loc main_arg28)) :=
  (W14_of_ne m ρ c main_arg28 (by decide)).trans (W13_main_arg28 m ρ c)

theorem W15_main_arg28 (c : Dev nD) : W15 m ρ c (Proc.devRef .tc main_arg28) = (m ((c : Thread nD τ).loc main_arg28)) :=
  (show StableHlo.after hostOps7 (W14 m ρ c) (Proc.devRef .tc main_arg28) = W14 m ρ c (Proc.devRef .tc main_arg28) by after_results).trans (W14_main_arg28 m ρ c)

theorem W16_main_arg28 (c : Dev nD) : W16 m ρ c (Proc.devRef .tc main_arg28) = (m ((c : Thread nD τ).loc main_arg28)) :=
  (W16_of_ne m ρ c main_arg28 (by decide)).trans (W15_main_arg28 m ρ c)

theorem W0_main_arg29 (c : Dev nD) : W0 m ρ c (Proc.devRef .tc main_arg29) = (m ((c : Thread nD τ).loc main_arg29)) := rfl

theorem W1_main_arg29 (c : Dev nD) : W1 m ρ c (Proc.devRef .tc main_arg29) = (m ((c : Thread nD τ).loc main_arg29)) :=
  (show StableHlo.after hostOps0 (W0 m ρ c) (Proc.devRef .tc main_arg29) = W0 m ρ c (Proc.devRef .tc main_arg29) by after_results).trans (W0_main_arg29 m ρ c)

theorem W2_main_arg29 (c : Dev nD) : W2 m ρ c (Proc.devRef .tc main_arg29) = (m ((c : Thread nD τ).loc main_arg29)) :=
  (W2_of_ne m ρ c main_arg29 (by decide)).trans (W1_main_arg29 m ρ c)

theorem W3_main_arg29 (c : Dev nD) : W3 m ρ c (Proc.devRef .tc main_arg29) = (m ((c : Thread nD τ).loc main_arg29)) :=
  (show StableHlo.after hostOps1 (W2 m ρ c) (Proc.devRef .tc main_arg29) = W2 m ρ c (Proc.devRef .tc main_arg29) by after_results).trans (W2_main_arg29 m ρ c)

theorem W4_main_arg29 (c : Dev nD) : W4 m ρ c (Proc.devRef .tc main_arg29) = (m ((c : Thread nD τ).loc main_arg29)) :=
  (W4_of_ne m ρ c main_arg29 (by decide)).trans (W3_main_arg29 m ρ c)

theorem W5_main_arg29 (c : Dev nD) : W5 m ρ c (Proc.devRef .tc main_arg29) = (m ((c : Thread nD τ).loc main_arg29)) :=
  (show StableHlo.after hostOps2 (W4 m ρ c) (Proc.devRef .tc main_arg29) = W4 m ρ c (Proc.devRef .tc main_arg29) by after_results).trans (W4_main_arg29 m ρ c)

theorem W6_main_arg29 (c : Dev nD) : W6 m ρ c (Proc.devRef .tc main_arg29) = (m ((c : Thread nD τ).loc main_arg29)) :=
  (W6_of_ne m ρ c main_arg29 (by decide)).trans (W5_main_arg29 m ρ c)

theorem W7_main_arg29 (c : Dev nD) : W7 m ρ c (Proc.devRef .tc main_arg29) = (m ((c : Thread nD τ).loc main_arg29)) :=
  (show StableHlo.after hostOps3 (W6 m ρ c) (Proc.devRef .tc main_arg29) = W6 m ρ c (Proc.devRef .tc main_arg29) by after_results).trans (W6_main_arg29 m ρ c)

theorem W8_main_arg29 (c : Dev nD) : W8 m ρ c (Proc.devRef .tc main_arg29) = (m ((c : Thread nD τ).loc main_arg29)) :=
  (W8_of_ne m ρ c main_arg29 (by decide)).trans (W7_main_arg29 m ρ c)

theorem W9_main_arg29 (c : Dev nD) : W9 m ρ c (Proc.devRef .tc main_arg29) = (m ((c : Thread nD τ).loc main_arg29)) :=
  (show StableHlo.after hostOps4 (W8 m ρ c) (Proc.devRef .tc main_arg29) = W8 m ρ c (Proc.devRef .tc main_arg29) by after_results).trans (W8_main_arg29 m ρ c)

theorem W10_main_arg29 (c : Dev nD) : W10 m ρ c (Proc.devRef .tc main_arg29) = (m ((c : Thread nD τ).loc main_arg29)) :=
  (W10_of_ne m ρ c main_arg29 (by decide)).trans (W9_main_arg29 m ρ c)

theorem W11_main_arg29 (c : Dev nD) : W11 m ρ c (Proc.devRef .tc main_arg29) = (m ((c : Thread nD τ).loc main_arg29)) :=
  (show StableHlo.after hostOps5 (W10 m ρ c) (Proc.devRef .tc main_arg29) = W10 m ρ c (Proc.devRef .tc main_arg29) by after_results).trans (W10_main_arg29 m ρ c)

theorem W12_main_arg29 (c : Dev nD) : W12 m ρ c (Proc.devRef .tc main_arg29) = (m ((c : Thread nD τ).loc main_arg29)) :=
  (W12_of_ne m ρ c main_arg29 (by decide)).trans (W11_main_arg29 m ρ c)

theorem W13_main_arg29 (c : Dev nD) : W13 m ρ c (Proc.devRef .tc main_arg29) = (m ((c : Thread nD τ).loc main_arg29)) :=
  (show StableHlo.after hostOps6 (W12 m ρ c) (Proc.devRef .tc main_arg29) = W12 m ρ c (Proc.devRef .tc main_arg29) by after_results).trans (W12_main_arg29 m ρ c)

theorem W14_main_arg29 (c : Dev nD) : W14 m ρ c (Proc.devRef .tc main_arg29) = (m ((c : Thread nD τ).loc main_arg29)) :=
  (W14_of_ne m ρ c main_arg29 (by decide)).trans (W13_main_arg29 m ρ c)

theorem W15_main_arg29 (c : Dev nD) : W15 m ρ c (Proc.devRef .tc main_arg29) = (m ((c : Thread nD τ).loc main_arg29)) :=
  (show StableHlo.after hostOps7 (W14 m ρ c) (Proc.devRef .tc main_arg29) = W14 m ρ c (Proc.devRef .tc main_arg29) by after_results).trans (W14_main_arg29 m ρ c)

theorem W16_main_arg29 (c : Dev nD) : W16 m ρ c (Proc.devRef .tc main_arg29) = (m ((c : Thread nD τ).loc main_arg29)) :=
  (W16_of_ne m ρ c main_arg29 (by decide)).trans (W15_main_arg29 m ρ c)

theorem W0_main_arg30 (c : Dev nD) : W0 m ρ c (Proc.devRef .tc main_arg30) = (m ((c : Thread nD τ).loc main_arg30)) := rfl

theorem W1_main_arg30 (c : Dev nD) : W1 m ρ c (Proc.devRef .tc main_arg30) = (m ((c : Thread nD τ).loc main_arg30)) :=
  (show StableHlo.after hostOps0 (W0 m ρ c) (Proc.devRef .tc main_arg30) = W0 m ρ c (Proc.devRef .tc main_arg30) by after_results).trans (W0_main_arg30 m ρ c)

theorem W2_main_arg30 (c : Dev nD) : W2 m ρ c (Proc.devRef .tc main_arg30) = (m ((c : Thread nD τ).loc main_arg30)) :=
  (W2_of_ne m ρ c main_arg30 (by decide)).trans (W1_main_arg30 m ρ c)

theorem W3_main_arg30 (c : Dev nD) : W3 m ρ c (Proc.devRef .tc main_arg30) = (m ((c : Thread nD τ).loc main_arg30)) :=
  (show StableHlo.after hostOps1 (W2 m ρ c) (Proc.devRef .tc main_arg30) = W2 m ρ c (Proc.devRef .tc main_arg30) by after_results).trans (W2_main_arg30 m ρ c)

theorem W4_main_arg30 (c : Dev nD) : W4 m ρ c (Proc.devRef .tc main_arg30) = (m ((c : Thread nD τ).loc main_arg30)) :=
  (W4_of_ne m ρ c main_arg30 (by decide)).trans (W3_main_arg30 m ρ c)

theorem W5_main_arg30 (c : Dev nD) : W5 m ρ c (Proc.devRef .tc main_arg30) = (m ((c : Thread nD τ).loc main_arg30)) :=
  (show StableHlo.after hostOps2 (W4 m ρ c) (Proc.devRef .tc main_arg30) = W4 m ρ c (Proc.devRef .tc main_arg30) by after_results).trans (W4_main_arg30 m ρ c)

theorem W6_main_arg30 (c : Dev nD) : W6 m ρ c (Proc.devRef .tc main_arg30) = (m ((c : Thread nD τ).loc main_arg30)) :=
  (W6_of_ne m ρ c main_arg30 (by decide)).trans (W5_main_arg30 m ρ c)

theorem W7_main_arg30 (c : Dev nD) : W7 m ρ c (Proc.devRef .tc main_arg30) = (m ((c : Thread nD τ).loc main_arg30)) :=
  (show StableHlo.after hostOps3 (W6 m ρ c) (Proc.devRef .tc main_arg30) = W6 m ρ c (Proc.devRef .tc main_arg30) by after_results).trans (W6_main_arg30 m ρ c)

theorem W8_main_arg30 (c : Dev nD) : W8 m ρ c (Proc.devRef .tc main_arg30) = (m ((c : Thread nD τ).loc main_arg30)) :=
  (W8_of_ne m ρ c main_arg30 (by decide)).trans (W7_main_arg30 m ρ c)

theorem W9_main_arg30 (c : Dev nD) : W9 m ρ c (Proc.devRef .tc main_arg30) = (m ((c : Thread nD τ).loc main_arg30)) :=
  (show StableHlo.after hostOps4 (W8 m ρ c) (Proc.devRef .tc main_arg30) = W8 m ρ c (Proc.devRef .tc main_arg30) by after_results).trans (W8_main_arg30 m ρ c)

theorem W10_main_arg30 (c : Dev nD) : W10 m ρ c (Proc.devRef .tc main_arg30) = (m ((c : Thread nD τ).loc main_arg30)) :=
  (W10_of_ne m ρ c main_arg30 (by decide)).trans (W9_main_arg30 m ρ c)

theorem W11_main_arg30 (c : Dev nD) : W11 m ρ c (Proc.devRef .tc main_arg30) = (m ((c : Thread nD τ).loc main_arg30)) :=
  (show StableHlo.after hostOps5 (W10 m ρ c) (Proc.devRef .tc main_arg30) = W10 m ρ c (Proc.devRef .tc main_arg30) by after_results).trans (W10_main_arg30 m ρ c)

theorem W12_main_arg30 (c : Dev nD) : W12 m ρ c (Proc.devRef .tc main_arg30) = (m ((c : Thread nD τ).loc main_arg30)) :=
  (W12_of_ne m ρ c main_arg30 (by decide)).trans (W11_main_arg30 m ρ c)

theorem W13_main_arg30 (c : Dev nD) : W13 m ρ c (Proc.devRef .tc main_arg30) = (m ((c : Thread nD τ).loc main_arg30)) :=
  (show StableHlo.after hostOps6 (W12 m ρ c) (Proc.devRef .tc main_arg30) = W12 m ρ c (Proc.devRef .tc main_arg30) by after_results).trans (W12_main_arg30 m ρ c)

theorem W14_main_arg30 (c : Dev nD) : W14 m ρ c (Proc.devRef .tc main_arg30) = (m ((c : Thread nD τ).loc main_arg30)) :=
  (W14_of_ne m ρ c main_arg30 (by decide)).trans (W13_main_arg30 m ρ c)

theorem W15_main_arg30 (c : Dev nD) : W15 m ρ c (Proc.devRef .tc main_arg30) = (m ((c : Thread nD τ).loc main_arg30)) :=
  (show StableHlo.after hostOps7 (W14 m ρ c) (Proc.devRef .tc main_arg30) = W14 m ρ c (Proc.devRef .tc main_arg30) by after_results).trans (W14_main_arg30 m ρ c)

theorem W16_main_arg30 (c : Dev nD) : W16 m ρ c (Proc.devRef .tc main_arg30) = (m ((c : Thread nD τ).loc main_arg30)) :=
  (W16_of_ne m ρ c main_arg30 (by decide)).trans (W15_main_arg30 m ρ c)

theorem W17_main_arg30 (c : Dev nD) : W17 m ρ c (Proc.devRef .tc main_arg30) = (m ((c : Thread nD τ).loc main_arg30)) :=
  (show StableHlo.after hostOps8 (W16 m ρ c) (Proc.devRef .tc main_arg30) = W16 m ρ c (Proc.devRef .tc main_arg30) by after_results).trans (W16_main_arg30 m ρ c)

theorem W0_main_arg31 (c : Dev nD) : W0 m ρ c (Proc.devRef .tc main_arg31) = (m ((c : Thread nD τ).loc main_arg31)) := rfl

theorem W1_main_arg31 (c : Dev nD) : W1 m ρ c (Proc.devRef .tc main_arg31) = (m ((c : Thread nD τ).loc main_arg31)) :=
  (show StableHlo.after hostOps0 (W0 m ρ c) (Proc.devRef .tc main_arg31) = W0 m ρ c (Proc.devRef .tc main_arg31) by after_results).trans (W0_main_arg31 m ρ c)

theorem W2_main_arg31 (c : Dev nD) : W2 m ρ c (Proc.devRef .tc main_arg31) = (m ((c : Thread nD τ).loc main_arg31)) :=
  (W2_of_ne m ρ c main_arg31 (by decide)).trans (W1_main_arg31 m ρ c)

theorem W3_main_arg31 (c : Dev nD) : W3 m ρ c (Proc.devRef .tc main_arg31) = (m ((c : Thread nD τ).loc main_arg31)) :=
  (show StableHlo.after hostOps1 (W2 m ρ c) (Proc.devRef .tc main_arg31) = W2 m ρ c (Proc.devRef .tc main_arg31) by after_results).trans (W2_main_arg31 m ρ c)

theorem W4_main_arg31 (c : Dev nD) : W4 m ρ c (Proc.devRef .tc main_arg31) = (m ((c : Thread nD τ).loc main_arg31)) :=
  (W4_of_ne m ρ c main_arg31 (by decide)).trans (W3_main_arg31 m ρ c)

theorem W5_main_arg31 (c : Dev nD) : W5 m ρ c (Proc.devRef .tc main_arg31) = (m ((c : Thread nD τ).loc main_arg31)) :=
  (show StableHlo.after hostOps2 (W4 m ρ c) (Proc.devRef .tc main_arg31) = W4 m ρ c (Proc.devRef .tc main_arg31) by after_results).trans (W4_main_arg31 m ρ c)

theorem W6_main_arg31 (c : Dev nD) : W6 m ρ c (Proc.devRef .tc main_arg31) = (m ((c : Thread nD τ).loc main_arg31)) :=
  (W6_of_ne m ρ c main_arg31 (by decide)).trans (W5_main_arg31 m ρ c)

theorem W7_main_arg31 (c : Dev nD) : W7 m ρ c (Proc.devRef .tc main_arg31) = (m ((c : Thread nD τ).loc main_arg31)) :=
  (show StableHlo.after hostOps3 (W6 m ρ c) (Proc.devRef .tc main_arg31) = W6 m ρ c (Proc.devRef .tc main_arg31) by after_results).trans (W6_main_arg31 m ρ c)

theorem W8_main_arg31 (c : Dev nD) : W8 m ρ c (Proc.devRef .tc main_arg31) = (m ((c : Thread nD τ).loc main_arg31)) :=
  (W8_of_ne m ρ c main_arg31 (by decide)).trans (W7_main_arg31 m ρ c)

theorem W9_main_arg31 (c : Dev nD) : W9 m ρ c (Proc.devRef .tc main_arg31) = (m ((c : Thread nD τ).loc main_arg31)) :=
  (show StableHlo.after hostOps4 (W8 m ρ c) (Proc.devRef .tc main_arg31) = W8 m ρ c (Proc.devRef .tc main_arg31) by after_results).trans (W8_main_arg31 m ρ c)

theorem W10_main_arg31 (c : Dev nD) : W10 m ρ c (Proc.devRef .tc main_arg31) = (m ((c : Thread nD τ).loc main_arg31)) :=
  (W10_of_ne m ρ c main_arg31 (by decide)).trans (W9_main_arg31 m ρ c)

theorem W11_main_arg31 (c : Dev nD) : W11 m ρ c (Proc.devRef .tc main_arg31) = (m ((c : Thread nD τ).loc main_arg31)) :=
  (show StableHlo.after hostOps5 (W10 m ρ c) (Proc.devRef .tc main_arg31) = W10 m ρ c (Proc.devRef .tc main_arg31) by after_results).trans (W10_main_arg31 m ρ c)

theorem W12_main_arg31 (c : Dev nD) : W12 m ρ c (Proc.devRef .tc main_arg31) = (m ((c : Thread nD τ).loc main_arg31)) :=
  (W12_of_ne m ρ c main_arg31 (by decide)).trans (W11_main_arg31 m ρ c)

theorem W13_main_arg31 (c : Dev nD) : W13 m ρ c (Proc.devRef .tc main_arg31) = (m ((c : Thread nD τ).loc main_arg31)) :=
  (show StableHlo.after hostOps6 (W12 m ρ c) (Proc.devRef .tc main_arg31) = W12 m ρ c (Proc.devRef .tc main_arg31) by after_results).trans (W12_main_arg31 m ρ c)

theorem W14_main_arg31 (c : Dev nD) : W14 m ρ c (Proc.devRef .tc main_arg31) = (m ((c : Thread nD τ).loc main_arg31)) :=
  (W14_of_ne m ρ c main_arg31 (by decide)).trans (W13_main_arg31 m ρ c)

theorem W15_main_arg31 (c : Dev nD) : W15 m ρ c (Proc.devRef .tc main_arg31) = (m ((c : Thread nD τ).loc main_arg31)) :=
  (show StableHlo.after hostOps7 (W14 m ρ c) (Proc.devRef .tc main_arg31) = W14 m ρ c (Proc.devRef .tc main_arg31) by after_results).trans (W14_main_arg31 m ρ c)

theorem W16_main_arg31 (c : Dev nD) : W16 m ρ c (Proc.devRef .tc main_arg31) = (m ((c : Thread nD τ).loc main_arg31)) :=
  (W16_of_ne m ρ c main_arg31 (by decide)).trans (W15_main_arg31 m ρ c)

end Cert.KernelIdeal.Flow

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.LibLayerForms.lean ====
/-
  ONE GRAPH-CONVOLUTION LAYER'S TWO DENSE STEPS AS WHOLE-ARRAY FUNCTIONS, index by index on the extended reals.

  `dense X W` is the matrix product: entry (p, q) is the sum over k of X (p, k) · W (k, q).
  `combine agg h b s` adds, to the collected neighbour messages `agg`, the node's own features scaled by its
  self-loop weight — row p of `h` times the p-th entry of the one-column array `s` — and then the bias, the one-row
  array `b` laid along every row: entry (p, q) is (agg (p, q) + h (p, q) · s (p, 0)) + b (0, q).
  `combineRelu` is the larger of that and zero.

  The host spells the same arrays with broadcasts: the product is its `dot_general`; the scale is a vector broadcast
  first to a column and then across the columns, the bias a vector broadcast first to a row and then down the rows.
  Recasting a vector of n entries as a column (n × 1) or as a row (1 × n) keeps entry p at (p, 0), respectively (0, p),
  so the host's sums are `combine` of the recast vectors. No law of arithmetic is used: every entry is the same
  expression on both sides.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value
import proofs.«137501_j83021717832548_2_alg».proof.Proof.LibMatOps
import proofs.«137501_j83021717832548_2_alg».proof.Proof.LibColumnCast

noncomputable section

open scoped BigOperators

namespace Cert.LayerForms

open Idealize.ShloMosaic Idealize.ShloMosaic.ValueIdx

section
variable {N K C : Nat}

/-- The matrix product, entry by entry. -/
def dense (X : FVec Ideal ⟨2, ![N, K]⟩ .f32) (W : FVec Ideal ⟨2, ![K, C]⟩ .f32) : FVec Ideal ⟨2, ![N, C]⟩ .f32 :=
  fun i => ∑ k : Fin K, X (ix2 (i 0 : Fin N) k) * W (ix2 k (i 1 : Fin C))

theorem dense_apply (X : FVec Ideal ⟨2, ![N, K]⟩ .f32) (W : FVec Ideal ⟨2, ![K, C]⟩ .f32) (p : Fin N) (q : Fin C) :
    dense X W (ix2 p q) = ∑ k : Fin K, X (ix2 p k) * W (ix2 k q) := rfl

/-- The host's plain product of an N × K by a K × C array is `dense`. -/
theorem dotGeneral_eq_dense (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] [])
    (hd : d = Cert.MatOps.plainDot N K C wf)
    (X : FVec Ideal ⟨2, ![N, K]⟩ .f32) (W : FVec Ideal ⟨2, ![K, C]⟩ .f32) :
    Host.dotGeneral d none X W = dense X W := by
  subst hd
  funext i
  obtain ⟨p, q, rfl⟩ : ∃ (p : Fin N) (q : Fin C), i = ix2 p q := ⟨i 0, i 1, eq_ix2 i⟩
  exact Cert.MatOps.dotGeneral_plain_apply wf none _ X W p q

/-- Messages plus the scaled own features plus the bias, entry by entry. -/
def combine (agg h : FVec Ideal ⟨2, ![N, C]⟩ .f32) (b : FVec Ideal ⟨2, ![1, C]⟩ .f32) (s : FVec Ideal ⟨2, ![N, 1]⟩ .f32) :
    FVec Ideal ⟨2, ![N, C]⟩ .f32 :=
  fun i => (agg i + h i * s (ix2 (i 0 : Fin N) (0 : Fin 1))) + b (ix2 (0 : Fin 1) (i 1 : Fin C))

/-- The same, cut off below at zero. -/
def combineRelu (agg h : FVec Ideal ⟨2, ![N, C]⟩ .f32) (b : FVec Ideal ⟨2, ![1, C]⟩ .f32) (s : FVec Ideal ⟨2, ![N, 1]⟩ .f32) :
    FVec Ideal ⟨2, ![N, C]⟩ .f32 :=
  fun i => max (combine agg h b s i) (Ideal.ofBits .f32 0x00000000#32)

/-- A vector broadcast to a column and then across C columns reads, at (p, q), its entry p. -/
theorem column_then_across (sv : FVec Ideal ⟨1, ![N]⟩ .f32)
    (h1 : (⟨1, ![N]⟩ : Shape).BroadcastsInDim ⟨2, ![N, 1]⟩ ![0])
    (h2 : (⟨2, ![N, 1]⟩ : Shape).BroadcastsInDim ⟨2, ![N, C]⟩ ![0, 1]) (p : Fin N) (q : Fin C) :
    broadcastInDim ⟨2, ![N, C]⟩ ![0, 1] h2 (broadcastInDim ⟨2, ![N, 1]⟩ ![0] h1 sv) (ix2 p q) = sv (ix1 p) := by
  refine (broadcastInDim_apply ![0, 1] h2 _ (ix2 p q) (ix2 p (0 : Fin 1)) fun a => ?_).trans
    (broadcastInDim_apply ![0] h1 sv (ix2 p (0 : Fin 1)) (ix1 p) fun a => ?_)
  · match a with
    | ⟨0, _⟩ =>
      show p.val = if N = 1 then 0 else p.val
      split
      · have := p.isLt; omega
      · rfl
    | ⟨1, _⟩ => rfl
  · match a with
    | ⟨0, _⟩ =>
      show p.val = if N = 1 then 0 else p.val
      split
      · have := p.isLt; omega
      · rfl

/-- A vector broadcast to a row and then down N rows reads, at (p, q), its entry q. -/
theorem row_then_down (bv : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![N, C]⟩ ![0, 1]) (p : Fin N) (q : Fin C) :
    broadcastInDim ⟨2, ![N, C]⟩ ![0, 1] h2 (broadcastInDim ⟨2, ![1, C]⟩ ![1] h1 bv) (ix2 p q) = bv (ix1 q) := by
  refine (broadcastInDim_oneRow_apply h2 _ p q).trans
    (broadcastInDim_apply ![1] h1 bv (ix2 (0 : Fin 1) q) (ix1 q) fun a => ?_)
  match a with
  | ⟨0, _⟩ =>
    show q.val = if C = 1 then 0 else q.val
    split
    · have := q.isLt; omega
    · rfl

/-- The host's spelling of one layer's last step — the scale broadcast to a column and across, the bias to a row and
    down — is `combine` of the vectors recast as a column and as a row. -/
theorem host_combine (agg h : FVec Ideal ⟨2, ![N, C]⟩ .f32) (bv : FVec Ideal ⟨1, ![C]⟩ .f32) (sv : FVec Ideal ⟨1, ![N]⟩ .f32)
    (hs1 : (⟨1, ![N]⟩ : Shape).BroadcastsInDim ⟨2, ![N, 1]⟩ ![0])
    (hs2 : (⟨2, ![N, 1]⟩ : Shape).BroadcastsInDim ⟨2, ![N, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (cs : (⟨1, ![N]⟩ : Shape).ShapeCasts ⟨2, ![N, 1]⟩) (cb : (⟨1, ![C]⟩ : Shape).ShapeCasts ⟨2, ![1, C]⟩) :
    addf (addf agg (mulf h (broadcastInDim ⟨2, ![N, C]⟩ ![0, 1] hs2 (broadcastInDim ⟨2, ![N, 1]⟩ ![0] hs1 sv))))
        (broadcastInDim ⟨2, ![N, C]⟩ ![0, 1] hb2 (broadcastInDim ⟨2, ![1, C]⟩ ![1] hb1 bv))
      = combine agg h (shapeCast ⟨2, ![1, C]⟩ bv cb) (shapeCast ⟨2, ![N, 1]⟩ sv cs) := by
  funext i
  obtain ⟨p, q, rfl⟩ : ∃ (p : Fin N) (q : Fin C), i = ix2 p q := ⟨i 0, i 1, eq_ix2 i⟩
  show (agg (ix2 p q) + h (ix2 p q) * broadcastInDim ⟨2, ![N, C]⟩ ![0, 1] hs2 (broadcastInDim ⟨2, ![N, 1]⟩ ![0] hs1 sv) (ix2 p q))
      + broadcastInDim ⟨2, ![N, C]⟩ ![0, 1] hb2 (broadcastInDim ⟨2, ![1, C]⟩ ![1] hb1 bv) (ix2 p q)
    = (agg (ix2 p q) + h (ix2 p q) * shapeCast ⟨2, ![N, 1]⟩ sv cs (ix2 p (0 : Fin 1)))
      + shapeCast ⟨2, ![1, C]⟩ bv cb (ix2 (0 : Fin 1) q)
  rw [column_then_across sv hs1 hs2 p q, row_then_down bv hb1 hb2 p q,
    Cert.LibColumnCast.column_cast sv cs p 0, shapeCast_a_1a_apply bv cb (0 : Fin 1) q]

/-- The host's cut-off at zero of an array is the entrywise larger of it and zero. -/
theorem host_relu (x : FVec Ideal ⟨2, ![N, C]⟩ .f32) (h0 : (⟨0, ![]⟩ : Shape).BroadcastsInDim ⟨2, ![N, C]⟩ ![]) :
    maximumf x (broadcastInDim ⟨2, ![N, C]⟩ ![] h0 (constant (F := Ideal) ⟨0, ![]⟩ .f32 0x00000000#32))
      = fun i => max (x i) (Ideal.ofBits .f32 0x00000000#32) := by
  funext i
  show max (x i) (broadcastInDim ⟨2, ![N, C]⟩ ![] h0 (constant (F := Ideal) ⟨0, ![]⟩ .f32 0x00000000#32) i) = _
  rw [broadcastInDim_apply ![] h0 _ i ix0 (fun a => a.elim0)]
  rfl

end

end Cert.LayerForms

end
-- ==== Proof.LibDenseStages.lean ====
/-
  THE DENSE STEPS OF A GRAPH NETWORK, ENTRY BY ENTRY ON THE EXTENDED REALS.

  A node layer sends an array X (one row per node) to X · W + b: entry (p, q) is the sum over k of
  X (p, k) · W (k, q), plus entry q of the bias, which is stored as a one-row array ('affine'); 'affineRelu' is the
  larger of that and zero. After the neighbours' messages are collected, a layer adds the collected array, the node's
  own scaled features and the bias ('addBias'), again possibly cut off below at zero ('addBiasRelu'). The edge scorer
  applies an affine step cut off at zero, a second affine step onto one column, and the logistic function
  x ↦ 1 / (1 + e^(-x)) ('score').

  Each formula mentions only the row p of its inputs, so a block of rows of the result is the same formula applied to
  that block of rows: this is why a device program that works through the rows ten thousand at a time and a host
  program that treats the whole array at once compute the same array. The host spells the bias by broadcasting a
  vector to one row and then down all rows, the device by broadcasting its one-row block; zero is the float pattern
  of all zero bits, and adding it changes nothing; the logistic function is by definition the quotient the host
  spells out. No law of arithmetic beyond x + 0 = x is used: both spellings are the same expression entry by entry.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value
import proofs.«137501_j83021717832548_2_alg».proof.Proof.LibLayerForms

noncomputable section

open scoped BigOperators

namespace Cert.DenseStages

open Idealize.ShloMosaic Idealize.ShloMosaic.ValueIdx Cert.LayerForms Cert.MatOps

/-! ## The stages -/

section
variable {N K C : Nat}

/-- X · W plus the one-row bias laid along every row. -/
def affine (X : FVec Ideal ⟨2, ![N, K]⟩ .f32) (W : FVec Ideal ⟨2, ![K, C]⟩ .f32) (b : FVec Ideal ⟨2, ![1, C]⟩ .f32) :
    FVec Ideal ⟨2, ![N, C]⟩ .f32 :=
  fun i => dense X W i + b (ix2 (0 : Fin 1) (i 1 : Fin C))

/-- The same, cut off below at zero. -/
def affineRelu (X : FVec Ideal ⟨2, ![N, K]⟩ .f32) (W : FVec Ideal ⟨2, ![K, C]⟩ .f32) (b : FVec Ideal ⟨2, ![1, C]⟩ .f32) :
    FVec Ideal ⟨2, ![N, C]⟩ .f32 :=
  fun i => max (affine X W b i) (Ideal.ofBits .f32 0x00000000#32)

/-- Collected messages plus the node's own scaled features plus the one-row bias. -/
def addBias (A S : FVec Ideal ⟨2, ![N, C]⟩ .f32) (b : FVec Ideal ⟨2, ![1, C]⟩ .f32) : FVec Ideal ⟨2, ![N, C]⟩ .f32 :=
  fun i => (A i + S i) + b (ix2 (0 : Fin 1) (i 1 : Fin C))

/-- The same, cut off below at zero. -/
def addBiasRelu (A S : FVec Ideal ⟨2, ![N, C]⟩ .f32) (b : FVec Ideal ⟨2, ![1, C]⟩ .f32) : FVec Ideal ⟨2, ![N, C]⟩ .f32 :=
  fun i => max (addBias A S b i) (Ideal.ofBits .f32 0x00000000#32)

theorem affine_apply (X : FVec Ideal ⟨2, ![N, K]⟩ .f32) (W : FVec Ideal ⟨2, ![K, C]⟩ .f32) (b : FVec Ideal ⟨2, ![1, C]⟩ .f32)
    (p : Fin N) (q : Fin C) :
    affine X W b (ix2 p q) = (∑ k : Fin K, X (ix2 p k) * W (ix2 k q)) + b (ix2 (0 : Fin 1) q) := rfl

theorem affineRelu_apply (X : FVec Ideal ⟨2, ![N, K]⟩ .f32) (W : FVec Ideal ⟨2, ![K, C]⟩ .f32) (b : FVec Ideal ⟨2, ![1, C]⟩ .f32)
    (p : Fin N) (q : Fin C) :
    affineRelu X W b (ix2 p q)
      = max ((∑ k : Fin K, X (ix2 p k) * W (ix2 k q)) + b (ix2 (0 : Fin 1) q)) (Ideal.ofBits .f32 0x00000000#32) := rfl

theorem addBias_apply (A S : FVec Ideal ⟨2, ![N, C]⟩ .f32) (b : FVec Ideal ⟨2, ![1, C]⟩ .f32) (p : Fin N) (q : Fin C) :
    addBias A S b (ix2 p q) = (A (ix2 p q) + S (ix2 p q)) + b (ix2 (0 : Fin 1) q) := rfl

theorem addBiasRelu_apply (A S : FVec Ideal ⟨2, ![N, C]⟩ .f32) (b : FVec Ideal ⟨2, ![1, C]⟩ .f32) (p : Fin N) (q : Fin C) :
    addBiasRelu A S b (ix2 p q)
      = max ((A (ix2 p q) + S (ix2 p q)) + b (ix2 (0 : Fin 1) q)) (Ideal.ofBits .f32 0x00000000#32) := rfl

end

/-- The edge scorer: an affine step cut off at zero, an affine step onto one column, the logistic function. -/
def score {N K H : Nat} (E : FVec Ideal ⟨2, ![N, K]⟩ .f32) (W1 : FVec Ideal ⟨2, ![K, H]⟩ .f32) (b1 : FVec Ideal ⟨2, ![1, H]⟩ .f32)
    (W2 : FVec Ideal ⟨2, ![H, 1]⟩ .f32) (b2 : FVec Ideal ⟨2, ![1, 1]⟩ .f32) : FVec Ideal ⟨2, ![N, 1]⟩ .f32 :=
  fun i => Ideal.logistic (affine (affineRelu E W1 b1) W2 b2 i)

/-! ## A block of rows of a stage is the stage of the block of rows

Each lemma reads the stage of the whole arrays at row 'r p' where the block's row p sits; the inputs that are not cut
into rows (the weights, the bias) are the same on both sides. -/

section
variable {M N K C : Nat}

theorem affine_rows (X : FVec Ideal ⟨2, ![N, K]⟩ .f32) (W : FVec Ideal ⟨2, ![K, C]⟩ .f32) (b : FVec Ideal ⟨2, ![1, C]⟩ .f32)
    (x : FVec Ideal ⟨2, ![M, K]⟩ .f32) (r : Fin M → Fin N) (hx : ∀ p k, x (ix2 p k) = X (ix2 (r p) k)) (p : Fin M) (q : Fin C) :
    affine x W b (ix2 p q) = affine X W b (ix2 (r p) q) := by
  rw [affine_apply, affine_apply]
  simp only [hx]

theorem affineRelu_rows (X : FVec Ideal ⟨2, ![N, K]⟩ .f32) (W : FVec Ideal ⟨2, ![K, C]⟩ .f32) (b : FVec Ideal ⟨2, ![1, C]⟩ .f32)
    (x : FVec Ideal ⟨2, ![M, K]⟩ .f32) (r : Fin M → Fin N) (hx : ∀ p k, x (ix2 p k) = X (ix2 (r p) k)) (p : Fin M) (q : Fin C) :
    affineRelu x W b (ix2 p q) = affineRelu X W b (ix2 (r p) q) := by
  rw [affineRelu_apply, affineRelu_apply]
  simp only [hx]

theorem addBias_rows (A S : FVec Ideal ⟨2, ![N, C]⟩ .f32) (b : FVec Ideal ⟨2, ![1, C]⟩ .f32)
    (a s : FVec Ideal ⟨2, ![M, C]⟩ .f32) (r : Fin M → Fin N) (ha : ∀ p q, a (ix2 p q) = A (ix2 (r p) q))
    (hs : ∀ p q, s (ix2 p q) = S (ix2 (r p) q)) (p : Fin M) (q : Fin C) :
    addBias a s b (ix2 p q) = addBias A S b (ix2 (r p) q) := by
  rw [addBias_apply, addBias_apply, ha, hs]

theorem addBiasRelu_rows (A S : FVec Ideal ⟨2, ![N, C]⟩ .f32) (b : FVec Ideal ⟨2, ![1, C]⟩ .f32)
    (a s : FVec Ideal ⟨2, ![M, C]⟩ .f32) (r : Fin M → Fin N) (ha : ∀ p q, a (ix2 p q) = A (ix2 (r p) q))
    (hs : ∀ p q, s (ix2 p q) = S (ix2 (r p) q)) (p : Fin M) (q : Fin C) :
    addBiasRelu a s b (ix2 p q) = addBiasRelu A S b (ix2 (r p) q) := by
  rw [addBiasRelu_apply, addBiasRelu_apply, ha, hs]

end

theorem score_rows {M N K H : Nat} (E : FVec Ideal ⟨2, ![N, K]⟩ .f32) (W1 : FVec Ideal ⟨2, ![K, H]⟩ .f32)
    (b1 : FVec Ideal ⟨2, ![1, H]⟩ .f32) (W2 : FVec Ideal ⟨2, ![H, 1]⟩ .f32) (b2 : FVec Ideal ⟨2, ![1, 1]⟩ .f32)
    (e : FVec Ideal ⟨2, ![M, K]⟩ .f32) (r : Fin M → Fin N) (he : ∀ p k, e (ix2 p k) = E (ix2 (r p) k)) (p : Fin M) (q : Fin 1) :
    score e W1 b1 W2 b2 (ix2 p q) = score E W1 b1 W2 b2 (ix2 (r p) q) := by
  show Ideal.logistic (affine (affineRelu e W1 b1) W2 b2 (ix2 p q)) = Ideal.logistic (affine (affineRelu E W1 b1) W2 b2 (ix2 (r p) q))
  rw [affine_rows (affineRelu E W1 b1) W2 b2 (affineRelu e W1 b1) r (fun p' k => affineRelu_rows E W1 b1 e r he p' k) p q]

/-! ## The host's spelling -/

section
variable {N K C : Nat}

/-- A matrix product plus a vector broadcast to a row and down the rows is 'affine' of the vector recast as a row. -/
theorem host_affine (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] []) (hd : d = plainDot N K C wf)
    (X : FVec Ideal ⟨2, ![N, K]⟩ .f32) (W : FVec Ideal ⟨2, ![K, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (cb : (⟨1, ![C]⟩ : Shape).ShapeCasts ⟨2, ![1, C]⟩) :
    addf (Host.dotGeneral d none X W) (broadcastInDim ⟨2, ![N, C]⟩ ![0, 1] hb2 (broadcastInDim ⟨2, ![1, C]⟩ ![1] hb1 bv))
      = affine X W (shapeCast ⟨2, ![1, C]⟩ bv cb) := by
  rw [dotGeneral_eq_dense d wf hd]
  funext i
  obtain ⟨p, q, rfl⟩ : ∃ (p : Fin N) (q : Fin C), i = ix2 p q := ⟨i 0, i 1, eq_ix2 i⟩
  show dense X W (ix2 p q) + broadcastInDim ⟨2, ![N, C]⟩ ![0, 1] hb2 (broadcastInDim ⟨2, ![1, C]⟩ ![1] hb1 bv) (ix2 p q)
    = dense X W (ix2 p q) + shapeCast ⟨2, ![1, C]⟩ bv cb (ix2 (0 : Fin 1) q)
  rw [row_then_down bv hb1 hb2 p q, shapeCast_a_1a_apply bv cb (0 : Fin 1) q]

/-- The same cut off at zero by the host's maximum against a broadcast zero. -/
theorem host_affineRelu (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] []) (hd : d = plainDot N K C wf)
    (X : FVec Ideal ⟨2, ![N, K]⟩ .f32) (W : FVec Ideal ⟨2, ![K, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (h0 : (⟨0, ![]⟩ : Shape).BroadcastsInDim ⟨2, ![N, C]⟩ ![])
    (cb : (⟨1, ![C]⟩ : Shape).ShapeCasts ⟨2, ![1, C]⟩) :
    maximumf (addf (Host.dotGeneral d none X W) (broadcastInDim ⟨2, ![N, C]⟩ ![0, 1] hb2 (broadcastInDim ⟨2, ![1, C]⟩ ![1] hb1 bv)))
        (broadcastInDim ⟨2, ![N, C]⟩ ![] h0 (constant (F := Ideal) ⟨0, ![]⟩ .f32 0x00000000#32))
      = affineRelu X W (shapeCast ⟨2, ![1, C]⟩ bv cb) := by
  rw [host_relu, host_affine d wf hd X W bv hb1 hb2 cb]
  rfl

/-- A matrix product alone is 'affine' with the bias a vector of zeros recast as a row: adding zero changes nothing. -/
theorem host_product (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] []) (hd : d = plainDot N K C wf)
    (X : FVec Ideal ⟨2, ![N, K]⟩ .f32) (W : FVec Ideal ⟨2, ![K, C]⟩ .f32)
    (hz : (⟨0, ![]⟩ : Shape).BroadcastsInDim ⟨1, ![C]⟩ ![])
    (cb : (⟨1, ![C]⟩ : Shape).ShapeCasts ⟨2, ![1, C]⟩) :
    Host.dotGeneral d none X W
      = affine X W (shapeCast ⟨2, ![1, C]⟩ (broadcastInDim ⟨1, ![C]⟩ ![] hz (constant (F := Ideal) ⟨0, ![]⟩ .f32 0x00000000#32)) cb) := by
  rw [dotGeneral_eq_dense d wf hd]
  funext i
  obtain ⟨p, q, rfl⟩ : ∃ (p : Fin N) (q : Fin C), i = ix2 p q := ⟨i 0, i 1, eq_ix2 i⟩
  show dense X W (ix2 p q) = dense X W (ix2 p q) + shapeCast ⟨2, ![1, C]⟩ _ cb (ix2 (0 : Fin 1) q)
  rw [shapeCast_a_1a_apply _ cb (0 : Fin 1) q, broadcastInDim_apply ![] hz _ (ix1 q) ix0 (fun a => a.elim0)]
  show dense X W (ix2 p q) = dense X W (ix2 p q) + Ideal.ofBits .f32 0x00000000#32
  rw [Ideal.ofBits_zero_f32, add_zero]

/-- The host's closing step of a layer. -/
theorem host_addBias (A S : FVec Ideal ⟨2, ![N, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (cb : (⟨1, ![C]⟩ : Shape).ShapeCasts ⟨2, ![1, C]⟩) :
    addf (addf A S) (broadcastInDim ⟨2, ![N, C]⟩ ![0, 1] hb2 (broadcastInDim ⟨2, ![1, C]⟩ ![1] hb1 bv))
      = addBias A S (shapeCast ⟨2, ![1, C]⟩ bv cb) := by
  funext i
  obtain ⟨p, q, rfl⟩ : ∃ (p : Fin N) (q : Fin C), i = ix2 p q := ⟨i 0, i 1, eq_ix2 i⟩
  show (A (ix2 p q) + S (ix2 p q)) + broadcastInDim ⟨2, ![N, C]⟩ ![0, 1] hb2 (broadcastInDim ⟨2, ![1, C]⟩ ![1] hb1 bv) (ix2 p q)
    = (A (ix2 p q) + S (ix2 p q)) + shapeCast ⟨2, ![1, C]⟩ bv cb (ix2 (0 : Fin 1) q)
  rw [row_then_down bv hb1 hb2 p q, shapeCast_a_1a_apply bv cb (0 : Fin 1) q]

/-- The same cut off at zero. -/
theorem host_addBiasRelu (A S : FVec Ideal ⟨2, ![N, C]⟩ .f32) (bv : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (h0 : (⟨0, ![]⟩ : Shape).BroadcastsInDim ⟨2, ![N, C]⟩ ![])
    (cb : (⟨1, ![C]⟩ : Shape).ShapeCasts ⟨2, ![1, C]⟩) :
    maximumf (addf (addf A S) (broadcastInDim ⟨2, ![N, C]⟩ ![0, 1] hb2 (broadcastInDim ⟨2, ![1, C]⟩ ![1] hb1 bv)))
        (broadcastInDim ⟨2, ![N, C]⟩ ![] h0 (constant (F := Ideal) ⟨0, ![]⟩ .f32 0x00000000#32))
      = addBiasRelu A S (shapeCast ⟨2, ![1, C]⟩ bv cb) := by
  rw [host_relu, host_addBias A S bv hb1 hb2 cb]
  rfl

end

/-- The float pattern of one is the number one. -/
theorem one_f32 : Ideal.ofBits .f32 0x3F800000#32 = 1 := by
  simp [Ideal.ofBits, Ideal.ieee, -EReal.coe_mul]; norm_num

/-- The host's quotient 1 / (1 + e^(-y)), entry by entry, is the logistic function of y. -/
theorem host_logistic {s : Shape} (y : FVec Ideal s .f32) (h1 : (⟨0, ![]⟩ : Shape).BroadcastsInDim s ![]) :
    Host.divf (broadcastInDim s ![] h1 (constant (F := Ideal) ⟨0, ![]⟩ .f32 0x3F800000#32))
        (addf (broadcastInDim s ![] h1 (constant (F := Ideal) ⟨0, ![]⟩ .f32 0x3F800000#32)) (Host.exp (Host.negf y)))
      = fun i => Ideal.logistic (y i) := by
  funext i
  show Ideal.div (broadcastInDim s ![] h1 (constant (F := Ideal) ⟨0, ![]⟩ .f32 0x3F800000#32) i)
      (broadcastInDim s ![] h1 (constant (F := Ideal) ⟨0, ![]⟩ .f32 0x3F800000#32) i + Ideal.exp (-(y i))) = _
  rw [broadcastInDim_apply ![] h1 _ i ix0 (fun a => a.elim0)]
  show Ideal.div (Ideal.ofBits .f32 0x3F800000#32) (Ideal.ofBits .f32 0x3F800000#32 + Ideal.exp (-(y i))) = Ideal.logistic (y i)
  rw [one_f32]
  rfl

/-- The host's edge scorer. -/
theorem host_score {N K H : Nat}
    (d1 : DotDims ⟨2, ![N, K]⟩ ⟨2, ![K, H]⟩ ⟨2, ![N, H]⟩)
    (wf1 : DotDims.WF ⟨2, ![N, K]⟩ ⟨2, ![K, H]⟩ ⟨2, ![N, H]⟩ [1] [0] [0] [1] [] []) (hd1 : d1 = plainDot N K H wf1)
    (d2 : DotDims ⟨2, ![N, H]⟩ ⟨2, ![H, 1]⟩ ⟨2, ![N, 1]⟩)
    (wf2 : DotDims.WF ⟨2, ![N, H]⟩ ⟨2, ![H, 1]⟩ ⟨2, ![N, 1]⟩ [1] [0] [0] [1] [] []) (hd2 : d2 = plainDot N H 1 wf2)
    (E : FVec Ideal ⟨2, ![N, K]⟩ .f32) (W1 : FVec Ideal ⟨2, ![K, H]⟩ .f32) (b1 : FVec Ideal ⟨1, ![H]⟩ .f32)
    (W2 : FVec Ideal ⟨2, ![H, 1]⟩ .f32) (b2 : FVec Ideal ⟨1, ![1]⟩ .f32)
    (hb1 : (⟨1, ![H]⟩ : Shape).BroadcastsInDim ⟨2, ![1, H]⟩ ![1])
    (hb2 : (⟨2, ![1, H]⟩ : Shape).BroadcastsInDim ⟨2, ![N, H]⟩ ![0, 1])
    (h0 : (⟨0, ![]⟩ : Shape).BroadcastsInDim ⟨2, ![N, H]⟩ ![])
    (cb1 : (⟨1, ![H]⟩ : Shape).ShapeCasts ⟨2, ![1, H]⟩)
    (hc1 : (⟨1, ![1]⟩ : Shape).BroadcastsInDim ⟨2, ![1, 1]⟩ ![1])
    (hc2 : (⟨2, ![1, 1]⟩ : Shape).BroadcastsInDim ⟨2, ![N, 1]⟩ ![0, 1])
    (h1 : (⟨0, ![]⟩ : Shape).BroadcastsInDim ⟨2, ![N, 1]⟩ ![])
    (cb2 : (⟨1, ![1]⟩ : Shape).ShapeCasts ⟨2, ![1, 1]⟩) :
    Host.divf (broadcastInDim ⟨2, ![N, 1]⟩ ![] h1 (constant (F := Ideal) ⟨0, ![]⟩ .f32 0x3F800000#32))
        (addf (broadcastInDim ⟨2, ![N, 1]⟩ ![] h1 (constant (F := Ideal) ⟨0, ![]⟩ .f32 0x3F800000#32))
          (Host.exp (Host.negf
            (addf (Host.dotGeneral d2 none
                (maximumf (addf (Host.dotGeneral d1 none E W1)
                    (broadcastInDim ⟨2, ![N, H]⟩ ![0, 1] hb2 (broadcastInDim ⟨2, ![1, H]⟩ ![1] hb1 b1)))
                  (broadcastInDim ⟨2, ![N, H]⟩ ![] h0 (constant (F := Ideal) ⟨0, ![]⟩ .f32 0x00000000#32))) W2)
              (broadcastInDim ⟨2, ![N, 1]⟩ ![0, 1] hc2 (broadcastInDim ⟨2, ![1, 1]⟩ ![1] hc1 b2))))))
      = score E W1 (shapeCast ⟨2, ![1, H]⟩ b1 cb1) W2 (shapeCast ⟨2, ![1, 1]⟩ b2 cb2) := by
  rw [host_logistic, host_affineRelu d1 wf1 hd1 E W1 b1 hb1 hb2 h0 cb1,
    host_affine d2 wf2 hd2 _ W2 b2 hc1 hc2 cb2]
  rfl

/-! ## The device's spelling, on one block of rows -/

section
variable {M K C : Nat}

/-- The matrix unit accumulating into zeros (its operands first narrowed to sixteen bits, which changes no number
    here), plus the one-row bias block broadcast down the rows. -/
theorem device_affine (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits)
    (hc : (⟨2, ![1, C]⟩ : Shape).ShapeCasts ⟨2, ![1, C]⟩) (hb : (⟨2, ![1, C]⟩ : Shape).Broadcasts ⟨2, ![M, C]⟩) :
    addf (matmul d none (truncf .bf16 x hlt) (truncf .bf16 w hlt) (constant (F := Ideal) ⟨2, ![M, C]⟩ .f32 0x00000000#32))
        (broadcastTo ⟨2, ![M, C]⟩ (shapeCast ⟨2, ![1, C]⟩ b hc) hb)
      = affine x w b := by
  subst hd
  funext i
  obtain ⟨p, q, rfl⟩ : ∃ (p : Fin M) (q : Fin C), i = ix2 p q := ⟨i 0, i 1, eq_ix2 i⟩
  show FloatOps.matmul (plainDot M K C wf) none (truncf .bf16 x hlt) (truncf .bf16 w hlt)
        (constant (F := Ideal) ⟨2, ![M, C]⟩ .f32 0x00000000#32) (ix2 p q)
      + broadcastTo ⟨2, ![M, C]⟩ (shapeCast ⟨2, ![1, C]⟩ b hc) hb (ix2 p q) = _
  rw [matmul_plain_apply wf none _ _ p q, broadcastTo_1b_ab_apply _ hb p q, shapeCast_self b hc]
  rfl

/-- The same cut off at zero by the device's maximum against a splat zero. -/
theorem device_affineRelu (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits)
    (hc : (⟨2, ![1, C]⟩ : Shape).ShapeCasts ⟨2, ![1, C]⟩) (hb : (⟨2, ![1, C]⟩ : Shape).Broadcasts ⟨2, ![M, C]⟩) :
    maximumf (addf (matmul d none (truncf .bf16 x hlt) (truncf .bf16 w hlt) (constant (F := Ideal) ⟨2, ![M, C]⟩ .f32 0x00000000#32))
        (broadcastTo ⟨2, ![M, C]⟩ (shapeCast ⟨2, ![1, C]⟩ b hc) hb))
      (broadcast ⟨2, ![M, C]⟩ (Scalar.ofBits (F := Ideal) .f32 0x00000000#32))
      = affineRelu x w b := by
  rw [device_affine d wf hd x w b hlt hc hb]
  rfl

/-- The same with the block of rows first recast onto its own shape, which changes nothing. -/
theorem device_affine_cast (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits) (hm : (⟨2, ![M, K]⟩ : Shape).ShapeCasts ⟨2, ![M, K]⟩)
    (hc : (⟨2, ![1, C]⟩ : Shape).ShapeCasts ⟨2, ![1, C]⟩) (hb : (⟨2, ![1, C]⟩ : Shape).Broadcasts ⟨2, ![M, C]⟩) :
    addf (matmul d none (truncf .bf16 (shapeCast ⟨2, ![M, K]⟩ x hm) hlt) (truncf .bf16 w hlt)
          (constant (F := Ideal) ⟨2, ![M, C]⟩ .f32 0x00000000#32))
        (broadcastTo ⟨2, ![M, C]⟩ (shapeCast ⟨2, ![1, C]⟩ b hc) hb)
      = affine x w b := by
  rw [shapeCast_self x hm]
  exact device_affine d wf hd x w b hlt hc hb

theorem device_affineRelu_cast (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits) (hm : (⟨2, ![M, K]⟩ : Shape).ShapeCasts ⟨2, ![M, K]⟩)
    (hc : (⟨2, ![1, C]⟩ : Shape).ShapeCasts ⟨2, ![1, C]⟩) (hb : (⟨2, ![1, C]⟩ : Shape).Broadcasts ⟨2, ![M, C]⟩) :
    maximumf (addf (matmul d none (truncf .bf16 (shapeCast ⟨2, ![M, K]⟩ x hm) hlt) (truncf .bf16 w hlt)
          (constant (F := Ideal) ⟨2, ![M, C]⟩ .f32 0x00000000#32))
        (broadcastTo ⟨2, ![M, C]⟩ (shapeCast ⟨2, ![1, C]⟩ b hc) hb))
      (broadcast ⟨2, ![M, C]⟩ (Scalar.ofBits (F := Ideal) .f32 0x00000000#32))
      = affineRelu x w b := by
  rw [device_affine_cast d wf hd x w b hlt hm hc hb]
  rfl

/-- The device's closing step of a layer on a block of rows (the two recasts of a block onto its own shape change
    nothing). -/
theorem device_addBias (a s : FVec Ideal ⟨2, ![M, C]⟩ .f32) (b : FVec Ideal ⟨2, ![1, C]⟩ .f32)
    (hm : (⟨2, ![M, C]⟩ : Shape).ShapeCasts ⟨2, ![M, C]⟩)
    (hc : (⟨2, ![1, C]⟩ : Shape).ShapeCasts ⟨2, ![1, C]⟩) (hb : (⟨2, ![1, C]⟩ : Shape).Broadcasts ⟨2, ![M, C]⟩) :
    addf (addf (shapeCast ⟨2, ![M, C]⟩ a hm) (shapeCast ⟨2, ![M, C]⟩ s hm)) (broadcastTo ⟨2, ![M, C]⟩ (shapeCast ⟨2, ![1, C]⟩ b hc) hb)
      = addBias a s b := by
  rw [shapeCast_self a hm, shapeCast_self s hm, shapeCast_self b hc]
  funext i
  obtain ⟨p, q, rfl⟩ : ∃ (p : Fin M) (q : Fin C), i = ix2 p q := ⟨i 0, i 1, eq_ix2 i⟩
  show (a (ix2 p q) + s (ix2 p q)) + broadcastTo ⟨2, ![M, C]⟩ b hb (ix2 p q) = _
  rw [broadcastTo_1b_ab_apply b hb p q]
  rfl

theorem device_addBiasRelu (a s : FVec Ideal ⟨2, ![M, C]⟩ .f32) (b : FVec Ideal ⟨2, ![1, C]⟩ .f32)
    (hm : (⟨2, ![M, C]⟩ : Shape).ShapeCasts ⟨2, ![M, C]⟩)
    (hc : (⟨2, ![1, C]⟩ : Shape).ShapeCasts ⟨2, ![1, C]⟩) (hb : (⟨2, ![1, C]⟩ : Shape).Broadcasts ⟨2, ![M, C]⟩) :
    maximumf (addf (addf (shapeCast ⟨2, ![M, C]⟩ a hm) (shapeCast ⟨2, ![M, C]⟩ s hm))
        (broadcastTo ⟨2, ![M, C]⟩ (shapeCast ⟨2, ![1, C]⟩ b hc) hb))
      (broadcast ⟨2, ![M, C]⟩ (Scalar.ofBits (F := Ideal) .f32 0x00000000#32))
      = addBiasRelu a s b := by
  rw [device_addBias a s b hm hc hb]
  rfl

end

/-- The device's edge scorer on a block of rows: the two affine steps through the matrix unit, the device's logistic
    operation at the end. -/
theorem device_score {M K H : Nat}
    (d1 : DotDims ⟨2, ![M, K]⟩ ⟨2, ![K, H]⟩ ⟨2, ![M, H]⟩)
    (wf1 : DotDims.WF ⟨2, ![M, K]⟩ ⟨2, ![K, H]⟩ ⟨2, ![M, H]⟩ [1] [0] [0] [1] [] []) (hd1 : d1 = plainDot M K H wf1)
    (d2 : DotDims ⟨2, ![M, H]⟩ ⟨2, ![H, 1]⟩ ⟨2, ![M, 1]⟩)
    (wf2 : DotDims.WF ⟨2, ![M, H]⟩ ⟨2, ![H, 1]⟩ ⟨2, ![M, 1]⟩ [1] [0] [0] [1] [] []) (hd2 : d2 = plainDot M H 1 wf2)
    (x : FVec Ideal ⟨2, ![M, K]⟩ .f32) (w1 : FVec Ideal ⟨2, ![K, H]⟩ .f32) (b1 : FVec Ideal ⟨2, ![1, H]⟩ .f32)
    (w2 : FVec Ideal ⟨2, ![H, 1]⟩ .f32) (b2 : FVec Ideal ⟨2, ![1, 1]⟩ .f32)
    (hlt : FTy.bf16.bits < FTy.f32.bits) (hm : (⟨2, ![M, K]⟩ : Shape).ShapeCasts ⟨2, ![M, K]⟩)
    (hc1 : (⟨2, ![1, H]⟩ : Shape).ShapeCasts ⟨2, ![1, H]⟩) (hb1 : (⟨2, ![1, H]⟩ : Shape).Broadcasts ⟨2, ![M, H]⟩)
    (hc2 : (⟨2, ![1, 1]⟩ : Shape).ShapeCasts ⟨2, ![1, 1]⟩) (hb2 : (⟨2, ![1, 1]⟩ : Shape).Broadcasts ⟨2, ![M, 1]⟩) :
    logistic (addf (matmul d2 none
          (truncf .bf16 (maximumf (addf (matmul d1 none (truncf .bf16 (shapeCast ⟨2, ![M, K]⟩ x hm) hlt) (truncf .bf16 w1 hlt)
                (constant (F := Ideal) ⟨2, ![M, H]⟩ .f32 0x00000000#32))
              (broadcastTo ⟨2, ![M, H]⟩ (shapeCast ⟨2, ![1, H]⟩ b1 hc1) hb1))
            (broadcast ⟨2, ![M, H]⟩ (Scalar.ofBits (F := Ideal) .f32 0x00000000#32))) hlt)
          (truncf .bf16 w2 hlt) (constant (F := Ideal) ⟨2, ![M, 1]⟩ .f32 0x00000000#32))
        (broadcastTo ⟨2, ![M, 1]⟩ (shapeCast ⟨2, ![1, 1]⟩ b2 hc2) hb2))
      = score x w1 b1 w2 b2 := by
  rw [device_affineRelu_cast d1 wf1 hd1 x w1 b1 hlt hm hc1 hb1, device_affine d2 wf2 hd2 (affineRelu x w1 b1) w2 b2 hlt hc2 hb2]
  rfl

end Cert.DenseStages

end
-- ==== Proof.Stages.lean ====
/-
  THE STAGES OF A GATED GRAPH NETWORK, ENTRY BY ENTRY ON THE EXTENDED REALS.

  A node array (one row per node) is embedded by an affine step X · W + b, standardised column by column with stored
  statistics — entry y of column q goes to ((y - mu q) · (v q + eps)^(-1/2)) · gamma q + beta q, eps the float nearest 1e-5 —
  and cut off below at zero. A propagation step multiplies the node array by a square weight matrix, collects the
  products along the edges, and updates every node by a gated recurrent cell: with gi = A · Wi + bi (A the collected
  messages) and gh = H · Wh + bh (H the node's state), both three blocks of 128 columns wide,
      r = logistic (gi_r + gh_r),   z = logistic (gi_z + gh_z),   n = tanh (gi_n + r · gh_n),
      H' = (1 - z) · n + z · H.
  The read-out standardises and cuts off once more, averages over each graph, and applies three affine steps with a
  standardisation and a cut-off between them.

  Every formula below mentions only row p of the arrays that have one row per node, so a block of rows of a stage is
  the stage of the block of rows.
-/
import Idealize.ShloMosaic.PureOps.Ideal.Laws
import Idealize.ShloMosaic.Lib.ValueIdx
import Idealize.ShloMosaic.Lib.ValueLayout
import Idealize.ShloMosaic.Lib.Pipeline.Value
import proofs.«137501_j83021717832548_2_alg».proof.Proof.LibDenseStages

noncomputable section

open scoped BigOperators

namespace Cert.Net

open Idealize.ShloMosaic Idealize.ShloMosaic.ValueIdx Cert.LayerForms Cert.DenseStages Cert.MatOps

/-! ## One entry -/

/-- One entry standardised: ((y - mu) · (v + eps)^(-1/2)) · gamma + beta. -/
def norm1 (y mu v g be : EReal) : EReal :=
  ((y - mu) * Ideal.rsqrt (v + Ideal.ofBits .f32 0x3727C5AC#32)) * g + be

/-- The larger of an entry and zero. -/
def relu1 (y : EReal) : EReal := max y (Ideal.ofBits .f32 0x00000000#32)

/-- One entry of the gated recurrent update, from the six gate pre-activations and the old state. -/
def gruCell (ir hr iz hz inn hn h : EReal) : EReal :=
  (Ideal.ofBits .f32 0x3F800000#32 - Ideal.logistic (iz + hz)) * Ideal.tanh (inn + Ideal.logistic (ir + hr) * hn)
    + Ideal.logistic (iz + hz) * h

/-- Column q of the first, second and third block of 128 columns among 384. -/
def colR (q : Fin 128) : Fin 384 := ⟨q.val, by have := q.isLt; omega⟩
def colZ (q : Fin 128) : Fin 384 := ⟨128 + q.val, by have := q.isLt; omega⟩
def colN (q : Fin 128) : Fin 384 := ⟨256 + q.val, by have := q.isLt; omega⟩

/-! ## The stages -/

section
variable {N K C : Nat}

/-- Standardise column by column with one-row statistics, then cut off at zero. -/
def normRelu (Y : FVec Ideal ⟨2, ![N, C]⟩ .f32) (g be mu v : FVec Ideal ⟨2, ![1, C]⟩ .f32) : FVec Ideal ⟨2, ![N, C]⟩ .f32 :=
  fun i => relu1 (norm1 (Y i) (mu (ix2 (0 : Fin 1) (i 1 : Fin C))) (v (ix2 (0 : Fin 1) (i 1 : Fin C)))
    (g (ix2 (0 : Fin 1) (i 1 : Fin C))) (be (ix2 (0 : Fin 1) (i 1 : Fin C))))

theorem normRelu_apply (Y : FVec Ideal ⟨2, ![N, C]⟩ .f32) (g be mu v : FVec Ideal ⟨2, ![1, C]⟩ .f32) (p : Fin N) (q : Fin C) :
    normRelu Y g be mu v (ix2 p q)
      = relu1 (norm1 (Y (ix2 p q)) (mu (ix2 (0 : Fin 1) q)) (v (ix2 (0 : Fin 1) q)) (g (ix2 (0 : Fin 1) q)) (be (ix2 (0 : Fin 1) q))) := rfl

/-- The embedding: an affine step, standardised and cut off. -/
def embed (X : FVec Ideal ⟨2, ![N, K]⟩ .f32) (W : FVec Ideal ⟨2, ![K, C]⟩ .f32) (b g be mu v : FVec Ideal ⟨2, ![1, C]⟩ .f32) :
    FVec Ideal ⟨2, ![N, C]⟩ .f32 :=
  normRelu (affine X W b) g be mu v

theorem embed_apply (X : FVec Ideal ⟨2, ![N, K]⟩ .f32) (W : FVec Ideal ⟨2, ![K, C]⟩ .f32) (b g be mu v : FVec Ideal ⟨2, ![1, C]⟩ .f32)
    (p : Fin N) (q : Fin C) :
    embed X W b g be mu v (ix2 p q)
      = relu1 (norm1 ((∑ k : Fin K, X (ix2 p k) * W (ix2 k q)) + b (ix2 (0 : Fin 1) q)) (mu (ix2 (0 : Fin 1) q))
          (v (ix2 (0 : Fin 1) q)) (g (ix2 (0 : Fin 1) q)) (be (ix2 (0 : Fin 1) q))) := rfl

end

/-- The gated recurrent update of every node: A the collected messages, H the state. -/
def gru {N : Nat} (A H : FVec Ideal ⟨2, ![N, 128]⟩ .f32) (Wi Wh : FVec Ideal ⟨2, ![128, 384]⟩ .f32)
    (bi bh : FVec Ideal ⟨2, ![1, 384]⟩ .f32) : FVec Ideal ⟨2, ![N, 128]⟩ .f32 :=
  fun i => gruCell (affine A Wi bi (ix2 (i 0 : Fin N) (colR (i 1)))) (affine H Wh bh (ix2 (i 0 : Fin N) (colR (i 1))))
    (affine A Wi bi (ix2 (i 0 : Fin N) (colZ (i 1)))) (affine H Wh bh (ix2 (i 0 : Fin N) (colZ (i 1))))
    (affine A Wi bi (ix2 (i 0 : Fin N) (colN (i 1)))) (affine H Wh bh (ix2 (i 0 : Fin N) (colN (i 1))))
    (H i)

theorem gru_apply {N : Nat} (A H : FVec Ideal ⟨2, ![N, 128]⟩ .f32) (Wi Wh : FVec Ideal ⟨2, ![128, 384]⟩ .f32)
    (bi bh : FVec Ideal ⟨2, ![1, 384]⟩ .f32) (p : Fin N) (q : Fin 128) :
    gru A H Wi Wh bi bh (ix2 p q)
      = gruCell (affine A Wi bi (ix2 p (colR q))) (affine H Wh bh (ix2 p (colR q)))
          (affine A Wi bi (ix2 p (colZ q))) (affine H Wh bh (ix2 p (colZ q)))
          (affine A Wi bi (ix2 p (colN q))) (affine H Wh bh (ix2 p (colN q))) (H (ix2 p q)) := rfl

/-- The read-out on the pooled array: three affine steps, the first two standardised and cut off. -/
def head {N : Nat} (G : FVec Ideal ⟨2, ![N, 128]⟩ .f32)
    (W1 : FVec Ideal ⟨2, ![128, 128]⟩ .f32) (b1 g2 be2 mu2 v2 : FVec Ideal ⟨2, ![1, 128]⟩ .f32)
    (W2 : FVec Ideal ⟨2, ![128, 64]⟩ .f32) (b2 g3 be3 mu3 v3 : FVec Ideal ⟨2, ![1, 64]⟩ .f32)
    (W3 : FVec Ideal ⟨2, ![64, 2]⟩ .f32) (b3 : FVec Ideal ⟨2, ![1, 2]⟩ .f32) : FVec Ideal ⟨2, ![N, 2]⟩ .f32 :=
  affine (embed (embed G W1 b1 g2 be2 mu2 v2) W2 b2 g3 be3 mu3 v3) W3 b3

/-! ## A block of rows of a stage is the stage of the block of rows -/

section
variable {M N K C : Nat}

theorem normRelu_rows (Y : FVec Ideal ⟨2, ![N, C]⟩ .f32) (g be mu v : FVec Ideal ⟨2, ![1, C]⟩ .f32)
    (y : FVec Ideal ⟨2, ![M, C]⟩ .f32) (r : Fin M → Fin N) (hy : ∀ p q, y (ix2 p q) = Y (ix2 (r p) q)) (p : Fin M) (q : Fin C) :
    normRelu y g be mu v (ix2 p q) = normRelu Y g be mu v (ix2 (r p) q) := by
  rw [normRelu_apply, normRelu_apply, hy]

theorem embed_rows (X : FVec Ideal ⟨2, ![N, K]⟩ .f32) (W : FVec Ideal ⟨2, ![K, C]⟩ .f32) (b g be mu v : FVec Ideal ⟨2, ![1, C]⟩ .f32)
    (x : FVec Ideal ⟨2, ![M, K]⟩ .f32) (r : Fin M → Fin N) (hx : ∀ p k, x (ix2 p k) = X (ix2 (r p) k)) (p : Fin M) (q : Fin C) :
    embed x W b g be mu v (ix2 p q) = embed X W b g be mu v (ix2 (r p) q) := by
  rw [embed_apply, embed_apply]
  simp only [hx]

theorem dense_rows (X : FVec Ideal ⟨2, ![N, K]⟩ .f32) (W : FVec Ideal ⟨2, ![K, C]⟩ .f32)
    (x : FVec Ideal ⟨2, ![M, K]⟩ .f32) (r : Fin M → Fin N) (hx : ∀ p k, x (ix2 p k) = X (ix2 (r p) k)) (p : Fin M) (q : Fin C) :
    dense x W (ix2 p q) = dense X W (ix2 (r p) q) := by
  rw [dense_apply, dense_apply]
  simp only [hx]

end

theorem gru_rows {M N : Nat} (A H : FVec Ideal ⟨2, ![N, 128]⟩ .f32) (Wi Wh : FVec Ideal ⟨2, ![128, 384]⟩ .f32)
    (bi bh : FVec Ideal ⟨2, ![1, 384]⟩ .f32) (a h : FVec Ideal ⟨2, ![M, 128]⟩ .f32) (r : Fin M → Fin N)
    (ha : ∀ p k, a (ix2 p k) = A (ix2 (r p) k)) (hh : ∀ p k, h (ix2 p k) = H (ix2 (r p) k)) (p : Fin M) (q : Fin 128) :
    gru a h Wi Wh bi bh (ix2 p q) = gru A H Wi Wh bi bh (ix2 (r p) q) := by
  rw [gru_apply, gru_apply, hh p q,
    affine_rows A Wi bi a r ha p (colR q), affine_rows A Wi bi a r ha p (colZ q), affine_rows A Wi bi a r ha p (colN q),
    affine_rows H Wh bh h r hh p (colR q), affine_rows H Wh bh h r hh p (colZ q), affine_rows H Wh bh h r hh p (colN q)]

end Cert.Net

end
-- ==== Proof.Net.lean ====
/-
  THE WHOLE NETWORK AS ONE FUNCTION OF ITS THIRTY-TWO ARGUMENT ARRAYS, on the extended reals.

  100000 nodes with 100 features each, 1600000 directed edges (row 0 of the edge array the sources, row 1 the targets),
  a graph number below 1024 for every node. The node array is embedded into 128 columns; three propagation steps
  follow, step i multiplying the states by the i-th 128 × 128 weight matrix, collecting for every node the products of
  the edges that end in it (a row gather at the sources, an accumulating row scatter at the targets, into zeros) and
  applying the gated recurrent update; the states are standardised and cut off, averaged over each graph (the sum of
  a graph's rows over the larger of its node count and one), and sent through the read-out.

  The dense stages are the entry-by-entry functions of the module of stages; the gather, the scatters and the
  division by the counts are the host's own operations, which both programs apply verbatim.
-/
import proofs.«137501_j83021717832548_2_alg».proof.KernelIdeal
import proofs.«137501_j83021717832548_2_alg».proof.Proof.Stages

noncomputable section

namespace Cert.Net

open Idealize.ShloMosaic Idealize.ShloMosaic.ValueIdx Cert.LayerForms Cert.DenseStages Cert.KernelIdeal

variable [Facts₀]
open Facts₀

/-- A vector of 128, 384, 64 or 2 entries laid out as one row. -/
def row128 (a : (⟨S128, .f32⟩ : BufTy).Contents (Elt Ideal)) : FVec Ideal S1x128 .f32 := shapeCast S1x128 a shapeCasts_S128_S1x128
def row384 (a : (⟨S384, .f32⟩ : BufTy).Contents (Elt Ideal)) : FVec Ideal S1x384 .f32 := shapeCast S1x384 a shapeCasts_S384_S1x384
def row64 (a : (⟨S64, .f32⟩ : BufTy).Contents (Elt Ideal)) : FVec Ideal S1x64 .f32 := shapeCast S1x64 a shapeCasts_S64_S1x64
def row2 (a : (⟨S2, .f32⟩ : BufTy).Contents (Elt Ideal)) : FVec Ideal S1x2 .f32 := shapeCast S1x2 a shapeCasts_S2_S1x2

/-- A recurrent weight matrix, stored 384 × 128, transposed. -/
def wT (a : (⟨S384x128, .f32⟩ : BufTy).Contents (Elt Ideal)) : FVec Ideal S128x384 .f32 :=
  transpose S128x384 [1, 0] a transposes_S384x128_S128x384_1_0

/-- The propagation weights of steps 0, 1 and 2. -/
def ggc0 (a : (⟨S3x128x128, .f32⟩ : BufTy).Contents (Elt Ideal)) : FVec Ideal S128x128 .f32 :=
  shapeCast S128x128 (extractStridedSlice S1x128x128 ![0, 0, 0] a slices_S3x128x128_S1x128x128_0_0_0) shapeCasts_S1x128x128_S128x128
def ggc1 (a : (⟨S3x128x128, .f32⟩ : BufTy).Contents (Elt Ideal)) : FVec Ideal S128x128 .f32 :=
  shapeCast S128x128 (extractStridedSlice S1x128x128 ![1, 0, 0] a slices_S3x128x128_S1x128x128_1_0_0) shapeCasts_S1x128x128_S128x128
def ggc2 (a : (⟨S3x128x128, .f32⟩ : BufTy).Contents (Elt Ideal)) : FVec Ideal S128x128 .f32 :=
  shapeCast S128x128 (extractStridedSlice S1x128x128 ![2, 0, 0] a slices_S3x128x128_S1x128x128_2_0_0) shapeCasts_S1x128x128_S128x128

/-- The sources and the targets of the edges. -/
def edgeSrc (ei : (⟨S2x1600000, .i32⟩ : BufTy).Contents (Elt Ideal)) : (⟨S1600000, .i32⟩ : BufTy).Contents (Elt Ideal) :=
  shapeCast S1600000 (extractStridedSlice S1x1600000 ![0, 0] ei slices_S2x1600000_S1x1600000_0_0) shapeCasts_S1x1600000_S1600000
def edgeDst (ei : (⟨S2x1600000, .i32⟩ : BufTy).Contents (Elt Ideal)) : (⟨S1600000, .i32⟩ : BufTy).Contents (Elt Ideal) :=
  shapeCast S1600000 (extractStridedSlice S1x1600000 ![1, 0] ei slices_S2x1600000_S1x1600000_1_0) shapeCasts_S1x1600000_S1600000

/-- For every node, the sum of the rows of M at the sources of the edges that end in the node (a negative source
    index counted from the end, as the host spells it). -/
def collect (M : FVec Ideal S100000x128 .f32) (ei : (⟨S2x1600000, .i32⟩ : BufTy).Contents (Elt Ideal)) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (edgeDst ei))
    (Host.gather gather_S100000x128_S1600000x1_S1600000x128_1_0_n_n_0_1_1128 M
      (broadcastInDim S1600000x1 ![0] bcast_S1600000_S1600000x1_0
        (select (cmpi .slt (edgeSrc ei) (broadcastInDim S1600000 ![] bcast_S_S1600000 (constantI S_ 32 0#32)))
          (addi (edgeSrc ei) (broadcastInDim S1600000 ![] bcast_S_S1600000 (constantI S_ 32 100000#32)))
          (edgeSrc ei))))

/-- The mean of the rows of H over each graph: the rows summed by graph number, over the larger of the graph's node
    count and one. -/
def pool (H : FVec Ideal S100000x128 .f32) (batch : (⟨S100000, .i32⟩ : BufTy).Contents (Elt Ideal)) : FVec Ideal S1024x128 .f32 :=
  Host.divf
    (Host.scatterAdd scatter_S1024x128_S100000x1_S100000x128_1_0_0_1
      (broadcastInDim S1024x128 ![] bcast_S_S1024x128 (constant (F := Ideal) S_ .f32 0x00000000#32))
      (broadcastInDim S100000x1 ![0] bcast_S100000_S100000x1_0 batch) H)
    (broadcastInDim S1024x128 ![0, 1] bcast_S1024x1_S1024x128_0_1
      (broadcastInDim S1024x1 ![0] bcast_S1024_S1024x1_0
        (maximumf
          (Host.scatterAdd scatter_S1024_S100000x1_S100000_n_0_0_1
            (broadcastInDim S1024 ![] bcast_S_S1024 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S1024 ![] bcast_S_S1024 (constant (F := Ideal) S_ .f32 0x3F800000#32)))))

/-- One propagation step with weight matrix W. -/
def step (W : FVec Ideal S128x128 .f32) (ei : (⟨S2x1600000, .i32⟩ : BufTy).Contents (Elt Ideal))
    (wi wh : (⟨S384x128, .f32⟩ : BufTy).Contents (Elt Ideal)) (bi bh : (⟨S384, .f32⟩ : BufTy).Contents (Elt Ideal))
    (H : FVec Ideal S100000x128 .f32) : FVec Ideal S100000x128 .f32 :=
  gru (collect (dense H W) ei) H (wT wi) (wT wh) (row384 bi) (row384 bh)

/-- The network. -/
def net (x0 : (⟨S100000x100, .f32⟩ : BufTy).Contents (Elt Ideal)) (x1 : (⟨S2x1600000, .i32⟩ : BufTy).Contents (Elt Ideal)) (x2 : (⟨S100000, .i32⟩ : BufTy).Contents (Elt Ideal))
    (x3 : (⟨S100x128, .f32⟩ : BufTy).Contents (Elt Ideal)) (x4 x5 x6 x7 x8 : (⟨S128, .f32⟩ : BufTy).Contents (Elt Ideal)) (x9 : (⟨S3x128x128, .f32⟩ : BufTy).Contents (Elt Ideal))
    (x10 x11 : (⟨S384x128, .f32⟩ : BufTy).Contents (Elt Ideal)) (x12 x13 : (⟨S384, .f32⟩ : BufTy).Contents (Elt Ideal)) (x14 x15 x16 x17 : (⟨S128, .f32⟩ : BufTy).Contents (Elt Ideal))
    (x18 : (⟨S128x128, .f32⟩ : BufTy).Contents (Elt Ideal)) (x19 x20 x21 x22 x23 : (⟨S128, .f32⟩ : BufTy).Contents (Elt Ideal)) (x24 : (⟨S128x64, .f32⟩ : BufTy).Contents (Elt Ideal))
    (x25 x26 x27 x28 x29 : (⟨S64, .f32⟩ : BufTy).Contents (Elt Ideal)) (x30 : (⟨S64x2, .f32⟩ : BufTy).Contents (Elt Ideal)) (x31 : (⟨S2, .f32⟩ : BufTy).Contents (Elt Ideal)) :
    FVec Ideal S1024x2 .f32 :=
  head
    (pool
      (normRelu
        (step (ggc2 x9) x1 x10 x11 x12 x13
          (step (ggc1 x9) x1 x10 x11 x12 x13
            (step (ggc0 x9) x1 x10 x11 x12 x13
              (embed x0 x3 (row128 x4) (row128 x5) (row128 x6) (row128 x7) (row128 x8)))))
        (row128 x14) (row128 x15) (row128 x16) (row128 x17))
      x2)
    x18 (row128 x19) (row128 x20) (row128 x21) (row128 x22) (row128 x23)
    x24 (row64 x25) (row64 x26) (row64 x27) (row64 x28) (row64 x29)
    x30 (row2 x31)

end Cert.Net

end
-- ==== Proof.KVals.lean ====
/-
  THE NODE STATES AFTER EACH STAGE, as functions of the launch contents of the argument arrays: after the embedding,
  after each of the three propagation steps, and after the closing standardisation.
-/
import proofs.«137501_j83021717832548_2_alg».proof.Proof.Gen.KernelIdeal
import proofs.«137501_j83021717832548_2_alg».proof.Proof.Net

set_option maxRecDepth 16384

noncomputable section

namespace Cert.KernelIdeal.Flow

open Cert.KernelIdeal Cert.KernelIdeal.Gen
open Idealize.ShloMosaic Idealize.ShloMosaic.TcCoe Idealize.ShloMosaic.StableHlo Idealize.SL.Sem
open Idealize.ShloMosaic.Pipeline (Dat)
open Cert.KernelIdeal.Facts₀ Cert.KernelIdeal.Facts
open Idealize.ShloMosaic.ValueIdx Cert.LayerForms Cert.DenseStages Cert.MatOps Cert.Net

variable (m : (ℓ : Loc nD τ sig) → Buf (Elt Ideal) ℓ)

/-- The states after the embedding. -/
def h0 (c : Dev nD) : FVec Ideal S100000x128 .f32 := embed (m ((c : Thread nD τ).loc main_arg0)) (m ((c : Thread nD τ).loc main_arg3)) (row128 (m ((c : Thread nD τ).loc main_arg4))) (row128 (m ((c : Thread nD τ).loc main_arg5))) (row128 (m ((c : Thread nD τ).loc main_arg6))) (row128 (m ((c : Thread nD τ).loc main_arg7))) (row128 (m ((c : Thread nD τ).loc main_arg8)))
/-- The states after the first, second and third propagation step. -/
def h1 (c : Dev nD) : FVec Ideal S100000x128 .f32 := step (ggc0 (m ((c : Thread nD τ).loc main_arg9))) (m ((c : Thread nD τ).loc main_arg1)) (m ((c : Thread nD τ).loc main_arg10)) (m ((c : Thread nD τ).loc main_arg11)) (m ((c : Thread nD τ).loc main_arg12)) (m ((c : Thread nD τ).loc main_arg13)) (h0 m c)
def h2 (c : Dev nD) : FVec Ideal S100000x128 .f32 := step (ggc1 (m ((c : Thread nD τ).loc main_arg9))) (m ((c : Thread nD τ).loc main_arg1)) (m ((c : Thread nD τ).loc main_arg10)) (m ((c : Thread nD τ).loc main_arg11)) (m ((c : Thread nD τ).loc main_arg12)) (m ((c : Thread nD τ).loc main_arg13)) (h1 m c)
def h3 (c : Dev nD) : FVec Ideal S100000x128 .f32 := step (ggc2 (m ((c : Thread nD τ).loc main_arg9))) (m ((c : Thread nD τ).loc main_arg1)) (m ((c : Thread nD τ).loc main_arg10)) (m ((c : Thread nD τ).loc main_arg11)) (m ((c : Thread nD τ).loc main_arg12)) (m ((c : Thread nD τ).loc main_arg13)) (h2 m c)
/-- The states standardised and cut off. -/
def hb (c : Dev nD) : FVec Ideal S100000x128 .f32 :=
  normRelu (h3 m c) (row128 (m ((c : Thread nD τ).loc main_arg14))) (row128 (m ((c : Thread nD τ).loc main_arg15))) (row128 (m ((c : Thread nD τ).loc main_arg16))) (row128 (m ((c : Thread nD τ).loc main_arg17)))

end Cert.KernelIdeal.Flow

end
-- ==== Proof.LibBlockRows.lean ====
/-
  DEVICE SPELLINGS OF THE DENSE STAGES ON ONE BLOCK OF ROWS, on the extended reals.

  The matrix unit multiplies a block of rows (narrowed to sixteen bits, which changes no number here) by a weight
  matrix, accumulating into zeros: entry (p, q) is the sum over k of x (p, k) · w (k, q). A one-row array is laid
  down the rows of the block by a broadcast. The standardisation of a block computes the reciprocal root of the
  one-row variance plus eps once and lays it down the rows; entry by entry this is the standardisation of the stage
  functions. Nothing here depends on how many rows the block has.
-/
import Idealize.ShloMosaic.PureOps.Ideal.Laws
import Idealize.ShloMosaic.Lib.ValueIdx
import Idealize.ShloMosaic.Lib.ValueLayout
import Idealize.ShloMosaic.Lib.Pipeline.Value
import proofs.«137501_j83021717832548_2_alg».proof.Proof.Stages

noncomputable section

open scoped BigOperators

namespace Cert.Net

open Idealize.ShloMosaic Idealize.ShloMosaic.ValueIdx Cert.LayerForms Cert.DenseStages Cert.MatOps

/-- The zero offset of a rank-2 rectangle. -/
theorem hz2 : (![0, 0] : Fin 2 → Nat) = fun _ => 0 := funext fun a => by fin_cases a <;> rfl

section
variable {M K C : Nat}

/-- The matrix unit on a block of rows and a weight matrix, both first recast onto their own shapes. -/
theorem device_dense (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32)
    (hlt : FTy.bf16.bits < FTy.f32.bits) (hm : (⟨2, ![M, K]⟩ : Shape).ShapeCasts ⟨2, ![M, K]⟩)
    (hk : (⟨2, ![K, C]⟩ : Shape).ShapeCasts ⟨2, ![K, C]⟩) :
    matmul d none (truncf .bf16 (shapeCast ⟨2, ![M, K]⟩ x hm) hlt) (truncf .bf16 (shapeCast ⟨2, ![K, C]⟩ w hk) hlt)
        (constant (F := Ideal) ⟨2, ![M, C]⟩ .f32 0x00000000#32)
      = dense x w := by
  subst hd
  rw [shapeCast_self x hm, shapeCast_self w hk]
  funext i
  obtain ⟨p, q, rfl⟩ : ∃ (p : Fin M) (q : Fin C), i = ix2 p q := ⟨i 0, i 1, eq_ix2 i⟩
  exact matmul_plain_apply wf none _ _ p q

/-- The same without the recasts. -/
theorem device_dense' (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (hlt : FTy.bf16.bits < FTy.f32.bits) :
    matmul d none (truncf .bf16 x hlt) (truncf .bf16 w hlt) (constant (F := Ideal) ⟨2, ![M, C]⟩ .f32 0x00000000#32)
      = dense x w := by
  subst hd
  funext i
  obtain ⟨p, q, rfl⟩ : ∃ (p : Fin M) (q : Fin C), i = ix2 p q := ⟨i 0, i 1, eq_ix2 i⟩
  exact matmul_plain_apply wf none _ _ p q

/-- A product of a block plus a one-row bias (recast onto its own shape) laid down the rows. -/
theorem device_affine' (d : DotDims ⟨2, ![M, K]⟩ ⟨2, ![K, C]⟩ ⟨2, ![M, C]⟩)
    (wf : DotDims.WF ⟨2, ![M, K]⟩ ⟨2, ![K, C]⟩ ⟨2, ![M, C]⟩ [1] [0] [0] [1] [] []) (hd : d = plainDot M K C wf)
    (x : FVec Ideal ⟨2, ![M, K]⟩ .f32) (w : FVec Ideal ⟨2, ![K, C]⟩ .f32) (b : FVec Ideal ⟨2, ![1, C]⟩ .f32)
    (hlt : FTy.bf16.bits < FTy.f32.bits) (hm : (⟨2, ![M, K]⟩ : Shape).ShapeCasts ⟨2, ![M, K]⟩)
    (hk : (⟨2, ![K, C]⟩ : Shape).ShapeCasts ⟨2, ![K, C]⟩)
    (hc : (⟨2, ![1, C]⟩ : Shape).ShapeCasts ⟨2, ![1, C]⟩) (hb : (⟨2, ![1, C]⟩ : Shape).Broadcasts ⟨2, ![M, C]⟩) :
    addf (matmul d none (truncf .bf16 (shapeCast ⟨2, ![M, K]⟩ x hm) hlt) (truncf .bf16 (shapeCast ⟨2, ![K, C]⟩ w hk) hlt)
          (constant (F := Ideal) ⟨2, ![M, C]⟩ .f32 0x00000000#32))
        (broadcastTo ⟨2, ![M, C]⟩ (shapeCast ⟨2, ![1, C]⟩ b hc) hb)
      = affine x w b := by
  rw [device_dense d wf hd x w hlt hm hk, shapeCast_self b hc]
  funext i
  obtain ⟨p, q, rfl⟩ : ∃ (p : Fin M) (q : Fin C), i = ix2 p q := ⟨i 0, i 1, eq_ix2 i⟩
  show dense x w (ix2 p q) + broadcastTo ⟨2, ![M, C]⟩ b hb (ix2 p q) = _
  rw [broadcastTo_1b_ab_apply b hb p q]
  rfl

/-- The device's standardisation and cut-off of a block: the one-row statistics (each recast onto its own shape) laid
    down the rows, the reciprocal root taken on the one row. -/
theorem device_normRelu (y : FVec Ideal ⟨2, ![M, C]⟩ .f32) (g be mu v : FVec Ideal ⟨2, ![1, C]⟩ .f32)
    (hc : (⟨2, ![1, C]⟩ : Shape).ShapeCasts ⟨2, ![1, C]⟩) (hb : (⟨2, ![1, C]⟩ : Shape).Broadcasts ⟨2, ![M, C]⟩) :
    maximumf
        (addf (mulf (mulf (subf y (broadcastTo ⟨2, ![M, C]⟩ (shapeCast ⟨2, ![1, C]⟩ mu hc) hb))
            (broadcastTo ⟨2, ![M, C]⟩
              (rsqrt (addf (shapeCast ⟨2, ![1, C]⟩ v hc) (broadcast ⟨2, ![1, C]⟩ (Scalar.ofBits (F := Ideal) .f32 0x3727C5AC#32)))) hb))
          (broadcastTo ⟨2, ![M, C]⟩ (shapeCast ⟨2, ![1, C]⟩ g hc) hb))
          (broadcastTo ⟨2, ![M, C]⟩ (shapeCast ⟨2, ![1, C]⟩ be hc) hb))
        (broadcast ⟨2, ![M, C]⟩ (Scalar.ofBits (F := Ideal) .f32 0x00000000#32))
      = normRelu y g be mu v := by
  rw [shapeCast_self mu hc, shapeCast_self v hc, shapeCast_self g hc, shapeCast_self be hc]
  funext i
  obtain ⟨p, q, rfl⟩ : ∃ (p : Fin M) (q : Fin C), i = ix2 p q := ⟨i 0, i 1, eq_ix2 i⟩
  show max ((((y (ix2 p q) - broadcastTo ⟨2, ![M, C]⟩ mu hb (ix2 p q))
        * broadcastTo ⟨2, ![M, C]⟩ (rsqrt (addf v (broadcast ⟨2, ![1, C]⟩ (Scalar.ofBits (F := Ideal) .f32 0x3727C5AC#32)))) hb (ix2 p q))
        * broadcastTo ⟨2, ![M, C]⟩ g hb (ix2 p q)) + broadcastTo ⟨2, ![M, C]⟩ be hb (ix2 p q)) (Ideal.ofBits .f32 0x00000000#32) = _
  rw [broadcastTo_1b_ab_apply mu hb p q, broadcastTo_1b_ab_apply _ hb p q, broadcastTo_1b_ab_apply g hb p q,
    broadcastTo_1b_ab_apply be hb p q]
  rfl

end

end Cert.Net

end
-- ==== Proof.KEmb0.lean ====
/-
  THE EMBEDDING, BLOCK BY BLOCK. The region cuts the 100000 node rows into twenty blocks of 5000; at block t it
  multiplies rows 5000·t … 5000·t + 4999 of the feature array by the whole 100 × 128 weight matrix, adds the one-row
  bias, standardises column by column with the one-row statistics and cuts off at zero, and writes the result to the
  same rows of its output. Each row of the result depends on that row of the features only, so the twenty blocks
  together are the embedding of the whole array.
-/
import proofs.«137501_j83021717832548_2_alg».proof.Proof.Gen.KernelIdeal.Frame
import proofs.«137501_j83021717832548_2_alg».proof.Proof.Stages
import proofs.«137501_j83021717832548_2_alg».proof.Proof.LibBlockRows
import Idealize.ShloMosaic.Lib.Pipeline.Value

set_option maxRecDepth 16384

noncomputable section

open scoped BigOperators

namespace Cert.KernelIdeal.Emb0

open Cert.KernelIdeal Cert.KernelIdeal.Gen Idealize.ShloMosaic Idealize.ShloMosaic.TcCoe Idealize.SL.Sem Idealize.ShloMosaic.ValueIdx
open Idealize.ShloMosaic.Pipeline (Dat)
open Cert.LayerForms Cert.DenseStages Cert.MatOps Cert.Net

variable (V : (c : Dev nD) → (b : Ref sig .tc) → Buf (Elt Ideal) ((c : Thread nD τ).loc b))

/-- On one block: the product through the matrix unit plus the bias row, then the standardisation (the mean row
    subtracted, the reciprocal root of the variance row plus eps, the scale row, the shift row) and the cut-off. The
    body reads the statistics in the order mean, variance, scale, shift. -/
theorem pay_eq (x : Vec Ideal S5000x100 .f32) (w : Vec Ideal S100x128 .f32) (b mu v g be : Vec Ideal S1x128 .f32) :
    k0_pay1 x w b mu v g be = embed x w b g be mu v := by
  refine Eq.trans ?_ (device_normRelu (affine x w b) g be mu v shapeCasts_S1x128_S1x128 broadcasts_S1x128_S5000x128)
  rw [← device_affine dot_S5000x100_S100x128_S5000x128_1_0_0_1_n_n dot_S5000x100_S100x128_S5000x128_1_0_0_1_n_n.wf rfl x w b
    bitsLt_bf16_f32 shapeCasts_S1x128_S1x128 broadcasts_S1x128_S5000x128]
  rfl

/-- Block t of the windows cut by rows starts at row 5000·t; every other window is its whole array at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of block t is row 5000·t + p of the array. -/
def rowOf (t : Fin cfg0.N) (p : Fin 5000) : Fin 100000 :=
  ⟨t.val * 5000 + p.val, by have h : t.val < 20 := lt_of_lt_of_eq t.isLt N_0; have := p.isLt; omega⟩

theorem blk0_apply (c : Dev nD) (t : Fin cfg0.N) (p : Fin 5000) (j : Fin 100) :
    iblk0 V c 0 t (ix2 p j) = V c main_arg0 (ix2 (rowOf t p) j) := by
  obtain ⟨e0, e1, -⟩ := idx_facts t
  show V c main_arg0 (((cfg0.win 0).blk t).view.emb (ix2 p j)) = _
  refine congrArg (V c main_arg0) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 100 + 1 * j.val = j.val; rw [e1]; omega

theorem blk1_eq (c : Dev nD) (t : Fin cfg0.N) : iblk0 V c 1 t = V c main_arg3 := by
  obtain ⟨-, -, e0, e1, -⟩ := idx_facts t
  funext y
  show V c main_arg3 (((cfg0.win 1).blk t).view.emb y) = V c main_arg3 y
  refine congrArg (V c main_arg3) (funext fun a => Fin.ext ?_)
  match a with
  | ⟨0, _⟩ => show win0_1.index t (0 : Fin 2) * 100 + 1 * (y 0).val = (y 0).val; rw [e0]; omega
  | ⟨1, _⟩ => show win0_1.index t (1 : Fin 2) * 128 + 1 * (y 1).val = (y 1).val; rw [e1]; omega

theorem blk2_eq (c : Dev nD) (t : Fin cfg0.N) : iblk0 V c 2 t = V c main_v0 := by
  obtain ⟨-, -, -, -, e0, e1, -⟩ := idx_facts t
  funext y
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

theorem blk3_eq (c : Dev nD) (t : Fin cfg0.N) : iblk0 V c 3 t = V c main_v1 := by
  obtain ⟨-, -, -, -, -, -, e0, e1, -⟩ := idx_facts t
  funext y
  show V c main_v1 (((cfg0.win 3).blk t).view.emb y) = V c main_v1 y
  refine congrArg (V c main_v1) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blk4_eq (c : Dev nD) (t : Fin cfg0.N) : iblk0 V c 4 t = V c main_v2 := by
  obtain ⟨-, -, -, -, -, -, -, -, e0, e1, -⟩ := idx_facts t
  funext y
  show V c main_v2 (((cfg0.win 4).blk t).view.emb y) = V c main_v2 y
  refine congrArg (V c main_v2) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

theorem blk5_eq (c : Dev nD) (t : Fin cfg0.N) : iblk0 V c 5 t = V c main_v3 := by
  obtain ⟨-, -, -, -, -, -, -, -, -, -, e0, e1, -⟩ := idx_facts t
  funext y
  show V c main_v3 (((cfg0.win 5).blk t).view.emb y) = V c main_v3 y
  refine congrArg (V c main_v3) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem blk6_eq (c : Dev nD) (t : Fin cfg0.N) : iblk0 V c 6 t = V c main_v4 := by
  obtain ⟨-, -, -, -, -, -, -, -, -, -, -, -, e0, e1, -⟩ := idx_facts t
  funext y
  show V c main_v4 (((cfg0.win 6).blk t).view.emb y) = V c main_v4 y
  refine congrArg (V c main_v4) (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

theorem emb_out (t : Fin cfg0.N) (p : Fin 5000) (q : Fin 128) :
    ((cfg0.win 7).blk t).view.emb (ix2 p q) = ix2 (rowOf t p) q := by
  obtain ⟨-, -, -, -, -, -, -, -, -, -, -, -, -, -, e0, e1⟩ := idx_facts t
  refine funext fun a => Fin.ext ?_
  match a with
  | ⟨0, _⟩ => show win0_7.index t (0 : Fin 2) * 5000 + 1 * p.val = t.val * 5000 + p.val; rw [e0]; omega
  | ⟨1, _⟩ => show win0_7.index t (1 : Fin 2) * 128 + 1 * q.val = q.val; rw [e1]; omega

/-- What point t writes back is block t of the stage applied to the whole arrays. -/
theorem flushed_eq (c : Dev nD) (t : Fin cfg0.N) :
    (dat0 V c).flushed 7 t = ((cfg0.win 7).blk t).view.read (Elt Ideal) (embed (V c main_arg0) (V c main_arg3) (V c main_v0) (V c main_v1) (V c main_v2) (V c main_v3) (V c main_v4)) := by
  show (cfg0.win 7).cut (grid0.coords t) ((dat0 V c).after 7 t) = _
  rw [after0_7]
  unfold out0_7
  rw [View.canon_unit_zero hz2]
  simp only [View.ld_unit_zero (S := S5000x100) hz2, View.ld_unit_zero (S := S100x128) hz2, View.ld_unit_zero (S := S1x128) hz2]
  rw [pay_eq, blk1_eq V c t, blk2_eq V c t, blk3_eq V c t, blk4_eq V c t, blk5_eq V c t, blk6_eq V c t]
  funext y
  obtain ⟨p, q, rfl⟩ : ∃ (p : Fin 5000) (q : Fin 128), y = ix2 p q := ⟨y 0, y 1, eq_ix2 y⟩
  show (embed (iblk0 V c 0 t) (V c main_arg3) (V c main_v0) (V c main_v1) (V c main_v2) (V c main_v3) (V c main_v4)) (ix2 p q) = (embed (V c main_arg0) (V c main_arg3) (V c main_v0) (V c main_v1) (V c main_v2) (V c main_v3) (V c main_v4)) (((cfg0.win 7).blk t).view.emb (ix2 p q))
  rw [emb_out t p q]
  exact embed_rows (V c main_arg0) (V c main_arg3) (V c main_v0) (V c main_v1) (V c main_v2) (V c main_v3) (V c main_v4) (iblk0 V c 0 t) (rowOf t) (fun p' k => blk0_apply V c t p' k) p q

theorem mem_blk (t : Fin cfg0.N) (i : S100000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v5).slice (win0_7.rect t)).set ↔ _
  rw [View.set_slice_whole, Rect.mem_set_unit]
  exact Iff.rfl

/-- Every row lies in the block numbered by its quotient by 5000. -/
theorem cover (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : grid0.N = 20 := N_0
  have ht : (i 0).val / 5000 < cfg0.N := by show (i 0).val / 5000 < grid0.N; rw [hN]; omega
  obtain ⟨-, -, -, -, -, -, -, -, -, -, -, -, -, -, e0, e1⟩ := idx_facts ⟨(i 0).val / 5000, ht⟩
  refine ⟨⟨(i 0).val / 5000, ht⟩, flush0_7 _, ?_⟩
  rw [mem_blk]
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, ht⟩ (1 : Fin 2) * 128 ≤ (i 1).val ∧ (i 1).val < win0_7.index ⟨(i 0).val / 5000, ht⟩ (1 : Fin 2) * 128 + 128
    rw [e1]; omega

/-- The region's output array after the run is the stage function of its input arrays as the region found them. -/
theorem final (c : Dev nD) : (dat0 V c).arrAt 7 cfg0.N = (embed (V c main_arg0) (V c main_arg3) (V c main_v0) (V c main_v1) (V c main_v2) (V c main_v3) (V c main_v4)) :=
  (dat0 V c).arrAt_eq_of_cover 7 _ (fun t _ => flushed_eq V c t) cover

end Cert.KernelIdeal.Emb0

end
-- ==== Proof.KMsg1.lean ====
/-
  A PROPAGATION PRODUCT, BLOCK BY BLOCK. The region cuts the 100000 node rows into twenty blocks of 5000; at block t
  it multiplies rows 5000·t … 5000·t + 4999 of the state array by the whole 128 × 128 weight matrix and writes the
  product to the same rows of its output. A row of a matrix product depends on that row of the left factor only, so
  the twenty blocks together are the product of the whole arrays.
-/
import proofs.«137501_j83021717832548_2_alg».proof.Proof.Gen.KernelIdeal.Frame
import proofs.«137501_j83021717832548_2_alg».proof.Proof.Stages
import proofs.«137501_j83021717832548_2_alg».proof.Proof.LibBlockRows
import Idealize.ShloMosaic.Lib.Pipeline.Value

set_option maxRecDepth 16384

noncomputable section

open scoped BigOperators

namespace Cert.KernelIdeal.Msg1

open Cert.KernelIdeal Cert.KernelIdeal.Gen Idealize.ShloMosaic Idealize.ShloMosaic.TcCoe Idealize.SL.Sem Idealize.ShloMosaic.ValueIdx
open Idealize.ShloMosaic.Pipeline (Dat)
open Cert.LayerForms Cert.DenseStages Cert.MatOps Cert.Net

variable (V : (c : Dev nD) → (b : Ref sig .tc) → Buf (Elt Ideal) ((c : Thread nD τ).loc b))

/-- On one block the matrix unit, fed the block narrowed to sixteen bits and accumulating into zeros, computes the
    matrix product of the block of rows with the weights. -/
theorem pay_eq (x0 : Vec Ideal S5000x128 .f32) (x1 : Vec Ideal S128x128 .f32) : k1_pay1 x0 x1 = dense x0 x1 :=
  device_dense dot_S5000x128_S128x128_S5000x128_1_0_0_1_n_n dot_S5000x128_S128x128_S5000x128_1_0_0_1_n_n.wf rfl x0 x1
    bitsLt_bf16_f32 shapeCasts_S5000x128_S5000x128 shapeCasts_S128x128_S128x128

/-- Block t of the windows cut by rows starts at row 5000·t; every other window is its whole array at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of block t is row 5000·t + p of the array. -/
def rowOf (t : Fin cfg1.N) (p : Fin 5000) : Fin 100000 :=
  ⟨t.val * 5000 + p.val, by have h : t.val < 20 := lt_of_lt_of_eq t.isLt N_1; have := p.isLt; omega⟩

theorem blk0_apply (c : Dev nD) (t : Fin cfg1.N) (p : Fin 5000) (j : Fin 128) :
    iblk1 V c 0 t (ix2 p j) = V c main_v5 (ix2 (rowOf t p) j) := by
  obtain ⟨e0, e1, -⟩ := idx_facts t
  show V c main_v5 (((cfg1.win 0).blk t).view.emb (ix2 p j)) = _
  refine congrArg (V c main_v5) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * j.val = j.val; rw [e1]; omega

theorem blk1_eq (c : Dev nD) (t : Fin cfg1.N) : iblk1 V c 1 t = V c main_v15 := by
  obtain ⟨-, -, e0, e1, -⟩ := idx_facts t
  funext y
  show V c main_v15 (((cfg1.win 1).blk t).view.emb y) = V c main_v15 y
  refine congrArg (V c main_v15) (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

theorem emb_out (t : Fin cfg1.N) (p : Fin 5000) (q : Fin 128) :
    ((cfg1.win 2).blk t).view.emb (ix2 p q) = ix2 (rowOf t p) q := by
  obtain ⟨-, -, -, -, e0, e1⟩ := idx_facts t
  refine funext fun a => Fin.ext ?_
  match a with
  | ⟨0, _⟩ => show win1_2.index t (0 : Fin 2) * 5000 + 1 * p.val = t.val * 5000 + p.val; rw [e0]; omega
  | ⟨1, _⟩ => show win1_2.index t (1 : Fin 2) * 128 + 1 * q.val = q.val; rw [e1]; omega

/-- What point t writes back is block t of the stage applied to the whole arrays. -/
theorem flushed_eq (c : Dev nD) (t : Fin cfg1.N) :
    (dat1 V c).flushed 2 t = ((cfg1.win 2).blk t).view.read (Elt Ideal) (dense (V c main_v5) (V c main_v15)) := by
  show (cfg1.win 2).cut (grid1.coords t) ((dat1 V c).after 2 t) = _
  rw [after1_2]
  unfold out1_2
  rw [View.canon_unit_zero hz2]
  simp only [View.ld_unit_zero (S := S5000x128) hz2, View.ld_unit_zero (S := S128x128) hz2]
  rw [pay_eq, blk1_eq V c t]
  funext y
  obtain ⟨p, q, rfl⟩ : ∃ (p : Fin 5000) (q : Fin 128), y = ix2 p q := ⟨y 0, y 1, eq_ix2 y⟩
  show (dense (iblk1 V c 0 t) (V c main_v15)) (ix2 p q) = (dense (V c main_v5) (V c main_v15)) (((cfg1.win 2).blk t).view.emb (ix2 p q))
  rw [emb_out t p q]
  exact dense_rows (V c main_v5) (V c main_v15) (iblk1 V c 0 t) (rowOf t) (fun p' k => blk0_apply V c t p' k) p q

theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v16).slice (win1_2.rect t)).set ↔ _
  rw [View.set_slice_whole, Rect.mem_set_unit]
  exact Iff.rfl

/-- Every row lies in the block numbered by its quotient by 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  have ht : (i 0).val / 5000 < cfg1.N := by show (i 0).val / 5000 < grid1.N; rw [hN]; omega
  obtain ⟨-, -, -, -, e0, e1⟩ := idx_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e1]; omega

/-- The region's output array after the run is the stage function of its input arrays as the region found them. -/
theorem final (c : Dev nD) : (dat1 V c).arrAt 2 cfg1.N = (dense (V c main_v5) (V c main_v15)) :=
  (dat1 V c).arrAt_eq_of_cover 2 _ (fun t _ => flushed_eq V c t) cover

end Cert.KernelIdeal.Msg1

end
-- ==== Proof.LibGruBlock.lean ====
/-
  THE GATED RECURRENT CELL ON ONE BLOCK OF ROWS, device spelling. From the two pre-activation arrays GI and GH of a
  block (384 columns each) the device cuts the three blocks of 128 columns, forms r and z by the logistic function of
  the sums of the first and of the second blocks, the candidate by the hyperbolic tangent of the third block of GI
  plus r times the third block of GH, and returns (1 - z) · candidate + z · h. Entry (p, q) reads column q, 128 + q
  and 256 + q of row p of GI and GH and entry (p, q) of h.
-/
import Idealize.ShloMosaic.PureOps.Ideal.Laws
import Idealize.ShloMosaic.Lib.ValueIdx
import Idealize.ShloMosaic.Lib.ValueLayout
import Idealize.ShloMosaic.Lib.Pipeline.Value
import proofs.«137501_j83021717832548_2_alg».proof.Proof.Stages

noncomputable section

namespace Cert.Net

open Idealize.ShloMosaic Idealize.ShloMosaic.ValueIdx Cert.LayerForms Cert.DenseStages Cert.MatOps

theorem device_gruCell {M : Nat} (GI GH : FVec Ideal ⟨2, ![M, 384]⟩ .f32) (h : FVec Ideal ⟨2, ![M, 128]⟩ .f32)
    (s0 : (⟨2, ![M, 384]⟩ : Shape).Slices ![0, 0] ⟨2, ![M, 128]⟩)
    (s1 : (⟨2, ![M, 384]⟩ : Shape).Slices ![0, 128] ⟨2, ![M, 128]⟩)
    (s2 : (⟨2, ![M, 384]⟩ : Shape).Slices ![0, 256] ⟨2, ![M, 128]⟩)
    (hc : (⟨2, ![M, 128]⟩ : Shape).ShapeCasts ⟨2, ![M, 128]⟩) (p : Fin M) (q : Fin 128) :
    addf (mulf (subf (broadcast ⟨2, ![M, 128]⟩ (Scalar.ofBits (F := Ideal) .f32 0x3F800000#32))
            (logistic (addf (extractStridedSlice ⟨2, ![M, 128]⟩ ![0, 128] GI s1) (extractStridedSlice ⟨2, ![M, 128]⟩ ![0, 128] GH s1))))
          (tanh (addf (extractStridedSlice ⟨2, ![M, 128]⟩ ![0, 256] GI s2)
            (mulf (logistic (addf (extractStridedSlice ⟨2, ![M, 128]⟩ ![0, 0] GI s0) (extractStridedSlice ⟨2, ![M, 128]⟩ ![0, 0] GH s0)))
              (extractStridedSlice ⟨2, ![M, 128]⟩ ![0, 256] GH s2)))))
        (mulf (logistic (addf (extractStridedSlice ⟨2, ![M, 128]⟩ ![0, 128] GI s1) (extractStridedSlice ⟨2, ![M, 128]⟩ ![0, 128] GH s1)))
          (shapeCast ⟨2, ![M, 128]⟩ h hc)) (ix2 p q)
      = gruCell (GI (ix2 p (colR q))) (GH (ix2 p (colR q))) (GI (ix2 p (colZ q))) (GH (ix2 p (colZ q)))
          (GI (ix2 p (colN q))) (GH (ix2 p (colN q))) (h (ix2 p q)) := by
  rw [shapeCast_self h hc]
  show gruCell (extractStridedSlice ⟨2, ![M, 128]⟩ ![0, 0] GI s0 (ix2 p q)) (extractStridedSlice ⟨2, ![M, 128]⟩ ![0, 0] GH s0 (ix2 p q))
      (extractStridedSlice ⟨2, ![M, 128]⟩ ![0, 128] GI s1 (ix2 p q)) (extractStridedSlice ⟨2, ![M, 128]⟩ ![0, 128] GH s1 (ix2 p q))
      (extractStridedSlice ⟨2, ![M, 128]⟩ ![0, 256] GI s2 (ix2 p q)) (extractStridedSlice ⟨2, ![M, 128]⟩ ![0, 256] GH s2 (ix2 p q))
      (h (ix2 p q)) = _
  rw [slice2_axis1_apply 0 GI s0 p q (colR q) (Nat.zero_add _).symm, slice2_axis1_apply 0 GH s0 p q (colR q) (Nat.zero_add _).symm,
    slice2_axis1_apply 128 GI s1 p q (colZ q) rfl, slice2_axis1_apply 128 GH s1 p q (colZ q) rfl,
    slice2_axis1_apply 256 GI s2 p q (colN q) rfl, slice2_axis1_apply 256 GH s2 p q (colN q) rfl]

end Cert.Net

end
-- ==== Proof.KGru2.lean ====
/-
  THE GATED RECURRENT UPDATE, BLOCK BY BLOCK. The region cuts the 100000 node rows into twenty-five blocks of 4000; at
  block t it takes rows 4000·t … 4000·t + 3999 of the collected messages and of the states, forms the two gate
  pre-activation arrays (a product with the whole 128 × 384 weights plus a one-row bias each), cuts each into its
  three blocks of 128 columns, and applies the cell entry by entry. Each row of the result depends on that row of
  the messages and of the states only, so the blocks together are the update of the whole arrays.
-/
import proofs.«137501_j83021717832548_2_alg».proof.Proof.Gen.KernelIdeal.Frame
import proofs.«137501_j83021717832548_2_alg».proof.Proof.Stages
import proofs.«137501_j83021717832548_2_alg».proof.Proof.LibBlockRows
import proofs.«137501_j83021717832548_2_alg».proof.Proof.LibGruBlock
import Idealize.ShloMosaic.Lib.Pipeline.Value

set_option maxRecDepth 16384

noncomputable section

open scoped BigOperators

namespace Cert.KernelIdeal.Gru2

open Cert.KernelIdeal Cert.KernelIdeal.Gen Idealize.ShloMosaic Idealize.ShloMosaic.TcCoe Idealize.SL.Sem Idealize.ShloMosaic.ValueIdx
open Idealize.ShloMosaic.Pipeline (Dat)
open Cert.LayerForms Cert.DenseStages Cert.MatOps Cert.Net

variable (V : (c : Dev nD) → (b : Ref sig .tc) → Buf (Elt Ideal) ((c : Thread nD τ).loc b))

/-- On one block: the two pre-activation arrays through the matrix unit, their column blocks, the cell. The body
    loads the block of states twice (once for the product, once for the last term). -/
theorem pay_eq (a h : Vec Ideal S4000x128 .f32) (wi wh : Vec Ideal S128x384 .f32) (bi bh : Vec Ideal S1x384 .f32) :
    k2_pay1 a h wi wh bi bh h = gru a h wi wh bi bh := by
  funext i
  obtain ⟨p, q, rfl⟩ : ∃ (p : Fin 4000) (q : Fin 128), i = ix2 p q := ⟨i 0, i 1, eq_ix2 i⟩
  refine (device_gruCell _ _ h slices_S4000x384_o0_0_S4000x128 slices_S4000x384_o0_128_S4000x128 slices_S4000x384_o0_256_S4000x128
    shapeCasts_S4000x128_S4000x128 p q).trans ?_
  rw [device_affine' dot_S4000x128_S128x384_S4000x384_1_0_0_1_n_n dot_S4000x128_S128x384_S4000x384_1_0_0_1_n_n.wf rfl a wi bi
      bitsLt_bf16_f32 shapeCasts_S4000x128_S4000x128 shapeCasts_S128x384_S128x384 shapeCasts_S1x384_S1x384 broadcasts_S1x384_S4000x384,
    device_affine' dot_S4000x128_S128x384_S4000x384_1_0_0_1_n_n dot_S4000x128_S128x384_S4000x384_1_0_0_1_n_n.wf rfl h wh bh
      bitsLt_bf16_f32 shapeCasts_S4000x128_S4000x128 shapeCasts_S128x384_S128x384 shapeCasts_S1x384_S1x384 broadcasts_S1x384_S4000x384]
  rfl

/-- Block t of the windows cut by rows starts at row 4000·t; every other window is its whole array at every point. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of block t is row 4000·t + p of the array. -/
def rowOf (t : Fin cfg2.N) (p : Fin 4000) : Fin 100000 :=
  ⟨t.val * 4000 + p.val, by have h : t.val < 25 := lt_of_lt_of_eq t.isLt N_2; have := p.isLt; omega⟩

theorem blk0_apply (c : Dev nD) (t : Fin cfg2.N) (p : Fin 4000) (j : Fin 128) :
    iblk2 V c 0 t (ix2 p j) = V c main_v26 (ix2 (rowOf t p) j) := by
  obtain ⟨e0, e1, -⟩ := idx_facts t
  show V c main_v26 (((cfg2.win 0).blk t).view.emb (ix2 p j)) = _
  refine congrArg (V c main_v26) (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 128 + 1 * j.val = j.val; rw [e1]; omega

theorem blk1_apply (c : Dev nD) (t : Fin cfg2.N) (p : Fin 4000) (j : Fin 128) :
    iblk2 V c 1 t (ix2 p j) = V c main_v5 (ix2 (rowOf t p) j) := by
  obtain ⟨-, -, e0, e1, -⟩ := idx_facts t
  show V c main_v5 (((cfg2.win 1).blk t).view.emb (ix2 p j)) = _
  refine congrArg (V c main_v5) (funext fun a => Fin.ext ?_)
  match a with
  | ⟨0, _⟩ => show win2_1.index t (0 : Fin 2) * 4000 + 1 * p.val = t.val * 4000 + p.val; rw [e0]; omega
  | ⟨1, _⟩ => show win2_1.index t (1 : Fin 2) * 128 + 1 * j.val = j.val; rw [e1]; omega

theorem blk2_eq (c : Dev nD) (t : Fin cfg2.N) : iblk2 V c 2 t = V c main_v10 := by
  obtain ⟨-, -, -, -, e0, e1, -⟩ := idx_facts t
  funext y
  show V c main_v10 (((cfg2.win 2).blk t).view.emb y) = V c main_v10 y
  refine congrArg (V c main_v10) (funext fun a => Fin.ext ?_)
  match a with
  | ⟨0, _⟩ => show win2_2.index t (0 : Fin 2) * 128 + 1 * (y 0).val = (y 0).val; rw [e0]; omega
  | ⟨1, _⟩ => show win2_2.index t (1 : Fin 2) * 384 + 1 * (y 1).val = (y 1).val; rw [e1]; omega

theorem blk3_eq (c : Dev nD) (t : Fin cfg2.N) : iblk2 V c 3 t = V c main_v11 := by
  obtain ⟨-, -, -, -, -, -, e0, e1, -⟩ := idx_facts t
  funext y
  show V c main_v11 (((cfg2.win 3).blk t).view.emb y) = V c main_v11 y
  refine congrArg (V c main_v11) (funext fun a => Fin.ext ?_)
  match a with
  | ⟨0, _⟩ => show win2_3.index t (0 : Fin 2) * 128 + 1 * (y 0).val = (y 0).val; rw [e0]; omega
  | ⟨1, _⟩ => show win2_3.index t (1 : Fin 2) * 384 + 1 * (y 1).val = (y 1).val; rw [e1]; omega

theorem blk4_eq (c : Dev nD) (t : Fin cfg2.N) : iblk2 V c 4 t = V c main_v12 := by
  obtain ⟨-, -, -, -, -, -, -, -, e0, e1, -⟩ := idx_facts t
  funext y
  show V c main_v12 (((cfg2.win 4).blk t).view.emb y) = V c main_v12 y
  refine congrArg (V c main_v12) (funext fun a => Fin.ext ?_)
  match a with
  | ⟨0, _⟩ => show win2_4.index t (0 : Fin 2) * 1 + 1 * (y 0).val = (y 0).val; rw [e0]; omega
  | ⟨1, _⟩ => show win2_4.index t (1 : Fin 2) * 384 + 1 * (y 1).val = (y 1).val; rw [e1]; omega

theorem blk5_eq (c : Dev nD) (t : Fin cfg2.N) : iblk2 V c 5 t = V c main_v13 := by
  obtain ⟨-, -, -, -, -, -, -, -, -, -, e0, e1, -⟩ := idx_facts t
  funext y
  show V c main_v13 (((cfg2.win 5).blk t).view.emb y) = V c main_v13 y
  refine congrArg (V c main_v13) (funext fun a => Fin.ext ?_)
  match a with
  | ⟨0, _⟩ => show win2_5.index t (0 : Fin 2) * 1 + 1 * (y 0).val = (y 0).val; rw [e0]; omega
  | ⟨1, _⟩ => show win2_5.index t (1 : Fin 2) * 384 + 1 * (y 1).val = (y 1).val; rw [e1]; omega

theorem emb_out (t : Fin cfg2.N) (p : Fin 4000) (q : Fin 128) :
    ((cfg2.win 6).blk t).view.emb (ix2 p q) = ix2 (rowOf t p) q := by
  obtain ⟨-, -, -, -, -, -, -, -, -, -, -, -, e0, e1⟩ := idx_facts t
  refine funext fun a => Fin.ext ?_
  match a with
  | ⟨0, _⟩ => show win2_6.index t (0 : Fin 2) * 4000 + 1 * p.val = t.val * 4000 + p.val; rw [e0]; omega
  | ⟨1, _⟩ => show win2_6.index t (1 : Fin 2) * 128 + 1 * q.val = q.val; rw [e1]; omega

/-- What point t writes back is block t of the stage applied to the whole arrays. -/
theorem flushed_eq (c : Dev nD) (t : Fin cfg2.N) :
    (dat2 V c).flushed 6 t = ((cfg2.win 6).blk t).view.read (Elt Ideal) (gru (V c main_v26) (V c main_v5) (V c main_v10) (V c main_v11) (V c main_v12) (V c main_v13)) := by
  show (cfg2.win 6).cut (grid2.coords t) ((dat2 V c).after 6 t) = _
  rw [after2_6]
  unfold out2_6
  rw [View.canon_unit_zero hz2]
  simp only [View.ld_unit_zero (S := S4000x128) hz2, View.ld_unit_zero (S := S128x384) hz2, View.ld_unit_zero (S := S1x384) hz2]
  rw [pay_eq, blk2_eq V c t, blk3_eq V c t, blk4_eq V c t, blk5_eq V c t]
  funext y
  obtain ⟨p, q, rfl⟩ : ∃ (p : Fin 4000) (q : Fin 128), y = ix2 p q := ⟨y 0, y 1, eq_ix2 y⟩
  show (gru (iblk2 V c 0 t) (iblk2 V c 1 t) (V c main_v10) (V c main_v11) (V c main_v12) (V c main_v13)) (ix2 p q) = (gru (V c main_v26) (V c main_v5) (V c main_v10) (V c main_v11) (V c main_v12) (V c main_v13)) (((cfg2.win 6).blk t).view.emb (ix2 p q))
  rw [emb_out t p q]
  exact gru_rows (V c main_v26) (V c main_v5) (V c main_v10) (V c main_v11) (V c main_v12) (V c main_v13) (iblk2 V c 0 t) (iblk2 V c 1 t) (rowOf t)
    (fun p' k => blk0_apply V c t p' k) (fun p' k => blk1_apply V c t p' k) p q

theorem mem_blk (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v27).slice (win2_6.rect t)).set ↔ _
  rw [View.set_slice_whole, Rect.mem_set_unit]
  exact Iff.rfl

/-- Every row lies in the block numbered by its quotient by 4000. -/
theorem cover (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : grid2.N = 25 := N_2
  have ht : (i 0).val / 4000 < cfg2.N := by show (i 0).val / 4000 < grid2.N; rw [hN]; omega
  obtain ⟨-, -, -, -, -, -, -, -, -, -, -, -, e0, e1⟩ := idx_facts ⟨(i 0).val / 4000, ht⟩
  refine ⟨⟨(i 0).val / 4000, ht⟩, flush2_6 _, ?_⟩
  rw [mem_blk]
  intro a
  match a with
  | ⟨0, _⟩ =>
    show win2_6.index ⟨(i 0).val / 4000, ht⟩ (0 : Fin 2) * 4000 ≤ (i 0).val ∧ (i 0).val < win2_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_6.index ⟨(i 0).val / 4000, ht⟩ (1 : Fin 2) * 128 ≤ (i 1).val ∧ (i 1).val < win2_6.index ⟨(i 0).val / 4000, ht⟩ (1 : Fin 2) * 128 + 128
    rw [e1]; omega

/-- The region's output array after the run is the stage function of its input arrays as the region found them. -/
theorem final (c : Dev nD) : (dat2 V c).arrAt 6 cfg2.N = (gru (V c main_v26) (V c main_v5) (V c main_v10) (V c main_v11) (V c main_v12) (V c main_v13)) :=
  (dat2 V c).arrAt_eq_of_cover 6 _ (fun t _ => flushed_eq V c t) cover

end Cert.KernelIdeal.Gru2

end
-- ==== Proof.KMsg3.lean ====
/-
  A PROPAGATION PRODUCT, BLOCK BY BLOCK. The region cuts the 100000 node rows into twenty blocks of 5000; at block t
  it multiplies rows 5000·t … 5000·t + 4999 of the state array by the whole 128 × 128 weight matrix and writes the
  product to the same rows of its output. A row of a matrix product depends on that row of the left factor only, so
  the twenty blocks together are the product of the whole arrays.
-/
import proofs.«137501_j83021717832548_2_alg».proof.Proof.Gen.KernelIdeal.Frame
import proofs.«137501_j83021717832548_2_alg».proof.Proof.Stages
import proofs.«137501_j83021717832548_2_alg».proof.Proof.LibBlockRows
import Idealize.ShloMosaic.Lib.Pipeline.Value

set_option maxRecDepth 16384

noncomputable section

open scoped BigOperators

namespace Cert.KernelIdeal.Msg3

open Cert.KernelIdeal Cert.KernelIdeal.Gen Idealize.ShloMosaic Idealize.ShloMosaic.TcCoe Idealize.SL.Sem Idealize.ShloMosaic.ValueIdx
open Idealize.ShloMosaic.Pipeline (Dat)
open Cert.LayerForms Cert.DenseStages Cert.MatOps Cert.Net

variable (V : (c : Dev nD) → (b : Ref sig .tc) → Buf (Elt Ideal) ((c : Thread nD τ).loc b))

/-- On one block the matrix unit, fed the block narrowed to sixteen bits and accumulating into zeros, computes the
    matrix product of the block of rows with the weights. -/
theorem pay_eq (x0 : Vec Ideal S5000x128 .f32) (x1 : Vec Ideal S128x128 .f32) : k3_pay1 x0 x1 = dense x0 x1 :=
  device_dense dot_S5000x128_S128x128_S5000x128_1_0_0_1_n_n dot_S5000x128_S128x128_S5000x128_1_0_0_1_n_n.wf rfl x0 x1
    bitsLt_bf16_f32 shapeCasts_S5000x128_S5000x128 shapeCasts_S128x128_S128x128

/-- Block t of the windows cut by rows starts at row 5000·t; every other window is its whole array at every point. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row p of block t is row 5000·t + p of the array. -/
def rowOf (t : Fin cfg3.N) (p : Fin 5000) : Fin 100000 :=
  ⟨t.val * 5000 + p.val, by have h : t.val < 20 := lt_of_lt_of_eq t.isLt N_3; have := p.isLt; omega⟩

theorem blk0_apply (c : Dev nD) (t : Fin cfg3.N) (p : Fin 5000) (j : Fin 128) :
    iblk3 V c 0 t (ix2 p j) = V c main_v27 (ix2 (rowOf t p) j) := by
  obtain ⟨e0, e1, -⟩ := idx_facts t
  show V c main_v27 (((cfg3.win 0).blk t).view.emb (ix2 p j)) = _
  refine congrArg (V c main_v27) (funext fun a => Fin.ext ?_)
  match a with
  | ⟨0, _⟩ => show win3_0.index t (0 : Fin 2) * 5000 + 1 * p.val = t.val * 5000 + p.val; rw [e0]; omega
  | ⟨1, _⟩ => show win3_0.index t (1 : Fin 2) * 128 + 1 * j.val = j.val; rw [e1]; omega

theorem blk1_eq (c : Dev nD) (t : Fin cfg3.N) : iblk3 V c 1 t = V c main_v29 := by
  obtain ⟨-, -, e0, e1, -⟩ := idx_facts t
  funext y
  show V c main_v29 (((cfg3.win 1).blk t).view.emb y) = V c main_v29 y
  refine congrArg (V c main_v29) (funext fun a => Fin.ext ?_)
  match a with
  | ⟨0, _⟩ => show win3_1.index t (0 : Fin 2) * 128 + 1 * (y 0).val = (y 0).val; rw [e0]; omega
  | ⟨1, _⟩ => show win3_1.index t (1 : Fin 2) * 128 + 1 * (y 1).val = (y 1).val; rw [e1]; omega

theorem emb_out (t : Fin cfg3.N) (p : Fin 5000) (q : Fin 128) :
    ((cfg3.win 2).blk t).view.emb (ix2 p q) = ix2 (rowOf t p) q := by
  obtain ⟨-, -, -, -, e0, e1⟩ := idx_facts t
  refine funext fun a => Fin.ext ?_
  match a with
  | ⟨0, _⟩ => show win3_2.index t (0 : Fin 2) * 5000 + 1 * p.val = t.val * 5000 + p.val; rw [e0]; omega
  | ⟨1, _⟩ => show win3_2.index t (1 : Fin 2) * 128 + 1 * q.val = q.val; rw [e1]; omega

/-- What point t writes back is block t of the stage applied to the whole arrays. -/
theorem flushed_eq (c : Dev nD) (t : Fin cfg3.N) :
    (dat3 V c).flushed 2 t = ((cfg3.win 2).blk t).view.read (Elt Ideal) (dense (V c main_v27) (V c main_v29)) := by
  show (cfg3.win 2).cut (grid3.coords t) ((dat3 V c).after 2 t) = _
  rw [after3_2]
  unfold out3_2
  rw [View.canon_unit_zero hz2]
  simp only [View.ld_unit_zero (S := S5000x128) hz2, View.ld_unit_zero (S := S128x128) hz2]
  rw [pay_eq, blk1_eq V c t]
  funext y
  obtain ⟨p, q, rfl⟩ : ∃ (p : Fin 5000) (q : Fin 128), y = ix2 p q := ⟨y 0, y 1, eq_ix2 y⟩
  show (dense (iblk3 V c 0 t) (V c main_v29)) (ix2 p q) = (dense (V c main_v27) (V c main_v29)) (((cfg3.win 2).blk t).view.emb (ix2 p q))
  rw [emb_out t p q]
  exact dense_rows (V c main_v27) (V c main_v29) (iblk3 V c 0 t) (rowOf t) (fun p' k => blk0_apply V c t p' k) p q

theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v30).slice (win3_2.rect t)).set ↔ _
  rw [View.set_slice_whole, Rect.mem_set_unit]
  exact Iff.rfl

/-- Every row lies in the block numbered by its quotient by 5000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 20 := N_3
  have ht : (i 0).val / 5000 < cfg3.N := by show (i 0).val / 5000 < grid3.N; rw [hN]; omega
  obtain ⟨-, -, -, -, e0, e1⟩ := idx_facts ⟨(i 0).val / 5000, ht⟩
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val ∧ (i 1).val < win3_2.index ⟨(i 0).val / 5000, ht⟩ (1 : Fin 2) * 128 + 128
    rw [e1]; omega

/-- The region's output array after the run is the stage function of its input arrays as the region found them. -/
theorem final (c : Dev nD) : (dat3 V c).arrAt 2 cfg3.N = (dense (V c main_v27) (V c main_v29)) :=
  (dat3 V c).arrAt_eq_of_cover 2 _ (fun t _ => flushed_eq V c t) cover

end Cert.KernelIdeal.Msg3

end
-- ==== Proof.KGru4.lean ====
/-
  THE GATED RECURRENT UPDATE, BLOCK BY BLOCK. The region cuts the 100000 node rows into twenty-five blocks of 4000; at
  block t it takes rows 4000·t … 4000·t + 3999 of the collected messages and of the states, forms the two gate
  pre-activation arrays (a product with the whole 128 × 384 weights plus a one-row bias each), cuts each into its
  three blocks of 128 columns, and applies the cell entry by entry. Each row of the result depends on that row of
  the messages and of the states only, so the blocks together are the update of the whole arrays.
-/
import proofs.«137501_j83021717832548_2_alg».proof.Proof.Gen.KernelIdeal.Frame
import proofs.«137501_j83021717832548_2_alg».proof.Proof.Stages
import proofs.«137501_j83021717832548_2_alg».proof.Proof.LibBlockRows
import proofs.«137501_j83021717832548_2_alg».proof.Proof.LibGruBlock
import Idealize.ShloMosaic.Lib.Pipeline.Value

set_option maxRecDepth 16384

noncomputable section

open scoped BigOperators

namespace Cert.KernelIdeal.Gru4

open Cert.KernelIdeal Cert.KernelIdeal.Gen Idealize.ShloMosaic Idealize.ShloMosaic.TcCoe Idealize.SL.Sem Idealize.ShloMosaic.ValueIdx
open Idealize.ShloMosaic.Pipeline (Dat)
open Cert.LayerForms Cert.DenseStages Cert.MatOps Cert.Net

variable (V : (c : Dev nD) → (b : Ref sig .tc) → Buf (Elt Ideal) ((c : Thread nD τ).loc b))

/-- On one block: the two pre-activation arrays through the matrix unit, their column blocks, the cell. The body
    loads the block of states twice (once for the product, once for the last term). -/
theorem pay_eq (a h : Vec Ideal S4000x128 .f32) (wi wh : Vec Ideal S128x384 .f32) (bi bh : Vec Ideal S1x384 .f32) :
    k4_pay1 a h wi wh bi bh h = gru a h wi wh bi bh := by
  funext i
  obtain ⟨p, q, rfl⟩ : ∃ (p : Fin 4000) (q : Fin 128), i = ix2 p q := ⟨i 0, i 1, eq_ix2 i⟩
  refine (device_gruCell _ _ h slices_S4000x384_o0_0_S4000x128 slices_S4000x384_o0_128_S4000x128 slices_S4000x384_o0_256_S4000x128
    shapeCasts_S4000x128_S4000x128 p q).trans ?_
  rw [device_affine' dot_S4000x128_S128x384_S4000x384_1_0_0_1_n_n dot_S4000x128_S128x384_S4000x384_1_0_0_1_n_n.wf rfl a wi bi
      bitsLt_bf16_f32 shapeCasts_S4000x128_S4000x128 shapeCasts_S128x384_S128x384 shapeCasts_S1x384_S1x384 broadcasts_S1x384_S4000x384,
    device_affine' dot_S4000x128_S128x384_S4000x384_1_0_0_1_n_n dot_S4000x128_S128x384_S4000x384_1_0_0_1_n_n.wf rfl h wh bh
      bitsLt_bf16_f32 shapeCasts_S4000x128_S4000x128 shapeCasts_S128x384_S128x384 shapeCasts_S1x384_S1x384 broadcasts_S1x384_S4000x384]
  rfl

/-- Block t of the windows cut by rows starts at row 4000·t; every other window is its whole array at every point. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of block t is row 4000·t + p of the array. -/
def rowOf (t : Fin cfg4.N) (p : Fin 4000) : Fin 100000 :=
  ⟨t.val * 4000 + p.val, by have h : t.val < 25 := lt_of_lt_of_eq t.isLt N_4; have := p.isLt; omega⟩

theorem blk0_apply (c : Dev nD) (t : Fin cfg4.N) (p : Fin 4000) (j : Fin 128) :
    iblk4 V c 0 t (ix2 p j) = V c main_v40 (ix2 (rowOf t p) j) := by
  obtain ⟨e0, e1, -⟩ := idx_facts t
  show V c main_v40 (((cfg4.win 0).blk t).view.emb (ix2 p j)) = _
  refine congrArg (V c main_v40) (funext fun a => Fin.ext ?_)
  match a with
  | ⟨0, _⟩ => show win4_0.index t (0 : Fin 2) * 4000 + 1 * p.val = t.val * 4000 + p.val; rw [e0]; omega
  | ⟨1, _⟩ => show win4_0.index t (1 : Fin 2) * 128 + 1 * j.val = j.val; rw [e1]; omega

theorem blk1_apply (c : Dev nD) (t : Fin cfg4.N) (p : Fin 4000) (j : Fin 128) :
    iblk4 V c 1 t (ix2 p j) = V c main_v27 (ix2 (rowOf t p) j) := by
  obtain ⟨-, -, e0, e1, -⟩ := idx_facts t
  show V c main_v27 (((cfg4.win 1).blk t).view.emb (ix2 p j)) = _
  refine congrArg (V c main_v27) (funext fun a => Fin.ext ?_)
  match a with
  | ⟨0, _⟩ => show win4_1.index t (0 : Fin 2) * 4000 + 1 * p.val = t.val * 4000 + p.val; rw [e0]; omega
  | ⟨1, _⟩ => show win4_1.index t (1 : Fin 2) * 128 + 1 * j.val = j.val; rw [e1]; omega

theorem blk2_eq (c : Dev nD) (t : Fin cfg4.N) : iblk4 V c 2 t = V c main_v10 := by
  obtain ⟨-, -, -, -, e0, e1, -⟩ := idx_facts t
  funext y
  show V c main_v10 (((cfg4.win 2).blk t).view.emb y) = V c main_v10 y
  refine congrArg (V c main_v10) (funext fun a => Fin.ext ?_)
  match a with
  | ⟨0, _⟩ => show win4_2.index t (0 : Fin 2) * 128 + 1 * (y 0).val = (y 0).val; rw [e0]; omega
  | ⟨1, _⟩ => show win4_2.index t (1 : Fin 2) * 384 + 1 * (y 1).val = (y 1).val; rw [e1]; omega

theorem blk3_eq (c : Dev nD) (t : Fin cfg4.N) : iblk4 V c 3 t = V c main_v11 := by
  obtain ⟨-, -, -, -, -, -, e0, e1, -⟩ := idx_facts t
  funext y
  show V c main_v11 (((cfg4.win 3).blk t).view.emb y) = V c main_v11 y
  refine congrArg (V c main_v11) (funext fun a => Fin.ext ?_)
  match a with
  | ⟨0, _⟩ => show win4_3.index t (0 : Fin 2) * 128 + 1 * (y 0).val = (y 0).val; rw [e0]; omega
  | ⟨1, _⟩ => show win4_3.index t (1 : Fin 2) * 384 + 1 * (y 1).val = (y 1).val; rw [e1]; omega

theorem blk4_eq (c : Dev nD) (t : Fin cfg4.N) : iblk4 V c 4 t = V c main_v12 := by
  obtain ⟨-, -, -, -, -, -, -, -, e0, e1, -⟩ := idx_facts t
  funext y
  show V c main_v12 (((cfg4.win 4).blk t).view.emb y) = V c main_v12 y
  refine congrArg (V c main_v12) (funext fun a => Fin.ext ?_)
  match a with
  | ⟨0, _⟩ => show win4_4.index t (0 : Fin 2) * 1 + 1 * (y 0).val = (y 0).val; rw [e0]; omega
  | ⟨1, _⟩ => show win4_4.index t (1 : Fin 2) * 384 + 1 * (y 1).val = (y 1).val; rw [e1]; omega

theorem blk5_eq (c : Dev nD) (t : Fin cfg4.N) : iblk4 V c 5 t = V c main_v13 := by
  obtain ⟨-, -, -, -, -, -, -, -, -, -, e0, e1, -⟩ := idx_facts t
  funext y
  show V c main_v13 (((cfg4.win 5).blk t).view.emb y) = V c main_v13 y
  refine congrArg (V c main_v13) (funext fun a => Fin.ext ?_)
  match a with
  | ⟨0, _⟩ => show win4_5.index t (0 : Fin 2) * 1 + 1 * (y 0).val = (y 0).val; rw [e0]; omega
  | ⟨1, _⟩ => show win4_5.index t (1 : Fin 2) * 384 + 1 * (y 1).val = (y 1).val; rw [e1]; omega

theorem emb_out (t : Fin cfg4.N) (p : Fin 4000) (q : Fin 128) :
    ((cfg4.win 6).blk t).view.emb (ix2 p q) = ix2 (rowOf t p) q := by
  obtain ⟨-, -, -, -, -, -, -, -, -, -, -, -, e0, e1⟩ := idx_facts t
  refine funext fun a => Fin.ext ?_
  match a with
  | ⟨0, _⟩ => show win4_6.index t (0 : Fin 2) * 4000 + 1 * p.val = t.val * 4000 + p.val; rw [e0]; omega
  | ⟨1, _⟩ => show win4_6.index t (1 : Fin 2) * 128 + 1 * q.val = q.val; rw [e1]; omega

/-- What point t writes back is block t of the stage applied to the whole arrays. -/
theorem flushed_eq (c : Dev nD) (t : Fin cfg4.N) :
    (dat4 V c).flushed 6 t = ((cfg4.win 6).blk t).view.read (Elt Ideal) (gru (V c main_v40) (V c main_v27) (V c main_v10) (V c main_v11) (V c main_v12) (V c main_v13)) := by
  show (cfg4.win 6).cut (grid4.coords t) ((dat4 V c).after 6 t) = _
  rw [after4_6]
  unfold out4_6
  rw [View.canon_unit_zero hz2]
  simp only [View.ld_unit_zero (S := S4000x128) hz2, View.ld_unit_zero (S := S128x384) hz2, View.ld_unit_zero (S := S1x384) hz2]
  rw [pay_eq, blk2_eq V c t, blk3_eq V c t, blk4_eq V c t, blk5_eq V c t]
  funext y
  obtain ⟨p, q, rfl⟩ : ∃ (p : Fin 4000) (q : Fin 128), y = ix2 p q := ⟨y 0, y 1, eq_ix2 y⟩
  show (gru (iblk4 V c 0 t) (iblk4 V c 1 t) (V c main_v10) (V c main_v11) (V c main_v12) (V c main_v13)) (ix2 p q) = (gru (V c main_v40) (V c main_v27) (V c main_v10) (V c main_v11) (V c main_v12) (V c main_v13)) (((cfg4.win 6).blk t).view.emb (ix2 p q))
  rw [emb_out t p q]
  exact gru_rows (V c main_v40) (V c main_v27) (V c main_v10) (V c main_v11) (V c main_v12) (V c main_v13) (iblk4 V c 0 t) (iblk4 V c 1 t) (rowOf t)
    (fun p' k => blk0_apply V c t p' k) (fun p' k => blk1_apply V c t p' k) p q

theorem mem_blk (t : Fin cfg4.N) (i : S100000x128.Idx) :
    i ∈ ((cfg4.win 6).blk t).view.set ↔ ∀ a : Fin 2, win4_6.index t a * S4000x128.size a ≤ (i a).val ∧ (i a).val < win4_6.index t a * S4000x128.size a + S4000x128.size a := by
  show i ∈ ((View.whole main_v41).slice (win4_6.rect t)).set ↔ _
  rw [View.set_slice_whole, Rect.mem_set_unit]
  exact Iff.rfl

/-- Every row lies in the block numbered by its quotient by 4000. -/
theorem cover (i : S100000x128.Idx) : ∃ t : Fin cfg4.N, (cfg4.win 6).flush t = true ∧ i ∈ ((cfg4.win 6).blk t).view.set := by
  have hi0 : (i 0).val < 100000 := (i 0).isLt
  have hi1 : (i 1).val < 128 := (i 1).isLt
  have hN : grid4.N = 25 := N_4
  have ht : (i 0).val / 4000 < cfg4.N := by show (i 0).val / 4000 < grid4.N; rw [hN]; omega
  obtain ⟨-, -, -, -, -, -, -, -, -, -, -, -, e0, e1⟩ := idx_facts ⟨(i 0).val / 4000, ht⟩
  refine ⟨⟨(i 0).val / 4000, ht⟩, flush4_6 _, ?_⟩
  rw [mem_blk]
  intro a
  match a with
  | ⟨0, _⟩ =>
    show win4_6.index ⟨(i 0).val / 4000, ht⟩ (0 : Fin 2) * 4000 ≤ (i 0).val ∧ (i 0).val < win4_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win4_6.index ⟨(i 0).val / 4000, ht⟩ (1 : Fin 2) * 128 ≤ (i 1).val ∧ (i 1).val < win4_6.index ⟨(i 0).val / 4000, ht⟩ (1 : Fin 2) * 128 + 128
    rw [e1]; omega

/-- The region's output array after the run is the stage function of its input arrays as the region found them. -/
theorem final (c : Dev nD) : (dat4 V c).arrAt 6 cfg4.N = (gru (V c main_v40) (V c main_v27) (V c main_v10) (V c main_v11) (V c main_v12) (V c main_v13)) :=
  (dat4 V c).arrAt_eq_of_cover 6 _ (fun t _ => flushed_eq V c t) cover

end Cert.KernelIdeal.Gru4

end
-- ==== Proof.KMsg5.lean ====
/-
  A PROPAGATION PRODUCT, BLOCK BY BLOCK. The region cuts the 100000 node rows into twenty blocks of 5000; at block t
  it multiplies rows 5000·t … 5000·t + 4999 of the state array by the whole 128 × 128 weight matrix and writes the
  product to the same rows of its output. A row of a matrix product depends on that row of the left factor only, so
  the twenty blocks together are the product of the whole arrays.
-/
import proofs.«137501_j83021717832548_2_alg».proof.Proof.Gen.KernelIdeal.Frame
import proofs.«137501_j83021717832548_2_alg».proof.Proof.Stages
import proofs.«137501_j83021717832548_2_alg».proof.Proof.LibBlockRows
import Idealize.ShloMosaic.Lib.Pipeline.Value

set_option maxRecDepth 16384

noncomputable section

open scoped BigOperators

namespace Cert.KernelIdeal.Msg5

open Cert.KernelIdeal Cert.KernelIdeal.Gen Idealize.ShloMosaic Idealize.ShloMosaic.TcCoe Idealize.SL.Sem Idealize.ShloMosaic.ValueIdx
open Idealize.ShloMosaic.Pipeline (Dat)
open Cert.LayerForms Cert.DenseStages Cert.MatOps Cert.Net

variable (V : (c : Dev nD) → (b : Ref sig .tc) → Buf (Elt Ideal) ((c : Thread nD τ).loc b))

/-- On one block the matrix unit, fed the block narrowed to sixteen bits and accumulating into zeros, computes the
    matrix product of the block of rows with the weights. -/
theorem pay_eq (x0 : Vec Ideal S5000x128 .f32) (x1 : Vec Ideal S128x128 .f32) : k5_pay1 x0 x1 = dense x0 x1 :=
  device_dense dot_S5000x128_S128x128_S5000x128_1_0_0_1_n_n dot_S5000x128_S128x128_S5000x128_1_0_0_1_n_n.wf rfl x0 x1
    bitsLt_bf16_f32 shapeCasts_S5000x128_S5000x128 shapeCasts_S128x128_S128x128

/-- Block t of the windows cut by rows starts at row 5000·t; every other window is its whole array at every point. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row p of block t is row 5000·t + p of the array. -/
def rowOf (t : Fin cfg5.N) (p : Fin 5000) : Fin 100000 :=
  ⟨t.val * 5000 + p.val, by have h : t.val < 20 := lt_of_lt_of_eq t.isLt N_5; have := p.isLt; omega⟩

theorem blk0_apply (c : Dev nD) (t : Fin cfg5.N) (p : Fin 5000) (j : Fin 128) :
    iblk5 V c 0 t (ix2 p j) = V c main_v41 (ix2 (rowOf t p) j) := by
  obtain ⟨e0, e1, -⟩ := idx_facts t
  show V c main_v41 (((cfg5.win 0).blk t).view.emb (ix2 p j)) = _
  refine congrArg (V c main_v41) (funext fun a => Fin.ext ?_)
  match a with
  | ⟨0, _⟩ => show win5_0.index t (0 : Fin 2) * 5000 + 1 * p.val = t.val * 5000 + p.val; rw [e0]; omega
  | ⟨1, _⟩ => show win5_0.index t (1 : Fin 2) * 128 + 1 * j.val = j.val; rw [e1]; omega

theorem blk1_eq (c : Dev nD) (t : Fin cfg5.N) : iblk5 V c 1 t = V c main_v43 := by
  obtain ⟨-, -, e0, e1, -⟩ := idx_facts t
  funext y
  show V c main_v43 (((cfg5.win 1).blk t).view.emb y) = V c main_v43 y
  refine congrArg (V c main_v43) (funext fun a => Fin.ext ?_)
  match a with
  | ⟨0, _⟩ => show win5_1.index t (0 : Fin 2) * 128 + 1 * (y 0).val = (y 0).val; rw [e0]; omega
  | ⟨1, _⟩ => show win5_1.index t (1 : Fin 2) * 128 + 1 * (y 1).val = (y 1).val; rw [e1]; omega

theorem emb_out (t : Fin cfg5.N) (p : Fin 5000) (q : Fin 128) :
    ((cfg5.win 2).blk t).view.emb (ix2 p q) = ix2 (rowOf t p) q := by
  obtain ⟨-, -, -, -, e0, e1⟩ := idx_facts t
  refine funext fun a => Fin.ext ?_
  match a with
  | ⟨0, _⟩ => show win5_2.index t (0 : Fin 2) * 5000 + 1 * p.val = t.val * 5000 + p.val; rw [e0]; omega
  | ⟨1, _⟩ => show win5_2.index t (1 : Fin 2) * 128 + 1 * q.val = q.val; rw [e1]; omega

/-- What point t writes back is block t of the stage applied to the whole arrays. -/
theorem flushed_eq (c : Dev nD) (t : Fin cfg5.N) :
    (dat5 V c).flushed 2 t = ((cfg5.win 2).blk t).view.read (Elt Ideal) (dense (V c main_v41) (V c main_v43)) := by
  show (cfg5.win 2).cut (grid5.coords t) ((dat5 V c).after 2 t) = _
  rw [after5_2]
  unfold out5_2
  rw [View.canon_unit_zero hz2]
  simp only [View.ld_unit_zero (S := S5000x128) hz2, View.ld_unit_zero (S := S128x128) hz2]
  rw [pay_eq, blk1_eq V c t]
  funext y
  obtain ⟨p, q, rfl⟩ : ∃ (p : Fin 5000) (q : Fin 128), y = ix2 p q := ⟨y 0, y 1, eq_ix2 y⟩
  show (dense (iblk5 V c 0 t) (V c main_v43)) (ix2 p q) = (dense (V c main_v41) (V c main_v43)) (((cfg5.win 2).blk t).view.emb (ix2 p q))
  rw [emb_out t p q]
  exact dense_rows (V c main_v41) (V c main_v43) (iblk5 V c 0 t) (rowOf t) (fun p' k => blk0_apply V c t p' k) p q

theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v44).slice (win5_2.rect t)).set ↔ _
  rw [View.set_slice_whole, Rect.mem_set_unit]
  exact Iff.rfl

/-- Every row lies in the block numbered by its quotient by 5000. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : grid5.N = 20 := N_5
  have ht : (i 0).val / 5000 < cfg5.N := by show (i 0).val / 5000 < grid5.N; rw [hN]; omega
  obtain ⟨-, -, -, -, e0, e1⟩ := idx_facts ⟨(i 0).val / 5000, ht⟩
  refine ⟨⟨(i 0).val / 5000, ht⟩, flush5_2 _, ?_⟩
  rw [mem_blk]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win5_2.index ⟨(i 0).val / 5000, ht⟩ (1 : Fin 2) * 128 ≤ (i 1).val ∧ (i 1).val < win5_2.index ⟨(i 0).val / 5000, ht⟩ (1 : Fin 2) * 128 + 128
    rw [e1]; omega

/-- The region's output array after the run is the stage function of its input arrays as the region found them. -/
theorem final (c : Dev nD) : (dat5 V c).arrAt 2 cfg5.N = (dense (V c main_v41) (V c main_v43)) :=
  (dat5 V c).arrAt_eq_of_cover 2 _ (fun t _ => flushed_eq V c t) cover

end Cert.KernelIdeal.Msg5

end
-- ==== Proof.KGru6.lean ====
/-
  THE GATED RECURRENT UPDATE, BLOCK BY BLOCK. The region cuts the 100000 node rows into twenty-five blocks of 4000; at
  block t it takes rows 4000·t … 4000·t + 3999 of the collected messages and of the states, forms the two gate
  pre-activation arrays (a product with the whole 128 × 384 weights plus a one-row bias each), cuts each into its
  three blocks of 128 columns, and applies the cell entry by entry. Each row of the result depends on that row of
  the messages and of the states only, so the blocks together are the update of the whole arrays.
-/
import proofs.«137501_j83021717832548_2_alg».proof.Proof.Gen.KernelIdeal.Frame
import proofs.«137501_j83021717832548_2_alg».proof.Proof.Stages
import proofs.«137501_j83021717832548_2_alg».proof.Proof.LibBlockRows
import proofs.«137501_j83021717832548_2_alg».proof.Proof.LibGruBlock
import Idealize.ShloMosaic.Lib.Pipeline.Value

set_option maxRecDepth 16384

noncomputable section

open scoped BigOperators

namespace Cert.KernelIdeal.Gru6

open Cert.KernelIdeal Cert.KernelIdeal.Gen Idealize.ShloMosaic Idealize.ShloMosaic.TcCoe Idealize.SL.Sem Idealize.ShloMosaic.ValueIdx
open Idealize.ShloMosaic.Pipeline (Dat)
open Cert.LayerForms Cert.DenseStages Cert.MatOps Cert.Net

variable (V : (c : Dev nD) → (b : Ref sig .tc) → Buf (Elt Ideal) ((c : Thread nD τ).loc b))

/-- On one block: the two pre-activation arrays through the matrix unit, their column blocks, the cell. The body
    loads the block of states twice (once for the product, once for the last term). -/
theorem pay_eq (a h : Vec Ideal S4000x128 .f32) (wi wh : Vec Ideal S128x384 .f32) (bi bh : Vec Ideal S1x384 .f32) :
    k6_pay1 a h wi wh bi bh h = gru a h wi wh bi bh := by
  funext i
  obtain ⟨p, q, rfl⟩ : ∃ (p : Fin 4000) (q : Fin 128), i = ix2 p q := ⟨i 0, i 1, eq_ix2 i⟩
  refine (device_gruCell _ _ h slices_S4000x384_o0_0_S4000x128 slices_S4000x384_o0_128_S4000x128 slices_S4000x384_o0_256_S4000x128
    shapeCasts_S4000x128_S4000x128 p q).trans ?_
  rw [device_affine' dot_S4000x128_S128x384_S4000x384_1_0_0_1_n_n dot_S4000x128_S128x384_S4000x384_1_0_0_1_n_n.wf rfl a wi bi
      bitsLt_bf16_f32 shapeCasts_S4000x128_S4000x128 shapeCasts_S128x384_S128x384 shapeCasts_S1x384_S1x384 broadcasts_S1x384_S4000x384,
    device_affine' dot_S4000x128_S128x384_S4000x384_1_0_0_1_n_n dot_S4000x128_S128x384_S4000x384_1_0_0_1_n_n.wf rfl h wh bh
      bitsLt_bf16_f32 shapeCasts_S4000x128_S4000x128 shapeCasts_S128x384_S128x384 shapeCasts_S1x384_S1x384 broadcasts_S1x384_S4000x384]
  rfl

/-- Block t of the windows cut by rows starts at row 4000·t; every other window is its whole array at every point. -/
theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Row p of block t is row 4000·t + p of the array. -/
def rowOf (t : Fin cfg6.N) (p : Fin 4000) : Fin 100000 :=
  ⟨t.val * 4000 + p.val, by have h : t.val < 25 := lt_of_lt_of_eq t.isLt N_6; have := p.isLt; omega⟩

theorem blk0_apply (c : Dev nD) (t : Fin cfg6.N) (p : Fin 4000) (j : Fin 128) :
    iblk6 V c 0 t (ix2 p j) = V c main_v54 (ix2 (rowOf t p) j) := by
  obtain ⟨e0, e1, -⟩ := idx_facts t
  show V c main_v54 (((cfg6.win 0).blk t).view.emb (ix2 p j)) = _
  refine congrArg (V c main_v54) (funext fun a => Fin.ext ?_)
  match a with
  | ⟨0, _⟩ => show win6_0.index t (0 : Fin 2) * 4000 + 1 * p.val = t.val * 4000 + p.val; rw [e0]; omega
  | ⟨1, _⟩ => show win6_0.index t (1 : Fin 2) * 128 + 1 * j.val = j.val; rw [e1]; omega

theorem blk1_apply (c : Dev nD) (t : Fin cfg6.N) (p : Fin 4000) (j : Fin 128) :
    iblk6 V c 1 t (ix2 p j) = V c main_v41 (ix2 (rowOf t p) j) := by
  obtain ⟨-, -, e0, e1, -⟩ := idx_facts t
  show V c main_v41 (((cfg6.win 1).blk t).view.emb (ix2 p j)) = _
  refine congrArg (V c main_v41) (funext fun a => Fin.ext ?_)
  match a with
  | ⟨0, _⟩ => show win6_1.index t (0 : Fin 2) * 4000 + 1 * p.val = t.val * 4000 + p.val; rw [e0]; omega
  | ⟨1, _⟩ => show win6_1.index t (1 : Fin 2) * 128 + 1 * j.val = j.val; rw [e1]; omega

theorem blk2_eq (c : Dev nD) (t : Fin cfg6.N) : iblk6 V c 2 t = V c main_v10 := by
  obtain ⟨-, -, -, -, e0, e1, -⟩ := idx_facts t
  funext y
  show V c main_v10 (((cfg6.win 2).blk t).view.emb y) = V c main_v10 y
  refine congrArg (V c main_v10) (funext fun a => Fin.ext ?_)
  match a with
  | ⟨0, _⟩ => show win6_2.index t (0 : Fin 2) * 128 + 1 * (y 0).val = (y 0).val; rw [e0]; omega
  | ⟨1, _⟩ => show win6_2.index t (1 : Fin 2) * 384 + 1 * (y 1).val = (y 1).val; rw [e1]; omega

theorem blk3_eq (c : Dev nD) (t : Fin cfg6.N) : iblk6 V c 3 t = V c main_v11 := by
  obtain ⟨-, -, -, -, -, -, e0, e1, -⟩ := idx_facts t
  funext y
  show V c main_v11 (((cfg6.win 3).blk t).view.emb y) = V c main_v11 y
  refine congrArg (V c main_v11) (funext fun a => Fin.ext ?_)
  match a with
  | ⟨0, _⟩ => show win6_3.index t (0 : Fin 2) * 128 + 1 * (y 0).val = (y 0).val; rw [e0]; omega
  | ⟨1, _⟩ => show win6_3.index t (1 : Fin 2) * 384 + 1 * (y 1).val = (y 1).val; rw [e1]; omega

theorem blk4_eq (c : Dev nD) (t : Fin cfg6.N) : iblk6 V c 4 t = V c main_v12 := by
  obtain ⟨-, -, -, -, -, -, -, -, e0, e1, -⟩ := idx_facts t
  funext y
  show V c main_v12 (((cfg6.win 4).blk t).view.emb y) = V c main_v12 y
  refine congrArg (V c main_v12) (funext fun a => Fin.ext ?_)
  match a with
  | ⟨0, _⟩ => show win6_4.index t (0 : Fin 2) * 1 + 1 * (y 0).val = (y 0).val; rw [e0]; omega
  | ⟨1, _⟩ => show win6_4.index t (1 : Fin 2) * 384 + 1 * (y 1).val = (y 1).val; rw [e1]; omega

theorem blk5_eq (c : Dev nD) (t : Fin cfg6.N) : iblk6 V c 5 t = V c main_v13 := by
  obtain ⟨-, -, -, -, -, -, -, -, -, -, e0, e1, -⟩ := idx_facts t
  funext y
  show V c main_v13 (((cfg6.win 5).blk t).view.emb y) = V c main_v13 y
  refine congrArg (V c main_v13) (funext fun a => Fin.ext ?_)
  match a with
  | ⟨0, _⟩ => show win6_5.index t (0 : Fin 2) * 1 + 1 * (y 0).val = (y 0).val; rw [e0]; omega
  | ⟨1, _⟩ => show win6_5.index t (1 : Fin 2) * 384 + 1 * (y 1).val = (y 1).val; rw [e1]; omega

theorem emb_out (t : Fin cfg6.N) (p : Fin 4000) (q : Fin 128) :
    ((cfg6.win 6).blk t).view.emb (ix2 p q) = ix2 (rowOf t p) q := by
  obtain ⟨-, -, -, -, -, -, -, -, -, -, -, -, e0, e1⟩ := idx_facts t
  refine funext fun a => Fin.ext ?_
  match a with
  | ⟨0, _⟩ => show win6_6.index t (0 : Fin 2) * 4000 + 1 * p.val = t.val * 4000 + p.val; rw [e0]; omega
  | ⟨1, _⟩ => show win6_6.index t (1 : Fin 2) * 128 + 1 * q.val = q.val; rw [e1]; omega

/-- What point t writes back is block t of the stage applied to the whole arrays. -/
theorem flushed_eq (c : Dev nD) (t : Fin cfg6.N) :
    (dat6 V c).flushed 6 t = ((cfg6.win 6).blk t).view.read (Elt Ideal) (gru (V c main_v54) (V c main_v41) (V c main_v10) (V c main_v11) (V c main_v12) (V c main_v13)) := by
  show (cfg6.win 6).cut (grid6.coords t) ((dat6 V c).after 6 t) = _
  rw [after6_6]
  unfold out6_6
  rw [View.canon_unit_zero hz2]
  simp only [View.ld_unit_zero (S := S4000x128) hz2, View.ld_unit_zero (S := S128x384) hz2, View.ld_unit_zero (S := S1x384) hz2]
  rw [pay_eq, blk2_eq V c t, blk3_eq V c t, blk4_eq V c t, blk5_eq V c t]
  funext y
  obtain ⟨p, q, rfl⟩ : ∃ (p : Fin 4000) (q : Fin 128), y = ix2 p q := ⟨y 0, y 1, eq_ix2 y⟩
  show (gru (iblk6 V c 0 t) (iblk6 V c 1 t) (V c main_v10) (V c main_v11) (V c main_v12) (V c main_v13)) (ix2 p q) = (gru (V c main_v54) (V c main_v41) (V c main_v10) (V c main_v11) (V c main_v12) (V c main_v13)) (((cfg6.win 6).blk t).view.emb (ix2 p q))
  rw [emb_out t p q]
  exact gru_rows (V c main_v54) (V c main_v41) (V c main_v10) (V c main_v11) (V c main_v12) (V c main_v13) (iblk6 V c 0 t) (iblk6 V c 1 t) (rowOf t)
    (fun p' k => blk0_apply V c t p' k) (fun p' k => blk1_apply V c t p' k) p q

theorem mem_blk (t : Fin cfg6.N) (i : S100000x128.Idx) :
    i ∈ ((cfg6.win 6).blk t).view.set ↔ ∀ a : Fin 2, win6_6.index t a * S4000x128.size a ≤ (i a).val ∧ (i a).val < win6_6.index t a * S4000x128.size a + S4000x128.size a := by
  show i ∈ ((View.whole main_v55).slice (win6_6.rect t)).set ↔ _
  rw [View.set_slice_whole, Rect.mem_set_unit]
  exact Iff.rfl

/-- Every row lies in the block numbered by its quotient by 4000. -/
theorem cover (i : S100000x128.Idx) : ∃ t : Fin cfg6.N, (cfg6.win 6).flush t = true ∧ i ∈ ((cfg6.win 6).blk t).view.set := by
  have hi0 : (i 0).val < 100000 := (i 0).isLt
  have hi1 : (i 1).val < 128 := (i 1).isLt
  have hN : grid6.N = 25 := N_6
  have ht : (i 0).val / 4000 < cfg6.N := by show (i 0).val / 4000 < grid6.N; rw [hN]; omega
  obtain ⟨-, -, -, -, -, -, -, -, -, -, -, -, e0, e1⟩ := idx_facts ⟨(i 0).val / 4000, ht⟩
  refine ⟨⟨(i 0).val / 4000, ht⟩, flush6_6 _, ?_⟩
  rw [mem_blk]
  intro a
  match a with
  | ⟨0, _⟩ =>
    show win6_6.index ⟨(i 0).val / 4000, ht⟩ (0 : Fin 2) * 4000 ≤ (i 0).val ∧ (i 0).val < win6_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win6_6.index ⟨(i 0).val / 4000, ht⟩ (1 : Fin 2) * 128 ≤ (i 1).val ∧ (i 1).val < win6_6.index ⟨(i 0).val / 4000, ht⟩ (1 : Fin 2) * 128 + 128
    rw [e1]; omega

/-- The region's output array after the run is the stage function of its input arrays as the region found them. -/
theorem final (c : Dev nD) : (dat6 V c).arrAt 6 cfg6.N = (gru (V c main_v54) (V c main_v41) (V c main_v10) (V c main_v11) (V c main_v12) (V c main_v13)) :=
  (dat6 V c).arrAt_eq_of_cover 6 _ (fun t _ => flushed_eq V c t) cover

end Cert.KernelIdeal.Gru6

end
-- ==== Proof.KBn7.lean ====
/-
  THE CLOSING STANDARDISATION, BLOCK BY BLOCK. The region cuts the 100000 node rows into twenty blocks of 5000 and at
  block t standardises rows 5000·t … 5000·t + 4999 of the states column by column with the one-row statistics and
  cuts off at zero. Each entry of the result depends on the same entry of the states only.
-/
import proofs.«137501_j83021717832548_2_alg».proof.Proof.Gen.KernelIdeal.Frame
import proofs.«137501_j83021717832548_2_alg».proof.Proof.Stages
import proofs.«137501_j83021717832548_2_alg».proof.Proof.LibBlockRows
import Idealize.ShloMosaic.Lib.Pipeline.Value

set_option maxRecDepth 16384

noncomputable section

open scoped BigOperators

namespace Cert.KernelIdeal.Bn7

open Cert.KernelIdeal Cert.KernelIdeal.Gen Idealize.ShloMosaic Idealize.ShloMosaic.TcCoe Idealize.SL.Sem Idealize.ShloMosaic.ValueIdx
open Idealize.ShloMosaic.Pipeline (Dat)
open Cert.LayerForms Cert.DenseStages Cert.MatOps Cert.Net

variable (V : (c : Dev nD) → (b : Ref sig .tc) → Buf (Elt Ideal) ((c : Thread nD τ).loc b))

/-- On one block: the mean row subtracted, the reciprocal root of the variance row plus eps, the scale row, the shift
    row, the cut-off; the body reads the statistics in the order mean, variance, scale, shift. -/
theorem pay_eq (y : Vec Ideal S5000x128 .f32) (mu v g be : Vec Ideal S1x128 .f32) :
    k7_pay1 y mu v g be = normRelu y g be mu v := by
  refine Eq.trans ?_ (device_normRelu y g be mu v shapeCasts_S1x128_S1x128 broadcasts_S1x128_S5000x128)
  unfold k7_pay1
  rw [shapeCast_self y shapeCasts_S5000x128_S5000x128]

/-- Block t of the windows cut by rows starts at row 5000·t; every other window is its whole array at every point. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Row p of block t is row 5000·t + p of the array. -/
def rowOf (t : Fin cfg7.N) (p : Fin 5000) : Fin 100000 :=
  ⟨t.val * 5000 + p.val, by have h : t.val < 20 := lt_of_lt_of_eq t.isLt N_7; have := p.isLt; omega⟩

theorem blk0_apply (c : Dev nD) (t : Fin cfg7.N) (p : Fin 5000) (j : Fin 128) :
    iblk7 V c 0 t (ix2 p j) = V c main_v55 (ix2 (rowOf t p) j) := by
  obtain ⟨e0, e1, -⟩ := idx_facts t
  show V c main_v55 (((cfg7.win 0).blk t).view.emb (ix2 p j)) = _
  refine congrArg (V c main_v55) (funext fun a => Fin.ext ?_)
  match a with
  | ⟨0, _⟩ => show win7_0.index t (0 : Fin 2) * 5000 + 1 * p.val = t.val * 5000 + p.val; rw [e0]; omega
  | ⟨1, _⟩ => show win7_0.index t (1 : Fin 2) * 128 + 1 * j.val = j.val; rw [e1]; omega

theorem blk1_eq (c : Dev nD) (t : Fin cfg7.N) : iblk7 V c 1 t = V c main_v56 := by
  obtain ⟨-, -, e0, e1, -⟩ := idx_facts t
  funext y
  show V c main_v56 (((cfg7.win 1).blk t).view.emb y) = V c main_v56 y
  refine congrArg (V c main_v56) (funext fun a => Fin.ext ?_)
  match a with
  | ⟨0, _⟩ => show win7_1.index t (0 : Fin 2) * 1 + 1 * (y 0).val = (y 0).val; rw [e0]; omega
  | ⟨1, _⟩ => show win7_1.index t (1 : Fin 2) * 128 + 1 * (y 1).val = (y 1).val; rw [e1]; omega

theorem blk2_eq (c : Dev nD) (t : Fin cfg7.N) : iblk7 V c 2 t = V c main_v57 := by
  obtain ⟨-, -, -, -, e0, e1, -⟩ := idx_facts t
  funext y
  show V c main_v57 (((cfg7.win 2).blk t).view.emb y) = V c main_v57 y
  refine congrArg (V c main_v57) (funext fun a => Fin.ext ?_)
  match a with
  | ⟨0, _⟩ => show win7_2.index t (0 : Fin 2) * 1 + 1 * (y 0).val = (y 0).val; rw [e0]; omega
  | ⟨1, _⟩ => show win7_2.index t (1 : Fin 2) * 128 + 1 * (y 1).val = (y 1).val; rw [e1]; omega

theorem blk3_eq (c : Dev nD) (t : Fin cfg7.N) : iblk7 V c 3 t = V c main_v58 := by
  obtain ⟨-, -, -, -, -, -, e0, e1, -⟩ := idx_facts t
  funext y
  show V c main_v58 (((cfg7.win 3).blk t).view.emb y) = V c main_v58 y
  refine congrArg (V c main_v58) (funext fun a => Fin.ext ?_)
  match a with
  | ⟨0, _⟩ => show win7_3.index t (0 : Fin 2) * 1 + 1 * (y 0).val = (y 0).val; rw [e0]; omega
  | ⟨1, _⟩ => show win7_3.index t (1 : Fin 2) * 128 + 1 * (y 1).val = (y 1).val; rw [e1]; omega

theorem blk4_eq (c : Dev nD) (t : Fin cfg7.N) : iblk7 V c 4 t = V c main_v59 := by
  obtain ⟨-, -, -, -, -, -, -, -, e0, e1, -⟩ := idx_facts t
  funext y
  show V c main_v59 (((cfg7.win 4).blk t).view.emb y) = V c main_v59 y
  refine congrArg (V c main_v59) (funext fun a => Fin.ext ?_)
  match a with
  | ⟨0, _⟩ => show win7_4.index t (0 : Fin 2) * 1 + 1 * (y 0).val = (y 0).val; rw [e0]; omega
  | ⟨1, _⟩ => show win7_4.index t (1 : Fin 2) * 128 + 1 * (y 1).val = (y 1).val; rw [e1]; omega

theorem emb_out (t : Fin cfg7.N) (p : Fin 5000) (q : Fin 128) :
    ((cfg7.win 5).blk t).view.emb (ix2 p q) = ix2 (rowOf t p) q := by
  obtain ⟨-, -, -, -, -, -, -, -, -, -, e0, e1⟩ := idx_facts t
  refine funext fun a => Fin.ext ?_
  match a with
  | ⟨0, _⟩ => show win7_5.index t (0 : Fin 2) * 5000 + 1 * p.val = t.val * 5000 + p.val; rw [e0]; omega
  | ⟨1, _⟩ => show win7_5.index t (1 : Fin 2) * 128 + 1 * q.val = q.val; rw [e1]; omega

/-- What point t writes back is block t of the stage applied to the whole arrays. -/
theorem flushed_eq (c : Dev nD) (t : Fin cfg7.N) :
    (dat7 V c).flushed 5 t = ((cfg7.win 5).blk t).view.read (Elt Ideal) (normRelu (V c main_v55) (V c main_v56) (V c main_v57) (V c main_v58) (V c main_v59)) := by
  show (cfg7.win 5).cut (grid7.coords t) ((dat7 V c).after 5 t) = _
  rw [after7_5]
  unfold out7_5
  rw [View.canon_unit_zero hz2]
  simp only [View.ld_unit_zero (S := S5000x128) hz2, View.ld_unit_zero (S := S1x128) hz2]
  rw [pay_eq, blk1_eq V c t, blk2_eq V c t, blk3_eq V c t, blk4_eq V c t]
  funext y
  obtain ⟨p, q, rfl⟩ : ∃ (p : Fin 5000) (q : Fin 128), y = ix2 p q := ⟨y 0, y 1, eq_ix2 y⟩
  show (normRelu (iblk7 V c 0 t) (V c main_v56) (V c main_v57) (V c main_v58) (V c main_v59)) (ix2 p q) = (normRelu (V c main_v55) (V c main_v56) (V c main_v57) (V c main_v58) (V c main_v59)) (((cfg7.win 5).blk t).view.emb (ix2 p q))
  rw [emb_out t p q]
  exact normRelu_rows (V c main_v55) (V c main_v56) (V c main_v57) (V c main_v58) (V c main_v59) (iblk7 V c 0 t) (rowOf t) (fun p' k => blk0_apply V c t p' k) p q

theorem mem_blk (t : Fin cfg7.N) (i : S100000x128.Idx) :
    i ∈ ((cfg7.win 5).blk t).view.set ↔ ∀ a : Fin 2, win7_5.index t a * S5000x128.size a ≤ (i a).val ∧ (i a).val < win7_5.index t a * S5000x128.size a + S5000x128.size a := by
  show i ∈ ((View.whole main_v60).slice (win7_5.rect t)).set ↔ _
  rw [View.set_slice_whole, Rect.mem_set_unit]
  exact Iff.rfl

/-- Every row lies in the block numbered by its quotient by 5000. -/
theorem cover (i : S100000x128.Idx) : ∃ t : Fin cfg7.N, (cfg7.win 5).flush t = true ∧ i ∈ ((cfg7.win 5).blk t).view.set := by
  have hi0 : (i 0).val < 100000 := (i 0).isLt
  have hi1 : (i 1).val < 128 := (i 1).isLt
  have hN : grid7.N = 20 := N_7
  have ht : (i 0).val / 5000 < cfg7.N := by show (i 0).val / 5000 < grid7.N; rw [hN]; omega
  obtain ⟨-, -, -, -, -, -, -, -, -, -, e0, e1⟩ := idx_facts ⟨(i 0).val / 5000, ht⟩
  refine ⟨⟨(i 0).val / 5000, ht⟩, flush7_5 _, ?_⟩
  rw [mem_blk]
  intro a
  match a with
  | ⟨0, _⟩ =>
    show win7_5.index ⟨(i 0).val / 5000, ht⟩ (0 : Fin 2) * 5000 ≤ (i 0).val ∧ (i 0).val < win7_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win7_5.index ⟨(i 0).val / 5000, ht⟩ (1 : Fin 2) * 128 ≤ (i 1).val ∧ (i 1).val < win7_5.index ⟨(i 0).val / 5000, ht⟩ (1 : Fin 2) * 128 + 128
    rw [e1]; omega

/-- The region's output array after the run is the stage function of its input arrays as the region found them. -/
theorem final (c : Dev nD) : (dat7 V c).arrAt 5 cfg7.N = (normRelu (V c main_v55) (V c main_v56) (V c main_v57) (V c main_v58) (V c main_v59)) :=
  (dat7 V c).arrAt_eq_of_cover 5 _ (fun t _ => flushed_eq V c t) cover

end Cert.KernelIdeal.Bn7

end
-- ==== Proof.KHead8.lean ====
/-
  THE READ-OUT IN ONE BLOCK. The region has a single point whose windows are the whole arrays: the pooled array, the
  three weight matrices and the one-row biases and statistics. Its body is the three affine steps through the matrix
  unit with a standardisation and a cut-off after the first two.
-/
import proofs.«137501_j83021717832548_2_alg».proof.Proof.Gen.KernelIdeal.Frame
import proofs.«137501_j83021717832548_2_alg».proof.Proof.Stages
import proofs.«137501_j83021717832548_2_alg».proof.Proof.LibBlockRows
import Idealize.ShloMosaic.Lib.Pipeline.Value

set_option maxRecDepth 16384

noncomputable section

open scoped BigOperators

namespace Cert.KernelIdeal.Head8

open Cert.KernelIdeal Cert.KernelIdeal.Gen Idealize.ShloMosaic Idealize.ShloMosaic.TcCoe Idealize.SL.Sem Idealize.ShloMosaic.ValueIdx
open Idealize.ShloMosaic.Pipeline (Dat)
open Cert.LayerForms Cert.DenseStages Cert.MatOps Cert.Net

variable (V : (c : Dev nD) → (b : Ref sig .tc) → Buf (Elt Ideal) ((c : Thread nD τ).loc b))

/-- The body's three parts: the first affine step, standardised and cut off, times the second weights; the second
    bias, standardisation and cut-off, the third affine step. The body reads each group of statistics in the order
    mean, variance, scale, shift. -/
theorem pay_eq (x : Vec Ideal S1024x128 .f32) (w1 : Vec Ideal S128x128 .f32) (b1 mu2 v2 g2 be2 : Vec Ideal S1x128 .f32)
    (w2 : Vec Ideal S128x64 .f32) (b2 mu3 v3 g3 be3 : Vec Ideal S1x64 .f32) (w3 : Vec Ideal S64x2 .f32) (b3 : Vec Ideal S1x2 .f32) :
    k8_pay1 (k8_pay2 x w1 b1 mu2 v2 g2 be2 w2) (k8_pay3 b2) mu3 v3 g3 be3 w3 b3
      = head x w1 b1 g2 be2 mu2 v2 w2 b2 g3 be3 mu3 v3 w3 b3 := by
  have e1 : k8_pay2 x w1 b1 mu2 v2 g2 be2 w2 = dense (embed x w1 b1 g2 be2 mu2 v2) w2 := by
    refine Eq.trans ?_ (device_dense' dot_S1024x128_S128x64_S1024x64_1_0_0_1_n_n dot_S1024x128_S128x64_S1024x64_1_0_0_1_n_n.wf rfl
      (embed x w1 b1 g2 be2 mu2 v2) w2 bitsLt_bf16_f32)
    show k8_pay2 x w1 b1 mu2 v2 g2 be2 w2 = matmul dot_S1024x128_S128x64_S1024x64_1_0_0_1_n_n none
      (truncf .bf16 (normRelu (affine x w1 b1) g2 be2 mu2 v2) bitsLt_bf16_f32) (truncf .bf16 w2 bitsLt_bf16_f32) (constant (F := Ideal) S1024x64 .f32 0x00000000#32)
    rw [← device_normRelu (affine x w1 b1) g2 be2 mu2 v2 shapeCasts_S1x128_S1x128 broadcasts_S1x128_S1024x128,
      ← device_affine_cast dot_S1024x128_S128x128_S1024x128_1_0_0_1_n_n dot_S1024x128_S128x128_S1024x128_1_0_0_1_n_n.wf rfl x w1 b1
        bitsLt_bf16_f32 shapeCasts_S1024x128_S1024x128 shapeCasts_S1x128_S1x128 broadcasts_S1x128_S1024x128]
    rfl
  rw [e1]
  have e2 : addf (dense (embed x w1 b1 g2 be2 mu2 v2) w2) (broadcastTo S1024x64 (k8_pay3 b2) broadcasts_S1x64_S1024x64)
      = affine (embed x w1 b1 g2 be2 mu2 v2) w2 b2 := by
    funext i
    obtain ⟨p, q, rfl⟩ : ∃ (p : Fin 1024) (q : Fin 64), i = ix2 p q := ⟨i 0, i 1, eq_ix2 i⟩
    show dense (embed x w1 b1 g2 be2 mu2 v2) w2 (ix2 p q) + broadcastTo S1024x64 (shapeCast S1x64 b2 shapeCasts_S1x64_S1x64) broadcasts_S1x64_S1024x64 (ix2 p q) = _
    rw [shapeCast_self b2 shapeCasts_S1x64_S1x64, broadcastTo_1b_ab_apply b2 broadcasts_S1x64_S1024x64 p q]
    rfl
  refine Eq.trans ?_ (device_affine dot_S1024x64_S64x2_S1024x2_1_0_0_1_n_n dot_S1024x64_S64x2_S1024x2_1_0_0_1_n_n.wf rfl
    (embed (embed x w1 b1 g2 be2 mu2 v2) w2 b2 g3 be3 mu3 v3) w3 b3 bitsLt_bf16_f32 shapeCasts_S1x2_S1x2 broadcasts_S1x2_S1024x2)
  show _ = addf (matmul dot_S1024x64_S64x2_S1024x2_1_0_0_1_n_n none
      (truncf .bf16 (normRelu (affine (embed x w1 b1 g2 be2 mu2 v2) w2 b2) g3 be3 mu3 v3) bitsLt_bf16_f32) (truncf .bf16 w3 bitsLt_bf16_f32)
      (constant (F := Ideal) S1024x2 .f32 0x00000000#32)) (broadcastTo S1024x2 (shapeCast S1x2 b3 shapeCasts_S1x2_S1x2) broadcasts_S1x2_S1024x2)
  rw [← device_normRelu (affine (embed x w1 b1 g2 be2 mu2 v2) w2 b2) g3 be3 mu3 v3 shapeCasts_S1x64_S1x64 broadcasts_S1x64_S1024x64, ← e2]
  rfl

/-- Block t of the windows cut by rows starts at row 1024·t; every other window is its whole array at every point. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0
    ∧ win8_9.index t (0 : Fin 2) = 0 ∧ win8_9.index t (1 : Fin 2) = 0
    ∧ win8_10.index t (0 : Fin 2) = 0 ∧ win8_10.index t (1 : Fin 2) = 0
    ∧ win8_11.index t (0 : Fin 2) = 0 ∧ win8_11.index t (1 : Fin 2) = 0
    ∧ win8_12.index t (0 : Fin 2) = 0 ∧ win8_12.index t (1 : Fin 2) = 0
    ∧ win8_13.index t (0 : Fin 2) = 0 ∧ win8_13.index t (1 : Fin 2) = 0
    ∧ win8_14.index t (0 : Fin 2) = 0 ∧ win8_14.index t (1 : Fin 2) = 0
    ∧ win8_15.index t (0 : Fin 2) = t.val ∧ win8_15.index t (1 : Fin 2) = 0 :=
  (by decide +kernel : ∀ t : Fin grid8.N, _)

/-- Row p of block t is row 1024·t + p of the array. -/
def rowOf (t : Fin cfg8.N) (p : Fin 1024) : Fin 1024 :=
  ⟨t.val * 1024 + p.val, by have h : t.val < 1 := lt_of_lt_of_eq t.isLt N_8; have := p.isLt; omega⟩

theorem blk0_apply (c : Dev nD) (t : Fin cfg8.N) (p : Fin 1024) (j : Fin 128) :
    iblk8 V c 0 t (ix2 p j) = V c main_v72 (ix2 (rowOf t p) j) := by
  obtain ⟨e0, e1, -⟩ := idx_facts t
  show V c main_v72 (((cfg8.win 0).blk t).view.emb (ix2 p j)) = _
  refine congrArg (V c main_v72) (funext fun a => Fin.ext ?_)
  match a with
  | ⟨0, _⟩ => show win8_0.index t (0 : Fin 2) * 1024 + 1 * p.val = t.val * 1024 + p.val; rw [e0]; omega
  | ⟨1, _⟩ => show win8_0.index t (1 : Fin 2) * 128 + 1 * j.val = j.val; rw [e1]; omega

theorem blk1_eq (c : Dev nD) (t : Fin cfg8.N) : iblk8 V c 1 t = V c main_arg18 := by
  obtain ⟨-, -, e0, e1, -⟩ := idx_facts t
  funext y
  show V c main_arg18 (((cfg8.win 1).blk t).view.emb y) = V c main_arg18 y
  refine congrArg (V c main_arg18) (funext fun a => Fin.ext ?_)
  match a with
  | ⟨0, _⟩ => show win8_1.index t (0 : Fin 2) * 128 + 1 * (y 0).val = (y 0).val; rw [e0]; omega
  | ⟨1, _⟩ => show win8_1.index t (1 : Fin 2) * 128 + 1 * (y 1).val = (y 1).val; rw [e1]; omega

theorem blk2_eq (c : Dev nD) (t : Fin cfg8.N) : iblk8 V c 2 t = V c main_v73 := by
  obtain ⟨-, -, -, -, e0, e1, -⟩ := idx_facts t
  funext y
  show V c main_v73 (((cfg8.win 2).blk t).view.emb y) = V c main_v73 y
  refine congrArg (V c main_v73) (funext fun a => Fin.ext ?_)
  match a with
  | ⟨0, _⟩ => show win8_2.index t (0 : Fin 2) * 1 + 1 * (y 0).val = (y 0).val; rw [e0]; omega
  | ⟨1, _⟩ => show win8_2.index t (1 : Fin 2) * 128 + 1 * (y 1).val = (y 1).val; rw [e1]; omega

theorem blk3_eq (c : Dev nD) (t : Fin cfg8.N) : iblk8 V c 3 t = V c main_v74 := by
  obtain ⟨-, -, -, -, -, -, e0, e1, -⟩ := idx_facts t
  funext y
  show V c main_v74 (((cfg8.win 3).blk t).view.emb y) = V c main_v74 y
  refine congrArg (V c main_v74) (funext fun a => Fin.ext ?_)
  match a with
  | ⟨0, _⟩ => show win8_3.index t (0 : Fin 2) * 1 + 1 * (y 0).val = (y 0).val; rw [e0]; omega
  | ⟨1, _⟩ => show win8_3.index t (1 : Fin 2) * 128 + 1 * (y 1).val = (y 1).val; rw [e1]; omega

theorem blk4_eq (c : Dev nD) (t : Fin cfg8.N) : iblk8 V c 4 t = V c main_v75 := by
  obtain ⟨-, -, -, -, -, -, -, -, e0, e1, -⟩ := idx_facts t
  funext y
  show V c main_v75 (((cfg8.win 4).blk t).view.emb y) = V c main_v75 y
  refine congrArg (V c main_v75) (funext fun a => Fin.ext ?_)
  match a with
  | ⟨0, _⟩ => show win8_4.index t (0 : Fin 2) * 1 + 1 * (y 0).val = (y 0).val; rw [e0]; omega
  | ⟨1, _⟩ => show win8_4.index t (1 : Fin 2) * 128 + 1 * (y 1).val = (y 1).val; rw [e1]; omega

theorem blk5_eq (c : Dev nD) (t : Fin cfg8.N) : iblk8 V c 5 t = V c main_v76 := by
  obtain ⟨-, -, -, -, -, -, -, -, -, -, e0, e1, -⟩ := idx_facts t
  funext y
  show V c main_v76 (((cfg8.win 5).blk t).view.emb y) = V c main_v76 y
  refine congrArg (V c main_v76) (funext fun a => Fin.ext ?_)
  match a with
  | ⟨0, _⟩ => show win8_5.index t (0 : Fin 2) * 1 + 1 * (y 0).val = (y 0).val; rw [e0]; omega
  | ⟨1, _⟩ => show win8_5.index t (1 : Fin 2) * 128 + 1 * (y 1).val = (y 1).val; rw [e1]; omega

theorem blk6_eq (c : Dev nD) (t : Fin cfg8.N) : iblk8 V c 6 t = V c main_v77 := by
  obtain ⟨-, -, -, -, -, -, -, -, -, -, -, -, e0, e1, -⟩ := idx_facts t
  funext y
  show V c main_v77 (((cfg8.win 6).blk t).view.emb y) = V c main_v77 y
  refine congrArg (V c main_v77) (funext fun a => Fin.ext ?_)
  match a with
  | ⟨0, _⟩ => show win8_6.index t (0 : Fin 2) * 1 + 1 * (y 0).val = (y 0).val; rw [e0]; omega
  | ⟨1, _⟩ => show win8_6.index t (1 : Fin 2) * 128 + 1 * (y 1).val = (y 1).val; rw [e1]; omega

theorem blk7_eq (c : Dev nD) (t : Fin cfg8.N) : iblk8 V c 7 t = V c main_arg24 := by
  obtain ⟨-, -, -, -, -, -, -, -, -, -, -, -, -, -, e0, e1, -⟩ := idx_facts t
  funext y
  show V c main_arg24 (((cfg8.win 7).blk t).view.emb y) = V c main_arg24 y
  refine congrArg (V c main_arg24) (funext fun a => Fin.ext ?_)
  match a with
  | ⟨0, _⟩ => show win8_7.index t (0 : Fin 2) * 128 + 1 * (y 0).val = (y 0).val; rw [e0]; omega
  | ⟨1, _⟩ => show win8_7.index t (1 : Fin 2) * 64 + 1 * (y 1).val = (y 1).val; rw [e1]; omega

theorem blk8_eq (c : Dev nD) (t : Fin cfg8.N) : iblk8 V c 8 t = V c main_v78 := by
  obtain ⟨-, -, -, -, -, -, -, -, -, -, -, -, -, -, -, -, e0, e1, -⟩ := idx_facts t
  funext y
  show V c main_v78 (((cfg8.win 8).blk t).view.emb y) = V c main_v78 y
  refine congrArg (V c main_v78) (funext fun a => Fin.ext ?_)
  match a with
  | ⟨0, _⟩ => show win8_8.index t (0 : Fin 2) * 1 + 1 * (y 0).val = (y 0).val; rw [e0]; omega
  | ⟨1, _⟩ => show win8_8.index t (1 : Fin 2) * 64 + 1 * (y 1).val = (y 1).val; rw [e1]; omega

theorem blk9_eq (c : Dev nD) (t : Fin cfg8.N) : iblk8 V c 9 t = V c main_v79 := by
  obtain ⟨-, -, -, -, -, -, -, -, -, -, -, -, -, -, -, -, -, -, e0, e1, -⟩ := idx_facts t
  funext y
  show V c main_v79 (((cfg8.win 9).blk t).view.emb y) = V c main_v79 y
  refine congrArg (V c main_v79) (funext fun a => Fin.ext ?_)
  match a with
  | ⟨0, _⟩ => show win8_9.index t (0 : Fin 2) * 1 + 1 * (y 0).val = (y 0).val; rw [e0]; omega
  | ⟨1, _⟩ => show win8_9.index t (1 : Fin 2) * 64 + 1 * (y 1).val = (y 1).val; rw [e1]; omega

theorem blk10_eq (c : Dev nD) (t : Fin cfg8.N) : iblk8 V c 10 t = V c main_v80 := by
  obtain ⟨-, -, -, -, -, -, -, -, -, -, -, -, -, -, -, -, -, -, -, -, e0, e1, -⟩ := idx_facts t
  funext y
  show V c main_v80 (((cfg8.win 10).blk t).view.emb y) = V c main_v80 y
  refine congrArg (V c main_v80) (funext fun a => Fin.ext ?_)
  match a with
  | ⟨0, _⟩ => show win8_10.index t (0 : Fin 2) * 1 + 1 * (y 0).val = (y 0).val; rw [e0]; omega
  | ⟨1, _⟩ => show win8_10.index t (1 : Fin 2) * 64 + 1 * (y 1).val = (y 1).val; rw [e1]; omega

theorem blk11_eq (c : Dev nD) (t : Fin cfg8.N) : iblk8 V c 11 t = V c main_v81 := by
  obtain ⟨-, -, -, -, -, -, -, -, -, -, -, -, -, -, -, -, -, -, -, -, -, -, e0, e1, -⟩ := idx_facts t
  funext y
  show V c main_v81 (((cfg8.win 11).blk t).view.emb y) = V c main_v81 y
  refine congrArg (V c main_v81) (funext fun a => Fin.ext ?_)
  match a with
  | ⟨0, _⟩ => show win8_11.index t (0 : Fin 2) * 1 + 1 * (y 0).val = (y 0).val; rw [e0]; omega
  | ⟨1, _⟩ => show win8_11.index t (1 : Fin 2) * 64 + 1 * (y 1).val = (y 1).val; rw [e1]; omega

theorem blk12_eq (c : Dev nD) (t : Fin cfg8.N) : iblk8 V c 12 t = V c main_v82 := by
  obtain ⟨-, -, -, -, -, -, -, -, -, -, -, -, -, -, -, -, -, -, -, -, -, -, -, -, e0, e1, -⟩ := idx_facts t
  funext y
  show V c main_v82 (((cfg8.win 12).blk t).view.emb y) = V c main_v82 y
  refine congrArg (V c main_v82) (funext fun a => Fin.ext ?_)
  match a with
  | ⟨0, _⟩ => show win8_12.index t (0 : Fin 2) * 1 + 1 * (y 0).val = (y 0).val; rw [e0]; omega
  | ⟨1, _⟩ => show win8_12.index t (1 : Fin 2) * 64 + 1 * (y 1).val = (y 1).val; rw [e1]; omega

theorem blk13_eq (c : Dev nD) (t : Fin cfg8.N) : iblk8 V c 13 t = V c main_arg30 := by
  obtain ⟨-, -, -, -, -, -, -, -, -, -, -, -, -, -, -, -, -, -, -, -, -, -, -, -, -, -, e0, e1, -⟩ := idx_facts t
  funext y
  show V c main_arg30 (((cfg8.win 13).blk t).view.emb y) = V c main_arg30 y
  refine congrArg (V c main_arg30) (funext fun a => Fin.ext ?_)
  match a with
  | ⟨0, _⟩ => show win8_13.index t (0 : Fin 2) * 64 + 1 * (y 0).val = (y 0).val; rw [e0]; omega
  | ⟨1, _⟩ => show win8_13.index t (1 : Fin 2) * 2 + 1 * (y 1).val = (y 1).val; rw [e1]; omega

theorem blk14_eq (c : Dev nD) (t : Fin cfg8.N) : iblk8 V c 14 t = V c main_v83 := by
  obtain ⟨-, -, -, -, -, -, -, -, -, -, -, -, -, -, -, -, -, -, -, -, -, -, -, -, -, -, -, -, e0, e1, -⟩ := idx_facts t
  funext y
  show V c main_v83 (((cfg8.win 14).blk t).view.emb y) = V c main_v83 y
  refine congrArg (V c main_v83) (funext fun a => Fin.ext ?_)
  match a with
  | ⟨0, _⟩ => show win8_14.index t (0 : Fin 2) * 1 + 1 * (y 0).val = (y 0).val; rw [e0]; omega
  | ⟨1, _⟩ => show win8_14.index t (1 : Fin 2) * 2 + 1 * (y 1).val = (y 1).val; rw [e1]; omega

theorem emb_out (t : Fin cfg8.N) (p : Fin 1024) (q : Fin 2) :
    ((cfg8.win 15).blk t).view.emb (ix2 p q) = ix2 (rowOf t p) q := by
  obtain ⟨-, -, -, -, -, -, -, -, -, -, -, -, -, -, -, -, -, -, -, -, -, -, -, -, -, -, -, -, -, -, e0, e1⟩ := idx_facts t
  refine funext fun a => Fin.ext ?_
  match a with
  | ⟨0, _⟩ => show win8_15.index t (0 : Fin 2) * 1024 + 1 * p.val = t.val * 1024 + p.val; rw [e0]; omega
  | ⟨1, _⟩ => show win8_15.index t (1 : Fin 2) * 2 + 1 * q.val = q.val; rw [e1]; omega

/-- What point t writes back is block t of the stage applied to the whole arrays. -/
theorem flushed_eq (c : Dev nD) (t : Fin cfg8.N) :
    (dat8 V c).flushed 15 t = ((cfg8.win 15).blk t).view.read (Elt Ideal) (head (V c main_v72) (V c main_arg18) (V c main_v73) (V c main_v74) (V c main_v75) (V c main_v76) (V c main_v77) (V c main_arg24) (V c main_v78) (V c main_v79) (V c main_v80) (V c main_v81) (V c main_v82) (V c main_arg30) (V c main_v83)) := by
  show (cfg8.win 15).cut (grid8.coords t) ((dat8 V c).after 15 t) = _
  rw [after8_15]
  unfold out8_15
  rw [View.canon_unit_zero hz2]
  simp only [View.ld_unit_zero (S := S1024x128) hz2, View.ld_unit_zero (S := S128x128) hz2, View.ld_unit_zero (S := S1x128) hz2, View.ld_unit_zero (S := S128x64) hz2, View.ld_unit_zero (S := S1x64) hz2, View.ld_unit_zero (S := S64x2) hz2, View.ld_unit_zero (S := S1x2) hz2]
  rw [pay_eq, blk1_eq V c t, blk2_eq V c t, blk3_eq V c t, blk4_eq V c t, blk5_eq V c t, blk6_eq V c t, blk7_eq V c t, blk8_eq V c t, blk9_eq V c t, blk10_eq V c t, blk11_eq V c t, blk12_eq V c t, blk13_eq V c t, blk14_eq V c t]
  funext y
  obtain ⟨p, q, rfl⟩ : ∃ (p : Fin 1024) (q : Fin 2), y = ix2 p q := ⟨y 0, y 1, eq_ix2 y⟩
  show (head (iblk8 V c 0 t) (V c main_arg18) (V c main_v73) (V c main_v74) (V c main_v75) (V c main_v76) (V c main_v77) (V c main_arg24) (V c main_v78) (V c main_v79) (V c main_v80) (V c main_v81) (V c main_v82) (V c main_arg30) (V c main_v83)) (ix2 p q) = (head (V c main_v72) (V c main_arg18) (V c main_v73) (V c main_v74) (V c main_v75) (V c main_v76) (V c main_v77) (V c main_arg24) (V c main_v78) (V c main_v79) (V c main_v80) (V c main_v81) (V c main_v82) (V c main_arg30) (V c main_v83)) (((cfg8.win 15).blk t).view.emb (ix2 p q))
  rw [emb_out t p q]
  have hr : rowOf t p = p := Fin.ext (by show t.val * 1024 + p.val = p.val; have h : t.val < 1 := lt_of_lt_of_eq t.isLt N_8; omega)
  have h0 : iblk8 V c 0 t = V c main_v72 := funext fun y => by
    obtain ⟨p', k, rfl⟩ : ∃ (p' : Fin 1024) (k : Fin 128), y = ix2 p' k := ⟨y 0, y 1, eq_ix2 y⟩
    rw [blk0_apply V c t p' k]
    exact congrArg (V c main_v72) (congrArg (fun r => ix2 r k) (Fin.ext (by show t.val * 1024 + p'.val = p'.val; have h : t.val < 1 := lt_of_lt_of_eq t.isLt N_8; omega)))
  rw [h0, hr]

theorem mem_blk (t : Fin cfg8.N) (i : S1024x2.Idx) :
    i ∈ ((cfg8.win 15).blk t).view.set ↔ ∀ a : Fin 2, win8_15.index t a * S1024x2.size a ≤ (i a).val ∧ (i a).val < win8_15.index t a * S1024x2.size a + S1024x2.size a := by
  show i ∈ ((View.whole main_v84).slice (win8_15.rect t)).set ↔ _
  rw [View.set_slice_whole, Rect.mem_set_unit]
  exact Iff.rfl

/-- Every row lies in the block numbered by its quotient by 1024. -/
theorem cover (i : S1024x2.Idx) : ∃ t : Fin cfg8.N, (cfg8.win 15).flush t = true ∧ i ∈ ((cfg8.win 15).blk t).view.set := by
  have hi0 : (i 0).val < 1024 := (i 0).isLt
  have hi1 : (i 1).val < 2 := (i 1).isLt
  have hN : grid8.N = 1 := N_8
  have ht : (i 0).val / 1024 < cfg8.N := by show (i 0).val / 1024 < grid8.N; rw [hN]; omega
  obtain ⟨-, -, -, -, -, -, -, -, -, -, -, -, -, -, -, -, -, -, -, -, -, -, -, -, -, -, -, -, -, -, e0, e1⟩ := idx_facts ⟨(i 0).val / 1024, ht⟩
  refine ⟨⟨(i 0).val / 1024, ht⟩, flush8_15 _, ?_⟩
  rw [mem_blk]
  intro a
  match a with
  | ⟨0, _⟩ =>
    show win8_15.index ⟨(i 0).val / 1024, ht⟩ (0 : Fin 2) * 1024 ≤ (i 0).val ∧ (i 0).val < win8_15.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win8_15.index ⟨(i 0).val / 1024, ht⟩ (1 : Fin 2) * 2 ≤ (i 1).val ∧ (i 1).val < win8_15.index ⟨(i 0).val / 1024, ht⟩ (1 : Fin 2) * 2 + 2
    rw [e1]; omega

/-- The region's output array after the run is the stage function of its input arrays as the region found them. -/
theorem final (c : Dev nD) : (dat8 V c).arrAt 15 cfg8.N = (head (V c main_v72) (V c main_arg18) (V c main_v73) (V c main_v74) (V c main_v75) (V c main_v76) (V c main_v77) (V c main_arg24) (V c main_v78) (V c main_v79) (V c main_v80) (V c main_v81) (V c main_v82) (V c main_arg30) (V c main_v83)) :=
  (dat8 V c).arrAt_eq_of_cover 15 _ (fun t _ => flushed_eq V c t) cover

end Cert.KernelIdeal.Head8

end
-- ==== Proof.KFlow.lean ====
/-
  THE BUFFERS THE REGIONS READ, BOUNDARY BY BOUNDARY. At each boundary between a host stretch and a region, every
  buffer a later region reads holds a named function of the launch contents of the arguments: a host stretch
  rewrites the buffers its operations write (read off the fold of the stretch) and keeps the others; a region keeps
  every buffer but its output array, which ends at the stage function of its input arrays (the region modules).
  The last equation is the result array: the network function of the thirty-two arguments.
-/
import proofs.«137501_j83021717832548_2_alg».proof.Proof.KFlowArgsA
import proofs.«137501_j83021717832548_2_alg».proof.Proof.KFlowArgsB
import proofs.«137501_j83021717832548_2_alg».proof.Proof.KFlowArgsC
import proofs.«137501_j83021717832548_2_alg».proof.Proof.KFlowArgsD
import proofs.«137501_j83021717832548_2_alg».proof.Proof.KVals
import proofs.«137501_j83021717832548_2_alg».proof.Proof.KEmb0
import proofs.«137501_j83021717832548_2_alg».proof.Proof.KMsg1
import proofs.«137501_j83021717832548_2_alg».proof.Proof.KGru2
import proofs.«137501_j83021717832548_2_alg».proof.Proof.KMsg3
import proofs.«137501_j83021717832548_2_alg».proof.Proof.KGru4
import proofs.«137501_j83021717832548_2_alg».proof.Proof.KMsg5
import proofs.«137501_j83021717832548_2_alg».proof.Proof.KGru6
import proofs.«137501_j83021717832548_2_alg».proof.Proof.KBn7
import proofs.«137501_j83021717832548_2_alg».proof.Proof.KHead8

set_option maxRecDepth 16384

noncomputable section

namespace Cert.KernelIdeal.Flow

open Cert.KernelIdeal Cert.KernelIdeal.Gen
open Idealize.ShloMosaic Idealize.ShloMosaic.TcCoe Idealize.ShloMosaic.StableHlo Idealize.SL.Sem
open Idealize.ShloMosaic.Pipeline (Dat)
open Cert.KernelIdeal.Facts₀ Cert.KernelIdeal.Facts
open Idealize.ShloMosaic.ValueIdx Cert.LayerForms Cert.DenseStages Cert.MatOps Cert.Net

variable (m : (ℓ : Loc nD τ sig) → Buf (Elt Ideal) ℓ) (ρ : Dev nD → PrngReg)

theorem W1_main_v0 (c : Dev nD) : W1 m ρ c (Proc.devRef .tc main_v0) = (row128 (m ((c : Thread nD τ).loc main_arg4))) := by
  show StableHlo.after hostOps0 (W0 m ρ c) (Proc.devRef .tc main_v0) = _
  after_results
  rw [W0_main_arg4 m ρ c]
  rfl

theorem W1_main_v1 (c : Dev nD) : W1 m ρ c (Proc.devRef .tc main_v1) = (row128 (m ((c : Thread nD τ).loc main_arg5))) := by
  show StableHlo.after hostOps0 (W0 m ρ c) (Proc.devRef .tc main_v1) = _
  after_results
  rw [W0_main_arg5 m ρ c]
  rfl

theorem W1_main_v2 (c : Dev nD) : W1 m ρ c (Proc.devRef .tc main_v2) = (row128 (m ((c : Thread nD τ).loc main_arg6))) := by
  show StableHlo.after hostOps0 (W0 m ρ c) (Proc.devRef .tc main_v2) = _
  after_results
  rw [W0_main_arg6 m ρ c]
  rfl

theorem W1_main_v3 (c : Dev nD) : W1 m ρ c (Proc.devRef .tc main_v3) = (row128 (m ((c : Thread nD τ).loc main_arg7))) := by
  show StableHlo.after hostOps0 (W0 m ρ c) (Proc.devRef .tc main_v3) = _
  after_results
  rw [W0_main_arg7 m ρ c]
  rfl

theorem W1_main_v4 (c : Dev nD) : W1 m ρ c (Proc.devRef .tc main_v4) = (row128 (m ((c : Thread nD τ).loc main_arg8))) := by
  show StableHlo.after hostOps0 (W0 m ρ c) (Proc.devRef .tc main_v4) = _
  after_results
  rw [W0_main_arg8 m ρ c]
  rfl

theorem W2_main_v5 (c : Dev nD) : W2 m ρ c (Proc.devRef .tc main_v5) = (h0 m c) := by
  refine (W2_arr m ρ c 7).trans ((Emb0.final (V1 m ρ) c).trans ?_)
  show embed (W1 m ρ c (Proc.devRef .tc main_arg0)) (W1 m ρ c (Proc.devRef .tc main_arg3)) (W1 m ρ c (Proc.devRef .tc main_v0)) (W1 m ρ c (Proc.devRef .tc main_v1)) (W1 m ρ c (Proc.devRef .tc main_v2)) (W1 m ρ c (Proc.devRef .tc main_v3)) (W1 m ρ c (Proc.devRef .tc main_v4)) = _
  rw [W1_main_arg0 m ρ c, W1_main_arg3 m ρ c, W1_main_v0 m ρ c, W1_main_v1 m ρ c, W1_main_v2 m ρ c, W1_main_v3 m ρ c, W1_main_v4 m ρ c]
  rfl

theorem W3_main_v5 (c : Dev nD) : W3 m ρ c (Proc.devRef .tc main_v5) = (h0 m c) :=
  (show StableHlo.after hostOps1 (W2 m ρ c) (Proc.devRef .tc main_v5) = W2 m ρ c (Proc.devRef .tc main_v5) by after_results).trans (W2_main_v5 m ρ c)

theorem W3_main_v15 (c : Dev nD) : W3 m ρ c (Proc.devRef .tc main_v15) = (ggc0 (m ((c : Thread nD τ).loc main_arg9))) := by
  show StableHlo.after hostOps1 (W2 m ρ c) (Proc.devRef .tc main_v15) = _
  after_results
  rw [W2_main_arg9 m ρ c]
  rfl

theorem W4_main_v16 (c : Dev nD) : W4 m ρ c (Proc.devRef .tc main_v16) = (dense (h0 m c) (ggc0 (m ((c : Thread nD τ).loc main_arg9)))) := by
  refine (W4_arr m ρ c 2).trans ((Msg1.final (V3 m ρ) c).trans ?_)
  show dense (W3 m ρ c (Proc.devRef .tc main_v5)) (W3 m ρ c (Proc.devRef .tc main_v15)) = _
  rw [W3_main_v5 m ρ c, W3_main_v15 m ρ c]

theorem W3_main_v7 (c : Dev nD) : W3 m ρ c (Proc.devRef .tc main_v7) = (edgeSrc (m ((c : Thread nD τ).loc main_arg1))) := by
  show StableHlo.after hostOps1 (W2 m ρ c) (Proc.devRef .tc main_v7) = _
  after_results
  rw [W2_main_arg1 m ρ c]
  rfl

theorem W4_main_v7 (c : Dev nD) : W4 m ρ c (Proc.devRef .tc main_v7) = (edgeSrc (m ((c : Thread nD τ).loc main_arg1))) :=
  (W4_of_ne m ρ c main_v7 (by decide)).trans (W3_main_v7 m ρ c)

theorem W3_main_v9 (c : Dev nD) : W3 m ρ c (Proc.devRef .tc main_v9) = (edgeDst (m ((c : Thread nD τ).loc main_arg1))) := by
  show StableHlo.after hostOps1 (W2 m ρ c) (Proc.devRef .tc main_v9) = _
  after_results
  rw [W2_main_arg1 m ρ c]
  rfl

theorem W4_main_v9 (c : Dev nD) : W4 m ρ c (Proc.devRef .tc main_v9) = (edgeDst (m ((c : Thread nD τ).loc main_arg1))) :=
  (W4_of_ne m ρ c main_v9 (by decide)).trans (W3_main_v9 m ρ c)

set_option maxHeartbeats 8000000 in
theorem W5_main_v26 (c : Dev nD) : W5 m ρ c (Proc.devRef .tc main_v26) = (collect (dense (h0 m c) (ggc0 (m ((c : Thread nD τ).loc main_arg9)))) (m ((c : Thread nD τ).loc main_arg1))) := by
  show StableHlo.after hostOps2 (W4 m ρ c) (Proc.devRef .tc main_v26) = _
  after_results
  rw [W4_main_v16 m ρ c, W4_main_v7 m ρ c, W4_main_v9 m ρ c]
  rfl

theorem W4_main_v5 (c : Dev nD) : W4 m ρ c (Proc.devRef .tc main_v5) = (h0 m c) :=
  (W4_arr m ρ c 0).trans (((dat1 (V3 m ρ) c).arrAt_in 0 rfl _).trans ((A_eq1 (V3 m ρ) c 0).trans (W3_main_v5 m ρ c)))

theorem W5_main_v5 (c : Dev nD) : W5 m ρ c (Proc.devRef .tc main_v5) = (h0 m c) :=
  (show StableHlo.after hostOps2 (W4 m ρ c) (Proc.devRef .tc main_v5) = W4 m ρ c (Proc.devRef .tc main_v5) by after_results).trans (W4_main_v5 m ρ c)

theorem W3_main_v10 (c : Dev nD) : W3 m ρ c (Proc.devRef .tc main_v10) = (wT (m ((c : Thread nD τ).loc main_arg10))) := by
  show StableHlo.after hostOps1 (W2 m ρ c) (Proc.devRef .tc main_v10) = _
  after_results
  rw [W2_main_arg10 m ρ c]
  rfl

theorem W4_main_v10 (c : Dev nD) : W4 m ρ c (Proc.devRef .tc main_v10) = (wT (m ((c : Thread nD τ).loc main_arg10))) :=
  (W4_of_ne m ρ c main_v10 (by decide)).trans (W3_main_v10 m ρ c)

theorem W5_main_v10 (c : Dev nD) : W5 m ρ c (Proc.devRef .tc main_v10) = (wT (m ((c : Thread nD τ).loc main_arg10))) :=
  (show StableHlo.after hostOps2 (W4 m ρ c) (Proc.devRef .tc main_v10) = W4 m ρ c (Proc.devRef .tc main_v10) by after_results).trans (W4_main_v10 m ρ c)

theorem W3_main_v11 (c : Dev nD) : W3 m ρ c (Proc.devRef .tc main_v11) = (wT (m ((c : Thread nD τ).loc main_arg11))) := by
  show StableHlo.after hostOps1 (W2 m ρ c) (Proc.devRef .tc main_v11) = _
  after_results
  rw [W2_main_arg11 m ρ c]
  rfl

theorem W4_main_v11 (c : Dev nD) : W4 m ρ c (Proc.devRef .tc main_v11) = (wT (m ((c : Thread nD τ).loc main_arg11))) :=
  (W4_of_ne m ρ c main_v11 (by decide)).trans (W3_main_v11 m ρ c)

theorem W5_main_v11 (c : Dev nD) : W5 m ρ c (Proc.devRef .tc main_v11) = (wT (m ((c : Thread nD τ).loc main_arg11))) :=
  (show StableHlo.after hostOps2 (W4 m ρ c) (Proc.devRef .tc main_v11) = W4 m ρ c (Proc.devRef .tc main_v11) by after_results).trans (W4_main_v11 m ρ c)

theorem W3_main_v12 (c : Dev nD) : W3 m ρ c (Proc.devRef .tc main_v12) = (row384 (m ((c : Thread nD τ).loc main_arg12))) := by
  show StableHlo.after hostOps1 (W2 m ρ c) (Proc.devRef .tc main_v12) = _
  after_results
  rw [W2_main_arg12 m ρ c]
  rfl

theorem W4_main_v12 (c : Dev nD) : W4 m ρ c (Proc.devRef .tc main_v12) = (row384 (m ((c : Thread nD τ).loc main_arg12))) :=
  (W4_of_ne m ρ c main_v12 (by decide)).trans (W3_main_v12 m ρ c)

theorem W5_main_v12 (c : Dev nD) : W5 m ρ c (Proc.devRef .tc main_v12) = (row384 (m ((c : Thread nD τ).loc main_arg12))) :=
  (show StableHlo.after hostOps2 (W4 m ρ c) (Proc.devRef .tc main_v12) = W4 m ρ c (Proc.devRef .tc main_v12) by after_results).trans (W4_main_v12 m ρ c)

theorem W3_main_v13 (c : Dev nD) : W3 m ρ c (Proc.devRef .tc main_v13) = (row384 (m ((c : Thread nD τ).loc main_arg13))) := by
  show StableHlo.after hostOps1 (W2 m ρ c) (Proc.devRef .tc main_v13) = _
  after_results
  rw [W2_main_arg13 m ρ c]
  rfl

theorem W4_main_v13 (c : Dev nD) : W4 m ρ c (Proc.devRef .tc main_v13) = (row384 (m ((c : Thread nD τ).loc main_arg13))) :=
  (W4_of_ne m ρ c main_v13 (by decide)).trans (W3_main_v13 m ρ c)

theorem W5_main_v13 (c : Dev nD) : W5 m ρ c (Proc.devRef .tc main_v13) = (row384 (m ((c : Thread nD τ).loc main_arg13))) :=
  (show StableHlo.after hostOps2 (W4 m ρ c) (Proc.devRef .tc main_v13) = W4 m ρ c (Proc.devRef .tc main_v13) by after_results).trans (W4_main_v13 m ρ c)

theorem W6_main_v27 (c : Dev nD) : W6 m ρ c (Proc.devRef .tc main_v27) = (h1 m c) := by
  refine (W6_arr m ρ c 6).trans ((Gru2.final (V5 m ρ) c).trans ?_)
  show gru (W5 m ρ c (Proc.devRef .tc main_v26)) (W5 m ρ c (Proc.devRef .tc main_v5)) (W5 m ρ c (Proc.devRef .tc main_v10)) (W5 m ρ c (Proc.devRef .tc main_v11)) (W5 m ρ c (Proc.devRef .tc main_v12)) (W5 m ρ c (Proc.devRef .tc main_v13)) = _
  rw [W5_main_v26 m ρ c, W5_main_v5 m ρ c, W5_main_v10 m ρ c, W5_main_v11 m ρ c, W5_main_v12 m ρ c, W5_main_v13 m ρ c]
  rfl

theorem W7_main_v27 (c : Dev nD) : W7 m ρ c (Proc.devRef .tc main_v27) = (h1 m c) :=
  (show StableHlo.after hostOps3 (W6 m ρ c) (Proc.devRef .tc main_v27) = W6 m ρ c (Proc.devRef .tc main_v27) by after_results).trans (W6_main_v27 m ρ c)

theorem W7_main_v29 (c : Dev nD) : W7 m ρ c (Proc.devRef .tc main_v29) = (ggc1 (m ((c : Thread nD τ).loc main_arg9))) := by
  show StableHlo.after hostOps3 (W6 m ρ c) (Proc.devRef .tc main_v29) = _
  after_results
  rw [W6_main_arg9 m ρ c]
  rfl

theorem W8_main_v30 (c : Dev nD) : W8 m ρ c (Proc.devRef .tc main_v30) = (dense (h1 m c) (ggc1 (m ((c : Thread nD τ).loc main_arg9)))) := by
  refine (W8_arr m ρ c 2).trans ((Msg3.final (V7 m ρ) c).trans ?_)
  show dense (W7 m ρ c (Proc.devRef .tc main_v27)) (W7 m ρ c (Proc.devRef .tc main_v29)) = _
  rw [W7_main_v27 m ρ c, W7_main_v29 m ρ c]

theorem W5_main_v7 (c : Dev nD) : W5 m ρ c (Proc.devRef .tc main_v7) = (edgeSrc (m ((c : Thread nD τ).loc main_arg1))) :=
  (show StableHlo.after hostOps2 (W4 m ρ c) (Proc.devRef .tc main_v7) = W4 m ρ c (Proc.devRef .tc main_v7) by after_results).trans (W4_main_v7 m ρ c)

theorem W6_main_v7 (c : Dev nD) : W6 m ρ c (Proc.devRef .tc main_v7) = (edgeSrc (m ((c : Thread nD τ).loc main_arg1))) :=
  (W6_of_ne m ρ c main_v7 (by decide)).trans (W5_main_v7 m ρ c)

theorem W7_main_v7 (c : Dev nD) : W7 m ρ c (Proc.devRef .tc main_v7) = (edgeSrc (m ((c : Thread nD τ).loc main_arg1))) :=
  (show StableHlo.after hostOps3 (W6 m ρ c) (Proc.devRef .tc main_v7) = W6 m ρ c (Proc.devRef .tc main_v7) by after_results).trans (W6_main_v7 m ρ c)

theorem W8_main_v7 (c : Dev nD) : W8 m ρ c (Proc.devRef .tc main_v7) = (edgeSrc (m ((c : Thread nD τ).loc main_arg1))) :=
  (W8_of_ne m ρ c main_v7 (by decide)).trans (W7_main_v7 m ρ c)

theorem W5_main_v9 (c : Dev nD) : W5 m ρ c (Proc.devRef .tc main_v9) = (edgeDst (m ((c : Thread nD τ).loc main_arg1))) :=
  (show StableHlo.after hostOps2 (W4 m ρ c) (Proc.devRef .tc main_v9) = W4 m ρ c (Proc.devRef .tc main_v9) by after_results).trans (W4_main_v9 m ρ c)

theorem W6_main_v9 (c : Dev nD) : W6 m ρ c (Proc.devRef .tc main_v9) = (edgeDst (m ((c : Thread nD τ).loc main_arg1))) :=
  (W6_of_ne m ρ c main_v9 (by decide)).trans (W5_main_v9 m ρ c)

theorem W7_main_v9 (c : Dev nD) : W7 m ρ c (Proc.devRef .tc main_v9) = (edgeDst (m ((c : Thread nD τ).loc main_arg1))) :=
  (show StableHlo.after hostOps3 (W6 m ρ c) (Proc.devRef .tc main_v9) = W6 m ρ c (Proc.devRef .tc main_v9) by after_results).trans (W6_main_v9 m ρ c)

theorem W8_main_v9 (c : Dev nD) : W8 m ρ c (Proc.devRef .tc main_v9) = (edgeDst (m ((c : Thread nD τ).loc main_arg1))) :=
  (W8_of_ne m ρ c main_v9 (by decide)).trans (W7_main_v9 m ρ c)

set_option maxHeartbeats 8000000 in
theorem W9_main_v40 (c : Dev nD) : W9 m ρ c (Proc.devRef .tc main_v40) = (collect (dense (h1 m c) (ggc1 (m ((c : Thread nD τ).loc main_arg9)))) (m ((c : Thread nD τ).loc main_arg1))) := by
  show StableHlo.after hostOps4 (W8 m ρ c) (Proc.devRef .tc main_v40) = _
  after_results
  rw [W8_main_v30 m ρ c, W8_main_v7 m ρ c, W8_main_v9 m ρ c]
  rfl

theorem W8_main_v27 (c : Dev nD) : W8 m ρ c (Proc.devRef .tc main_v27) = (h1 m c) :=
  (W8_arr m ρ c 0).trans (((dat3 (V7 m ρ) c).arrAt_in 0 rfl _).trans ((A_eq3 (V7 m ρ) c 0).trans (W7_main_v27 m ρ c)))

theorem W9_main_v27 (c : Dev nD) : W9 m ρ c (Proc.devRef .tc main_v27) = (h1 m c) :=
  (show StableHlo.after hostOps4 (W8 m ρ c) (Proc.devRef .tc main_v27) = W8 m ρ c (Proc.devRef .tc main_v27) by after_results).trans (W8_main_v27 m ρ c)

theorem W6_main_v10 (c : Dev nD) : W6 m ρ c (Proc.devRef .tc main_v10) = (wT (m ((c : Thread nD τ).loc main_arg10))) :=
  (W6_arr m ρ c 2).trans (((dat2 (V5 m ρ) c).arrAt_in 2 rfl _).trans ((A_eq2 (V5 m ρ) c 2).trans (W5_main_v10 m ρ c)))

theorem W7_main_v10 (c : Dev nD) : W7 m ρ c (Proc.devRef .tc main_v10) = (wT (m ((c : Thread nD τ).loc main_arg10))) :=
  (show StableHlo.after hostOps3 (W6 m ρ c) (Proc.devRef .tc main_v10) = W6 m ρ c (Proc.devRef .tc main_v10) by after_results).trans (W6_main_v10 m ρ c)

theorem W8_main_v10 (c : Dev nD) : W8 m ρ c (Proc.devRef .tc main_v10) = (wT (m ((c : Thread nD τ).loc main_arg10))) :=
  (W8_of_ne m ρ c main_v10 (by decide)).trans (W7_main_v10 m ρ c)

theorem W9_main_v10 (c : Dev nD) : W9 m ρ c (Proc.devRef .tc main_v10) = (wT (m ((c : Thread nD τ).loc main_arg10))) :=
  (show StableHlo.after hostOps4 (W8 m ρ c) (Proc.devRef .tc main_v10) = W8 m ρ c (Proc.devRef .tc main_v10) by after_results).trans (W8_main_v10 m ρ c)

theorem W6_main_v11 (c : Dev nD) : W6 m ρ c (Proc.devRef .tc main_v11) = (wT (m ((c : Thread nD τ).loc main_arg11))) :=
  (W6_arr m ρ c 3).trans (((dat2 (V5 m ρ) c).arrAt_in 3 rfl _).trans ((A_eq2 (V5 m ρ) c 3).trans (W5_main_v11 m ρ c)))

theorem W7_main_v11 (c : Dev nD) : W7 m ρ c (Proc.devRef .tc main_v11) = (wT (m ((c : Thread nD τ).loc main_arg11))) :=
  (show StableHlo.after hostOps3 (W6 m ρ c) (Proc.devRef .tc main_v11) = W6 m ρ c (Proc.devRef .tc main_v11) by after_results).trans (W6_main_v11 m ρ c)

theorem W8_main_v11 (c : Dev nD) : W8 m ρ c (Proc.devRef .tc main_v11) = (wT (m ((c : Thread nD τ).loc main_arg11))) :=
  (W8_of_ne m ρ c main_v11 (by decide)).trans (W7_main_v11 m ρ c)

theorem W9_main_v11 (c : Dev nD) : W9 m ρ c (Proc.devRef .tc main_v11) = (wT (m ((c : Thread nD τ).loc main_arg11))) :=
  (show StableHlo.after hostOps4 (W8 m ρ c) (Proc.devRef .tc main_v11) = W8 m ρ c (Proc.devRef .tc main_v11) by after_results).trans (W8_main_v11 m ρ c)

theorem W6_main_v12 (c : Dev nD) : W6 m ρ c (Proc.devRef .tc main_v12) = (row384 (m ((c : Thread nD τ).loc main_arg12))) :=
  (W6_arr m ρ c 4).trans (((dat2 (V5 m ρ) c).arrAt_in 4 rfl _).trans ((A_eq2 (V5 m ρ) c 4).trans (W5_main_v12 m ρ c)))

theorem W7_main_v12 (c : Dev nD) : W7 m ρ c (Proc.devRef .tc main_v12) = (row384 (m ((c : Thread nD τ).loc main_arg12))) :=
  (show StableHlo.after hostOps3 (W6 m ρ c) (Proc.devRef .tc main_v12) = W6 m ρ c (Proc.devRef .tc main_v12) by after_results).trans (W6_main_v12 m ρ c)

theorem W8_main_v12 (c : Dev nD) : W8 m ρ c (Proc.devRef .tc main_v12) = (row384 (m ((c : Thread nD τ).loc main_arg12))) :=
  (W8_of_ne m ρ c main_v12 (by decide)).trans (W7_main_v12 m ρ c)

theorem W9_main_v12 (c : Dev nD) : W9 m ρ c (Proc.devRef .tc main_v12) = (row384 (m ((c : Thread nD τ).loc main_arg12))) :=
  (show StableHlo.after hostOps4 (W8 m ρ c) (Proc.devRef .tc main_v12) = W8 m ρ c (Proc.devRef .tc main_v12) by after_results).trans (W8_main_v12 m ρ c)

theorem W6_main_v13 (c : Dev nD) : W6 m ρ c (Proc.devRef .tc main_v13) = (row384 (m ((c : Thread nD τ).loc main_arg13))) :=
  (W6_arr m ρ c 5).trans (((dat2 (V5 m ρ) c).arrAt_in 5 rfl _).trans ((A_eq2 (V5 m ρ) c 5).trans (W5_main_v13 m ρ c)))

theorem W7_main_v13 (c : Dev nD) : W7 m ρ c (Proc.devRef .tc main_v13) = (row384 (m ((c : Thread nD τ).loc main_arg13))) :=
  (show StableHlo.after hostOps3 (W6 m ρ c) (Proc.devRef .tc main_v13) = W6 m ρ c (Proc.devRef .tc main_v13) by after_results).trans (W6_main_v13 m ρ c)

theorem W8_main_v13 (c : Dev nD) : W8 m ρ c (Proc.devRef .tc main_v13) = (row384 (m ((c : Thread nD τ).loc main_arg13))) :=
  (W8_of_ne m ρ c main_v13 (by decide)).trans (W7_main_v13 m ρ c)

theorem W9_main_v13 (c : Dev nD) : W9 m ρ c (Proc.devRef .tc main_v13) = (row384 (m ((c : Thread nD τ).loc main_arg13))) :=
  (show StableHlo.after hostOps4 (W8 m ρ c) (Proc.devRef .tc main_v13) = W8 m ρ c (Proc.devRef .tc main_v13) by after_results).trans (W8_main_v13 m ρ c)

theorem W10_main_v41 (c : Dev nD) : W10 m ρ c (Proc.devRef .tc main_v41) = (h2 m c) := by
  refine (W10_arr m ρ c 6).trans ((Gru4.final (V9 m ρ) c).trans ?_)
  show gru (W9 m ρ c (Proc.devRef .tc main_v40)) (W9 m ρ c (Proc.devRef .tc main_v27)) (W9 m ρ c (Proc.devRef .tc main_v10)) (W9 m ρ c (Proc.devRef .tc main_v11)) (W9 m ρ c (Proc.devRef .tc main_v12)) (W9 m ρ c (Proc.devRef .tc main_v13)) = _
  rw [W9_main_v40 m ρ c, W9_main_v27 m ρ c, W9_main_v10 m ρ c, W9_main_v11 m ρ c, W9_main_v12 m ρ c, W9_main_v13 m ρ c]
  rfl

theorem W11_main_v41 (c : Dev nD) : W11 m ρ c (Proc.devRef .tc main_v41) = (h2 m c) :=
  (show StableHlo.after hostOps5 (W10 m ρ c) (Proc.devRef .tc main_v41) = W10 m ρ c (Proc.devRef .tc main_v41) by after_results).trans (W10_main_v41 m ρ c)

theorem W11_main_v43 (c : Dev nD) : W11 m ρ c (Proc.devRef .tc main_v43) = (ggc2 (m ((c : Thread nD τ).loc main_arg9))) := by
  show StableHlo.after hostOps5 (W10 m ρ c) (Proc.devRef .tc main_v43) = _
  after_results
  rw [W10_main_arg9 m ρ c]
  rfl

theorem W12_main_v44 (c : Dev nD) : W12 m ρ c (Proc.devRef .tc main_v44) = (dense (h2 m c) (ggc2 (m ((c : Thread nD τ).loc main_arg9)))) := by
  refine (W12_arr m ρ c 2).trans ((Msg5.final (V11 m ρ) c).trans ?_)
  show dense (W11 m ρ c (Proc.devRef .tc main_v41)) (W11 m ρ c (Proc.devRef .tc main_v43)) = _
  rw [W11_main_v41 m ρ c, W11_main_v43 m ρ c]

theorem W9_main_v7 (c : Dev nD) : W9 m ρ c (Proc.devRef .tc main_v7) = (edgeSrc (m ((c : Thread nD τ).loc main_arg1))) :=
  (show StableHlo.after hostOps4 (W8 m ρ c) (Proc.devRef .tc main_v7) = W8 m ρ c (Proc.devRef .tc main_v7) by after_results).trans (W8_main_v7 m ρ c)

theorem W10_main_v7 (c : Dev nD) : W10 m ρ c (Proc.devRef .tc main_v7) = (edgeSrc (m ((c : Thread nD τ).loc main_arg1))) :=
  (W10_of_ne m ρ c main_v7 (by decide)).trans (W9_main_v7 m ρ c)

theorem W11_main_v7 (c : Dev nD) : W11 m ρ c (Proc.devRef .tc main_v7) = (edgeSrc (m ((c : Thread nD τ).loc main_arg1))) :=
  (show StableHlo.after hostOps5 (W10 m ρ c) (Proc.devRef .tc main_v7) = W10 m ρ c (Proc.devRef .tc main_v7) by after_results).trans (W10_main_v7 m ρ c)

theorem W12_main_v7 (c : Dev nD) : W12 m ρ c (Proc.devRef .tc main_v7) = (edgeSrc (m ((c : Thread nD τ).loc main_arg1))) :=
  (W12_of_ne m ρ c main_v7 (by decide)).trans (W11_main_v7 m ρ c)

theorem W9_main_v9 (c : Dev nD) : W9 m ρ c (Proc.devRef .tc main_v9) = (edgeDst (m ((c : Thread nD τ).loc main_arg1))) :=
  (show StableHlo.after hostOps4 (W8 m ρ c) (Proc.devRef .tc main_v9) = W8 m ρ c (Proc.devRef .tc main_v9) by after_results).trans (W8_main_v9 m ρ c)

theorem W10_main_v9 (c : Dev nD) : W10 m ρ c (Proc.devRef .tc main_v9) = (edgeDst (m ((c : Thread nD τ).loc main_arg1))) :=
  (W10_of_ne m ρ c main_v9 (by decide)).trans (W9_main_v9 m ρ c)

theorem W11_main_v9 (c : Dev nD) : W11 m ρ c (Proc.devRef .tc main_v9) = (edgeDst (m ((c : Thread nD τ).loc main_arg1))) :=
  (show StableHlo.after hostOps5 (W10 m ρ c) (Proc.devRef .tc main_v9) = W10 m ρ c (Proc.devRef .tc main_v9) by after_results).trans (W10_main_v9 m ρ c)

theorem W12_main_v9 (c : Dev nD) : W12 m ρ c (Proc.devRef .tc main_v9) = (edgeDst (m ((c : Thread nD τ).loc main_arg1))) :=
  (W12_of_ne m ρ c main_v9 (by decide)).trans (W11_main_v9 m ρ c)

set_option maxHeartbeats 8000000 in
theorem W13_main_v54 (c : Dev nD) : W13 m ρ c (Proc.devRef .tc main_v54) = (collect (dense (h2 m c) (ggc2 (m ((c : Thread nD τ).loc main_arg9)))) (m ((c : Thread nD τ).loc main_arg1))) := by
  show StableHlo.after hostOps6 (W12 m ρ c) (Proc.devRef .tc main_v54) = _
  after_results
  rw [W12_main_v44 m ρ c, W12_main_v7 m ρ c, W12_main_v9 m ρ c]
  rfl

theorem W12_main_v41 (c : Dev nD) : W12 m ρ c (Proc.devRef .tc main_v41) = (h2 m c) :=
  (W12_arr m ρ c 0).trans (((dat5 (V11 m ρ) c).arrAt_in 0 rfl _).trans ((A_eq5 (V11 m ρ) c 0).trans (W11_main_v41 m ρ c)))

theorem W13_main_v41 (c : Dev nD) : W13 m ρ c (Proc.devRef .tc main_v41) = (h2 m c) :=
  (show StableHlo.after hostOps6 (W12 m ρ c) (Proc.devRef .tc main_v41) = W12 m ρ c (Proc.devRef .tc main_v41) by after_results).trans (W12_main_v41 m ρ c)

theorem W10_main_v10 (c : Dev nD) : W10 m ρ c (Proc.devRef .tc main_v10) = (wT (m ((c : Thread nD τ).loc main_arg10))) :=
  (W10_arr m ρ c 2).trans (((dat4 (V9 m ρ) c).arrAt_in 2 rfl _).trans ((A_eq4 (V9 m ρ) c 2).trans (W9_main_v10 m ρ c)))

theorem W11_main_v10 (c : Dev nD) : W11 m ρ c (Proc.devRef .tc main_v10) = (wT (m ((c : Thread nD τ).loc main_arg10))) :=
  (show StableHlo.after hostOps5 (W10 m ρ c) (Proc.devRef .tc main_v10) = W10 m ρ c (Proc.devRef .tc main_v10) by after_results).trans (W10_main_v10 m ρ c)

theorem W12_main_v10 (c : Dev nD) : W12 m ρ c (Proc.devRef .tc main_v10) = (wT (m ((c : Thread nD τ).loc main_arg10))) :=
  (W12_of_ne m ρ c main_v10 (by decide)).trans (W11_main_v10 m ρ c)

theorem W13_main_v10 (c : Dev nD) : W13 m ρ c (Proc.devRef .tc main_v10) = (wT (m ((c : Thread nD τ).loc main_arg10))) :=
  (show StableHlo.after hostOps6 (W12 m ρ c) (Proc.devRef .tc main_v10) = W12 m ρ c (Proc.devRef .tc main_v10) by after_results).trans (W12_main_v10 m ρ c)

theorem W10_main_v11 (c : Dev nD) : W10 m ρ c (Proc.devRef .tc main_v11) = (wT (m ((c : Thread nD τ).loc main_arg11))) :=
  (W10_arr m ρ c 3).trans (((dat4 (V9 m ρ) c).arrAt_in 3 rfl _).trans ((A_eq4 (V9 m ρ) c 3).trans (W9_main_v11 m ρ c)))

theorem W11_main_v11 (c : Dev nD) : W11 m ρ c (Proc.devRef .tc main_v11) = (wT (m ((c : Thread nD τ).loc main_arg11))) :=
  (show StableHlo.after hostOps5 (W10 m ρ c) (Proc.devRef .tc main_v11) = W10 m ρ c (Proc.devRef .tc main_v11) by after_results).trans (W10_main_v11 m ρ c)

theorem W12_main_v11 (c : Dev nD) : W12 m ρ c (Proc.devRef .tc main_v11) = (wT (m ((c : Thread nD τ).loc main_arg11))) :=
  (W12_of_ne m ρ c main_v11 (by decide)).trans (W11_main_v11 m ρ c)

theorem W13_main_v11 (c : Dev nD) : W13 m ρ c (Proc.devRef .tc main_v11) = (wT (m ((c : Thread nD τ).loc main_arg11))) :=
  (show StableHlo.after hostOps6 (W12 m ρ c) (Proc.devRef .tc main_v11) = W12 m ρ c (Proc.devRef .tc main_v11) by after_results).trans (W12_main_v11 m ρ c)

theorem W10_main_v12 (c : Dev nD) : W10 m ρ c (Proc.devRef .tc main_v12) = (row384 (m ((c : Thread nD τ).loc main_arg12))) :=
  (W10_arr m ρ c 4).trans (((dat4 (V9 m ρ) c).arrAt_in 4 rfl _).trans ((A_eq4 (V9 m ρ) c 4).trans (W9_main_v12 m ρ c)))

theorem W11_main_v12 (c : Dev nD) : W11 m ρ c (Proc.devRef .tc main_v12) = (row384 (m ((c : Thread nD τ).loc main_arg12))) :=
  (show StableHlo.after hostOps5 (W10 m ρ c) (Proc.devRef .tc main_v12) = W10 m ρ c (Proc.devRef .tc main_v12) by after_results).trans (W10_main_v12 m ρ c)

theorem W12_main_v12 (c : Dev nD) : W12 m ρ c (Proc.devRef .tc main_v12) = (row384 (m ((c : Thread nD τ).loc main_arg12))) :=
  (W12_of_ne m ρ c main_v12 (by decide)).trans (W11_main_v12 m ρ c)

theorem W13_main_v12 (c : Dev nD) : W13 m ρ c (Proc.devRef .tc main_v12) = (row384 (m ((c : Thread nD τ).loc main_arg12))) :=
  (show StableHlo.after hostOps6 (W12 m ρ c) (Proc.devRef .tc main_v12) = W12 m ρ c (Proc.devRef .tc main_v12) by after_results).trans (W12_main_v12 m ρ c)

theorem W10_main_v13 (c : Dev nD) : W10 m ρ c (Proc.devRef .tc main_v13) = (row384 (m ((c : Thread nD τ).loc main_arg13))) :=
  (W10_arr m ρ c 5).trans (((dat4 (V9 m ρ) c).arrAt_in 5 rfl _).trans ((A_eq4 (V9 m ρ) c 5).trans (W9_main_v13 m ρ c)))

theorem W11_main_v13 (c : Dev nD) : W11 m ρ c (Proc.devRef .tc main_v13) = (row384 (m ((c : Thread nD τ).loc main_arg13))) :=
  (show StableHlo.after hostOps5 (W10 m ρ c) (Proc.devRef .tc main_v13) = W10 m ρ c (Proc.devRef .tc main_v13) by after_results).trans (W10_main_v13 m ρ c)

theorem W12_main_v13 (c : Dev nD) : W12 m ρ c (Proc.devRef .tc main_v13) = (row384 (m ((c : Thread nD τ).loc main_arg13))) :=
  (W12_of_ne m ρ c main_v13 (by decide)).trans (W11_main_v13 m ρ c)

theorem W13_main_v13 (c : Dev nD) : W13 m ρ c (Proc.devRef .tc main_v13) = (row384 (m ((c : Thread nD τ).loc main_arg13))) :=
  (show StableHlo.after hostOps6 (W12 m ρ c) (Proc.devRef .tc main_v13) = W12 m ρ c (Proc.devRef .tc main_v13) by after_results).trans (W12_main_v13 m ρ c)

theorem W14_main_v55 (c : Dev nD) : W14 m ρ c (Proc.devRef .tc main_v55) = (h3 m c) := by
  refine (W14_arr m ρ c 6).trans ((Gru6.final (V13 m ρ) c).trans ?_)
  show gru (W13 m ρ c (Proc.devRef .tc main_v54)) (W13 m ρ c (Proc.devRef .tc main_v41)) (W13 m ρ c (Proc.devRef .tc main_v10)) (W13 m ρ c (Proc.devRef .tc main_v11)) (W13 m ρ c (Proc.devRef .tc main_v12)) (W13 m ρ c (Proc.devRef .tc main_v13)) = _
  rw [W13_main_v54 m ρ c, W13_main_v41 m ρ c, W13_main_v10 m ρ c, W13_main_v11 m ρ c, W13_main_v12 m ρ c, W13_main_v13 m ρ c]
  rfl

theorem W15_main_v55 (c : Dev nD) : W15 m ρ c (Proc.devRef .tc main_v55) = (h3 m c) :=
  (show StableHlo.after hostOps7 (W14 m ρ c) (Proc.devRef .tc main_v55) = W14 m ρ c (Proc.devRef .tc main_v55) by after_results).trans (W14_main_v55 m ρ c)

theorem W15_main_v56 (c : Dev nD) : W15 m ρ c (Proc.devRef .tc main_v56) = (row128 (m ((c : Thread nD τ).loc main_arg14))) := by
  show StableHlo.after hostOps7 (W14 m ρ c) (Proc.devRef .tc main_v56) = _
  after_results
  rw [W14_main_arg14 m ρ c]
  rfl

theorem W15_main_v57 (c : Dev nD) : W15 m ρ c (Proc.devRef .tc main_v57) = (row128 (m ((c : Thread nD τ).loc main_arg15))) := by
  show StableHlo.after hostOps7 (W14 m ρ c) (Proc.devRef .tc main_v57) = _
  after_results
  rw [W14_main_arg15 m ρ c]
  rfl

theorem W15_main_v58 (c : Dev nD) : W15 m ρ c (Proc.devRef .tc main_v58) = (row128 (m ((c : Thread nD τ).loc main_arg16))) := by
  show StableHlo.after hostOps7 (W14 m ρ c) (Proc.devRef .tc main_v58) = _
  after_results
  rw [W14_main_arg16 m ρ c]
  rfl

theorem W15_main_v59 (c : Dev nD) : W15 m ρ c (Proc.devRef .tc main_v59) = (row128 (m ((c : Thread nD τ).loc main_arg17))) := by
  show StableHlo.after hostOps7 (W14 m ρ c) (Proc.devRef .tc main_v59) = _
  after_results
  rw [W14_main_arg17 m ρ c]
  rfl

theorem W16_main_v60 (c : Dev nD) : W16 m ρ c (Proc.devRef .tc main_v60) = (hb m c) := by
  refine (W16_arr m ρ c 5).trans ((Bn7.final (V15 m ρ) c).trans ?_)
  show normRelu (W15 m ρ c (Proc.devRef .tc main_v55)) (W15 m ρ c (Proc.devRef .tc main_v56)) (W15 m ρ c (Proc.devRef .tc main_v57)) (W15 m ρ c (Proc.devRef .tc main_v58)) (W15 m ρ c (Proc.devRef .tc main_v59)) = _
  rw [W15_main_v55 m ρ c, W15_main_v56 m ρ c, W15_main_v57 m ρ c, W15_main_v58 m ρ c, W15_main_v59 m ρ c]
  rfl

set_option maxHeartbeats 8000000 in
theorem W17_main_v72 (c : Dev nD) : W17 m ρ c (Proc.devRef .tc main_v72) = (pool (hb m c) (m ((c : Thread nD τ).loc main_arg2))) := by
  show StableHlo.after hostOps8 (W16 m ρ c) (Proc.devRef .tc main_v72) = _
  after_results
  rw [W16_main_v60 m ρ c, W16_main_arg2 m ρ c]
  rfl

theorem W17_main_v73 (c : Dev nD) : W17 m ρ c (Proc.devRef .tc main_v73) = (row128 (m ((c : Thread nD τ).loc main_arg19))) := by
  show StableHlo.after hostOps8 (W16 m ρ c) (Proc.devRef .tc main_v73) = _
  after_results
  rw [W16_main_arg19 m ρ c]
  rfl

theorem W17_main_v74 (c : Dev nD) : W17 m ρ c (Proc.devRef .tc main_v74) = (row128 (m ((c : Thread nD τ).loc main_arg20))) := by
  show StableHlo.after hostOps8 (W16 m ρ c) (Proc.devRef .tc main_v74) = _
  after_results
  rw [W16_main_arg20 m ρ c]
  rfl

theorem W17_main_v75 (c : Dev nD) : W17 m ρ c (Proc.devRef .tc main_v75) = (row128 (m ((c : Thread nD τ).loc main_arg21))) := by
  show StableHlo.after hostOps8 (W16 m ρ c) (Proc.devRef .tc main_v75) = _
  after_results
  rw [W16_main_arg21 m ρ c]
  rfl

theorem W17_main_v76 (c : Dev nD) : W17 m ρ c (Proc.devRef .tc main_v76) = (row128 (m ((c : Thread nD τ).loc main_arg22))) := by
  show StableHlo.after hostOps8 (W16 m ρ c) (Proc.devRef .tc main_v76) = _
  after_results
  rw [W16_main_arg22 m ρ c]
  rfl

theorem W17_main_v77 (c : Dev nD) : W17 m ρ c (Proc.devRef .tc main_v77) = (row128 (m ((c : Thread nD τ).loc main_arg23))) := by
  show StableHlo.after hostOps8 (W16 m ρ c) (Proc.devRef .tc main_v77) = _
  after_results
  rw [W16_main_arg23 m ρ c]
  rfl

theorem W17_main_v78 (c : Dev nD) : W17 m ρ c (Proc.devRef .tc main_v78) = (row64 (m ((c : Thread nD τ).loc main_arg25))) := by
  show StableHlo.after hostOps8 (W16 m ρ c) (Proc.devRef .tc main_v78) = _
  after_results
  rw [W16_main_arg25 m ρ c]
  rfl

theorem W17_main_v79 (c : Dev nD) : W17 m ρ c (Proc.devRef .tc main_v79) = (row64 (m ((c : Thread nD τ).loc main_arg26))) := by
  show StableHlo.after hostOps8 (W16 m ρ c) (Proc.devRef .tc main_v79) = _
  after_results
  rw [W16_main_arg26 m ρ c]
  rfl

theorem W17_main_v80 (c : Dev nD) : W17 m ρ c (Proc.devRef .tc main_v80) = (row64 (m ((c : Thread nD τ).loc main_arg27))) := by
  show StableHlo.after hostOps8 (W16 m ρ c) (Proc.devRef .tc main_v80) = _
  after_results
  rw [W16_main_arg27 m ρ c]
  rfl

theorem W17_main_v81 (c : Dev nD) : W17 m ρ c (Proc.devRef .tc main_v81) = (row64 (m ((c : Thread nD τ).loc main_arg28))) := by
  show StableHlo.after hostOps8 (W16 m ρ c) (Proc.devRef .tc main_v81) = _
  after_results
  rw [W16_main_arg28 m ρ c]
  rfl

theorem W17_main_v82 (c : Dev nD) : W17 m ρ c (Proc.devRef .tc main_v82) = (row64 (m ((c : Thread nD τ).loc main_arg29))) := by
  show StableHlo.after hostOps8 (W16 m ρ c) (Proc.devRef .tc main_v82) = _
  after_results
  rw [W16_main_arg29 m ρ c]
  rfl

theorem W17_main_v83 (c : Dev nD) : W17 m ρ c (Proc.devRef .tc main_v83) = (row2 (m ((c : Thread nD τ).loc main_arg31))) := by
  show StableHlo.after hostOps8 (W16 m ρ c) (Proc.devRef .tc main_v83) = _
  after_results
  rw [W16_main_arg31 m ρ c]
  rfl

theorem W18_main_v84 (c : Dev nD) : W18 m ρ c (Proc.devRef .tc main_v84) = (net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31))) := by
  refine (W18_arr m ρ c 15).trans ((Head8.final (V17 m ρ) c).trans ?_)
  show head (W17 m ρ c (Proc.devRef .tc main_v72)) (W17 m ρ c (Proc.devRef .tc main_arg18)) (W17 m ρ c (Proc.devRef .tc main_v73)) (W17 m ρ c (Proc.devRef .tc main_v74)) (W17 m ρ c (Proc.devRef .tc main_v75)) (W17 m ρ c (Proc.devRef .tc main_v76)) (W17 m ρ c (Proc.devRef .tc main_v77)) (W17 m ρ c (Proc.devRef .tc main_arg24)) (W17 m ρ c (Proc.devRef .tc main_v78)) (W17 m ρ c (Proc.devRef .tc main_v79)) (W17 m ρ c (Proc.devRef .tc main_v80)) (W17 m ρ c (Proc.devRef .tc main_v81)) (W17 m ρ c (Proc.devRef .tc main_v82)) (W17 m ρ c (Proc.devRef .tc main_arg30)) (W17 m ρ c (Proc.devRef .tc main_v83)) = _
  rw [W17_main_v72 m ρ c, W17_main_arg18 m ρ c, W17_main_v73 m ρ c, W17_main_v74 m ρ c, W17_main_v75 m ρ c, W17_main_v76 m ρ c, W17_main_v77 m ρ c, W17_main_arg24 m ρ c, W17_main_v78 m ρ c, W17_main_v79 m ρ c, W17_main_v80 m ρ c, W17_main_v81 m ρ c, W17_main_v82 m ρ c, W17_main_arg30 m ρ c, W17_main_v83 m ρ c]
  rfl

end Cert.KernelIdeal.Flow

end
-- ==== Proof.RefChunks.lean ====
/-
  THE REFERENCE PROGRAM'S OPERATIONS CUT AT THE ENDS OF THE NETWORK'S STAGES.

  The list of the 289 host operations is the concatenation of thirteen lists: the embedding; the two edge lists; for
  each of the three propagation steps the messages collected along the edges and the gated recurrent update; the
  standardisation of the final states; the mean over each graph; the three read-out layers. Running a concatenation is
  running its parts one after the other ('after_append'), and a list of operations leaves every buffer it does not
  write as it was ('keep0' … 'keep12': each chunk with the list of the buffers it writes), so the value of a stage's
  last buffer can be computed chunk by chunk from the values of the few buffers the chunk reads.
-/
import proofs.«137501_j83021717832548_2_alg».proof.Proof.RefOps

noncomputable section

namespace Cert.RefNet

open Cert.ReferenceIdeal Cert.ReferenceIdeal.Gen Idealize.ShloMosaic Idealize.ShloMosaic.TcCoe Idealize.SL.Sem Idealize.ShloMosaic.StableHlo

/-- Running two lists of operations one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- An operation that writes the one buffer 'y' writes inside any list of buffers that has 'y'. -/
theorem sub_of_mem {τ : Topo} {sig : RefSig} {W : List (Ref sig .tc)} {s : Finset (DevRef τ sig)} (y : Ref sig .tc)
    (hs : s = {Proc.devRef .tc y}) (hy : y ∈ W) : s ⊆ (W.map (Proc.devRef (τ := τ) .tc)).toFinset := by
  subst hs
  exact Finset.singleton_subset_iff.mpr (List.mem_toFinset.mpr (List.mem_map_of_mem hy))

variable {F : FTy → Type} [FloatOps F]

/-! ## The thirteen chunks -/

/-- The embedding: operations 0 to 22 of the program. -/
def chunk0 : List (HloOp τ sig (Elt F)) :=
  [ binary main_arg0 main_arg3 main_v0 ((fun l r => Host.dotGeneral dot_S100000x100_S100x128_S100000x128_1_0_0_1_n_n none l r) : (⟨S100000x100, .f32⟩ : BufTy).Contents (Elt F) → (⟨S100x128, .f32⟩ : BufTy).Contents (Elt F) → (⟨S100000x128, .f32⟩ : BufTy).Contents (Elt F)),
    unary main_arg4 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)),
    unary main_arg7 main_v4 (broadcastInDim S1x128 ![1] bcast_S128_S1x128_1 : (⟨S128, .f32⟩ : BufTy).Contents (Elt F) → (⟨S1x128, .f32⟩ : BufTy).Contents (Elt F)),
    unary main_v4 main_v5 (broadcastInDim S100000x128 ![0, 1] bcast_S1x128_S100000x128_0_1 : (⟨S1x128, .f32⟩ : BufTy).Contents (Elt F) → (⟨S100000x128, .f32⟩ : BufTy).Contents (Elt F)),
    binary main_v3 main_v5 main_v6 (subf : (⟨S100000x128, .f32⟩ : BufTy).Contents (Elt F) → (⟨S100000x128, .f32⟩ : BufTy).Contents (Elt F) → (⟨S100000x128, .f32⟩ : BufTy).Contents (Elt F)),
    nullary main_cst (constant S_ .f32 0x3727C5AC#32),
    unary main_cst main_v7 (broadcastInDim S128 ![] bcast_S_S128 : (⟨S_, .f32⟩ : BufTy).Contents (Elt F) → (⟨S128, .f32⟩ : BufTy).Contents (Elt F)),
    binary main_arg8 main_v7 main_v8 (addf : (⟨S128, .f32⟩ : BufTy).Contents (Elt F) → (⟨S128, .f32⟩ : BufTy).Contents (Elt F) → (⟨S128, .f32⟩ : BufTy).Contents (Elt F)),
    unary main_v8 main_v9 (Host.rsqrt : (⟨S128, .f32⟩ : BufTy).Contents (Elt F) → (⟨S128, .f32⟩ : BufTy).Contents (Elt F)),
    unary main_v9 main_v10 (broadcastInDim S1x128 ![1] bcast_S128_S1x128_1 : (⟨S128, .f32⟩ : BufTy).Contents (Elt F) → (⟨S1x128, .f32⟩ : BufTy).Contents (Elt F)),
    unary main_v10 main_v11 (broadcastInDim S100000x128 ![0, 1] bcast_S1x128_S100000x128_0_1 : (⟨S1x128, .f32⟩ : BufTy).Contents (Elt F) → (⟨S100000x128, .f32⟩ : BufTy).Contents (Elt F)),
    binary main_v6 main_v11 main_v12 (mulf : (⟨S100000x128, .f32⟩ : BufTy).Contents (Elt F) → (⟨S100000x128, .f32⟩ : BufTy).Contents (Elt F) → (⟨S100000x128, .f32⟩ : BufTy).Contents (Elt F)),
    unary main_arg5 main_v13 (broadcastInDim S1x128 ![1] bcast_S128_S1x128_1 : (⟨S128, .f32⟩ : BufTy).Contents (Elt F) → (⟨S1x128, .f32⟩ : BufTy).Contents (Elt F)),
    unary main_v13 main_v14 (broadcastInDim S100000x128 ![0, 1] bcast_S1x128_S100000x128_0_1 : (⟨S1x128, .f32⟩ : BufTy).Contents (Elt F) → (⟨S100000x128, .f32⟩ : BufTy).Contents (Elt F)),
    binary main_v12 main_v14 main_v15 (mulf : (⟨S100000x128, .f32⟩ : BufTy).Contents (Elt F) → (⟨S100000x128, .f32⟩ : BufTy).Contents (Elt F) → (⟨S100000x128, .f32⟩ : BufTy).Contents (Elt F)),
    unary main_arg6 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v18) (TRef.of (T := ⟨S100000x128, .f32⟩) main_call0_v0) (TRef.of (T := ⟨S100000x128, .f32⟩) main_v19) maximumf ]

/-- The edge lists: operations 23 to 26 of the program. -/
def chunk1 : List (HloOp τ sig (Elt F)) :=
  [ unary main_arg1 main_v20 ((extractStridedSlice S1x1600000 ![0, 0] · slices_S2x1600000_S1x1600000_0_0) : (⟨S2x1600000, .i32⟩ : BufTy).Contents (Elt F) → (⟨S1x1600000, .i32⟩ : BufTy).Contents (Elt F)),
    reshape main_v20 main_v21 rfl shapeCasts_S1x1600000_S1600000,
    unary main_arg1 main_v22 ((extractStridedSlice S1x1600000 ![1, 0] · slices_S2x1600000_S1x1600000_1_0) : (⟨S2x1600000, .i32⟩ : BufTy).Contents (Elt F) → (⟨S1x1600000, .i32⟩ : BufTy).Contents (Elt F)),
    reshape main_v22 main_v23 rfl shapeCasts_S1x1600000_S1600000 ]

/-- The first step's messages: operations 27 to 42 of the program. -/
def chunk2 : List (HloOp τ sig (Elt F)) :=
  [ unary main_arg9 main_v24 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v24 main_v25 rfl shapeCasts_S1x128x128_S128x128,
    binary main_v19 main_v25 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v27 (broadcastInDim S1600000 ![] bcast_S_S1600000 : (⟨S_, .i32⟩ : BufTy).Contents (Elt F) → (⟨S1600000, .i32⟩ : BufTy).Contents (Elt F)),
    binary main_v21 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v29 (broadcastInDim S1600000 ![] bcast_S_S1600000 : (⟨S_, .i32⟩ : BufTy).Contents (Elt F) → (⟨S1600000, .i32⟩ : BufTy).Contents (Elt F)),
    binary main_v21 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v21 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v26 main_v32 main_v33 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_1 (constant S_ .f32 0x00000000#32),
    unary main_cst_1 main_v34 (broadcastInDim S100000x128 ![] bcast_S_S100000x128 : (⟨S_, .f32⟩ : BufTy).Contents (Elt F) → (⟨S100000x128, .f32⟩ : BufTy).Contents (Elt F)),
    unary main_v23 main_v35 (broadcastInDim S1600000x1 ![0] bcast_S1600000_S1600000x1_0 : (⟨S1600000, .i32⟩ : BufTy).Contents (Elt F) → (⟨S1600000x1, .i32⟩ : BufTy).Contents (Elt F)),
    ternary main_v34 main_v35 main_v33 main_v36 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The first step's update: operations 43 to 85 of the program. -/
def chunk3 : List (HloOp τ sig (Elt F)) :=
  [ unary main_arg10 main_v37 ((transpose S128x384 [1, 0] · transposes_S384x128_S128x384_1_0) : (⟨S384x128, .f32⟩ : BufTy).Contents (Elt F) → (⟨S128x384, .f32⟩ : BufTy).Contents (Elt F)),
    binary main_v36 main_v37 main_v38 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg12 main_v39 (broadcastInDim S1x384 ![1] bcast_S384_S1x384_1 : (⟨S384, .f32⟩ : BufTy).Contents (Elt F) → (⟨S1x384, .f32⟩ : BufTy).Contents (Elt F)),
    unary main_v39 main_v40 (broadcastInDim S100000x384 ![0, 1] bcast_S1x384_S100000x384_0_1 : (⟨S1x384, .f32⟩ : BufTy).Contents (Elt F) → (⟨S100000x384, .f32⟩ : BufTy).Contents (Elt F)),
    binary main_v38 main_v40 main_v41 (addf : (⟨S100000x384, .f32⟩ : BufTy).Contents (Elt F) → (⟨S100000x384, .f32⟩ : BufTy).Contents (Elt F) → (⟨S100000x384, .f32⟩ : BufTy).Contents (Elt F)),
    unary main_arg11 main_v42 ((transpose S128x384 [1, 0] · transposes_S384x128_S128x384_1_0) : (⟨S384x128, .f32⟩ : BufTy).Contents (Elt F) → (⟨S128x384, .f32⟩ : BufTy).Contents (Elt F)),
    binary main_v19 main_v42 main_v43 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg13 main_v44 (broadcastInDim S1x384 ![1] bcast_S384_S1x384_1 : (⟨S384, .f32⟩ : BufTy).Contents (Elt F) → (⟨S1x384, .f32⟩ : BufTy).Contents (Elt F)),
    unary main_v44 main_v45 (broadcastInDim S100000x384 ![0, 1] bcast_S1x384_S100000x384_0_1 : (⟨S1x384, .f32⟩ : BufTy).Contents (Elt F) → (⟨S100000x384, .f32⟩ : BufTy).Contents (Elt F)),
    binary main_v43 main_v45 main_v46 (addf : (⟨S100000x384, .f32⟩ : BufTy).Contents (Elt F) → (⟨S100000x384, .f32⟩ : BufTy).Contents (Elt F) → (⟨S100000x384, .f32⟩ : BufTy).Contents (Elt F)),
    unary main_v41 main_v47 ((extractStridedSlice S100000x128 ![0, 0] · slices_S100000x384_S100000x128_0_0) : (⟨S100000x384, .f32⟩ : BufTy).Contents (Elt F) → (⟨S100000x128, .f32⟩ : BufTy).Contents (Elt F)),
    unary main_v41 main_v48 ((extractStridedSlice S100000x128 ![0, 128] · slices_S100000x384_S100000x128_0_128) : (⟨S100000x384, .f32⟩ : BufTy).Contents (Elt F) → (⟨S100000x128, .f32⟩ : BufTy).Contents (Elt F)),
    unary main_v41 main_v49 ((extractStridedSlice S100000x128 ![0, 256] · slices_S100000x384_S100000x128_0_256) : (⟨S100000x384, .f32⟩ : BufTy).Contents (Elt F) → (⟨S100000x128, .f32⟩ : BufTy).Contents (Elt F)),
    unary main_v46 main_v50 ((extractStridedSlice S100000x128 ![0, 0] · slices_S100000x384_S100000x128_0_0) : (⟨S100000x384, .f32⟩ : BufTy).Contents (Elt F) → (⟨S100000x128, .f32⟩ : BufTy).Contents (Elt F)),
    unary main_v46 main_v51 ((extractStridedSlice S100000x128 ![0, 128] · slices_S100000x384_S100000x128_0_128) : (⟨S100000x384, .f32⟩ : BufTy).Contents (Elt F) → (⟨S100000x128, .f32⟩ : BufTy).Contents (Elt F)),
    unary main_v46 main_v52 ((extractStridedSlice S100000x128 ![0, 256] · slices_S100000x384_S100000x128_0_256) : (⟨S100000x384, .f32⟩ : BufTy).Contents (Elt F) → (⟨S100000x128, .f32⟩ : BufTy).Contents (Elt F)),
    binary main_v47 main_v50 main_v53 (addf : (⟨S100000x128, .f32⟩ : BufTy).Contents (Elt F) → (⟨S100000x128, .f32⟩ : BufTy).Contents (Elt F) → (⟨S100000x128, .f32⟩ : BufTy).Contents (Elt F)),
    unary main_v53 main_v54 (Host.negf : (⟨S100000x128, .f32⟩ : BufTy).Contents (Elt F) → (⟨S100000x128, .f32⟩ : BufTy).Contents (Elt F)),
    unary main_v54 main_v55 (Host.exp : (⟨S100000x128, .f32⟩ : BufTy).Contents (Elt F) → (⟨S100000x128, .f32⟩ : BufTy).Contents (Elt F)),
    nullary main_cst_2 (constant S_ .f32 0x3F800000#32),
    unary main_cst_2 main_v56 (broadcastInDim S100000x128 ![] bcast_S_S100000x128 : (⟨S_, .f32⟩ : BufTy).Contents (Elt F) → (⟨S100000x128, .f32⟩ : BufTy).Contents (Elt F)),
    binary main_v56 main_v55 main_v57 (addf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x3F800000#32),
    unary main_cst_3 main_v58 (broadcastInDim S100000x128 ![] bcast_S_S100000x128 : (⟨S_, .f32⟩ : BufTy).Contents (Elt F) → (⟨S100000x128, .f32⟩ : BufTy).Contents (Elt F)),
    binary main_v58 main_v57 main_v59 (Host.divf : (⟨S100000x128, .f32⟩ : BufTy).Contents (Elt F) → (⟨S100000x128, .f32⟩ : BufTy).Contents (Elt F) → (⟨S100000x128, .f32⟩ : BufTy).Contents (Elt F)),
    binary main_v48 main_v51 main_v60 (addf : (⟨S100000x128, .f32⟩ : BufTy).Contents (Elt F) → (⟨S100000x128, .f32⟩ : BufTy).Contents (Elt F) → (⟨S100000x128, .f32⟩ : BufTy).Contents (Elt F)),
    unary main_v60 main_v61 (Host.negf : (⟨S100000x128, .f32⟩ : BufTy).Contents (Elt F) → (⟨S100000x128, .f32⟩ : BufTy).Contents (Elt F)),
    unary main_v61 main_v62 (Host.exp : (⟨S100000x128, .f32⟩ : BufTy).Contents (Elt F) → (⟨S100000x128, .f32⟩ : BufTy).Contents (Elt F)),
    nullary main_cst_4 (constant S_ .f32 0x3F800000#32),
    unary main_cst_4 main_v63 (broadcastInDim S100000x128 ![] bcast_S_S100000x128 : (⟨S_, .f32⟩ : BufTy).Contents (Elt F) → (⟨S100000x128, .f32⟩ : BufTy).Contents (Elt F)),
    binary main_v63 main_v62 main_v64 (addf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x3F800000#32),
    unary main_cst_5 main_v65 (broadcastInDim S100000x128 ![] bcast_S_S100000x128 : (⟨S_, .f32⟩ : BufTy).Contents (Elt F) → (⟨S100000x128, .f32⟩ : BufTy).Contents (Elt F)),
    binary main_v65 main_v64 main_v66 (Host.divf : (⟨S100000x128, .f32⟩ : BufTy).Contents (Elt F) → (⟨S100000x128, .f32⟩ : BufTy).Contents (Elt F) → (⟨S100000x128, .f32⟩ : BufTy).Contents (Elt F)),
    binary main_v59 main_v52 main_v67 (mulf : (⟨S100000x128, .f32⟩ : BufTy).Contents (Elt F) → (⟨S100000x128, .f32⟩ : BufTy).Contents (Elt F) → (⟨S100000x128, .f32⟩ : BufTy).Contents (Elt F)),
    binary main_v49 main_v67 main_v68 (addf : (⟨S100000x128, .f32⟩ : BufTy).Contents (Elt F) → (⟨S100000x128, .f32⟩ : BufTy).Contents (Elt F) → (⟨S100000x128, .f32⟩ : BufTy).Contents (Elt F)),
    unary main_v68 main_v69 (Host.tanh : (⟨S100000x128, .f32⟩ : BufTy).Contents (Elt F) → (⟨S100000x128, .f32⟩ : BufTy).Contents (Elt F)),
    nullary main_cst_6 (constant S_ .f32 0x3F800000#32),
    unary main_cst_6 main_v70 (broadcastInDim S100000x128 ![] bcast_S_S100000x128 : (⟨S_, .f32⟩ : BufTy).Contents (Elt F) → (⟨S100000x128, .f32⟩ : BufTy).Contents (Elt F)),
    binary main_v70 main_v66 main_v71 (subf : (⟨S100000x128, .f32⟩ : BufTy).Contents (Elt F) → (⟨S100000x128, .f32⟩ : BufTy).Contents (Elt F) → (⟨S100000x128, .f32⟩ : BufTy).Contents (Elt F)),
    binary main_v71 main_v69 main_v72 (mulf : (⟨S100000x128, .f32⟩ : BufTy).Contents (Elt F) → (⟨S100000x128, .f32⟩ : BufTy).Contents (Elt F) → (⟨S100000x128, .f32⟩ : BufTy).Contents (Elt F)),
    binary main_v66 main_v19 main_v73 (mulf : (⟨S100000x128, .f32⟩ : BufTy).Contents (Elt F) → (⟨S100000x128, .f32⟩ : BufTy).Contents (Elt F) → (⟨S100000x128, .f32⟩ : BufTy).Contents (Elt F)),
    binary main_v72 main_v73 main_v74 (addf : (⟨S100000x128, .f32⟩ : BufTy).Contents (Elt F) → (⟨S100000x128, .f32⟩ : BufTy).Contents (Elt F) → (⟨S100000x128, .f32⟩ : BufTy).Contents (Elt F)) ]

/-- The second step's messages: operations 86 to 101 of the program. -/
def chunk4 : List (HloOp τ sig (Elt F)) :=
  [ unary main_arg9 main_v75 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v75 main_v76 rfl shapeCasts_S1x128x128_S128x128,
    binary main_v74 main_v76 main_v77 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v78 (broadcastInDim S1600000 ![] bcast_S_S1600000 : (⟨S_, .i32⟩ : BufTy).Contents (Elt F) → (⟨S1600000, .i32⟩ : BufTy).Contents (Elt F)),
    binary main_v21 main_v78 main_v79 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v80 (broadcastInDim S1600000 ![] bcast_S_S1600000 : (⟨S_, .i32⟩ : BufTy).Contents (Elt F) → (⟨S1600000, .i32⟩ : BufTy).Contents (Elt F)),
    binary main_v21 main_v80 main_v81 (addi : (⟨S1600000, .i32⟩ : BufTy).Contents (Elt F) → (⟨S1600000, .i32⟩ : BufTy).Contents (Elt F) → (⟨S1600000, .i32⟩ : BufTy).Contents (Elt F)),
    ternary main_v79 main_v81 main_v21 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v82 main_v83 (broadcastInDim S1600000x1 ![0] bcast_S1600000_S1600000x1_0 : (⟨S1600000, .i32⟩ : BufTy).Contents (Elt F) → (⟨S1600000x1, .i32⟩ : BufTy).Contents (Elt F)),
    binary main_v77 main_v83 main_v84 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_9 (constant S_ .f32 0x00000000#32),
    unary main_cst_9 main_v85 (broadcastInDim S100000x128 ![] bcast_S_S100000x128 : (⟨S_, .f32⟩ : BufTy).Contents (Elt F) → (⟨S100000x128, .f32⟩ : BufTy).Contents (Elt F)),
    unary main_v23 main_v86 (broadcastInDim S1600000x1 ![0] bcast_S1600000_S1600000x1_0 : (⟨S1600000, .i32⟩ : BufTy).Contents (Elt F) → (⟨S1600000x1, .i32⟩ : BufTy).Contents (Elt F)),
    ternary main_v85 main_v86 main_v84 main_v87 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The second step's update: operations 102 to 144 of the program. -/
def chunk5 : List (HloOp τ sig (Elt F)) :=
  [ unary main_arg10 main_v88 ((transpose S128x384 [1, 0] · transposes_S384x128_S128x384_1_0) : (⟨S384x128, .f32⟩ : BufTy).Contents (Elt F) → (⟨S128x384, .f32⟩ : BufTy).Contents (Elt F)),
    binary main_v87 main_v88 main_v89 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg12 main_v90 (broadcastInDim S1x384 ![1] bcast_S384_S1x384_1 : (⟨S384, .f32⟩ : BufTy).Contents (Elt F) → (⟨S1x384, .f32⟩ : BufTy).Contents (Elt F)),
    unary main_v90 main_v91 (broadcastInDim S100000x384 ![0, 1] bcast_S1x384_S100000x384_0_1 : (⟨S1x384, .f32⟩ : BufTy).Contents (Elt F) → (⟨S100000x384, .f32⟩ : BufTy).Contents (Elt F)),
    binary main_v89 main_v91 main_v92 (addf : (⟨S100000x384, .f32⟩ : BufTy).Contents (Elt F) → (⟨S100000x384, .f32⟩ : BufTy).Contents (Elt F) → (⟨S100000x384, .f32⟩ : BufTy).Contents (Elt F)),
    unary main_arg11 main_v93 ((transpose S128x384 [1, 0] · transposes_S384x128_S128x384_1_0) : (⟨S384x128, .f32⟩ : BufTy).Contents (Elt F) → (⟨S128x384, .f32⟩ : BufTy).Contents (Elt F)),
    binary main_v74 main_v93 main_v94 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg13 main_v95 (broadcastInDim S1x384 ![1] bcast_S384_S1x384_1 : (⟨S384, .f32⟩ : BufTy).Contents (Elt F) → (⟨S1x384, .f32⟩ : BufTy).Contents (Elt F)),
    unary main_v95 main_v96 (broadcastInDim S100000x384 ![0, 1] bcast_S1x384_S100000x384_0_1 : (⟨S1x384, .f32⟩ : BufTy).Contents (Elt F) → (⟨S100000x384, .f32⟩ : BufTy).Contents (Elt F)),
    binary main_v94 main_v96 main_v97 (addf : (⟨S100000x384, .f32⟩ : BufTy).Contents (Elt F) → (⟨S100000x384, .f32⟩ : BufTy).Contents (Elt F) → (⟨S100000x384, .f32⟩ : BufTy).Contents (Elt F)),
    unary main_v92 main_v98 ((extractStridedSlice S100000x128 ![0, 0] · slices_S100000x384_S100000x128_0_0) : (⟨S100000x384, .f32⟩ : BufTy).Contents (Elt F) → (⟨S100000x128, .f32⟩ : BufTy).Contents (Elt F)),
    unary main_v92 main_v99 ((extractStridedSlice S100000x128 ![0, 128] · slices_S100000x384_S100000x128_0_128) : (⟨S100000x384, .f32⟩ : BufTy).Contents (Elt F) → (⟨S100000x128, .f32⟩ : BufTy).Contents (Elt F)),
    unary main_v92 main_v100 ((extractStridedSlice S100000x128 ![0, 256] · slices_S100000x384_S100000x128_0_256) : (⟨S100000x384, .f32⟩ : BufTy).Contents (Elt F) → (⟨S100000x128, .f32⟩ : BufTy).Contents (Elt F)),
    unary main_v97 main_v101 ((extractStridedSlice S100000x128 ![0, 0] · slices_S100000x384_S100000x128_0_0) : (⟨S100000x384, .f32⟩ : BufTy).Contents (Elt F) → (⟨S100000x128, .f32⟩ : BufTy).Contents (Elt F)),
    unary main_v97 main_v102 ((extractStridedSlice S100000x128 ![0, 128] · slices_S100000x384_S100000x128_0_128) : (⟨S100000x384, .f32⟩ : BufTy).Contents (Elt F) → (⟨S100000x128, .f32⟩ : BufTy).Contents (Elt F)),
    unary main_v97 main_v103 ((extractStridedSlice S100000x128 ![0, 256] · slices_S100000x384_S100000x128_0_256) : (⟨S100000x384, .f32⟩ : BufTy).Contents (Elt F) → (⟨S100000x128, .f32⟩ : BufTy).Contents (Elt F)),
    binary main_v98 main_v101 main_v104 (addf : (⟨S100000x128, .f32⟩ : BufTy).Contents (Elt F) → (⟨S100000x128, .f32⟩ : BufTy).Contents (Elt F) → (⟨S100000x128, .f32⟩ : BufTy).Contents (Elt F)),
    unary main_v104 main_v105 (Host.negf : (⟨S100000x128, .f32⟩ : BufTy).Contents (Elt F) → (⟨S100000x128, .f32⟩ : BufTy).Contents (Elt F)),
    unary main_v105 main_v106 (Host.exp : (⟨S100000x128, .f32⟩ : BufTy).Contents (Elt F) → (⟨S100000x128, .f32⟩ : BufTy).Contents (Elt F)),
    nullary main_cst_10 (constant S_ .f32 0x3F800000#32),
    unary main_cst_10 main_v107 (broadcastInDim S100000x128 ![] bcast_S_S100000x128 : (⟨S_, .f32⟩ : BufTy).Contents (Elt F) → (⟨S100000x128, .f32⟩ : BufTy).Contents (Elt F)),
    binary main_v107 main_v106 main_v108 (addf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3F800000#32),
    unary main_cst_11 main_v109 (broadcastInDim S100000x128 ![] bcast_S_S100000x128 : (⟨S_, .f32⟩ : BufTy).Contents (Elt F) → (⟨S100000x128, .f32⟩ : BufTy).Contents (Elt F)),
    binary main_v109 main_v108 main_v110 (Host.divf : (⟨S100000x128, .f32⟩ : BufTy).Contents (Elt F) → (⟨S100000x128, .f32⟩ : BufTy).Contents (Elt F) → (⟨S100000x128, .f32⟩ : BufTy).Contents (Elt F)),
    binary main_v99 main_v102 main_v111 (addf : (⟨S100000x128, .f32⟩ : BufTy).Contents (Elt F) → (⟨S100000x128, .f32⟩ : BufTy).Contents (Elt F) → (⟨S100000x128, .f32⟩ : BufTy).Contents (Elt F)),
    unary main_v111 main_v112 (Host.negf : (⟨S100000x128, .f32⟩ : BufTy).Contents (Elt F) → (⟨S100000x128, .f32⟩ : BufTy).Contents (Elt F)),
    unary main_v112 main_v113 (Host.exp : (⟨S100000x128, .f32⟩ : BufTy).Contents (Elt F) → (⟨S100000x128, .f32⟩ : BufTy).Contents (Elt F)),
    nullary main_cst_12 (constant S_ .f32 0x3F800000#32),
    unary main_cst_12 main_v114 (broadcastInDim S100000x128 ![] bcast_S_S100000x128 : (⟨S_, .f32⟩ : BufTy).Contents (Elt F) → (⟨S100000x128, .f32⟩ : BufTy).Contents (Elt F)),
    binary main_v114 main_v113 main_v115 (addf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3F800000#32),
    unary main_cst_13 main_v116 (broadcastInDim S100000x128 ![] bcast_S_S100000x128 : (⟨S_, .f32⟩ : BufTy).Contents (Elt F) → (⟨S100000x128, .f32⟩ : BufTy).Contents (Elt F)),
    binary main_v116 main_v115 main_v117 (Host.divf : (⟨S100000x128, .f32⟩ : BufTy).Contents (Elt F) → (⟨S100000x128, .f32⟩ : BufTy).Contents (Elt F) → (⟨S100000x128, .f32⟩ : BufTy).Contents (Elt F)),
    binary main_v110 main_v103 main_v118 (mulf : (⟨S100000x128, .f32⟩ : BufTy).Contents (Elt F) → (⟨S100000x128, .f32⟩ : BufTy).Contents (Elt F) → (⟨S100000x128, .f32⟩ : BufTy).Contents (Elt F)),
    binary main_v100 main_v118 main_v119 (addf : (⟨S100000x128, .f32⟩ : BufTy).Contents (Elt F) → (⟨S100000x128, .f32⟩ : BufTy).Contents (Elt F) → (⟨S100000x128, .f32⟩ : BufTy).Contents (Elt F)),
    unary main_v119 main_v120 (Host.tanh : (⟨S100000x128, .f32⟩ : BufTy).Contents (Elt F) → (⟨S100000x128, .f32⟩ : BufTy).Contents (Elt F)),
    nullary main_cst_14 (constant S_ .f32 0x3F800000#32),
    unary main_cst_14 main_v121 (broadcastInDim S100000x128 ![] bcast_S_S100000x128 : (⟨S_, .f32⟩ : BufTy).Contents (Elt F) → (⟨S100000x128, .f32⟩ : BufTy).Contents (Elt F)),
    binary main_v121 main_v117 main_v122 (subf : (⟨S100000x128, .f32⟩ : BufTy).Contents (Elt F) → (⟨S100000x128, .f32⟩ : BufTy).Contents (Elt F) → (⟨S100000x128, .f32⟩ : BufTy).Contents (Elt F)),
    binary main_v122 main_v120 main_v123 (mulf : (⟨S100000x128, .f32⟩ : BufTy).Contents (Elt F) → (⟨S100000x128, .f32⟩ : BufTy).Contents (Elt F) → (⟨S100000x128, .f32⟩ : BufTy).Contents (Elt F)),
    binary main_v117 main_v74 main_v124 (mulf : (⟨S100000x128, .f32⟩ : BufTy).Contents (Elt F) → (⟨S100000x128, .f32⟩ : BufTy).Contents (Elt F) → (⟨S100000x128, .f32⟩ : BufTy).Contents (Elt F)),
    binary main_v123 main_v124 main_v125 (addf : (⟨S100000x128, .f32⟩ : BufTy).Contents (Elt F) → (⟨S100000x128, .f32⟩ : BufTy).Contents (Elt F) → (⟨S100000x128, .f32⟩ : BufTy).Contents (Elt F)) ]

/-- The third step's messages: operations 145 to 160 of the program. -/
def chunk6 : List (HloOp τ sig (Elt F)) :=
  [ unary main_arg9 main_v126 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v126 main_v127 rfl shapeCasts_S1x128x128_S128x128,
    binary main_v125 main_v127 main_v128 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_15 (constantI S_ 32 0#32),
    unary main_c_15 main_v129 (broadcastInDim S1600000 ![] bcast_S_S1600000 : (⟨S_, .i32⟩ : BufTy).Contents (Elt F) → (⟨S1600000, .i32⟩ : BufTy).Contents (Elt F)),
    binary main_v21 main_v129 main_v130 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v131 (broadcastInDim S1600000 ![] bcast_S_S1600000 : (⟨S_, .i32⟩ : BufTy).Contents (Elt F) → (⟨S1600000, .i32⟩ : BufTy).Contents (Elt F)),
    binary main_v21 main_v131 main_v132 (addi : (⟨S1600000, .i32⟩ : BufTy).Contents (Elt F) → (⟨S1600000, .i32⟩ : BufTy).Contents (Elt F) → (⟨S1600000, .i32⟩ : BufTy).Contents (Elt F)),
    ternary main_v130 main_v132 main_v21 main_v133 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v133 main_v134 (broadcastInDim S1600000x1 ![0] bcast_S1600000_S1600000x1_0 : (⟨S1600000, .i32⟩ : BufTy).Contents (Elt F) → (⟨S1600000x1, .i32⟩ : BufTy).Contents (Elt F)),
    binary main_v128 main_v134 main_v135 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_17 (constant S_ .f32 0x00000000#32),
    unary main_cst_17 main_v136 (broadcastInDim S100000x128 ![] bcast_S_S100000x128 : (⟨S_, .f32⟩ : BufTy).Contents (Elt F) → (⟨S100000x128, .f32⟩ : BufTy).Contents (Elt F)),
    unary main_v23 main_v137 (broadcastInDim S1600000x1 ![0] bcast_S1600000_S1600000x1_0 : (⟨S1600000, .i32⟩ : BufTy).Contents (Elt F) → (⟨S1600000x1, .i32⟩ : BufTy).Contents (Elt F)),
    ternary main_v136 main_v137 main_v135 main_v138 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The third step's update: operations 161 to 203 of the program. -/
def chunk7 : List (HloOp τ sig (Elt F)) :=
  [ unary main_arg10 main_v139 ((transpose S128x384 [1, 0] · transposes_S384x128_S128x384_1_0) : (⟨S384x128, .f32⟩ : BufTy).Contents (Elt F) → (⟨S128x384, .f32⟩ : BufTy).Contents (Elt F)),
    binary main_v138 main_v139 main_v140 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg12 main_v141 (broadcastInDim S1x384 ![1] bcast_S384_S1x384_1 : (⟨S384, .f32⟩ : BufTy).Contents (Elt F) → (⟨S1x384, .f32⟩ : BufTy).Contents (Elt F)),
    unary main_v141 main_v142 (broadcastInDim S100000x384 ![0, 1] bcast_S1x384_S100000x384_0_1 : (⟨S1x384, .f32⟩ : BufTy).Contents (Elt F) → (⟨S100000x384, .f32⟩ : BufTy).Contents (Elt F)),
    binary main_v140 main_v142 main_v143 (addf : (⟨S100000x384, .f32⟩ : BufTy).Contents (Elt F) → (⟨S100000x384, .f32⟩ : BufTy).Contents (Elt F) → (⟨S100000x384, .f32⟩ : BufTy).Contents (Elt F)),
    unary main_arg11 main_v144 ((transpose S128x384 [1, 0] · transposes_S384x128_S128x384_1_0) : (⟨S384x128, .f32⟩ : BufTy).Contents (Elt F) → (⟨S128x384, .f32⟩ : BufTy).Contents (Elt F)),
    binary main_v125 main_v144 main_v145 ((fun l r => Host.dotGeneral dot_S100000x128_S128x384_S100000x384_1_0_0_1_n_n none l r) : (⟨S100000x128, .f32⟩ : BufTy).Contents (Elt F) → (⟨S128x384, .f32⟩ : BufTy).Contents (Elt F) → (⟨S100000x384, .f32⟩ : BufTy).Contents (Elt F)),
    unary main_arg13 main_v146 (broadcastInDim S1x384 ![1] bcast_S384_S1x384_1 : (⟨S384, .f32⟩ : BufTy).Contents (Elt F) → (⟨S1x384, .f32⟩ : BufTy).Contents (Elt F)),
    unary main_v146 main_v147 (broadcastInDim S100000x384 ![0, 1] bcast_S1x384_S100000x384_0_1 : (⟨S1x384, .f32⟩ : BufTy).Contents (Elt F) → (⟨S100000x384, .f32⟩ : BufTy).Contents (Elt F)),
    binary main_v145 main_v147 main_v148 (addf : (⟨S100000x384, .f32⟩ : BufTy).Contents (Elt F) → (⟨S100000x384, .f32⟩ : BufTy).Contents (Elt F) → (⟨S100000x384, .f32⟩ : BufTy).Contents (Elt F)),
    unary main_v143 main_v149 ((extractStridedSlice S100000x128 ![0, 0] · slices_S100000x384_S100000x128_0_0) : (⟨S100000x384, .f32⟩ : BufTy).Contents (Elt F) → (⟨S100000x128, .f32⟩ : BufTy).Contents (Elt F)),
    unary main_v143 main_v150 ((extractStridedSlice S100000x128 ![0, 128] · slices_S100000x384_S100000x128_0_128) : (⟨S100000x384, .f32⟩ : BufTy).Contents (Elt F) → (⟨S100000x128, .f32⟩ : BufTy).Contents (Elt F)),
    unary main_v143 main_v151 ((extractStridedSlice S100000x128 ![0, 256] · slices_S100000x384_S100000x128_0_256) : (⟨S100000x384, .f32⟩ : BufTy).Contents (Elt F) → (⟨S100000x128, .f32⟩ : BufTy).Contents (Elt F)),
    unary main_v148 main_v152 ((extractStridedSlice S100000x128 ![0, 0] · slices_S100000x384_S100000x128_0_0) : (⟨S100000x384, .f32⟩ : BufTy).Contents (Elt F) → (⟨S100000x128, .f32⟩ : BufTy).Contents (Elt F)),
    unary main_v148 main_v153 ((extractStridedSlice S100000x128 ![0, 128] · slices_S100000x384_S100000x128_0_128) : (⟨S100000x384, .f32⟩ : BufTy).Contents (Elt F) → (⟨S100000x128, .f32⟩ : BufTy).Contents (Elt F)),
    unary main_v148 main_v154 ((extractStridedSlice S100000x128 ![0, 256] · slices_S100000x384_S100000x128_0_256) : (⟨S100000x384, .f32⟩ : BufTy).Contents (Elt F) → (⟨S100000x128, .f32⟩ : BufTy).Contents (Elt F)),
    binary main_v149 main_v152 main_v155 (addf : (⟨S100000x128, .f32⟩ : BufTy).Contents (Elt F) → (⟨S100000x128, .f32⟩ : BufTy).Contents (Elt F) → (⟨S100000x128, .f32⟩ : BufTy).Contents (Elt F)),
    unary main_v155 main_v156 (Host.negf : (⟨S100000x128, .f32⟩ : BufTy).Contents (Elt F) → (⟨S100000x128, .f32⟩ : BufTy).Contents (Elt F)),
    unary main_v156 main_v157 (Host.exp : (⟨S100000x128, .f32⟩ : BufTy).Contents (Elt F) → (⟨S100000x128, .f32⟩ : BufTy).Contents (Elt F)),
    nullary main_cst_18 (constant S_ .f32 0x3F800000#32),
    unary main_cst_18 main_v158 (broadcastInDim S100000x128 ![] bcast_S_S100000x128 : (⟨S_, .f32⟩ : BufTy).Contents (Elt F) → (⟨S100000x128, .f32⟩ : BufTy).Contents (Elt F)),
    binary main_v158 main_v157 main_v159 (addf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x3F800000#32),
    unary main_cst_19 main_v160 (broadcastInDim S100000x128 ![] bcast_S_S100000x128 : (⟨S_, .f32⟩ : BufTy).Contents (Elt F) → (⟨S100000x128, .f32⟩ : BufTy).Contents (Elt F)),
    binary main_v160 main_v159 main_v161 (Host.divf : (⟨S100000x128, .f32⟩ : BufTy).Contents (Elt F) → (⟨S100000x128, .f32⟩ : BufTy).Contents (Elt F) → (⟨S100000x128, .f32⟩ : BufTy).Contents (Elt F)),
    binary main_v150 main_v153 main_v162 (addf : (⟨S100000x128, .f32⟩ : BufTy).Contents (Elt F) → (⟨S100000x128, .f32⟩ : BufTy).Contents (Elt F) → (⟨S100000x128, .f32⟩ : BufTy).Contents (Elt F)),
    unary main_v162 main_v163 (Host.negf : (⟨S100000x128, .f32⟩ : BufTy).Contents (Elt F) → (⟨S100000x128, .f32⟩ : BufTy).Contents (Elt F)),
    unary main_v163 main_v164 (Host.exp : (⟨S100000x128, .f32⟩ : BufTy).Contents (Elt F) → (⟨S100000x128, .f32⟩ : BufTy).Contents (Elt F)),
    nullary main_cst_20 (constant S_ .f32 0x3F800000#32),
    unary main_cst_20 main_v165 (broadcastInDim S100000x128 ![] bcast_S_S100000x128 : (⟨S_, .f32⟩ : BufTy).Contents (Elt F) → (⟨S100000x128, .f32⟩ : BufTy).Contents (Elt F)),
    binary main_v165 main_v164 main_v166 (addf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3F800000#32),
    unary main_cst_21 main_v167 (broadcastInDim S100000x128 ![] bcast_S_S100000x128 : (⟨S_, .f32⟩ : BufTy).Contents (Elt F) → (⟨S100000x128, .f32⟩ : BufTy).Contents (Elt F)),
    binary main_v167 main_v166 main_v168 (Host.divf : (⟨S100000x128, .f32⟩ : BufTy).Contents (Elt F) → (⟨S100000x128, .f32⟩ : BufTy).Contents (Elt F) → (⟨S100000x128, .f32⟩ : BufTy).Contents (Elt F)),
    binary main_v161 main_v154 main_v169 (mulf : (⟨S100000x128, .f32⟩ : BufTy).Contents (Elt F) → (⟨S100000x128, .f32⟩ : BufTy).Contents (Elt F) → (⟨S100000x128, .f32⟩ : BufTy).Contents (Elt F)),
    binary main_v151 main_v169 main_v170 (addf : (⟨S100000x128, .f32⟩ : BufTy).Contents (Elt F) → (⟨S100000x128, .f32⟩ : BufTy).Contents (Elt F) → (⟨S100000x128, .f32⟩ : BufTy).Contents (Elt F)),
    unary main_v170 main_v171 (Host.tanh : (⟨S100000x128, .f32⟩ : BufTy).Contents (Elt F) → (⟨S100000x128, .f32⟩ : BufTy).Contents (Elt F)),
    nullary main_cst_22 (constant S_ .f32 0x3F800000#32),
    unary main_cst_22 main_v172 (broadcastInDim S100000x128 ![] bcast_S_S100000x128 : (⟨S_, .f32⟩ : BufTy).Contents (Elt F) → (⟨S100000x128, .f32⟩ : BufTy).Contents (Elt F)),
    binary main_v172 main_v168 main_v173 (subf : (⟨S100000x128, .f32⟩ : BufTy).Contents (Elt F) → (⟨S100000x128, .f32⟩ : BufTy).Contents (Elt F) → (⟨S100000x128, .f32⟩ : BufTy).Contents (Elt F)),
    binary main_v173 main_v171 main_v174 (mulf : (⟨S100000x128, .f32⟩ : BufTy).Contents (Elt F) → (⟨S100000x128, .f32⟩ : BufTy).Contents (Elt F) → (⟨S100000x128, .f32⟩ : BufTy).Contents (Elt F)),
    binary main_v168 main_v125 main_v175 (mulf : (⟨S100000x128, .f32⟩ : BufTy).Contents (Elt F) → (⟨S100000x128, .f32⟩ : BufTy).Contents (Elt F) → (⟨S100000x128, .f32⟩ : BufTy).Contents (Elt F)),
    binary main_v174 main_v175 main_v176 (addf : (⟨S100000x128, .f32⟩ : BufTy).Contents (Elt F) → (⟨S100000x128, .f32⟩ : BufTy).Contents (Elt F) → (⟨S100000x128, .f32⟩ : BufTy).Contents (Elt F)) ]

/-- The standardisation of the final states: operations 204 to 222 of the program. -/
def chunk8 : List (HloOp τ sig (Elt F)) :=
  [ unary main_arg16 main_v177 (broadcastInDim S1x128 ![1] bcast_S128_S1x128_1 : (⟨S128, .f32⟩ : BufTy).Contents (Elt F) → (⟨S1x128, .f32⟩ : BufTy).Contents (Elt F)),
    unary main_v177 main_v178 (broadcastInDim S100000x128 ![0, 1] bcast_S1x128_S100000x128_0_1 : (⟨S1x128, .f32⟩ : BufTy).Contents (Elt F) → (⟨S100000x128, .f32⟩ : BufTy).Contents (Elt F)),
    binary main_v176 main_v178 main_v179 (subf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x3727C5AC#32),
    unary main_cst_23 main_v180 (broadcastInDim S128 ![] bcast_S_S128 : (⟨S_, .f32⟩ : BufTy).Contents (Elt F) → (⟨S128, .f32⟩ : BufTy).Contents (Elt F)),
    binary main_arg17 main_v180 main_v181 (addf : (⟨S128, .f32⟩ : BufTy).Contents (Elt F) → (⟨S128, .f32⟩ : BufTy).Contents (Elt F) → (⟨S128, .f32⟩ : BufTy).Contents (Elt F)),
    unary main_v181 main_v182 (Host.rsqrt : (⟨S128, .f32⟩ : BufTy).Contents (Elt F) → (⟨S128, .f32⟩ : BufTy).Contents (Elt F)),
    unary main_v182 main_v183 (broadcastInDim S1x128 ![1] bcast_S128_S1x128_1 : (⟨S128, .f32⟩ : BufTy).Contents (Elt F) → (⟨S1x128, .f32⟩ : BufTy).Contents (Elt F)),
    unary main_v183 main_v184 (broadcastInDim S100000x128 ![0, 1] bcast_S1x128_S100000x128_0_1 : (⟨S1x128, .f32⟩ : BufTy).Contents (Elt F) → (⟨S100000x128, .f32⟩ : BufTy).Contents (Elt F)),
    binary main_v179 main_v184 main_v185 (mulf : (⟨S100000x128, .f32⟩ : BufTy).Contents (Elt F) → (⟨S100000x128, .f32⟩ : BufTy).Contents (Elt F) → (⟨S100000x128, .f32⟩ : BufTy).Contents (Elt F)),
    unary main_arg14 main_v186 (broadcastInDim S1x128 ![1] bcast_S128_S1x128_1 : (⟨S128, .f32⟩ : BufTy).Contents (Elt F) → (⟨S1x128, .f32⟩ : BufTy).Contents (Elt F)),
    unary main_v186 main_v187 (broadcastInDim S100000x128 ![0, 1] bcast_S1x128_S100000x128_0_1 : (⟨S1x128, .f32⟩ : BufTy).Contents (Elt F) → (⟨S100000x128, .f32⟩ : BufTy).Contents (Elt F)),
    binary main_v185 main_v187 main_v188 (mulf : (⟨S100000x128, .f32⟩ : BufTy).Contents (Elt F) → (⟨S100000x128, .f32⟩ : BufTy).Contents (Elt F) → (⟨S100000x128, .f32⟩ : BufTy).Contents (Elt F)),
    unary main_arg15 main_v189 (broadcastInDim S1x128 ![1] bcast_S128_S1x128_1 : (⟨S128, .f32⟩ : BufTy).Contents (Elt F) → (⟨S1x128, .f32⟩ : BufTy).Contents (Elt F)),
    unary main_v189 main_v190 (broadcastInDim S100000x128 ![0, 1] bcast_S1x128_S100000x128_0_1 : (⟨S1x128, .f32⟩ : BufTy).Contents (Elt F) → (⟨S100000x128, .f32⟩ : BufTy).Contents (Elt F)),
    binary main_v188 main_v190 main_v191 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v191) (TRef.of (T := ⟨S100000x128, .f32⟩) main_call1_v0) (TRef.of (T := ⟨S100000x128, .f32⟩) main_v192) maximumf ]

/-- The mean over each graph: operations 223 to 238 of the program. -/
def chunk9 : List (HloOp τ sig (Elt F)) :=
  [ nullary main_cst_24 (constant S_ .f32 0x3F800000#32),
    unary main_cst_24 main_v193 (broadcastInDim S100000 ![] bcast_S_S100000 : (⟨S_, .f32⟩ : BufTy).Contents (Elt F) → (⟨S100000, .f32⟩ : BufTy).Contents (Elt F)),
    nullary main_cst_25 (constant S_ .f32 0x00000000#32),
    unary main_cst_25 main_v194 (broadcastInDim S1024 ![] bcast_S_S1024 : (⟨S_, .f32⟩ : BufTy).Contents (Elt F) → (⟨S1024, .f32⟩ : BufTy).Contents (Elt F)),
    unary main_arg2 main_v195 (broadcastInDim S100000x1 ![0] bcast_S100000_S100000x1_0 : (⟨S100000, .i32⟩ : BufTy).Contents (Elt F) → (⟨S100000x1, .i32⟩ : BufTy).Contents (Elt F)),
    ternary main_v194 main_v195 main_v193 main_v196 ((fun x i u => Host.scatterAdd scatter_S1024_S100000x1_S100000_n_0_0_1 x i u) : (⟨S1024, .f32⟩ : BufTy).Contents (Elt F) → (⟨S100000x1, .i32⟩ : BufTy).Contents (Elt F) → (⟨S100000, .f32⟩ : BufTy).Contents (Elt F) → (⟨S1024, .f32⟩ : BufTy).Contents (Elt F)),
    nullary main_cst_26 (constant S_ .f32 0x00000000#32),
    unary main_cst_26 main_v197 (broadcastInDim S1024x128 ![] bcast_S_S1024x128 : (⟨S_, .f32⟩ : BufTy).Contents (Elt F) → (⟨S1024x128, .f32⟩ : BufTy).Contents (Elt F)),
    unary main_arg2 main_v198 (broadcastInDim S100000x1 ![0] bcast_S100000_S100000x1_0 : (⟨S100000, .i32⟩ : BufTy).Contents (Elt F) → (⟨S100000x1, .i32⟩ : BufTy).Contents (Elt F)),
    ternary main_v197 main_v198 main_v192 main_v199 ((fun x i u => Host.scatterAdd scatter_S1024x128_S100000x1_S100000x128_1_0_0_1 x i u) : (⟨S1024x128, .f32⟩ : BufTy).Contents (Elt F) → (⟨S100000x1, .i32⟩ : BufTy).Contents (Elt F) → (⟨S100000x128, .f32⟩ : BufTy).Contents (Elt F) → (⟨S1024x128, .f32⟩ : BufTy).Contents (Elt F)),
    nullary main_cst_27 (constant S_ .f32 0x3F800000#32),
    unary main_cst_27 main_v200 (broadcastInDim S1024 ![] bcast_S_S1024 : (⟨S_, .f32⟩ : BufTy).Contents (Elt F) → (⟨S1024, .f32⟩ : BufTy).Contents (Elt F)),
    binary main_v196 main_v200 main_v201 (maximumf : (⟨S1024, .f32⟩ : BufTy).Contents (Elt F) → (⟨S1024, .f32⟩ : BufTy).Contents (Elt F) → (⟨S1024, .f32⟩ : BufTy).Contents (Elt F)),
    unary main_v201 main_v202 (broadcastInDim S1024x1 ![0] bcast_S1024_S1024x1_0 : (⟨S1024, .f32⟩ : BufTy).Contents (Elt F) → (⟨S1024x1, .f32⟩ : BufTy).Contents (Elt F)),
    unary main_v202 main_v203 (broadcastInDim S1024x128 ![0, 1] bcast_S1024x1_S1024x128_0_1 : (⟨S1024x1, .f32⟩ : BufTy).Contents (Elt F) → (⟨S1024x128, .f32⟩ : BufTy).Contents (Elt F)),
    binary main_v199 main_v203 main_v204 (Host.divf : (⟨S1024x128, .f32⟩ : BufTy).Contents (Elt F) → (⟨S1024x128, .f32⟩ : BufTy).Contents (Elt F) → (⟨S1024x128, .f32⟩ : BufTy).Contents (Elt F)) ]

/-- The first read-out layer: operations 239 to 261 of the program. -/
def chunk10 : List (HloOp τ sig (Elt F)) :=
  [ binary main_v204 main_arg18 main_v205 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    unary main_arg19 main_v206 (broadcastInDim S1x128 ![1] bcast_S128_S1x128_1 : (⟨S128, .f32⟩ : BufTy).Contents (Elt F) → (⟨S1x128, .f32⟩ : BufTy).Contents (Elt F)),
    unary main_v206 main_v207 (broadcastInDim S1024x128 ![0, 1] bcast_S1x128_S1024x128_0_1 : (⟨S1x128, .f32⟩ : BufTy).Contents (Elt F) → (⟨S1024x128, .f32⟩ : BufTy).Contents (Elt F)),
    binary main_v205 main_v207 main_v208 (addf : (⟨S1024x128, .f32⟩ : BufTy).Contents (Elt F) → (⟨S1024x128, .f32⟩ : BufTy).Contents (Elt F) → (⟨S1024x128, .f32⟩ : BufTy).Contents (Elt F)),
    unary main_arg22 main_v209 (broadcastInDim S1x128 ![1] bcast_S128_S1x128_1 : (⟨S128, .f32⟩ : BufTy).Contents (Elt F) → (⟨S1x128, .f32⟩ : BufTy).Contents (Elt F)),
    unary main_v209 main_v210 (broadcastInDim S1024x128 ![0, 1] bcast_S1x128_S1024x128_0_1 : (⟨S1x128, .f32⟩ : BufTy).Contents (Elt F) → (⟨S1024x128, .f32⟩ : BufTy).Contents (Elt F)),
    binary main_v208 main_v210 main_v211 (subf : (⟨S1024x128, .f32⟩ : BufTy).Contents (Elt F) → (⟨S1024x128, .f32⟩ : BufTy).Contents (Elt F) → (⟨S1024x128, .f32⟩ : BufTy).Contents (Elt F)),
    nullary main_cst_28 (constant S_ .f32 0x3727C5AC#32),
    unary main_cst_28 main_v212 (broadcastInDim S128 ![] bcast_S_S128 : (⟨S_, .f32⟩ : BufTy).Contents (Elt F) → (⟨S128, .f32⟩ : BufTy).Contents (Elt F)),
    binary main_arg23 main_v212 main_v213 (addf : (⟨S128, .f32⟩ : BufTy).Contents (Elt F) → (⟨S128, .f32⟩ : BufTy).Contents (Elt F) → (⟨S128, .f32⟩ : BufTy).Contents (Elt F)),
    unary main_v213 main_v214 (Host.rsqrt : (⟨S128, .f32⟩ : BufTy).Contents (Elt F) → (⟨S128, .f32⟩ : BufTy).Contents (Elt F)),
    unary main_v214 main_v215 (broadcastInDim S1x128 ![1] bcast_S128_S1x128_1 : (⟨S128, .f32⟩ : BufTy).Contents (Elt F) → (⟨S1x128, .f32⟩ : BufTy).Contents (Elt F)),
    unary main_v215 main_v216 (broadcastInDim S1024x128 ![0, 1] bcast_S1x128_S1024x128_0_1 : (⟨S1x128, .f32⟩ : BufTy).Contents (Elt F) → (⟨S1024x128, .f32⟩ : BufTy).Contents (Elt F)),
    binary main_v211 main_v216 main_v217 (mulf : (⟨S1024x128, .f32⟩ : BufTy).Contents (Elt F) → (⟨S1024x128, .f32⟩ : BufTy).Contents (Elt F) → (⟨S1024x128, .f32⟩ : BufTy).Contents (Elt F)),
    unary main_arg20 main_v218 (broadcastInDim S1x128 ![1] bcast_S128_S1x128_1 : (⟨S128, .f32⟩ : BufTy).Contents (Elt F) → (⟨S1x128, .f32⟩ : BufTy).Contents (Elt F)),
    unary main_v218 main_v219 (broadcastInDim S1024x128 ![0, 1] bcast_S1x128_S1024x128_0_1 : (⟨S1x128, .f32⟩ : BufTy).Contents (Elt F) → (⟨S1024x128, .f32⟩ : BufTy).Contents (Elt F)),
    binary main_v217 main_v219 main_v220 (mulf : (⟨S1024x128, .f32⟩ : BufTy).Contents (Elt F) → (⟨S1024x128, .f32⟩ : BufTy).Contents (Elt F) → (⟨S1024x128, .f32⟩ : BufTy).Contents (Elt F)),
    unary main_arg21 main_v221 (broadcastInDim S1x128 ![1] bcast_S128_S1x128_1 : (⟨S128, .f32⟩ : BufTy).Contents (Elt F) → (⟨S1x128, .f32⟩ : BufTy).Contents (Elt F)),
    unary main_v221 main_v222 (broadcastInDim S1024x128 ![0, 1] bcast_S1x128_S1024x128_0_1 : (⟨S1x128, .f32⟩ : BufTy).Contents (Elt F) → (⟨S1024x128, .f32⟩ : BufTy).Contents (Elt F)),
    binary main_v220 main_v222 main_v223 (addf : (⟨S1024x128, .f32⟩ : BufTy).Contents (Elt F) → (⟨S1024x128, .f32⟩ : BufTy).Contents (Elt F) → (⟨S1024x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1024x128, .f32⟩) main_call2_v0) (broadcastInDim S1024x128 ![] bcast_S_S1024x128),
    TRef.binary (TRef.of (T := ⟨S1024x128, .f32⟩) main_v223) (TRef.of (T := ⟨S1024x128, .f32⟩) main_call2_v0) (TRef.of (T := ⟨S1024x128, .f32⟩) main_v224) maximumf ]

/-- The second read-out layer: operations 262 to 284 of the program. -/
def chunk11 : List (HloOp τ sig (Elt F)) :=
  [ binary main_v224 main_arg24 main_v225 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    unary main_arg25 main_v226 (broadcastInDim S1x64 ![1] bcast_S64_S1x64_1 : (⟨S64, .f32⟩ : BufTy).Contents (Elt F) → (⟨S1x64, .f32⟩ : BufTy).Contents (Elt F)),
    unary main_v226 main_v227 (broadcastInDim S1024x64 ![0, 1] bcast_S1x64_S1024x64_0_1 : (⟨S1x64, .f32⟩ : BufTy).Contents (Elt F) → (⟨S1024x64, .f32⟩ : BufTy).Contents (Elt F)),
    binary main_v225 main_v227 main_v228 (addf : (⟨S1024x64, .f32⟩ : BufTy).Contents (Elt F) → (⟨S1024x64, .f32⟩ : BufTy).Contents (Elt F) → (⟨S1024x64, .f32⟩ : BufTy).Contents (Elt F)),
    unary main_arg28 main_v229 (broadcastInDim S1x64 ![1] bcast_S64_S1x64_1 : (⟨S64, .f32⟩ : BufTy).Contents (Elt F) → (⟨S1x64, .f32⟩ : BufTy).Contents (Elt F)),
    unary main_v229 main_v230 (broadcastInDim S1024x64 ![0, 1] bcast_S1x64_S1024x64_0_1 : (⟨S1x64, .f32⟩ : BufTy).Contents (Elt F) → (⟨S1024x64, .f32⟩ : BufTy).Contents (Elt F)),
    binary main_v228 main_v230 main_v231 (subf : (⟨S1024x64, .f32⟩ : BufTy).Contents (Elt F) → (⟨S1024x64, .f32⟩ : BufTy).Contents (Elt F) → (⟨S1024x64, .f32⟩ : BufTy).Contents (Elt F)),
    nullary main_cst_29 (constant S_ .f32 0x3727C5AC#32),
    unary main_cst_29 main_v232 (broadcastInDim S64 ![] bcast_S_S64 : (⟨S_, .f32⟩ : BufTy).Contents (Elt F) → (⟨S64, .f32⟩ : BufTy).Contents (Elt F)),
    binary main_arg29 main_v232 main_v233 (addf : (⟨S64, .f32⟩ : BufTy).Contents (Elt F) → (⟨S64, .f32⟩ : BufTy).Contents (Elt F) → (⟨S64, .f32⟩ : BufTy).Contents (Elt F)),
    unary main_v233 main_v234 (Host.rsqrt : (⟨S64, .f32⟩ : BufTy).Contents (Elt F) → (⟨S64, .f32⟩ : BufTy).Contents (Elt F)),
    unary main_v234 main_v235 (broadcastInDim S1x64 ![1] bcast_S64_S1x64_1 : (⟨S64, .f32⟩ : BufTy).Contents (Elt F) → (⟨S1x64, .f32⟩ : BufTy).Contents (Elt F)),
    unary main_v235 main_v236 (broadcastInDim S1024x64 ![0, 1] bcast_S1x64_S1024x64_0_1 : (⟨S1x64, .f32⟩ : BufTy).Contents (Elt F) → (⟨S1024x64, .f32⟩ : BufTy).Contents (Elt F)),
    binary main_v231 main_v236 main_v237 (mulf : (⟨S1024x64, .f32⟩ : BufTy).Contents (Elt F) → (⟨S1024x64, .f32⟩ : BufTy).Contents (Elt F) → (⟨S1024x64, .f32⟩ : BufTy).Contents (Elt F)),
    unary main_arg26 main_v238 (broadcastInDim S1x64 ![1] bcast_S64_S1x64_1 : (⟨S64, .f32⟩ : BufTy).Contents (Elt F) → (⟨S1x64, .f32⟩ : BufTy).Contents (Elt F)),
    unary main_v238 main_v239 (broadcastInDim S1024x64 ![0, 1] bcast_S1x64_S1024x64_0_1 : (⟨S1x64, .f32⟩ : BufTy).Contents (Elt F) → (⟨S1024x64, .f32⟩ : BufTy).Contents (Elt F)),
    binary main_v237 main_v239 main_v240 (mulf : (⟨S1024x64, .f32⟩ : BufTy).Contents (Elt F) → (⟨S1024x64, .f32⟩ : BufTy).Contents (Elt F) → (⟨S1024x64, .f32⟩ : BufTy).Contents (Elt F)),
    unary main_arg27 main_v241 (broadcastInDim S1x64 ![1] bcast_S64_S1x64_1 : (⟨S64, .f32⟩ : BufTy).Contents (Elt F) → (⟨S1x64, .f32⟩ : BufTy).Contents (Elt F)),
    unary main_v241 main_v242 (broadcastInDim S1024x64 ![0, 1] bcast_S1x64_S1024x64_0_1 : (⟨S1x64, .f32⟩ : BufTy).Contents (Elt F) → (⟨S1024x64, .f32⟩ : BufTy).Contents (Elt F)),
    binary main_v240 main_v242 main_v243 (addf : (⟨S1024x64, .f32⟩ : BufTy).Contents (Elt F) → (⟨S1024x64, .f32⟩ : BufTy).Contents (Elt F) → (⟨S1024x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1024x64, .f32⟩) main_call3_v0) (broadcastInDim S1024x64 ![] bcast_S_S1024x64),
    TRef.binary (TRef.of (T := ⟨S1024x64, .f32⟩) main_v243) (TRef.of (T := ⟨S1024x64, .f32⟩) main_call3_v0) (TRef.of (T := ⟨S1024x64, .f32⟩) main_v244) maximumf ]

/-- The last read-out layer: operations 285 to 288 of the program. -/
def chunk12 : List (HloOp τ sig (Elt F)) :=
  [ binary main_v244 main_arg30 main_v245 ((fun l r => Host.dotGeneral dot_S1024x64_S64x2_S1024x2_1_0_0_1_n_n none l r) : (⟨S1024x64, .f32⟩ : BufTy).Contents (Elt F) → (⟨S64x2, .f32⟩ : BufTy).Contents (Elt F) → (⟨S1024x2, .f32⟩ : BufTy).Contents (Elt F)),
    unary main_arg31 main_v246 (broadcastInDim S1x2 ![1] bcast_S2_S1x2_1 : (⟨S2, .f32⟩ : BufTy).Contents (Elt F) → (⟨S1x2, .f32⟩ : BufTy).Contents (Elt F)),
    unary main_v246 main_v247 (broadcastInDim S1024x2 ![0, 1] bcast_S1x2_S1024x2_0_1 : (⟨S1x2, .f32⟩ : BufTy).Contents (Elt F) → (⟨S1024x2, .f32⟩ : BufTy).Contents (Elt F)),
    binary main_v245 main_v247 main_v248 (addf : (⟨S1024x2, .f32⟩ : BufTy).Contents (Elt F) → (⟨S1024x2, .f32⟩ : BufTy).Contents (Elt F) → (⟨S1024x2, .f32⟩ : BufTy).Contents (Elt F)) ]

set_option maxRecDepth 8192 in
set_option maxHeartbeats 4000000 in
/-- The program's operations are the chunks in order. -/
theorem ops_eq : (Cert.ReferenceIdeal.ValueP.ops : List (HloOp τ sig (Elt F)))
    = chunk0 ++ (chunk1 ++ (chunk2 ++ (chunk3 ++ (chunk4 ++ (chunk5 ++ (chunk6 ++ (chunk7 ++ (chunk8 ++ (chunk9 ++ (chunk10 ++ (chunk11 ++ (chunk12)))))))))))) := rfl

/-! ## What each chunk writes, and that it leaves the rest alone -/

/-- The buffers the embedding chunk writes. -/
abbrev written0 : List (Ref sig .tc) :=
  [main_v0, main_v1, main_v2, main_v3, main_v4, main_v5, main_v6, main_cst, main_v7, main_v8, main_v9, main_v10, main_v11, main_v12, main_v13, main_v14, main_v15, main_v16, main_v17, main_v18, main_call0_cst, main_call0_v0, main_v19]
theorem chunk0_writes : (chunk0 : List (HloOp τ sig (Elt F))).Forall fun op =>
    op.writes ⊆ (written0.map (Proc.devRef (τ := τ) .tc)).toFinset :=
  ⟨sub_of_mem main_v0 rfl (by decide),
   sub_of_mem main_v1 rfl (by decide),
   sub_of_mem main_v2 rfl (by decide),
   sub_of_mem main_v3 rfl (by decide),
   sub_of_mem main_v4 rfl (by decide),
   sub_of_mem main_v5 rfl (by decide),
   sub_of_mem main_v6 rfl (by decide),
   sub_of_mem main_cst rfl (by decide),
   sub_of_mem main_v7 rfl (by decide),
   sub_of_mem main_v8 rfl (by decide),
   sub_of_mem main_v9 rfl (by decide),
   sub_of_mem main_v10 rfl (by decide),
   sub_of_mem main_v11 rfl (by decide),
   sub_of_mem main_v12 rfl (by decide),
   sub_of_mem main_v13 rfl (by decide),
   sub_of_mem main_v14 rfl (by decide),
   sub_of_mem main_v15 rfl (by decide),
   sub_of_mem main_v16 rfl (by decide),
   sub_of_mem main_v17 rfl (by decide),
   sub_of_mem main_v18 rfl (by decide),
   sub_of_mem main_call0_cst rfl (by decide),
   sub_of_mem main_call0_v0 rfl (by decide),
   sub_of_mem main_v19 rfl (by decide)⟩
theorem keep0 (V : Valuation τ sig (Elt F)) (r : Ref sig .tc) (hr : r ∉ written0) :
    after chunk0 V (no_index (Proc.devRef .tc r)) = V (Proc.devRef .tc r) :=
  after_of_writes_sub chunk0 V chunk0_writes hr

/-- The buffers the edge lists chunk writes. -/
abbrev written1 : List (Ref sig .tc) :=
  [main_v20, main_v21, main_v22, main_v23]
theorem chunk1_writes : (chunk1 : List (HloOp τ sig (Elt F))).Forall fun op =>
    op.writes ⊆ (written1.map (Proc.devRef (τ := τ) .tc)).toFinset :=
  ⟨sub_of_mem main_v20 rfl (by decide),
   sub_of_mem main_v21 rfl (by decide),
   sub_of_mem main_v22 rfl (by decide),
   sub_of_mem main_v23 rfl (by decide)⟩
theorem keep1 (V : Valuation τ sig (Elt F)) (r : Ref sig .tc) (hr : r ∉ written1) :
    after chunk1 V (no_index (Proc.devRef .tc r)) = V (Proc.devRef .tc r) :=
  after_of_writes_sub chunk1 V chunk1_writes hr

/-- The buffers the first step's messages chunk writes. -/
abbrev written2 : List (Ref sig .tc) :=
  [main_v24, main_v25, main_v26, main_c, main_v27, main_v28, main_c_0, main_v29, main_v30, main_v31, main_v32, main_v33, main_cst_1, main_v34, main_v35, main_v36]
theorem chunk2_writes : (chunk2 : List (HloOp τ sig (Elt F))).Forall fun op =>
    op.writes ⊆ (written2.map (Proc.devRef (τ := τ) .tc)).toFinset :=
  ⟨sub_of_mem main_v24 rfl (by decide),
   sub_of_mem main_v25 rfl (by decide),
   sub_of_mem main_v26 rfl (by decide),
   sub_of_mem main_c rfl (by decide),
   sub_of_mem main_v27 rfl (by decide),
   sub_of_mem main_v28 rfl (by decide),
   sub_of_mem main_c_0 rfl (by decide),
   sub_of_mem main_v29 rfl (by decide),
   sub_of_mem main_v30 rfl (by decide),
   sub_of_mem main_v31 rfl (by decide),
   sub_of_mem main_v32 rfl (by decide),
   sub_of_mem main_v33 rfl (by decide),
   sub_of_mem main_cst_1 rfl (by decide),
   sub_of_mem main_v34 rfl (by decide),
   sub_of_mem main_v35 rfl (by decide),
   sub_of_mem main_v36 rfl (by decide)⟩
theorem keep2 (V : Valuation τ sig (Elt F)) (r : Ref sig .tc) (hr : r ∉ written2) :
    after chunk2 V (no_index (Proc.devRef .tc r)) = V (Proc.devRef .tc r) :=
  after_of_writes_sub chunk2 V chunk2_writes hr

/-- The buffers the first step's update chunk writes. -/
abbrev written3 : List (Ref sig .tc) :=
  [main_v37, main_v38, main_v39, main_v40, main_v41, main_v42, main_v43, main_v44, main_v45, main_v46, main_v47, main_v48, main_v49, main_v50, main_v51, main_v52, main_v53, main_v54, main_v55, main_cst_2, main_v56, main_v57, main_cst_3, main_v58, main_v59, main_v60, main_v61, main_v62, main_cst_4, main_v63, main_v64, main_cst_5, main_v65, main_v66, main_v67, main_v68, main_v69, main_cst_6, main_v70, main_v71, main_v72, main_v73, main_v74]
theorem chunk3_writes : (chunk3 : List (HloOp τ sig (Elt F))).Forall fun op =>
    op.writes ⊆ (written3.map (Proc.devRef (τ := τ) .tc)).toFinset :=
  ⟨sub_of_mem main_v37 rfl (by decide),
   sub_of_mem main_v38 rfl (by decide),
   sub_of_mem main_v39 rfl (by decide),
   sub_of_mem main_v40 rfl (by decide),
   sub_of_mem main_v41 rfl (by decide),
   sub_of_mem main_v42 rfl (by decide),
   sub_of_mem main_v43 rfl (by decide),
   sub_of_mem main_v44 rfl (by decide),
   sub_of_mem main_v45 rfl (by decide),
   sub_of_mem main_v46 rfl (by decide),
   sub_of_mem main_v47 rfl (by decide),
   sub_of_mem main_v48 rfl (by decide),
   sub_of_mem main_v49 rfl (by decide),
   sub_of_mem main_v50 rfl (by decide),
   sub_of_mem main_v51 rfl (by decide),
   sub_of_mem main_v52 rfl (by decide),
   sub_of_mem main_v53 rfl (by decide),
   sub_of_mem main_v54 rfl (by decide),
   sub_of_mem main_v55 rfl (by decide),
   sub_of_mem main_cst_2 rfl (by decide),
   sub_of_mem main_v56 rfl (by decide),
   sub_of_mem main_v57 rfl (by decide),
   sub_of_mem main_cst_3 rfl (by decide),
   sub_of_mem main_v58 rfl (by decide),
   sub_of_mem main_v59 rfl (by decide),
   sub_of_mem main_v60 rfl (by decide),
   sub_of_mem main_v61 rfl (by decide),
   sub_of_mem main_v62 rfl (by decide),
   sub_of_mem main_cst_4 rfl (by decide),
   sub_of_mem main_v63 rfl (by decide),
   sub_of_mem main_v64 rfl (by decide),
   sub_of_mem main_cst_5 rfl (by decide),
   sub_of_mem main_v65 rfl (by decide),
   sub_of_mem main_v66 rfl (by decide),
   sub_of_mem main_v67 rfl (by decide),
   sub_of_mem main_v68 rfl (by decide),
   sub_of_mem main_v69 rfl (by decide),
   sub_of_mem main_cst_6 rfl (by decide),
   sub_of_mem main_v70 rfl (by decide),
   sub_of_mem main_v71 rfl (by decide),
   sub_of_mem main_v72 rfl (by decide),
   sub_of_mem main_v73 rfl (by decide),
   sub_of_mem main_v74 rfl (by decide)⟩
theorem keep3 (V : Valuation τ sig (Elt F)) (r : Ref sig .tc) (hr : r ∉ written3) :
    after chunk3 V (no_index (Proc.devRef .tc r)) = V (Proc.devRef .tc r) :=
  after_of_writes_sub chunk3 V chunk3_writes hr

/-- The buffers the second step's messages chunk writes. -/
abbrev written4 : List (Ref sig .tc) :=
  [main_v75, main_v76, main_v77, main_c_7, main_v78, main_v79, main_c_8, main_v80, main_v81, main_v82, main_v83, main_v84, main_cst_9, main_v85, main_v86, main_v87]
theorem chunk4_writes : (chunk4 : List (HloOp τ sig (Elt F))).Forall fun op =>
    op.writes ⊆ (written4.map (Proc.devRef (τ := τ) .tc)).toFinset :=
  ⟨sub_of_mem main_v75 rfl (by decide),
   sub_of_mem main_v76 rfl (by decide),
   sub_of_mem main_v77 rfl (by decide),
   sub_of_mem main_c_7 rfl (by decide),
   sub_of_mem main_v78 rfl (by decide),
   sub_of_mem main_v79 rfl (by decide),
   sub_of_mem main_c_8 rfl (by decide),
   sub_of_mem main_v80 rfl (by decide),
   sub_of_mem main_v81 rfl (by decide),
   sub_of_mem main_v82 rfl (by decide),
   sub_of_mem main_v83 rfl (by decide),
   sub_of_mem main_v84 rfl (by decide),
   sub_of_mem main_cst_9 rfl (by decide),
   sub_of_mem main_v85 rfl (by decide),
   sub_of_mem main_v86 rfl (by decide),
   sub_of_mem main_v87 rfl (by decide)⟩
theorem keep4 (V : Valuation τ sig (Elt F)) (r : Ref sig .tc) (hr : r ∉ written4) :
    after chunk4 V (no_index (Proc.devRef .tc r)) = V (Proc.devRef .tc r) :=
  after_of_writes_sub chunk4 V chunk4_writes hr

/-- The buffers the second step's update chunk writes. -/
abbrev written5 : List (Ref sig .tc) :=
  [main_v88, main_v89, main_v90, main_v91, main_v92, main_v93, main_v94, main_v95, main_v96, main_v97, main_v98, main_v99, main_v100, main_v101, main_v102, main_v103, main_v104, main_v105, main_v106, main_cst_10, main_v107, main_v108, main_cst_11, main_v109, main_v110, main_v111, main_v112, main_v113, main_cst_12, main_v114, main_v115, main_cst_13, main_v116, main_v117, main_v118, main_v119, main_v120, main_cst_14, main_v121, main_v122, main_v123, main_v124, main_v125]
theorem chunk5_writes : (chunk5 : List (HloOp τ sig (Elt F))).Forall fun op =>
    op.writes ⊆ (written5.map (Proc.devRef (τ := τ) .tc)).toFinset :=
  ⟨sub_of_mem main_v88 rfl (by decide),
   sub_of_mem main_v89 rfl (by decide),
   sub_of_mem main_v90 rfl (by decide),
   sub_of_mem main_v91 rfl (by decide),
   sub_of_mem main_v92 rfl (by decide),
   sub_of_mem main_v93 rfl (by decide),
   sub_of_mem main_v94 rfl (by decide),
   sub_of_mem main_v95 rfl (by decide),
   sub_of_mem main_v96 rfl (by decide),
   sub_of_mem main_v97 rfl (by decide),
   sub_of_mem main_v98 rfl (by decide),
   sub_of_mem main_v99 rfl (by decide),
   sub_of_mem main_v100 rfl (by decide),
   sub_of_mem main_v101 rfl (by decide),
   sub_of_mem main_v102 rfl (by decide),
   sub_of_mem main_v103 rfl (by decide),
   sub_of_mem main_v104 rfl (by decide),
   sub_of_mem main_v105 rfl (by decide),
   sub_of_mem main_v106 rfl (by decide),
   sub_of_mem main_cst_10 rfl (by decide),
   sub_of_mem main_v107 rfl (by decide),
   sub_of_mem main_v108 rfl (by decide),
   sub_of_mem main_cst_11 rfl (by decide),
   sub_of_mem main_v109 rfl (by decide),
   sub_of_mem main_v110 rfl (by decide),
   sub_of_mem main_v111 rfl (by decide),
   sub_of_mem main_v112 rfl (by decide),
   sub_of_mem main_v113 rfl (by decide),
   sub_of_mem main_cst_12 rfl (by decide),
   sub_of_mem main_v114 rfl (by decide),
   sub_of_mem main_v115 rfl (by decide),
   sub_of_mem main_cst_13 rfl (by decide),
   sub_of_mem main_v116 rfl (by decide),
   sub_of_mem main_v117 rfl (by decide),
   sub_of_mem main_v118 rfl (by decide),
   sub_of_mem main_v119 rfl (by decide),
   sub_of_mem main_v120 rfl (by decide),
   sub_of_mem main_cst_14 rfl (by decide),
   sub_of_mem main_v121 rfl (by decide),
   sub_of_mem main_v122 rfl (by decide),
   sub_of_mem main_v123 rfl (by decide),
   sub_of_mem main_v124 rfl (by decide),
   sub_of_mem main_v125 rfl (by decide)⟩
theorem keep5 (V : Valuation τ sig (Elt F)) (r : Ref sig .tc) (hr : r ∉ written5) :
    after chunk5 V (no_index (Proc.devRef .tc r)) = V (Proc.devRef .tc r) :=
  after_of_writes_sub chunk5 V chunk5_writes hr

/-- The buffers the third step's messages chunk writes. -/
abbrev written6 : List (Ref sig .tc) :=
  [main_v126, main_v127, main_v128, main_c_15, main_v129, main_v130, main_c_16, main_v131, main_v132, main_v133, main_v134, main_v135, main_cst_17, main_v136, main_v137, main_v138]
theorem chunk6_writes : (chunk6 : List (HloOp τ sig (Elt F))).Forall fun op =>
    op.writes ⊆ (written6.map (Proc.devRef (τ := τ) .tc)).toFinset :=
  ⟨sub_of_mem main_v126 rfl (by decide),
   sub_of_mem main_v127 rfl (by decide),
   sub_of_mem main_v128 rfl (by decide),
   sub_of_mem main_c_15 rfl (by decide),
   sub_of_mem main_v129 rfl (by decide),
   sub_of_mem main_v130 rfl (by decide),
   sub_of_mem main_c_16 rfl (by decide),
   sub_of_mem main_v131 rfl (by decide),
   sub_of_mem main_v132 rfl (by decide),
   sub_of_mem main_v133 rfl (by decide),
   sub_of_mem main_v134 rfl (by decide),
   sub_of_mem main_v135 rfl (by decide),
   sub_of_mem main_cst_17 rfl (by decide),
   sub_of_mem main_v136 rfl (by decide),
   sub_of_mem main_v137 rfl (by decide),
   sub_of_mem main_v138 rfl (by decide)⟩
theorem keep6 (V : Valuation τ sig (Elt F)) (r : Ref sig .tc) (hr : r ∉ written6) :
    after chunk6 V (no_index (Proc.devRef .tc r)) = V (Proc.devRef .tc r) :=
  after_of_writes_sub chunk6 V chunk6_writes hr

/-- The buffers the third step's update chunk writes. -/
abbrev written7 : List (Ref sig .tc) :=
  [main_v139, main_v140, main_v141, main_v142, main_v143, main_v144, main_v145, main_v146, main_v147, main_v148, main_v149, main_v150, main_v151, main_v152, main_v153, main_v154, main_v155, main_v156, main_v157, main_cst_18, main_v158, main_v159, main_cst_19, main_v160, main_v161, main_v162, main_v163, main_v164, main_cst_20, main_v165, main_v166, main_cst_21, main_v167, main_v168, main_v169, main_v170, main_v171, main_cst_22, main_v172, main_v173, main_v174, main_v175, main_v176]
theorem chunk7_writes : (chunk7 : List (HloOp τ sig (Elt F))).Forall fun op =>
    op.writes ⊆ (written7.map (Proc.devRef (τ := τ) .tc)).toFinset :=
  ⟨sub_of_mem main_v139 rfl (by decide),
   sub_of_mem main_v140 rfl (by decide),
   sub_of_mem main_v141 rfl (by decide),
   sub_of_mem main_v142 rfl (by decide),
   sub_of_mem main_v143 rfl (by decide),
   sub_of_mem main_v144 rfl (by decide),
   sub_of_mem main_v145 rfl (by decide),
   sub_of_mem main_v146 rfl (by decide),
   sub_of_mem main_v147 rfl (by decide),
   sub_of_mem main_v148 rfl (by decide),
   sub_of_mem main_v149 rfl (by decide),
   sub_of_mem main_v150 rfl (by decide),
   sub_of_mem main_v151 rfl (by decide),
   sub_of_mem main_v152 rfl (by decide),
   sub_of_mem main_v153 rfl (by decide),
   sub_of_mem main_v154 rfl (by decide),
   sub_of_mem main_v155 rfl (by decide),
   sub_of_mem main_v156 rfl (by decide),
   sub_of_mem main_v157 rfl (by decide),
   sub_of_mem main_cst_18 rfl (by decide),
   sub_of_mem main_v158 rfl (by decide),
   sub_of_mem main_v159 rfl (by decide),
   sub_of_mem main_cst_19 rfl (by decide),
   sub_of_mem main_v160 rfl (by decide),
   sub_of_mem main_v161 rfl (by decide),
   sub_of_mem main_v162 rfl (by decide),
   sub_of_mem main_v163 rfl (by decide),
   sub_of_mem main_v164 rfl (by decide),
   sub_of_mem main_cst_20 rfl (by decide),
   sub_of_mem main_v165 rfl (by decide),
   sub_of_mem main_v166 rfl (by decide),
   sub_of_mem main_cst_21 rfl (by decide),
   sub_of_mem main_v167 rfl (by decide),
   sub_of_mem main_v168 rfl (by decide),
   sub_of_mem main_v169 rfl (by decide),
   sub_of_mem main_v170 rfl (by decide),
   sub_of_mem main_v171 rfl (by decide),
   sub_of_mem main_cst_22 rfl (by decide),
   sub_of_mem main_v172 rfl (by decide),
   sub_of_mem main_v173 rfl (by decide),
   sub_of_mem main_v174 rfl (by decide),
   sub_of_mem main_v175 rfl (by decide),
   sub_of_mem main_v176 rfl (by decide)⟩
theorem keep7 (V : Valuation τ sig (Elt F)) (r : Ref sig .tc) (hr : r ∉ written7) :
    after chunk7 V (no_index (Proc.devRef .tc r)) = V (Proc.devRef .tc r) :=
  after_of_writes_sub chunk7 V chunk7_writes hr

/-- The buffers the standardisation of the final states chunk writes. -/
abbrev written8 : List (Ref sig .tc) :=
  [main_v177, main_v178, main_v179, main_cst_23, main_v180, main_v181, main_v182, main_v183, main_v184, main_v185, main_v186, main_v187, main_v188, main_v189, main_v190, main_v191, main_call1_cst, main_call1_v0, main_v192]
theorem chunk8_writes : (chunk8 : List (HloOp τ sig (Elt F))).Forall fun op =>
    op.writes ⊆ (written8.map (Proc.devRef (τ := τ) .tc)).toFinset :=
  ⟨sub_of_mem main_v177 rfl (by decide),
   sub_of_mem main_v178 rfl (by decide),
   sub_of_mem main_v179 rfl (by decide),
   sub_of_mem main_cst_23 rfl (by decide),
   sub_of_mem main_v180 rfl (by decide),
   sub_of_mem main_v181 rfl (by decide),
   sub_of_mem main_v182 rfl (by decide),
   sub_of_mem main_v183 rfl (by decide),
   sub_of_mem main_v184 rfl (by decide),
   sub_of_mem main_v185 rfl (by decide),
   sub_of_mem main_v186 rfl (by decide),
   sub_of_mem main_v187 rfl (by decide),
   sub_of_mem main_v188 rfl (by decide),
   sub_of_mem main_v189 rfl (by decide),
   sub_of_mem main_v190 rfl (by decide),
   sub_of_mem main_v191 rfl (by decide),
   sub_of_mem main_call1_cst rfl (by decide),
   sub_of_mem main_call1_v0 rfl (by decide),
   sub_of_mem main_v192 rfl (by decide)⟩
theorem keep8 (V : Valuation τ sig (Elt F)) (r : Ref sig .tc) (hr : r ∉ written8) :
    after chunk8 V (no_index (Proc.devRef .tc r)) = V (Proc.devRef .tc r) :=
  after_of_writes_sub chunk8 V chunk8_writes hr

/-- The buffers the mean over each graph chunk writes. -/
abbrev written9 : List (Ref sig .tc) :=
  [main_cst_24, main_v193, main_cst_25, main_v194, main_v195, main_v196, main_cst_26, main_v197, main_v198, main_v199, main_cst_27, main_v200, main_v201, main_v202, main_v203, main_v204]
theorem chunk9_writes : (chunk9 : List (HloOp τ sig (Elt F))).Forall fun op =>
    op.writes ⊆ (written9.map (Proc.devRef (τ := τ) .tc)).toFinset :=
  ⟨sub_of_mem main_cst_24 rfl (by decide),
   sub_of_mem main_v193 rfl (by decide),
   sub_of_mem main_cst_25 rfl (by decide),
   sub_of_mem main_v194 rfl (by decide),
   sub_of_mem main_v195 rfl (by decide),
   sub_of_mem main_v196 rfl (by decide),
   sub_of_mem main_cst_26 rfl (by decide),
   sub_of_mem main_v197 rfl (by decide),
   sub_of_mem main_v198 rfl (by decide),
   sub_of_mem main_v199 rfl (by decide),
   sub_of_mem main_cst_27 rfl (by decide),
   sub_of_mem main_v200 rfl (by decide),
   sub_of_mem main_v201 rfl (by decide),
   sub_of_mem main_v202 rfl (by decide),
   sub_of_mem main_v203 rfl (by decide),
   sub_of_mem main_v204 rfl (by decide)⟩
theorem keep9 (V : Valuation τ sig (Elt F)) (r : Ref sig .tc) (hr : r ∉ written9) :
    after chunk9 V (no_index (Proc.devRef .tc r)) = V (Proc.devRef .tc r) :=
  after_of_writes_sub chunk9 V chunk9_writes hr

/-- The buffers the first read-out layer chunk writes. -/
abbrev written10 : List (Ref sig .tc) :=
  [main_v205, main_v206, main_v207, main_v208, main_v209, main_v210, main_v211, main_cst_28, main_v212, main_v213, main_v214, main_v215, main_v216, main_v217, main_v218, main_v219, main_v220, main_v221, main_v222, main_v223, main_call2_cst, main_call2_v0, main_v224]
theorem chunk10_writes : (chunk10 : List (HloOp τ sig (Elt F))).Forall fun op =>
    op.writes ⊆ (written10.map (Proc.devRef (τ := τ) .tc)).toFinset :=
  ⟨sub_of_mem main_v205 rfl (by decide),
   sub_of_mem main_v206 rfl (by decide),
   sub_of_mem main_v207 rfl (by decide),
   sub_of_mem main_v208 rfl (by decide),
   sub_of_mem main_v209 rfl (by decide),
   sub_of_mem main_v210 rfl (by decide),
   sub_of_mem main_v211 rfl (by decide),
   sub_of_mem main_cst_28 rfl (by decide),
   sub_of_mem main_v212 rfl (by decide),
   sub_of_mem main_v213 rfl (by decide),
   sub_of_mem main_v214 rfl (by decide),
   sub_of_mem main_v215 rfl (by decide),
   sub_of_mem main_v216 rfl (by decide),
   sub_of_mem main_v217 rfl (by decide),
   sub_of_mem main_v218 rfl (by decide),
   sub_of_mem main_v219 rfl (by decide),
   sub_of_mem main_v220 rfl (by decide),
   sub_of_mem main_v221 rfl (by decide),
   sub_of_mem main_v222 rfl (by decide),
   sub_of_mem main_v223 rfl (by decide),
   sub_of_mem main_call2_cst rfl (by decide),
   sub_of_mem main_call2_v0 rfl (by decide),
   sub_of_mem main_v224 rfl (by decide)⟩
theorem keep10 (V : Valuation τ sig (Elt F)) (r : Ref sig .tc) (hr : r ∉ written10) :
    after chunk10 V (no_index (Proc.devRef .tc r)) = V (Proc.devRef .tc r) :=
  after_of_writes_sub chunk10 V chunk10_writes hr

/-- The buffers the second read-out layer chunk writes. -/
abbrev written11 : List (Ref sig .tc) :=
  [main_v225, main_v226, main_v227, main_v228, main_v229, main_v230, main_v231, main_cst_29, main_v232, main_v233, main_v234, main_v235, main_v236, main_v237, main_v238, main_v239, main_v240, main_v241, main_v242, main_v243, main_call3_cst, main_call3_v0, main_v244]
theorem chunk11_writes : (chunk11 : List (HloOp τ sig (Elt F))).Forall fun op =>
    op.writes ⊆ (written11.map (Proc.devRef (τ := τ) .tc)).toFinset :=
  ⟨sub_of_mem main_v225 rfl (by decide),
   sub_of_mem main_v226 rfl (by decide),
   sub_of_mem main_v227 rfl (by decide),
   sub_of_mem main_v228 rfl (by decide),
   sub_of_mem main_v229 rfl (by decide),
   sub_of_mem main_v230 rfl (by decide),
   sub_of_mem main_v231 rfl (by decide),
   sub_of_mem main_cst_29 rfl (by decide),
   sub_of_mem main_v232 rfl (by decide),
   sub_of_mem main_v233 rfl (by decide),
   sub_of_mem main_v234 rfl (by decide),
   sub_of_mem main_v235 rfl (by decide),
   sub_of_mem main_v236 rfl (by decide),
   sub_of_mem main_v237 rfl (by decide),
   sub_of_mem main_v238 rfl (by decide),
   sub_of_mem main_v239 rfl (by decide),
   sub_of_mem main_v240 rfl (by decide),
   sub_of_mem main_v241 rfl (by decide),
   sub_of_mem main_v242 rfl (by decide),
   sub_of_mem main_v243 rfl (by decide),
   sub_of_mem main_call3_cst rfl (by decide),
   sub_of_mem main_call3_v0 rfl (by decide),
   sub_of_mem main_v244 rfl (by decide)⟩
theorem keep11 (V : Valuation τ sig (Elt F)) (r : Ref sig .tc) (hr : r ∉ written11) :
    after chunk11 V (no_index (Proc.devRef .tc r)) = V (Proc.devRef .tc r) :=
  after_of_writes_sub chunk11 V chunk11_writes hr

/-- The buffers the last read-out layer chunk writes. -/
abbrev written12 : List (Ref sig .tc) :=
  [main_v245, main_v246, main_v247, main_v248]
theorem chunk12_writes : (chunk12 : List (HloOp τ sig (Elt F))).Forall fun op =>
    op.writes ⊆ (written12.map (Proc.devRef (τ := τ) .tc)).toFinset :=
  ⟨sub_of_mem main_v245 rfl (by decide),
   sub_of_mem main_v246 rfl (by decide),
   sub_of_mem main_v247 rfl (by decide),
   sub_of_mem main_v248 rfl (by decide)⟩
theorem keep12 (V : Valuation τ sig (Elt F)) (r : Ref sig .tc) (hr : r ∉ written12) :
    after chunk12 V (no_index (Proc.devRef .tc r)) = V (Proc.devRef .tc r) :=
  after_of_writes_sub chunk12 V chunk12_writes hr

end Cert.RefNet

end
-- ==== Proof.LibHostStages.lean ====
/-
  THE HOST'S SPELLING OF THE STAGES OF A GATED GRAPH NETWORK, generic in the number of rows.

  A host program standardises an array column by column with stored statistics by broadcasting each statistics vector
  first to one row and then down all rows: it subtracts the mean, multiplies by the reciprocal square root of the
  variance plus a small constant, multiplies by the scale, adds the shift, and takes the larger of the result and a
  broadcast zero. Entry (p, q) of what it computes is 'relu1 (norm1 (Y (p, q)) (mu q) (v q) (g q) (be q))': the stage
  'normRelu' of the four vectors recast as one-row arrays. With a matrix product and a bias in front this is 'embed'.

  The gated recurrent cell is spelt from two arrays of gate pre-activations, 384 columns wide: the host cuts each into
  three blocks of 128 columns (columns q, 128 + q and 256 + q of the wide array sit at column q of the blocks), forms
  the reset and update gates as the quotients 1 / (1 + e^(-s)) — by definition the logistic function —, the candidate
  as a hyperbolic tangent, and mixes candidate and old state. Entry by entry this is 'gruCell', and with the two
  pre-activation arrays written as products plus biases it is the stage 'gru'.

  No law of arithmetic beyond the float pattern of one being the number one (inside the logistic quotient) is used:
  both spellings are the same expression entry by entry.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value
import proofs.«137501_j83021717832548_2_alg».proof.Proof.Stages

noncomputable section

open scoped BigOperators

namespace Cert.HostStages

open Idealize.ShloMosaic Idealize.ShloMosaic.ValueIdx Cert.LayerForms Cert.DenseStages Cert.MatOps Cert.Net

/-! ## Small readings -/

/-- A scalar constant broadcast to any shape reads, everywhere, the number its bit pattern denotes. -/
theorem bcast_const_apply {s : Shape} (h : (⟨0, ![]⟩ : Shape).BroadcastsInDim s ![]) (b : BitVec 32) (i : s.Idx) :
    broadcastInDim s ![] h (constant (F := Ideal) ⟨0, ![]⟩ .f32 b) i = Ideal.ofBits .f32 b :=
  broadcastInDim_apply ![] h _ i ix0 (fun a => a.elim0)

/-- The host's reciprocal square root, entry by entry. -/
theorem hostRsqrt_apply {s : Shape} (x : FVec Ideal s .f32) (i : s.Idx) : Host.rsqrt x i = Ideal.rsqrt (x i) := rfl

/-- The host's hyperbolic tangent, entry by entry. -/
theorem hostTanh_apply {s : Shape} (x : FVec Ideal s .f32) (i : s.Idx) : Host.tanh x i = Ideal.tanh (x i) := rfl

section
variable {N K C : Nat}

/-! ## Standardisation and cut-off -/

/-- The host standardises an array column by column — it subtracts the mean vector laid along every row, multiplies
    by the reciprocal square root of the variance vector plus a small constant, by the scale vector, adds the shift
    vector — and cuts off at zero: entry by entry this is 'normRelu' of the four vectors recast as one-row arrays. -/
theorem host_normRelu (Y : FVec Ideal ⟨2, ![N, C]⟩ .f32) (g be mu v : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (he : (⟨0, ![]⟩ : Shape).BroadcastsInDim ⟨1, ![C]⟩ ![])
    (h0 : (⟨0, ![]⟩ : Shape).BroadcastsInDim ⟨2, ![N, C]⟩ ![])
    (cb : (⟨1, ![C]⟩ : Shape).ShapeCasts ⟨2, ![1, C]⟩) :
    maximumf
        (addf
          (mulf
            (mulf (subf Y (broadcastInDim ⟨2, ![N, C]⟩ ![0, 1] hb2 (broadcastInDim ⟨2, ![1, C]⟩ ![1] hb1 mu)))
              (broadcastInDim ⟨2, ![N, C]⟩ ![0, 1] hb2 (broadcastInDim ⟨2, ![1, C]⟩ ![1] hb1
                (Host.rsqrt (addf v (broadcastInDim ⟨1, ![C]⟩ ![] he (constant (F := Ideal) ⟨0, ![]⟩ .f32 0x3727C5AC#32)))))))
            (broadcastInDim ⟨2, ![N, C]⟩ ![0, 1] hb2 (broadcastInDim ⟨2, ![1, C]⟩ ![1] hb1 g)))
          (broadcastInDim ⟨2, ![N, C]⟩ ![0, 1] hb2 (broadcastInDim ⟨2, ![1, C]⟩ ![1] hb1 be)))
        (broadcastInDim ⟨2, ![N, C]⟩ ![] h0 (constant (F := Ideal) ⟨0, ![]⟩ .f32 0x00000000#32))
      = normRelu Y (shapeCast ⟨2, ![1, C]⟩ g cb) (shapeCast ⟨2, ![1, C]⟩ be cb) (shapeCast ⟨2, ![1, C]⟩ mu cb)
          (shapeCast ⟨2, ![1, C]⟩ v cb) := by
  funext i
  obtain ⟨p, q, rfl⟩ : ∃ (p : Fin N) (q : Fin C), i = ix2 p q := ⟨i 0, i 1, eq_ix2 i⟩
  rw [normRelu_apply, shapeCast_a_1a_apply g cb (0 : Fin 1) q, shapeCast_a_1a_apply be cb (0 : Fin 1) q,
    shapeCast_a_1a_apply mu cb (0 : Fin 1) q, shapeCast_a_1a_apply v cb (0 : Fin 1) q]
  rw [maximumf_apply, addf_apply, mulf_apply, mulf_apply, subf_apply, bcast_const_apply h0,
    row_then_down mu hb1 hb2 p q, row_then_down g hb1 hb2 p q, row_then_down be hb1 hb2 p q,
    row_then_down _ hb1 hb2 p q, hostRsqrt_apply, addf_apply, bcast_const_apply he]
  rfl

/-- The host's embedding: a matrix product plus a bias vector, standardised and cut off. -/
theorem host_embed (d : DotDims ⟨2, ![N, K]⟩ ⟨2, ![K, C]⟩ ⟨2, ![N, C]⟩)
    (wf : DotDims.WF ⟨2, ![N, K]⟩ ⟨2, ![K, C]⟩ ⟨2, ![N, C]⟩ [1] [0] [0] [1] [] []) (hd : d = plainDot N K C wf)
    (X : FVec Ideal ⟨2, ![N, K]⟩ .f32) (W : FVec Ideal ⟨2, ![K, C]⟩ .f32) (b g be mu v : FVec Ideal ⟨1, ![C]⟩ .f32)
    (hb1 : (⟨1, ![C]⟩ : Shape).BroadcastsInDim ⟨2, ![1, C]⟩ ![1])
    (hb2 : (⟨2, ![1, C]⟩ : Shape).BroadcastsInDim ⟨2, ![N, C]⟩ ![0, 1])
    (he : (⟨0, ![]⟩ : Shape).BroadcastsInDim ⟨1, ![C]⟩ ![])
    (h0 : (⟨0, ![]⟩ : Shape).BroadcastsInDim ⟨2, ![N, C]⟩ ![])
    (cb : (⟨1, ![C]⟩ : Shape).ShapeCasts ⟨2, ![1, C]⟩) :
    maximumf
        (addf
          (mulf
            (mulf (subf (addf (Host.dotGeneral d none X W)
                    (broadcastInDim ⟨2, ![N, C]⟩ ![0, 1] hb2 (broadcastInDim ⟨2, ![1, C]⟩ ![1] hb1 b)))
                (broadcastInDim ⟨2, ![N, C]⟩ ![0, 1] hb2 (broadcastInDim ⟨2, ![1, C]⟩ ![1] hb1 mu)))
              (broadcastInDim ⟨2, ![N, C]⟩ ![0, 1] hb2 (broadcastInDim ⟨2, ![1, C]⟩ ![1] hb1
                (Host.rsqrt (addf v (broadcastInDim ⟨1, ![C]⟩ ![] he (constant (F := Ideal) ⟨0, ![]⟩ .f32 0x3727C5AC#32)))))))
            (broadcastInDim ⟨2, ![N, C]⟩ ![0, 1] hb2 (broadcastInDim ⟨2, ![1, C]⟩ ![1] hb1 g)))
          (broadcastInDim ⟨2, ![N, C]⟩ ![0, 1] hb2 (broadcastInDim ⟨2, ![1, C]⟩ ![1] hb1 be)))
        (broadcastInDim ⟨2, ![N, C]⟩ ![] h0 (constant (F := Ideal) ⟨0, ![]⟩ .f32 0x00000000#32))
      = embed X W (shapeCast ⟨2, ![1, C]⟩ b cb) (shapeCast ⟨2, ![1, C]⟩ g cb) (shapeCast ⟨2, ![1, C]⟩ be cb)
          (shapeCast ⟨2, ![1, C]⟩ mu cb) (shapeCast ⟨2, ![1, C]⟩ v cb) := by
  rw [host_affine d wf hd X W b hb1 hb2 cb, host_normRelu _ g be mu v hb1 hb2 he h0 cb]
  rfl

end

/-! ## The gated recurrent cell -/

section
variable {N : Nat}

/-- The host's cell from the two arrays of gate pre-activations (three blocks of 128 columns each): the reset and
    update gates are quotients 1 / (1 + e^(-s)) of the sums of the first and of the second blocks, the candidate the
    hyperbolic tangent of the third block of the one plus the reset gate times the third block of the other, the
    result (1 - update) · candidate + update · state. -/
theorem host_gruCell (gi gh : FVec Ideal ⟨2, ![N, 384]⟩ .f32) (H : FVec Ideal ⟨2, ![N, 128]⟩ .f32)
    (hs0 : (⟨2, ![N, 384]⟩ : Shape).Slices ![0, 0] ⟨2, ![N, 128]⟩)
    (hs1 : (⟨2, ![N, 384]⟩ : Shape).Slices ![0, 128] ⟨2, ![N, 128]⟩)
    (hs2 : (⟨2, ![N, 384]⟩ : Shape).Slices ![0, 256] ⟨2, ![N, 128]⟩)
    (h1 : (⟨0, ![]⟩ : Shape).BroadcastsInDim ⟨2, ![N, 128]⟩ ![]) :
    addf
        (mulf
          (subf (broadcastInDim ⟨2, ![N, 128]⟩ ![] h1 (constant (F := Ideal) ⟨0, ![]⟩ .f32 0x3F800000#32))
            (Host.divf (broadcastInDim ⟨2, ![N, 128]⟩ ![] h1 (constant (F := Ideal) ⟨0, ![]⟩ .f32 0x3F800000#32))
              (addf (broadcastInDim ⟨2, ![N, 128]⟩ ![] h1 (constant (F := Ideal) ⟨0, ![]⟩ .f32 0x3F800000#32))
                (Host.exp (Host.negf (addf (extractStridedSlice ⟨2, ![N, 128]⟩ ![0, 128] gi hs1)
                  (extractStridedSlice ⟨2, ![N, 128]⟩ ![0, 128] gh hs1)))))))
          (Host.tanh
            (addf (extractStridedSlice ⟨2, ![N, 128]⟩ ![0, 256] gi hs2)
              (mulf
                (Host.divf (broadcastInDim ⟨2, ![N, 128]⟩ ![] h1 (constant (F := Ideal) ⟨0, ![]⟩ .f32 0x3F800000#32))
                  (addf (broadcastInDim ⟨2, ![N, 128]⟩ ![] h1 (constant (F := Ideal) ⟨0, ![]⟩ .f32 0x3F800000#32))
                    (Host.exp (Host.negf (addf (extractStridedSlice ⟨2, ![N, 128]⟩ ![0, 0] gi hs0)
                      (extractStridedSlice ⟨2, ![N, 128]⟩ ![0, 0] gh hs0))))))
                (extractStridedSlice ⟨2, ![N, 128]⟩ ![0, 256] gh hs2)))))
        (mulf
          (Host.divf (broadcastInDim ⟨2, ![N, 128]⟩ ![] h1 (constant (F := Ideal) ⟨0, ![]⟩ .f32 0x3F800000#32))
            (addf (broadcastInDim ⟨2, ![N, 128]⟩ ![] h1 (constant (F := Ideal) ⟨0, ![]⟩ .f32 0x3F800000#32))
              (Host.exp (Host.negf (addf (extractStridedSlice ⟨2, ![N, 128]⟩ ![0, 128] gi hs1)
                (extractStridedSlice ⟨2, ![N, 128]⟩ ![0, 128] gh hs1))))))
          H)
      = fun i => gruCell (gi (ix2 (i 0 : Fin N) (colR (i 1)))) (gh (ix2 (i 0 : Fin N) (colR (i 1))))
          (gi (ix2 (i 0 : Fin N) (colZ (i 1)))) (gh (ix2 (i 0 : Fin N) (colZ (i 1))))
          (gi (ix2 (i 0 : Fin N) (colN (i 1)))) (gh (ix2 (i 0 : Fin N) (colN (i 1)))) (H i) := by
  rw [host_logistic _ h1, host_logistic _ h1]
  funext i
  obtain ⟨p, q, rfl⟩ : ∃ (p : Fin N) (q : Fin 128), i = ix2 p q := ⟨i 0, i 1, eq_ix2 i⟩
  show (broadcastInDim ⟨2, ![N, 128]⟩ ![] h1 (constant (F := Ideal) ⟨0, ![]⟩ .f32 0x3F800000#32) (ix2 p q)
        - Ideal.logistic (extractStridedSlice ⟨2, ![N, 128]⟩ ![0, 128] gi hs1 (ix2 p q)
            + extractStridedSlice ⟨2, ![N, 128]⟩ ![0, 128] gh hs1 (ix2 p q)))
      * Ideal.tanh (extractStridedSlice ⟨2, ![N, 128]⟩ ![0, 256] gi hs2 (ix2 p q)
          + Ideal.logistic (extractStridedSlice ⟨2, ![N, 128]⟩ ![0, 0] gi hs0 (ix2 p q)
              + extractStridedSlice ⟨2, ![N, 128]⟩ ![0, 0] gh hs0 (ix2 p q))
            * extractStridedSlice ⟨2, ![N, 128]⟩ ![0, 256] gh hs2 (ix2 p q))
      + Ideal.logistic (extractStridedSlice ⟨2, ![N, 128]⟩ ![0, 128] gi hs1 (ix2 p q)
            + extractStridedSlice ⟨2, ![N, 128]⟩ ![0, 128] gh hs1 (ix2 p q)) * H (ix2 p q)
    = gruCell (gi (ix2 p (colR q))) (gh (ix2 p (colR q))) (gi (ix2 p (colZ q))) (gh (ix2 p (colZ q)))
        (gi (ix2 p (colN q))) (gh (ix2 p (colN q))) (H (ix2 p q))
  rw [bcast_const_apply h1, slice2_axis1_apply 0 gi hs0 p q (colR q) (Nat.zero_add _).symm, slice2_axis1_apply 0 gh hs0 p q (colR q) (Nat.zero_add _).symm,
    slice2_axis1_apply 128 gi hs1 p q (colZ q) rfl, slice2_axis1_apply 128 gh hs1 p q (colZ q) rfl,
    slice2_axis1_apply 256 gi hs2 p q (colN q) rfl, slice2_axis1_apply 256 gh hs2 p q (colN q) rfl]
  rfl

/-- The host's gated recurrent update of every node: the two products with their bias vectors, then the cell. -/
theorem host_gru (d : DotDims ⟨2, ![N, 128]⟩ ⟨2, ![128, 384]⟩ ⟨2, ![N, 384]⟩)
    (wf : DotDims.WF ⟨2, ![N, 128]⟩ ⟨2, ![128, 384]⟩ ⟨2, ![N, 384]⟩ [1] [0] [0] [1] [] []) (hd : d = plainDot N 128 384 wf)
    (A H : FVec Ideal ⟨2, ![N, 128]⟩ .f32) (Wi Wh : FVec Ideal ⟨2, ![128, 384]⟩ .f32) (bi bh : FVec Ideal ⟨1, ![384]⟩ .f32)
    (hb1 : (⟨1, ![384]⟩ : Shape).BroadcastsInDim ⟨2, ![1, 384]⟩ ![1])
    (hb2 : (⟨2, ![1, 384]⟩ : Shape).BroadcastsInDim ⟨2, ![N, 384]⟩ ![0, 1])
    (cb : (⟨1, ![384]⟩ : Shape).ShapeCasts ⟨2, ![1, 384]⟩)
    (gi gh : FVec Ideal ⟨2, ![N, 384]⟩ .f32)
    (hgi : gi = addf (Host.dotGeneral d none A Wi)
      (broadcastInDim ⟨2, ![N, 384]⟩ ![0, 1] hb2 (broadcastInDim ⟨2, ![1, 384]⟩ ![1] hb1 bi)))
    (hgh : gh = addf (Host.dotGeneral d none H Wh)
      (broadcastInDim ⟨2, ![N, 384]⟩ ![0, 1] hb2 (broadcastInDim ⟨2, ![1, 384]⟩ ![1] hb1 bh))) :
    (fun i => gruCell (gi (ix2 (i 0 : Fin N) (colR (i 1)))) (gh (ix2 (i 0 : Fin N) (colR (i 1))))
          (gi (ix2 (i 0 : Fin N) (colZ (i 1)))) (gh (ix2 (i 0 : Fin N) (colZ (i 1))))
          (gi (ix2 (i 0 : Fin N) (colN (i 1)))) (gh (ix2 (i 0 : Fin N) (colN (i 1)))) (H i))
      = gru A H Wi Wh (shapeCast ⟨2, ![1, 384]⟩ bi cb) (shapeCast ⟨2, ![1, 384]⟩ bh cb) := by
  rw [hgi, hgh, host_affine d wf hd A Wi bi hb1 hb2 cb, host_affine d wf hd H Wh bh hb1 hb2 cb]
  rfl

/-- The host's gated recurrent update spelt out in full: the two arrays of gate pre-activations, each a product plus
    a bias vector laid along every row, cut into their three blocks and sent through the cell. -/
theorem host_gruFull (d : DotDims ⟨2, ![N, 128]⟩ ⟨2, ![128, 384]⟩ ⟨2, ![N, 384]⟩)
    (wf : DotDims.WF ⟨2, ![N, 128]⟩ ⟨2, ![128, 384]⟩ ⟨2, ![N, 384]⟩ [1] [0] [0] [1] [] []) (hd : d = plainDot N 128 384 wf)
    (A H : FVec Ideal ⟨2, ![N, 128]⟩ .f32) (Wi Wh : FVec Ideal ⟨2, ![128, 384]⟩ .f32) (bi bh : FVec Ideal ⟨1, ![384]⟩ .f32)
    (hb1 : (⟨1, ![384]⟩ : Shape).BroadcastsInDim ⟨2, ![1, 384]⟩ ![1])
    (hb2 : (⟨2, ![1, 384]⟩ : Shape).BroadcastsInDim ⟨2, ![N, 384]⟩ ![0, 1])
    (cb : (⟨1, ![384]⟩ : Shape).ShapeCasts ⟨2, ![1, 384]⟩)
    (hs0 : (⟨2, ![N, 384]⟩ : Shape).Slices ![0, 0] ⟨2, ![N, 128]⟩)
    (hs1 : (⟨2, ![N, 384]⟩ : Shape).Slices ![0, 128] ⟨2, ![N, 128]⟩)
    (hs2 : (⟨2, ![N, 384]⟩ : Shape).Slices ![0, 256] ⟨2, ![N, 128]⟩)
    (h1 : (⟨0, ![]⟩ : Shape).BroadcastsInDim ⟨2, ![N, 128]⟩ ![]) :
    addf
        (mulf
          (subf (broadcastInDim ⟨2, ![N, 128]⟩ ![] h1 (constant (F := Ideal) ⟨0, ![]⟩ .f32 0x3F800000#32))
            (Host.divf (broadcastInDim ⟨2, ![N, 128]⟩ ![] h1 (constant (F := Ideal) ⟨0, ![]⟩ .f32 0x3F800000#32))
              (addf (broadcastInDim ⟨2, ![N, 128]⟩ ![] h1 (constant (F := Ideal) ⟨0, ![]⟩ .f32 0x3F800000#32))
                (Host.exp (Host.negf (addf (extractStridedSlice ⟨2, ![N, 128]⟩ ![0, 128] (addf (Host.dotGeneral d none A Wi) (broadcastInDim ⟨2, ![N, 384]⟩ ![0, 1] hb2 (broadcastInDim ⟨2, ![1, 384]⟩ ![1] hb1 bi))) hs1)
                  (extractStridedSlice ⟨2, ![N, 128]⟩ ![0, 128] (addf (Host.dotGeneral d none H Wh) (broadcastInDim ⟨2, ![N, 384]⟩ ![0, 1] hb2 (broadcastInDim ⟨2, ![1, 384]⟩ ![1] hb1 bh))) hs1)))))))
          (Host.tanh
            (addf (extractStridedSlice ⟨2, ![N, 128]⟩ ![0, 256] (addf (Host.dotGeneral d none A Wi) (broadcastInDim ⟨2, ![N, 384]⟩ ![0, 1] hb2 (broadcastInDim ⟨2, ![1, 384]⟩ ![1] hb1 bi))) hs2)
              (mulf
                (Host.divf (broadcastInDim ⟨2, ![N, 128]⟩ ![] h1 (constant (F := Ideal) ⟨0, ![]⟩ .f32 0x3F800000#32))
                  (addf (broadcastInDim ⟨2, ![N, 128]⟩ ![] h1 (constant (F := Ideal) ⟨0, ![]⟩ .f32 0x3F800000#32))
                    (Host.exp (Host.negf (addf (extractStridedSlice ⟨2, ![N, 128]⟩ ![0, 0] (addf (Host.dotGeneral d none A Wi) (broadcastInDim ⟨2, ![N, 384]⟩ ![0, 1] hb2 (broadcastInDim ⟨2, ![1, 384]⟩ ![1] hb1 bi))) hs0)
                      (extractStridedSlice ⟨2, ![N, 128]⟩ ![0, 0] (addf (Host.dotGeneral d none H Wh) (broadcastInDim ⟨2, ![N, 384]⟩ ![0, 1] hb2 (broadcastInDim ⟨2, ![1, 384]⟩ ![1] hb1 bh))) hs0))))))
                (extractStridedSlice ⟨2, ![N, 128]⟩ ![0, 256] (addf (Host.dotGeneral d none H Wh) (broadcastInDim ⟨2, ![N, 384]⟩ ![0, 1] hb2 (broadcastInDim ⟨2, ![1, 384]⟩ ![1] hb1 bh))) hs2)))))
        (mulf
          (Host.divf (broadcastInDim ⟨2, ![N, 128]⟩ ![] h1 (constant (F := Ideal) ⟨0, ![]⟩ .f32 0x3F800000#32))
            (addf (broadcastInDim ⟨2, ![N, 128]⟩ ![] h1 (constant (F := Ideal) ⟨0, ![]⟩ .f32 0x3F800000#32))
              (Host.exp (Host.negf (addf (extractStridedSlice ⟨2, ![N, 128]⟩ ![0, 128] (addf (Host.dotGeneral d none A Wi) (broadcastInDim ⟨2, ![N, 384]⟩ ![0, 1] hb2 (broadcastInDim ⟨2, ![1, 384]⟩ ![1] hb1 bi))) hs1)
                (extractStridedSlice ⟨2, ![N, 128]⟩ ![0, 128] (addf (Host.dotGeneral d none H Wh) (broadcastInDim ⟨2, ![N, 384]⟩ ![0, 1] hb2 (broadcastInDim ⟨2, ![1, 384]⟩ ![1] hb1 bh))) hs1))))))
          H)
      = gru A H Wi Wh (shapeCast ⟨2, ![1, 384]⟩ bi cb) (shapeCast ⟨2, ![1, 384]⟩ bh cb) :=
  (host_gruCell _ _ H hs0 hs1 hs2 h1).trans (host_gru d wf hd A H Wi Wh bi bh hb1 hb2 cb _ _ rfl rfl)

end

end Cert.HostStages

end
-- ==== Proof.RefStages.lean ====
/-
  THE REFERENCE PROGRAM STAGE BY STAGE.

  For each of the thirteen chunks of the reference's operations, and for ANY contents V of the buffers before the
  chunk, the stage's last buffer after the chunk is the network's stage function of the contents of the few buffers the
  chunk reads: the embedding, the two edge lists, for each propagation step the collected messages and the gated
  recurrent update, the standardisation, the mean over each graph, the read-out layers. Each is read off the chunk's
  operations one by one and then recognised as the host's spelling of the stage.
-/
import proofs.«137501_j83021717832548_2_alg».proof.Proof.RefChunks
import proofs.«137501_j83021717832548_2_alg».proof.Proof.Gen.KernelIdeal
import proofs.«137501_j83021717832548_2_alg».proof.Proof.Net
import proofs.«137501_j83021717832548_2_alg».proof.Proof.LibHostStages

noncomputable section

namespace Cert.RefNet

open Idealize.ShloMosaic Idealize.ShloMosaic.ValueIdx Idealize.ShloMosaic.StableHlo Idealize.SL.Sem
open Cert.LayerForms Cert.DenseStages Cert.MatOps Cert.HostStages Cert.Net
open Cert.ReferenceIdeal

/-! ## The two programs' dimension records are the same records -/

theorem gatherRows_eq : Cert.ReferenceIdeal.gather_S100000x128_S1600000x1_S1600000x128_1_0_n_n_0_1_1128
    = Cert.KernelIdeal.gather_S100000x128_S1600000x1_S1600000x128_1_0_n_n_0_1_1128 := rfl
theorem scatterRows_eq : Cert.ReferenceIdeal.scatter_S100000x128_S1600000x1_S1600000x128_1_0_0_1
    = Cert.KernelIdeal.scatter_S100000x128_S1600000x1_S1600000x128_1_0_0_1 := rfl
theorem scatterPool_eq : Cert.ReferenceIdeal.scatter_S1024x128_S100000x1_S100000x128_1_0_0_1
    = Cert.KernelIdeal.scatter_S1024x128_S100000x1_S100000x128_1_0_0_1 := rfl
theorem scatterCount_eq : Cert.ReferenceIdeal.scatter_S1024_S100000x1_S100000_n_0_0_1
    = Cert.KernelIdeal.scatter_S1024_S100000x1_S100000_n_0_0_1 := rfl

/-! ## Collection along given edge lists -/

/-- The network's 'collect' with the sources and the targets of the edges given as two vectors. -/
def collectAt (M : FVec Ideal S100000x128 .f32) (src dst : (⟨S1600000, .i32⟩ : BufTy).Contents (Elt Ideal)) :
    FVec Ideal S100000x128 .f32 :=
  Host.scatterAdd Cert.KernelIdeal.scatter_S100000x128_S1600000x1_S1600000x128_1_0_0_1
    (broadcastInDim S100000x128 ![] Cert.ReferenceIdeal.Gen.bcast_S_S100000x128 (constant (F := Ideal) S_ .f32 0x00000000#32))
    (broadcastInDim S1600000x1 ![0] Cert.ReferenceIdeal.Gen.bcast_S1600000_S1600000x1_0 dst)
    (Host.gather Cert.KernelIdeal.gather_S100000x128_S1600000x1_S1600000x128_1_0_n_n_0_1_1128 M
      (broadcastInDim S1600000x1 ![0] Cert.ReferenceIdeal.Gen.bcast_S1600000_S1600000x1_0
        (select (cmpi .slt src (broadcastInDim S1600000 ![] Cert.ReferenceIdeal.Gen.bcast_S_S1600000 (constantI S_ 32 0#32)))
          (addi src (broadcastInDim S1600000 ![] Cert.ReferenceIdeal.Gen.bcast_S_S1600000 (constantI S_ 32 100000#32)))
          src)))

theorem collect_eq_collectAt (M : FVec Ideal S100000x128 .f32) (x1 : (⟨S2x1600000, .i32⟩ : BufTy).Contents (Elt Ideal)) :
    collect M x1 = collectAt M (edgeSrc x1) (edgeDst x1) := rfl

/-- The reference's mean over each graph is the network's, the records apart. -/
theorem pool_eq (H : FVec Ideal S100000x128 .f32) (x2 : (⟨S100000, .i32⟩ : BufTy).Contents (Elt Ideal)) :
    Host.divf
        (Host.scatterAdd Cert.ReferenceIdeal.scatter_S1024x128_S100000x1_S100000x128_1_0_0_1
          (broadcastInDim S1024x128 ![] Cert.ReferenceIdeal.Gen.bcast_S_S1024x128 (constant (F := Ideal) S_ .f32 0x00000000#32))
          (broadcastInDim S100000x1 ![0] Cert.ReferenceIdeal.Gen.bcast_S100000_S100000x1_0 x2) H)
        (broadcastInDim S1024x128 ![0, 1] Cert.ReferenceIdeal.Gen.bcast_S1024x1_S1024x128_0_1
          (broadcastInDim S1024x1 ![0] Cert.ReferenceIdeal.Gen.bcast_S1024_S1024x1_0
            (maximumf
              (Host.scatterAdd Cert.ReferenceIdeal.scatter_S1024_S100000x1_S100000_n_0_0_1
                (broadcastInDim S1024 ![] Cert.ReferenceIdeal.Gen.bcast_S_S1024 (constant (F := Ideal) S_ .f32 0x00000000#32))
                (broadcastInDim S100000x1 ![0] Cert.ReferenceIdeal.Gen.bcast_S100000_S100000x1_0 x2)
                (broadcastInDim S100000 ![] Cert.ReferenceIdeal.Gen.bcast_S_S100000 (constant (F := Ideal) S_ .f32 0x3F800000#32)))
              (broadcastInDim S1024 ![] Cert.ReferenceIdeal.Gen.bcast_S_S1024 (constant (F := Ideal) S_ .f32 0x3F800000#32)))))
      = pool H x2 := by
  rw [scatterPool_eq, scatterCount_eq]
  rfl

/-! ## The stages -/

/-- The embedding. -/
theorem stage0 (V : Valuation τ sig (Elt Ideal)) :
    after (chunk0 (F := Ideal)) V (no_index (Proc.devRef .tc main_v19))
      = embed (V (Proc.devRef .tc main_arg0) : (⟨S100000x100, .f32⟩ : BufTy).Contents (Elt Ideal)) (V (Proc.devRef .tc main_arg3) : (⟨S100x128, .f32⟩ : BufTy).Contents (Elt Ideal)) (row128 (V (Proc.devRef .tc main_arg4) : (⟨S128, .f32⟩ : BufTy).Contents (Elt Ideal))) (row128 (V (Proc.devRef .tc main_arg5) : (⟨S128, .f32⟩ : BufTy).Contents (Elt Ideal)))
          (row128 (V (Proc.devRef .tc main_arg6) : (⟨S128, .f32⟩ : BufTy).Contents (Elt Ideal))) (row128 (V (Proc.devRef .tc main_arg7) : (⟨S128, .f32⟩ : BufTy).Contents (Elt Ideal))) (row128 (V (Proc.devRef .tc main_arg8) : (⟨S128, .f32⟩ : BufTy).Contents (Elt Ideal))) := by
  unfold chunk0
  after_results_simp
  simp only [TRef.toBuf, TRef.ofBuf, cast_eq]
  exact host_embed _ Cert.ReferenceIdeal.Gen.dot_S100000x100_S100x128_S100000x128_1_0_0_1_n_n_wf rfl _ _ _ _ _ _ _ _ _ _ _
    Cert.KernelIdeal.Facts₀.shapeCasts_S128_S1x128

/-- The sources of the edges. -/
theorem stage1_src (V : Valuation τ sig (Elt Ideal)) :
    after (chunk1 (F := Ideal)) V (no_index (Proc.devRef .tc main_v21)) = edgeSrc (V (Proc.devRef .tc main_arg1) : (⟨S2x1600000, .i32⟩ : BufTy).Contents (Elt Ideal)) := by
  unfold chunk1
  after_results_simp
  rfl

/-- The targets of the edges. -/
theorem stage1_dst (V : Valuation τ sig (Elt Ideal)) :
    after (chunk1 (F := Ideal)) V (no_index (Proc.devRef .tc main_v23)) = edgeDst (V (Proc.devRef .tc main_arg1) : (⟨S2x1600000, .i32⟩ : BufTy).Contents (Elt Ideal)) := by
  unfold chunk1
  after_results_simp
  rfl

/-- The first step's messages: the states times the step's weight matrix, collected along the edges. -/
theorem stage2 (V : Valuation τ sig (Elt Ideal)) :
    after (chunk2 (F := Ideal)) V (no_index (Proc.devRef .tc main_v36))
      = collectAt (dense (V (Proc.devRef .tc main_v19) : (⟨S100000x128, .f32⟩ : BufTy).Contents (Elt Ideal)) (ggc0 (V (Proc.devRef .tc main_arg9) : (⟨S3x128x128, .f32⟩ : BufTy).Contents (Elt Ideal)))) (V (Proc.devRef .tc main_v21) : (⟨S1600000, .i32⟩ : BufTy).Contents (Elt Ideal)) (V (Proc.devRef .tc main_v23) : (⟨S1600000, .i32⟩ : BufTy).Contents (Elt Ideal)) := by
  unfold chunk2
  after_results_simp
  rw [scatterRows_eq, gatherRows_eq,
    dotGeneral_eq_dense dot_S100000x128_S128x128_S100000x128_1_0_0_1_n_n Cert.ReferenceIdeal.Gen.dot_S100000x128_S128x128_S100000x128_1_0_0_1_n_n_wf rfl]
  rfl

/-- The first step's gated recurrent update. -/
theorem stage3 (V : Valuation τ sig (Elt Ideal)) :
    after (chunk3 (F := Ideal)) V (no_index (Proc.devRef .tc main_v74))
      = gru (V (Proc.devRef .tc main_v36) : (⟨S100000x128, .f32⟩ : BufTy).Contents (Elt Ideal)) (V (Proc.devRef .tc main_v19) : (⟨S100000x128, .f32⟩ : BufTy).Contents (Elt Ideal)) (wT (V (Proc.devRef .tc main_arg10) : (⟨S384x128, .f32⟩ : BufTy).Contents (Elt Ideal))) (wT (V (Proc.devRef .tc main_arg11) : (⟨S384x128, .f32⟩ : BufTy).Contents (Elt Ideal)))
          (row384 (V (Proc.devRef .tc main_arg12) : (⟨S384, .f32⟩ : BufTy).Contents (Elt Ideal))) (row384 (V (Proc.devRef .tc main_arg13) : (⟨S384, .f32⟩ : BufTy).Contents (Elt Ideal))) := by
  unfold chunk3
  after_results_simp
  exact host_gruFull _ Cert.ReferenceIdeal.Gen.dot_S100000x128_S128x384_S100000x384_1_0_0_1_n_n_wf rfl _ _ _ _ _ _ _ _
    Cert.KernelIdeal.Facts₀.shapeCasts_S384_S1x384 _ _ _ _

/-- The second step's messages: the states times the step's weight matrix, collected along the edges. -/
theorem stage4 (V : Valuation τ sig (Elt Ideal)) :
    after (chunk4 (F := Ideal)) V (no_index (Proc.devRef .tc main_v87))
      = collectAt (dense (V (Proc.devRef .tc main_v74) : (⟨S100000x128, .f32⟩ : BufTy).Contents (Elt Ideal)) (ggc1 (V (Proc.devRef .tc main_arg9) : (⟨S3x128x128, .f32⟩ : BufTy).Contents (Elt Ideal)))) (V (Proc.devRef .tc main_v21) : (⟨S1600000, .i32⟩ : BufTy).Contents (Elt Ideal)) (V (Proc.devRef .tc main_v23) : (⟨S1600000, .i32⟩ : BufTy).Contents (Elt Ideal)) := by
  unfold chunk4
  after_results_simp
  rw [scatterRows_eq, gatherRows_eq,
    dotGeneral_eq_dense dot_S100000x128_S128x128_S100000x128_1_0_0_1_n_n Cert.ReferenceIdeal.Gen.dot_S100000x128_S128x128_S100000x128_1_0_0_1_n_n_wf rfl]
  rfl

/-- The second step's gated recurrent update. -/
theorem stage5 (V : Valuation τ sig (Elt Ideal)) :
    after (chunk5 (F := Ideal)) V (no_index (Proc.devRef .tc main_v125))
      = gru (V (Proc.devRef .tc main_v87) : (⟨S100000x128, .f32⟩ : BufTy).Contents (Elt Ideal)) (V (Proc.devRef .tc main_v74) : (⟨S100000x128, .f32⟩ : BufTy).Contents (Elt Ideal)) (wT (V (Proc.devRef .tc main_arg10) : (⟨S384x128, .f32⟩ : BufTy).Contents (Elt Ideal))) (wT (V (Proc.devRef .tc main_arg11) : (⟨S384x128, .f32⟩ : BufTy).Contents (Elt Ideal)))
          (row384 (V (Proc.devRef .tc main_arg12) : (⟨S384, .f32⟩ : BufTy).Contents (Elt Ideal))) (row384 (V (Proc.devRef .tc main_arg13) : (⟨S384, .f32⟩ : BufTy).Contents (Elt Ideal))) := by
  unfold chunk5
  after_results_simp
  exact host_gruFull _ Cert.ReferenceIdeal.Gen.dot_S100000x128_S128x384_S100000x384_1_0_0_1_n_n_wf rfl _ _ _ _ _ _ _ _
    Cert.KernelIdeal.Facts₀.shapeCasts_S384_S1x384 _ _ _ _

/-- The third step's messages: the states times the step's weight matrix, collected along the edges. -/
theorem stage6 (V : Valuation τ sig (Elt Ideal)) :
    after (chunk6 (F := Ideal)) V (no_index (Proc.devRef .tc main_v138))
      = collectAt (dense (V (Proc.devRef .tc main_v125) : (⟨S100000x128, .f32⟩ : BufTy).Contents (Elt Ideal)) (ggc2 (V (Proc.devRef .tc main_arg9) : (⟨S3x128x128, .f32⟩ : BufTy).Contents (Elt Ideal)))) (V (Proc.devRef .tc main_v21) : (⟨S1600000, .i32⟩ : BufTy).Contents (Elt Ideal)) (V (Proc.devRef .tc main_v23) : (⟨S1600000, .i32⟩ : BufTy).Contents (Elt Ideal)) := by
  unfold chunk6
  after_results_simp
  rw [scatterRows_eq, gatherRows_eq,
    dotGeneral_eq_dense dot_S100000x128_S128x128_S100000x128_1_0_0_1_n_n Cert.ReferenceIdeal.Gen.dot_S100000x128_S128x128_S100000x128_1_0_0_1_n_n_wf rfl]
  rfl

/-- The third step's gated recurrent update. -/
theorem stage7 (V : Valuation τ sig (Elt Ideal)) :
    after (chunk7 (F := Ideal)) V (no_index (Proc.devRef .tc main_v176))
      = gru (V (Proc.devRef .tc main_v138) : (⟨S100000x128, .f32⟩ : BufTy).Contents (Elt Ideal)) (V (Proc.devRef .tc main_v125) : (⟨S100000x128, .f32⟩ : BufTy).Contents (Elt Ideal)) (wT (V (Proc.devRef .tc main_arg10) : (⟨S384x128, .f32⟩ : BufTy).Contents (Elt Ideal))) (wT (V (Proc.devRef .tc main_arg11) : (⟨S384x128, .f32⟩ : BufTy).Contents (Elt Ideal)))
          (row384 (V (Proc.devRef .tc main_arg12) : (⟨S384, .f32⟩ : BufTy).Contents (Elt Ideal))) (row384 (V (Proc.devRef .tc main_arg13) : (⟨S384, .f32⟩ : BufTy).Contents (Elt Ideal))) := by
  unfold chunk7
  after_results_simp
  exact host_gruFull _ Cert.ReferenceIdeal.Gen.dot_S100000x128_S128x384_S100000x384_1_0_0_1_n_n_wf rfl _ _ _ _ _ _ _ _
    Cert.KernelIdeal.Facts₀.shapeCasts_S384_S1x384 _ _ _ _

/-- The final states standardised and cut off. -/
theorem stage8 (V : Valuation τ sig (Elt Ideal)) :
    after (chunk8 (F := Ideal)) V (no_index (Proc.devRef .tc main_v192))
      = normRelu (V (Proc.devRef .tc main_v176) : (⟨S100000x128, .f32⟩ : BufTy).Contents (Elt Ideal)) (row128 (V (Proc.devRef .tc main_arg14) : (⟨S128, .f32⟩ : BufTy).Contents (Elt Ideal))) (row128 (V (Proc.devRef .tc main_arg15) : (⟨S128, .f32⟩ : BufTy).Contents (Elt Ideal)))
          (row128 (V (Proc.devRef .tc main_arg16) : (⟨S128, .f32⟩ : BufTy).Contents (Elt Ideal))) (row128 (V (Proc.devRef .tc main_arg17) : (⟨S128, .f32⟩ : BufTy).Contents (Elt Ideal))) := by
  unfold chunk8
  after_results_simp
  simp only [TRef.toBuf, TRef.ofBuf, cast_eq]
  exact host_normRelu _ _ _ _ _ _ _ _ _ Cert.KernelIdeal.Facts₀.shapeCasts_S128_S1x128

/-- The mean over each graph. -/
theorem stage9 (V : Valuation τ sig (Elt Ideal)) :
    after (chunk9 (F := Ideal)) V (no_index (Proc.devRef .tc main_v204)) = pool (V (Proc.devRef .tc main_v192) : (⟨S100000x128, .f32⟩ : BufTy).Contents (Elt Ideal)) (V (Proc.devRef .tc main_arg2) : (⟨S100000, .i32⟩ : BufTy).Contents (Elt Ideal)) := by
  unfold chunk9
  after_results_simp
  exact pool_eq _ _

/-- The first read-out layer. -/
theorem stage10 (V : Valuation τ sig (Elt Ideal)) :
    after (chunk10 (F := Ideal)) V (no_index (Proc.devRef .tc main_v224))
      = embed (V (Proc.devRef .tc main_v204) : (⟨S1024x128, .f32⟩ : BufTy).Contents (Elt Ideal)) (V (Proc.devRef .tc main_arg18) : (⟨S128x128, .f32⟩ : BufTy).Contents (Elt Ideal)) (row128 (V (Proc.devRef .tc main_arg19) : (⟨S128, .f32⟩ : BufTy).Contents (Elt Ideal))) (row128 (V (Proc.devRef .tc main_arg20) : (⟨S128, .f32⟩ : BufTy).Contents (Elt Ideal)))
          (row128 (V (Proc.devRef .tc main_arg21) : (⟨S128, .f32⟩ : BufTy).Contents (Elt Ideal))) (row128 (V (Proc.devRef .tc main_arg22) : (⟨S128, .f32⟩ : BufTy).Contents (Elt Ideal))) (row128 (V (Proc.devRef .tc main_arg23) : (⟨S128, .f32⟩ : BufTy).Contents (Elt Ideal))) := by
  unfold chunk10
  after_results_simp
  simp only [TRef.toBuf, TRef.ofBuf, cast_eq]
  exact host_embed _ Cert.ReferenceIdeal.Gen.dot_S1024x128_S128x128_S1024x128_1_0_0_1_n_n_wf rfl _ _ _ _ _ _ _ _ _ _ _
    Cert.KernelIdeal.Facts₀.shapeCasts_S128_S1x128

/-- The second read-out layer. -/
theorem stage11 (V : Valuation τ sig (Elt Ideal)) :
    after (chunk11 (F := Ideal)) V (no_index (Proc.devRef .tc main_v244))
      = embed (V (Proc.devRef .tc main_v224) : (⟨S1024x128, .f32⟩ : BufTy).Contents (Elt Ideal)) (V (Proc.devRef .tc main_arg24) : (⟨S128x64, .f32⟩ : BufTy).Contents (Elt Ideal)) (row64 (V (Proc.devRef .tc main_arg25) : (⟨S64, .f32⟩ : BufTy).Contents (Elt Ideal))) (row64 (V (Proc.devRef .tc main_arg26) : (⟨S64, .f32⟩ : BufTy).Contents (Elt Ideal)))
          (row64 (V (Proc.devRef .tc main_arg27) : (⟨S64, .f32⟩ : BufTy).Contents (Elt Ideal))) (row64 (V (Proc.devRef .tc main_arg28) : (⟨S64, .f32⟩ : BufTy).Contents (Elt Ideal))) (row64 (V (Proc.devRef .tc main_arg29) : (⟨S64, .f32⟩ : BufTy).Contents (Elt Ideal))) := by
  unfold chunk11
  after_results_simp
  simp only [TRef.toBuf, TRef.ofBuf, cast_eq]
  exact host_embed _ Cert.ReferenceIdeal.Gen.dot_S1024x128_S128x64_S1024x64_1_0_0_1_n_n_wf rfl _ _ _ _ _ _ _ _ _ _ _
    Cert.KernelIdeal.Facts₀.shapeCasts_S64_S1x64

/-- The last read-out layer. -/
theorem stage12 (V : Valuation τ sig (Elt Ideal)) :
    after (chunk12 (F := Ideal)) V (no_index (Proc.devRef .tc main_v248))
      = affine (V (Proc.devRef .tc main_v244) : (⟨S1024x64, .f32⟩ : BufTy).Contents (Elt Ideal)) (V (Proc.devRef .tc main_arg30) : (⟨S64x2, .f32⟩ : BufTy).Contents (Elt Ideal)) (row2 (V (Proc.devRef .tc main_arg31) : (⟨S2, .f32⟩ : BufTy).Contents (Elt Ideal))) := by
  unfold chunk12
  after_results_simp
  exact host_affine _ Cert.ReferenceIdeal.Gen.dot_S1024x64_S64x2_S1024x2_1_0_0_1_n_n_wf rfl _ _ _ _ _ Cert.KernelIdeal.Facts₀.shapeCasts_S2_S1x2

end Cert.RefNet

end
-- ==== Proof.RefRun.lean ====
/-
  THE REFERENCE PROGRAM COMPUTES THE NETWORK.

  Running the thirteen chunks one after the other from any contents V of the buffers, and reading each stage's last
  buffer by its stage lemma and every other buffer through the chunks that do not write it, the result buffer ends at
  the network function of the contents of the thirty-two argument buffers, and the argument buffers are unchanged
  (no operation writes one). With the library's run of a program that is a list of host operations this gives the
  reference's run: every execution terminates, the result at the network of the launch contents of the arguments.
-/
import proofs.«137501_j83021717832548_2_alg».proof.Proof.RefStages

noncomputable section

namespace Cert.RefNet

open Idealize.ShloMosaic Idealize.ShloMosaic.ValueIdx Idealize.ShloMosaic.StableHlo Idealize.ShloMosaic.TcCoe Idealize.SL.Sem
open Cert.LayerForms Cert.DenseStages Cert.MatOps Cert.HostStages Cert.Net
open Cert.ReferenceIdeal

set_option maxRecDepth 8192 in
/-- The result buffer after the whole program, from any contents of the buffers. -/
theorem result_eq (V : Valuation τ sig (Elt Ideal)) :
    after (Cert.ReferenceIdeal.ValueP.ops (F := Ideal)) V (Proc.devRef .tc main_v248)
      = net (V (Proc.devRef .tc main_arg0) : (⟨S100000x100, .f32⟩ : BufTy).Contents (Elt Ideal))
          (V (Proc.devRef .tc main_arg1) : (⟨S2x1600000, .i32⟩ : BufTy).Contents (Elt Ideal))
          (V (Proc.devRef .tc main_arg2) : (⟨S100000, .i32⟩ : BufTy).Contents (Elt Ideal))
          (V (Proc.devRef .tc main_arg3) : (⟨S100x128, .f32⟩ : BufTy).Contents (Elt Ideal))
          (V (Proc.devRef .tc main_arg4) : (⟨S128, .f32⟩ : BufTy).Contents (Elt Ideal))
          (V (Proc.devRef .tc main_arg5) : (⟨S128, .f32⟩ : BufTy).Contents (Elt Ideal))
          (V (Proc.devRef .tc main_arg6) : (⟨S128, .f32⟩ : BufTy).Contents (Elt Ideal))
          (V (Proc.devRef .tc main_arg7) : (⟨S128, .f32⟩ : BufTy).Contents (Elt Ideal))
          (V (Proc.devRef .tc main_arg8) : (⟨S128, .f32⟩ : BufTy).Contents (Elt Ideal))
          (V (Proc.devRef .tc main_arg9) : (⟨S3x128x128, .f32⟩ : BufTy).Contents (Elt Ideal))
          (V (Proc.devRef .tc main_arg10) : (⟨S384x128, .f32⟩ : BufTy).Contents (Elt Ideal))
          (V (Proc.devRef .tc main_arg11) : (⟨S384x128, .f32⟩ : BufTy).Contents (Elt Ideal))
          (V (Proc.devRef .tc main_arg12) : (⟨S384, .f32⟩ : BufTy).Contents (Elt Ideal))
          (V (Proc.devRef .tc main_arg13) : (⟨S384, .f32⟩ : BufTy).Contents (Elt Ideal))
          (V (Proc.devRef .tc main_arg14) : (⟨S128, .f32⟩ : BufTy).Contents (Elt Ideal))
          (V (Proc.devRef .tc main_arg15) : (⟨S128, .f32⟩ : BufTy).Contents (Elt Ideal))
          (V (Proc.devRef .tc main_arg16) : (⟨S128, .f32⟩ : BufTy).Contents (Elt Ideal))
          (V (Proc.devRef .tc main_arg17) : (⟨S128, .f32⟩ : BufTy).Contents (Elt Ideal))
          (V (Proc.devRef .tc main_arg18) : (⟨S128x128, .f32⟩ : BufTy).Contents (Elt Ideal))
          (V (Proc.devRef .tc main_arg19) : (⟨S128, .f32⟩ : BufTy).Contents (Elt Ideal))
          (V (Proc.devRef .tc main_arg20) : (⟨S128, .f32⟩ : BufTy).Contents (Elt Ideal))
          (V (Proc.devRef .tc main_arg21) : (⟨S128, .f32⟩ : BufTy).Contents (Elt Ideal))
          (V (Proc.devRef .tc main_arg22) : (⟨S128, .f32⟩ : BufTy).Contents (Elt Ideal))
          (V (Proc.devRef .tc main_arg23) : (⟨S128, .f32⟩ : BufTy).Contents (Elt Ideal))
          (V (Proc.devRef .tc main_arg24) : (⟨S128x64, .f32⟩ : BufTy).Contents (Elt Ideal))
          (V (Proc.devRef .tc main_arg25) : (⟨S64, .f32⟩ : BufTy).Contents (Elt Ideal))
          (V (Proc.devRef .tc main_arg26) : (⟨S64, .f32⟩ : BufTy).Contents (Elt Ideal))
          (V (Proc.devRef .tc main_arg27) : (⟨S64, .f32⟩ : BufTy).Contents (Elt Ideal))
          (V (Proc.devRef .tc main_arg28) : (⟨S64, .f32⟩ : BufTy).Contents (Elt Ideal))
          (V (Proc.devRef .tc main_arg29) : (⟨S64, .f32⟩ : BufTy).Contents (Elt Ideal))
          (V (Proc.devRef .tc main_arg30) : (⟨S64x2, .f32⟩ : BufTy).Contents (Elt Ideal))
          (V (Proc.devRef .tc main_arg31) : (⟨S2, .f32⟩ : BufTy).Contents (Elt Ideal)) := by
  rw [ops_eq]
  simp only [after_append]
  simp (disch := decide) only [stage12, stage11, stage10, stage9, stage8, stage7, stage6, stage5, stage4, stage3, stage2,
    stage1_src, stage1_dst, stage0, keep0, keep1, keep2, keep3, keep4, keep5, keep6, keep7, keep8, keep9, keep10, keep11, keep12]
  rfl

/-- A buffer no chunk writes is unchanged by the whole program. -/
theorem ops_keep (V : Valuation τ sig (Elt Ideal)) (r : Ref sig .tc)
    (h0 : r ∉ written0) (h1 : r ∉ written1) (h2 : r ∉ written2) (h3 : r ∉ written3) (h4 : r ∉ written4) (h5 : r ∉ written5) (h6 : r ∉ written6) (h7 : r ∉ written7) (h8 : r ∉ written8) (h9 : r ∉ written9) (h10 : r ∉ written10) (h11 : r ∉ written11) (h12 : r ∉ written12) :
    after (Cert.ReferenceIdeal.ValueP.ops (F := Ideal)) V (Proc.devRef .tc r) = V (Proc.devRef .tc r) := by
  rw [ops_eq]
  simp only [after_append]
  exact ((keep12 _ r h12).trans ((keep11 _ r h11).trans ((keep10 _ r h10).trans ((keep9 _ r h9).trans ((keep8 _ r h8).trans ((keep7 _ r h7).trans ((keep6 _ r h6).trans ((keep5 _ r h5).trans ((keep4 _ r h4).trans ((keep3 _ r h3).trans ((keep2 _ r h2).trans ((keep1 _ r h1).trans (keep0 V r h0)))))))))))))

/-- On every device, from any memory with zero counters: every weakly fair execution of the reference's @main terminates
    with the result buffer at the network of the arguments' launch contents, and the arguments unchanged. -/
theorem run_net (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v248)
          = net (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
              (m ((c.tc : Thread nD τ).loc main_arg14))
              (m ((c.tc : Thread nD τ).loc main_arg15))
              (m ((c.tc : Thread nD τ).loc main_arg16))
              (m ((c.tc : Thread nD τ).loc main_arg17))
              (m ((c.tc : Thread nD τ).loc main_arg18))
              (m ((c.tc : Thread nD τ).loc main_arg19))
              (m ((c.tc : Thread nD τ).loc main_arg20))
              (m ((c.tc : Thread nD τ).loc main_arg21))
              (m ((c.tc : Thread nD τ).loc main_arg22))
              (m ((c.tc : Thread nD τ).loc main_arg23))
              (m ((c.tc : Thread nD τ).loc main_arg24))
              (m ((c.tc : Thread nD τ).loc main_arg25))
              (m ((c.tc : Thread nD τ).loc main_arg26))
              (m ((c.tc : Thread nD τ).loc main_arg27))
              (m ((c.tc : Thread nD τ).loc main_arg28))
              (m ((c.tc : Thread nD τ).loc main_arg29))
              (m ((c.tc : Thread nD τ).loc main_arg30))
              (m ((c.tc : Thread nD τ).loc main_arg31))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) :=
  (θ_run defs _ _).mono (fun _ h c => ⟨(h c main_v248).trans (result_eq (launchContents m c)),
      (h c main_arg0).trans (ops_keep (launchContents m c) main_arg0 (by decide) (by decide) (by decide) (by decide) (by decide) (by decide) (by decide) (by decide) (by decide) (by decide) (by decide) (by decide) (by decide)),
      (h c main_arg1).trans (ops_keep (launchContents m c) main_arg1 (by decide) (by decide) (by decide) (by decide) (by decide) (by decide) (by decide) (by decide) (by decide) (by decide) (by decide) (by decide) (by decide)),
      (h c main_arg2).trans (ops_keep (launchContents m c) main_arg2 (by decide) (by decide) (by decide) (by decide) (by decide) (by decide) (by decide) (by decide) (by decide) (by decide) (by decide) (by decide) (by decide)),
      (h c main_arg3).trans (ops_keep (launchContents m c) main_arg3 (by decide) (by decide) (by decide) (by decide) (by decide) (by decide) (by decide) (by decide) (by decide) (by decide) (by decide) (by decide) (by decide)),
      (h c main_arg4).trans (ops_keep (launchContents m c) main_arg4 (by decide) (by decide) (by decide) (by decide) (by decide) (by decide) (by decide) (by decide) (by decide) (by decide) (by decide) (by decide) (by decide)),
      (h c main_arg5).trans (ops_keep (launchContents m c) main_arg5 (by decide) (by decide) (by decide) (by decide) (by decide) (by decide) (by decide) (by decide) (by decide) (by decide) (by decide) (by decide) (by decide)),
      (h c main_arg6).trans (ops_keep (launchContents m c) main_arg6 (by decide) (by decide) (by decide) (by decide) (by decide) (by decide) (by decide) (by decide) (by decide) (by decide) (by decide) (by decide) (by decide)),
      (h c main_arg7).trans (ops_keep (launchContents m c) main_arg7 (by decide) (by decide) (by decide) (by decide) (by decide) (by decide) (by decide) (by decide) (by decide) (by decide) (by decide) (by decide) (by decide)),
      (h c main_arg8).trans (ops_keep (launchContents m c) main_arg8 (by decide) (by decide) (by decide) (by decide) (by decide) (by decide) (by decide) (by decide) (by decide) (by decide) (by decide) (by decide) (by decide)),
      (h c main_arg9).trans (ops_keep (launchContents m c) main_arg9 (by decide) (by decide) (by decide) (by decide) (by decide) (by decide) (by decide) (by decide) (by decide) (by decide) (by decide) (by decide) (by decide)),
      (h c main_arg10).trans (ops_keep (launchContents m c) main_arg10 (by decide) (by decide) (by decide) (by decide) (by decide) (by decide) (by decide) (by decide) (by decide) (by decide) (by decide) (by decide) (by decide)),
      (h c main_arg11).trans (ops_keep (launchContents m c) main_arg11 (by decide) (by decide) (by decide) (by decide) (by decide) (by decide) (by decide) (by decide) (by decide) (by decide) (by decide) (by decide) (by decide)),
      (h c main_arg12).trans (ops_keep (launchContents m c) main_arg12 (by decide) (by decide) (by decide) (by decide) (by decide) (by decide) (by decide) (by decide) (by decide) (by decide) (by decide) (by decide) (by decide)),
      (h c main_arg13).trans (ops_keep (launchContents m c) main_arg13 (by decide) (by decide) (by decide) (by decide) (by decide) (by decide) (by decide) (by decide) (by decide) (by decide) (by decide) (by decide) (by decide)),
      (h c main_arg14).trans (ops_keep (launchContents m c) main_arg14 (by decide) (by decide) (by decide) (by decide) (by decide) (by decide) (by decide) (by decide) (by decide) (by decide) (by decide) (by decide) (by decide)),
      (h c main_arg15).trans (ops_keep (launchContents m c) main_arg15 (by decide) (by decide) (by decide) (by decide) (by decide) (by decide) (by decide) (by decide) (by decide) (by decide) (by decide) (by decide) (by decide)),
      (h c main_arg16).trans (ops_keep (launchContents m c) main_arg16 (by decide) (by decide) (by decide) (by decide) (by decide) (by decide) (by decide) (by decide) (by decide) (by decide) (by decide) (by decide) (by decide)),
      (h c main_arg17).trans (ops_keep (launchContents m c) main_arg17 (by decide) (by decide) (by decide) (by decide) (by decide) (by decide) (by decide) (by decide) (by decide) (by decide) (by decide) (by decide) (by decide)),
      (h c main_arg18).trans (ops_keep (launchContents m c) main_arg18 (by decide) (by decide) (by decide) (by decide) (by decide) (by decide) (by decide) (by decide) (by decide) (by decide) (by decide) (by decide) (by decide)),
      (h c main_arg19).trans (ops_keep (launchContents m c) main_arg19 (by decide) (by decide) (by decide) (by decide) (by decide) (by decide) (by decide) (by decide) (by decide) (by decide) (by decide) (by decide) (by decide)),
      (h c main_arg20).trans (ops_keep (launchContents m c) main_arg20 (by decide) (by decide) (by decide) (by decide) (by decide) (by decide) (by decide) (by decide) (by decide) (by decide) (by decide) (by decide) (by decide)),
      (h c main_arg21).trans (ops_keep (launchContents m c) main_arg21 (by decide) (by decide) (by decide) (by decide) (by decide) (by decide) (by decide) (by decide) (by decide) (by decide) (by decide) (by decide) (by decide)),
      (h c main_arg22).trans (ops_keep (launchContents m c) main_arg22 (by decide) (by decide) (by decide) (by decide) (by decide) (by decide) (by decide) (by decide) (by decide) (by decide) (by decide) (by decide) (by decide)),
      (h c main_arg23).trans (ops_keep (launchContents m c) main_arg23 (by decide) (by decide) (by decide) (by decide) (by decide) (by decide) (by decide) (by decide) (by decide) (by decide) (by decide) (by decide) (by decide)),
      (h c main_arg24).trans (ops_keep (launchContents m c) main_arg24 (by decide) (by decide) (by decide) (by decide) (by decide) (by decide) (by decide) (by decide) (by decide) (by decide) (by decide) (by decide) (by decide)),
      (h c main_arg25).trans (ops_keep (launchContents m c) main_arg25 (by decide) (by decide) (by decide) (by decide) (by decide) (by decide) (by decide) (by decide) (by decide) (by decide) (by decide) (by decide) (by decide)),
      (h c main_arg26).trans (ops_keep (launchContents m c) main_arg26 (by decide) (by decide) (by decide) (by decide) (by decide) (by decide) (by decide) (by decide) (by decide) (by decide) (by decide) (by decide) (by decide)),
      (h c main_arg27).trans (ops_keep (launchContents m c) main_arg27 (by decide) (by decide) (by decide) (by decide) (by decide) (by decide) (by decide) (by decide) (by decide) (by decide) (by decide) (by decide) (by decide)),
      (h c main_arg28).trans (ops_keep (launchContents m c) main_arg28 (by decide) (by decide) (by decide) (by decide) (by decide) (by decide) (by decide) (by decide) (by decide) (by decide) (by decide) (by decide) (by decide)),
      (h c main_arg29).trans (ops_keep (launchContents m c) main_arg29 (by decide) (by decide) (by decide) (by decide) (by decide) (by decide) (by decide) (by decide) (by decide) (by decide) (by decide) (by decide) (by decide)),
      (h c main_arg30).trans (ops_keep (launchContents m c) main_arg30 (by decide) (by decide) (by decide) (by decide) (by decide) (by decide) (by decide) (by decide) (by decide) (by decide) (by decide) (by decide) (by decide)),
      (h c main_arg31).trans (ops_keep (launchContents m c) main_arg31 (by decide) (by decide) (by decide) (by decide) (by decide) (by decide) (by decide) (by decide) (by decide) (by decide) (by decide) (by decide) (by decide))⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.RefNet

end
-- ==== Proof.lean ====
/-
  THE CERTIFICATE. The device program — nine regions among host stretches — and the host reference compute the same
  graph network on the extended reals: an embedding (affine step, column-wise standardisation, cut-off at zero),
  three propagation steps (a product with a square weight matrix, a sum over the edges ending in each node, a gated
  recurrent update), a standardisation and cut-off, the mean over each graph, and a read-out of three affine steps.
  Both runs end with the result array at ONE function of the thirty-two argument arrays (the network function):
  the device regions work through the node rows in blocks, and each stage's formula for a row mentions only that
  row, so the blocks together are the stage of the whole array; the matrix unit accumulating into zeros and the
  host's dot product are the same sum; the logistic function is by definition the quotient the host spells; the
  gathers, scatters and the division by the node counts are the same host operations in both programs. No law of
  arithmetic that needs finiteness is used, so the precondition is never opened. The ideal pass rewrote nothing, so
  the statement that it preserves the program is trivial.
-/
import proofs.«137501_j83021717832548_2_alg».proof.Defs
import proofs.«137501_j83021717832548_2_alg».proof.Proof.Gen.Kernel
import proofs.«137501_j83021717832548_2_alg».proof.Proof.Gen.Kernel.Frame
import proofs.«137501_j83021717832548_2_alg».proof.Proof.Gen.KernelIdeal
import proofs.«137501_j83021717832548_2_alg».proof.Proof.Gen.KernelIdeal.Frame
import proofs.«137501_j83021717832548_2_alg».proof.Proof.Gen.ReferenceIdeal
import proofs.«137501_j83021717832548_2_alg».proof.Proof.Gen.Pre_finite_inputs
import proofs.«137501_j83021717832548_2_alg».proof.Proof.KRun
import proofs.«137501_j83021717832548_2_alg».proof.Proof.KFlow
import proofs.«137501_j83021717832548_2_alg».proof.Proof.RefRun
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.RefNet.run_net m ρ)

theorem preserves : Cert.preserves_Kernel_KernelIdeal := trivial

set_option maxHeartbeats 4000000 in
/-- Both runs end at the network function of arguments that agree. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)), ?_, ?_⟩
  · exact (θ_run Cert.KernelIdeal.defs _ _).mono
      (fun r h c => ⟨(h c).1.trans (Cert.KernelIdeal.Flow.W18_main_v84 m ρ c), (h c).2⟩)
      (Cert.KernelIdeal.Flow.run_value (F := Ideal) m ρ)
  · refine (θ_run Cert.ReferenceIdeal.defs _ _).mono (fun r h c => ⟨(h c).1.trans ?_, (h c).2⟩) (Cert.RefNet.run_net m' ρ')
    obtain ⟨e0, e1, e2, e3, e4, e5, e6, e7, e8, e9, e10, e11, e12, e13, e14, e15, e16, e17, e18, e19, e20, e21, e22, e23, e24, e25, e26, e27, e28, e29, e30, e31⟩ := hagree c
    simp only [e0, e1, e2, e3, e4, e5, e6, e7, e8, e9, e10, e11, e12, e13, e14, e15, e16, e17, e18, e19, e20, e21, e22, e23, e24, e25, e26, e27, e28, e29, e30, e31]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
